-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v97_1)) (v1 : (c : Dev Cert.KernelIdeal.nD) → Buf (Elt Ideal) ((c.tc : Thread Cert.KernelIdeal.nD Cert.KernelIdeal.τ).loc Cert.KernelIdeal.main_v97_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97_1) = v0 c
          ∧ r.2.mem ((c.tc : Thread Cert.KernelIdeal.nD Cert.KernelIdeal.τ).loc Cert.KernelIdeal.main_v97_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x400000 : Shape := ⟨2, ![2, 400000]⟩
abbrev S100000x2 : Shape := ⟨2, ![100000, 2]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S1 : Shape := ⟨1, ![1]⟩
abbrev S256x3 : Shape := ⟨2, ![256, 3]⟩
abbrev S3 : Shape := ⟨1, ![3]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_v98 : IVec S_ 1) (main_v101 : IVec S3 1) (main_c_39 : IVec S_ 1) : IVec S_ 1 :=
  let main_v102 : IVec S_ 1 := (fun x v => Host.reduce IntOp.andi x v reducesTo_S3_S_d0 h_S_) main_v101 main_c_39
  let main_v103 : IVec S_ 1 := andi main_v98 main_v102
  main_v103

def fn_part5 {F : FTy → Type} [FloatOps F] (main_arg20 : FVec F S256 .f32) (main_arg21 : FVec F S256x3 .f32) (main_arg22 : FVec F S3 .f32) (main_v83 : IVec S_ 1) (main_v84 : FVec F S512x256 .f32) (main_cst_32 : FVec F S_ .f32) : IVec S_ 1 :=
  let main_v85 : FVec F S512x256 .f32 := broadcastInDim S512x256 ![] bcast_S_S512x256 main_cst_32
  let main_v86 : IVec S512x256 1 := cmpf .olt main_v84 main_v85
  let main_c_33 : IVec S_ 1 := constantI S_ 1 1#1
  let main_v87 : IVec S_ 1 := (fun x v => Host.reduce IntOp.andi x v reducesTo_S512x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x3 .f32 := Host.absf main_arg21
  let main_cst_36 : FVec F S_ .f32 := constant S_ .f32 0x7F800000#32
  let main_v95 : FVec F S256x3 .f32 := broadcastInDim S256x3 ![] bcast_S_S256x3 main_cst_36
  let main_v96 : IVec S256x3 1 := cmpf .olt main_v94 main_v95
  let main_c_37 : IVec S_ 1 := constantI S_ 1 1#1
  let main_v97 : IVec S_ 1 := (fun x v => Host.reduce IntOp.andi x v reducesTo_S256x3_S_d0_1 h_S_) main_v96 main_c_37
  let main_v98 : IVec S_ 1 := andi main_v93 main_v97
  let main_v99 : FVec F S3 .f32 := Host.absf main_arg22
  let main_cst_38 : FVec F S_ .f32 := constant S_ .f32 0x7F800000#32
  let main_v100 : FVec F S3 .f32 := broadcastInDim S3 ![] bcast_S_S3 main_cst_38
  let main_v101 : IVec S3 1 := cmpf .olt main_v99 main_v100
  let main_c_39 : IVec S_ 1 := constantI S_ 1 1#1
  fn_part6 (F := F) main_v98 main_v101 main_c_39

def fn_part4 {F : FTy → Type} [FloatOps F] (main_arg16 : FVec F S256 .f32) (main_arg17 : FVec F S256x1 .f32) (main_arg18 : FVec F S1 .f32) (main_arg19 : FVec F S512x256 .f32) (main_arg20 : FVec F S256 .f32) (main_arg21 : FVec F S256x3 .f32) (main_arg22 : FVec F S3 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x1 .f32 := Host.absf main_arg17
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S512x256 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S256 .f32) (main_arg14 : FVec F S256x256 .f32) (main_arg15 : FVec F S512x256 .f32) (main_arg16 : FVec F S256 .f32) (main_arg17 : FVec F S256x1 .f32) (main_arg18 : FVec F S1 .f32) (main_arg19 : FVec F S512x256 .f32) (main_arg20 : FVec F S256 .f32) (main_arg21 : FVec F S256x3 .f32) (main_arg22 : FVec F S3 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S512x256 .f32 := Host.absf main_arg15
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S512x256 .f32) (main_arg16 : FVec F S256 .f32) (main_arg17 : FVec F S256x1 .f32) (main_arg18 : FVec F S1 .f32) (main_arg19 : FVec F S512x256 .f32) (main_arg20 : FVec F S256 .f32) (main_arg21 : FVec F S256x3 .f32) (main_arg22 : FVec F S3 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S512x256 .f32) (main_arg16 : FVec F S256 .f32) (main_arg17 : FVec F S256x1 .f32) (main_arg18 : FVec F S1 .f32) (main_arg19 : FVec F S512x256 .f32) (main_arg20 : FVec F S256 .f32) (main_arg21 : FVec F S256x3 .f32) (main_arg22 : FVec F S3 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S200000x128 .f32) (main_arg1 : IVec S2x400000 32) (main_arg2 : IVec S100000x2 32) (main_arg3 : FVec F S128x256 .f32) (main_arg4 : FVec F S256 .f32) (main_arg5 : FVec F S128x256 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S512x256 .f32) (main_arg16 : FVec F S256 .f32) (main_arg17 : FVec F S256x1 .f32) (main_arg18 : FVec F S1 .f32) (main_arg19 : FVec F S512x256 .f32) (main_arg20 : FVec F S256 .f32) (main_arg21 : FVec F S256x3 .f32) (main_arg22 : FVec F S3 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S200000x128 : Shape := ⟨2, ![200000, 128]⟩
abbrev S2x400000 : Shape := ⟨2, ![2, 400000]⟩
abbrev S100000x2 : Shape := ⟨2, ![100000, 2]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S1 : Shape := ⟨1, ![1]⟩
abbrev S256x3 : Shape := ⟨2, ![256, 3]⟩
abbrev S3 : Shape := ⟨1, ![3]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x256 : Shape := ⟨2, ![1, 256]⟩
abbrev S200000x256 : Shape := ⟨2, ![200000, 256]⟩
abbrev S2000x128 : Shape := ⟨2, ![2000, 128]⟩
abbrev S2000x256 : Shape := ⟨2, ![2000, 256]⟩
abbrev S400000x256 : Shape := ⟨2, ![400000, 256]⟩
abbrev S100000x1 : Shape := ⟨2, ![100000, 1]⟩
abbrev S100000 : Shape := ⟨1, ![100000]⟩
abbrev S100000x256 : Shape := ⟨2, ![100000, 256]⟩
abbrev S1x1 : Shape := ⟨2, ![1, 1]⟩
abbrev S1x3 : Shape := ⟨2, ![1, 3]⟩
abbrev S100000x3 : Shape := ⟨2, ![100000, 3]⟩
abbrev S2000x1 : Shape := ⟨2, ![2000, 1]⟩
abbrev S2000x3 : Shape := ⟨2, ![2000, 3]⟩

abbrev nBuf : Space → Nat
  | .hbm => 144
  | .vmem => 64
  | .smem => 0
  | _ => 0

abbrev hbmTy0_0 (i : Nat) : BufTy := match i % 128 with
  | 0 => ⟨S200000x128, .f32⟩
  | 1 => ⟨S2x400000, .i32⟩
  | 2 => ⟨S100000x2, .i32⟩
  | 3 => ⟨S128x256, .f32⟩
  | 4 => ⟨S256, .f32⟩
  | 5 => ⟨S128x256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S512x256, .f32⟩
  | 16 => ⟨S256, .f32⟩
  | 17 => ⟨S256x1, .f32⟩
  | 18 => ⟨S1, .f32⟩
  | 19 => ⟨S512x256, .f32⟩
  | 20 => ⟨S256, .f32⟩
  | 21 => ⟨S256x3, .f32⟩
  | 22 => ⟨S3, .f32⟩
  | 23 => ⟨S1x400000, .i32⟩
  | 24 => ⟨S400000, .i32⟩
  | 25 => ⟨S1x400000, .i32⟩
  | 26 => ⟨S400000, .i32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x128, .f32⟩
  | 36 => ⟨S_, .f32⟩
  | 37 => ⟨S200000x128, .f32⟩
  | 38 => ⟨S400000x1, .i32⟩
  | 39 => ⟨S200000x128, .f32⟩
  | 40 => ⟨S128x256, .bf16⟩
  | 41 => ⟨S128x256, .bf16⟩
  | 42 => ⟨S1x256, .f32⟩
  | 43 => ⟨S200000x256, .f32⟩
  | 44 => ⟨S200000x256, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x256, .f32⟩
  | 54 => ⟨S_, .f32⟩
  | 55 => ⟨S200000x256, .f32⟩
  | 56 => ⟨S400000x1, .i32⟩
  | 57 => ⟨S200000x256, .f32⟩
  | 58 => ⟨S256x256, .bf16⟩
  | 59 => ⟨S256x256, .bf16⟩
  | 60 => ⟨S1x256, .f32⟩
  | 61 => ⟨S200000x256, .f32⟩
  | 62 => ⟨S200000x256, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x256, .f32⟩
  | 72 => ⟨S_, .f32⟩
  | 73 => ⟨S200000x256, .f32⟩
  | 74 => ⟨S400000x1, .i32⟩
  | 75 => ⟨S200000x256, .f32⟩
  | 76 => ⟨S256x256, .bf16⟩
  | 77 => ⟨S256x256, .bf16⟩
  | 78 => ⟨S1x256, .f32⟩
  | 79 => ⟨S200000x256, .f32⟩
  | 80 => ⟨S200000x256, .f32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x256, .f32⟩
  | 90 => ⟨S_, .f32⟩
  | 91 => ⟨S200000x256, .f32⟩
  | 92 => ⟨S400000x1, .i32⟩
  | 93 => ⟨S200000x256, .f32⟩
  | 94 => ⟨S256x256, .bf16⟩
  | 95 => ⟨S256x256, .bf16⟩
  | 96 => ⟨S1x256, .f32⟩
  | 97 => ⟨S200000x256, .f32⟩
  | 98 => ⟨S200000x256, .f32⟩
  | 99 => ⟨S100000x1, .i32⟩
  | 100 => ⟨S100000, .i32⟩
  | 101 => ⟨S100000x1, .i32⟩
  | 102 => ⟨S100000, .i32⟩
  | 103 => ⟨S_, .i32⟩
  | 104 => ⟨S100000, .i32⟩
  | 105 => ⟨S100000, .i1⟩
  | 106 => ⟨S_, .i32⟩
  | 107 => ⟨S100000, .i32⟩
  | 108 => ⟨S100000, .i32⟩
  | 109 => ⟨S100000, .i32⟩
  | 110 => ⟨S100000x1, .i32⟩
  | 111 => ⟨S100000x256, .f32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000x256, .f32⟩
  | 121 => ⟨S100000x256, .f32⟩
  | 122 => ⟨S256x256, .f32⟩
  | 123 => ⟨S256x256, .f32⟩
  | 124 => ⟨S256x256, .f32⟩
  | 125 => ⟨S256x256, .bf16⟩
  | 126 => ⟨S_, .f32⟩
  | 127 => ⟨S256, .f32⟩
  | _ => ⟨S200000x128, .f32⟩

abbrev hbmTy0_1 (i : Nat) : BufTy := match i % 128 with
  | 0 => ⟨S256, .f32⟩
  | 1 => ⟨S1x256, .f32⟩
  | 2 => ⟨S256x256, .f32⟩
  | 3 => ⟨S256x256, .f32⟩
  | 4 => ⟨S256x256, .f32⟩
  | 5 => ⟨S256x256, .bf16⟩
  | 6 => ⟨S_, .f32⟩
  | 7 => ⟨S256, .f32⟩
  | 8 => ⟨S256, .f32⟩
  | 9 => ⟨S1x256, .f32⟩
  | 10 => ⟨S256x1, .bf16⟩
  | 11 => ⟨S256x3, .bf16⟩
  | 12 => ⟨S1x1, .f32⟩
  | 13 => ⟨S1x3, .f32⟩
  | 14 => ⟨S100000x1, .f32⟩
  | 15 => ⟨S100000x3, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S128x256, .bf16⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .bf16⟩
  | .local _ .vmem, ⟨18, _⟩ => ⟨S1x256, .f32⟩
  | .local _ .vmem, ⟨19, _⟩ => ⟨S256x256, .bf16⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .bf16⟩
  | .local _ .vmem, ⟨31, _⟩ => ⟨S1x256, .f32⟩
  | .local _ .vmem, ⟨32, _⟩ => ⟨S256x256, .bf16⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S256x256, .bf16⟩
  | .local _ .vmem, ⟨44, _⟩ => ⟨S1x256, .f32⟩
  | .local _ .vmem, ⟨45, _⟩ => ⟨S256x256, .bf16⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S256x256, .bf16⟩
  | .local _ .vmem, ⟨53, _⟩ => ⟨S1x256, .f32⟩
  | .local _ .vmem, ⟨54, _⟩ => ⟨S256x256, .bf16⟩
  | .local _ .vmem, ⟨55, _⟩ => ⟨S1x256, .f32⟩
  | .local _ .vmem, ⟨56, _⟩ => ⟨S256x1, .bf16⟩
  | .local _ .vmem, ⟨57, _⟩ => ⟨S1x1, .f32⟩
  | .local _ .vmem, ⟨58, _⟩ => ⟨S256x3, .bf16⟩
  | .local _ .vmem, ⟨59, _⟩ => ⟨S1x3, .f32⟩
  | .local _ .vmem, ⟨60, _⟩ => ⟨S2000x1, .f32⟩
  | .local _ .vmem, ⟨61, _⟩ => ⟨S2000x1, .f32⟩
  | .local _ .vmem, ⟨62, _⟩ => ⟨S2000x3, .f32⟩
  | .local _ .vmem, ⟨63, _⟩ => ⟨S2000x3, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17_0 : Ref sig .tc := ⟨.hbm, 43, rfl⟩
abbrev main_v17_1 : Ref sig .tc := ⟨.hbm, 44, rfl⟩
abbrev main_c_1 : Ref sig .tc := ⟨.hbm, 45, rfl⟩
abbrev main_v18 : Ref sig .tc := ⟨.hbm, 46, rfl⟩
abbrev main_v19 : Ref sig .tc := ⟨.hbm, 47, rfl⟩
abbrev main_c_2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31_0 : Ref sig .tc := ⟨.hbm, 61, rfl⟩
abbrev main_v31_1 : Ref sig .tc := ⟨.hbm, 62, rfl⟩
abbrev main_c_4 : Ref sig .tc := ⟨.hbm, 63, rfl⟩
abbrev main_v32 : Ref sig .tc := ⟨.hbm, 64, rfl⟩
abbrev main_v33 : Ref sig .tc := ⟨.hbm, 65, rfl⟩
abbrev main_c_5 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45_0 : Ref sig .tc := ⟨.hbm, 79, rfl⟩
abbrev main_v45_1 : Ref sig .tc := ⟨.hbm, 80, rfl⟩
abbrev main_c_7 : Ref sig .tc := ⟨.hbm, 81, rfl⟩
abbrev main_v46 : Ref sig .tc := ⟨.hbm, 82, rfl⟩
abbrev main_v47 : Ref sig .tc := ⟨.hbm, 83, rfl⟩
abbrev main_c_8 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_9 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59_0 : Ref sig .tc := ⟨.hbm, 97, rfl⟩
abbrev main_v59_1 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_10 : Ref sig .tc := ⟨.hbm, 103, rfl⟩
abbrev main_v64 : Ref sig .tc := ⟨.hbm, 104, rfl⟩
abbrev main_v65 : Ref sig .tc := ⟨.hbm, 105, rfl⟩
abbrev main_c_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_12 : Ref sig .tc := ⟨.hbm, 112, rfl⟩
abbrev main_v71 : Ref sig .tc := ⟨.hbm, 113, rfl⟩
abbrev main_v72 : Ref sig .tc := ⟨.hbm, 114, rfl⟩
abbrev main_c_13 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_14 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_15 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97_0 : Ref sig .tc := ⟨.hbm, 142, rfl⟩
abbrev main_v97_1 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg7_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg8_0 : Ref sig .tc := ⟨.vmem, 59, rfl⟩
abbrev cc4_stg9_0 : Ref sig .tc := ⟨.vmem, 60, rfl⟩
abbrev cc4_stg9_1 : Ref sig .tc := ⟨.vmem, 61, rfl⟩
abbrev cc4_stg10_0 : Ref sig .tc := ⟨.vmem, 62, rfl⟩
abbrev cc4_stg10_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34
abbrev cc2_sem7_0 : DmaSem sig := 35
abbrev cc2_sem7_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem6_1 : DmaSem sig := 47
abbrev cc3_sem7_0 : DmaSem sig := 48
abbrev cc3_sem7_1 : DmaSem sig := 49
abbrev cc4_sem0_0 : DmaSem sig := 50
abbrev cc4_sem0_1 : DmaSem sig := 51
abbrev cc4_sem1_0 : DmaSem sig := 52
abbrev cc4_sem2_0 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem8_0 : DmaSem sig := 59
abbrev cc4_sem9_0 : DmaSem sig := 60
abbrev cc4_sem9_1 : DmaSem sig := 61
abbrev cc4_sem10_0 : DmaSem sig := 62
abbrev cc4_sem10_1 : DmaSem sig := 63

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x1 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x3 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x3 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S2000x3 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S200000x128 : S_.BroadcastsInDim S200000x128 (![] : Fin 0 → Fin S200000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S200000x256 : S_.BroadcastsInDim S200000x256 (![] : Fin 0 → Fin S200000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  slices_S512x256_S256x256_0_0 : S512x256.Slices ![0, 0] S256x256
  slices_S512x256_S256x256_256_0 : S512x256.Slices ![256, 0] S256x256
  bcast_S_S256 : S_.BroadcastsInDim S256 (![] : Fin 0 → Fin S256.rank)
  shapeCasts_S1_S1x1 : S1.ShapeCasts S1x1
  shapeCasts_S3_S1x3 : S3.ShapeCasts S1x3
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x1_S2000x1_0_0 : ∀ a, (![0, 0] : Fin 2 → Nat) a + S2000x1.size a ≤ S2000x1.size a
  h_S2000x1 : 0 < S2000x1.numel
  inb_S2000x3_S2000x3_0_0 : ∀ a, (![0, 0] : Fin 2 → Nat) a + S2000x3.size a ≤ S2000x3.size a
  h_S2000x3 : 0 < S2000x3.numel
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S2000x128_S128x256_S2000x256_1_0_0_1_n_n_wf : DotDims.WF S2000x128 S128x256 S2000x256 [1] [0] [0] [1] [] []
  gather_S200000x256_S400000x1_S400000x256_1_0_n_n_0_1_1256_wf : GatherDims.WF S200000x256 S400000x1 S400000x256 [1] [0] [] [0] [] 1 ![1, 256]
  scatter_S200000x256_S400000x1_S400000x256_1_0_0_1_wf : ScatterDims.WF S200000x256 S400000x1 S400000x256 [1] [0] [0] 1
  dot_S2000x256_S256x256_S2000x256_1_0_0_1_n_n_wf : DotDims.WF S2000x256 S256x256 S2000x256 [1] [0] [0] [1] [] []
  gather_S200000x256_S100000x1_S100000x256_1_0_n_n_0_1_1256_wf : GatherDims.WF S200000x256 S100000x1 S100000x256 [1] [0] [] [0] [] 1 ![1, 256]
  dot_S2000x256_S256x1_S2000x1_1_0_0_1_n_n_wf : DotDims.WF S2000x256 S256x1 S2000x1 [1] [0] [0] [1] [] []
  dot_S2000x256_S256x3_S2000x3_1_0_0_1_n_n_wf : DotDims.WF S2000x256 S256x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S200000x256.size a
  hwx0_5 : ∀ i : grid0.Coords, EltTy.bits .f32 = 32 ∨ (Rect.block (s := S200000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S200000x256.size a
  hwx0_6 : ∀ i : grid0.Coords, EltTy.bits .f32 = 32 ∨ (Rect.block (s := S200000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S200000x256.size a
  hwx1_0 : ∀ i : grid1.Coords, EltTy.bits .f32 = 32 ∨ (Rect.block (s := S200000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S200000x256.size a
  hwx1_1 : ∀ i : grid1.Coords, EltTy.bits .f32 = 32 ∨ (Rect.block (s := S200000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S200000x256.size a
  hwx1_2 : ∀ i : grid1.Coords, EltTy.bits .f32 = 32 ∨ (Rect.block (s := S200000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S200000x256.size a
  hwx1_6 : ∀ i : grid1.Coords, EltTy.bits .f32 = 32 ∨ (Rect.block (s := S200000x256) S2000x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S200000x256.size a
  hwx1_7 : ∀ i : grid1.Coords, EltTy.bits .f32 = 32 ∨ (Rect.block (s := S200000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S200000x256.size a
  hwx2_0 : ∀ i : grid2.Coords, EltTy.bits .f32 = 32 ∨ (Rect.block (s := S200000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S200000x256.size a
  hwx2_1 : ∀ i : grid2.Coords, EltTy.bits .f32 = 32 ∨ (Rect.block (s := S200000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S200000x256.size a
  hwx2_2 : ∀ i : grid2.Coords, EltTy.bits .f32 = 32 ∨ (Rect.block (s := S200000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S200000x256.size a
  hwx2_6 : ∀ i : grid2.Coords, EltTy.bits .f32 = 32 ∨ (Rect.block (s := S200000x256) S2000x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S200000x256.size a
  hwx2_7 : ∀ i : grid2.Coords, EltTy.bits .f32 = 32 ∨ (Rect.block (s := S200000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .f32 = 32 ∨ (Rect.block (s := S200000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S200000x256.size a
  hwx3_1 : ∀ i : grid3.Coords, EltTy.bits .f32 = 32 ∨ (Rect.block (s := S200000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S200000x256.size a
  hwx3_2 : ∀ i : grid3.Coords, EltTy.bits .f32 = 32 ∨ (Rect.block (s := S200000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .bf16 = 32 ∨ (Rect.block (s := S256x256) S256x256.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S200000x256.size a
  hwx3_6 : ∀ i : grid3.Coords, EltTy.bits .f32 = 32 ∨ (Rect.block (s := S200000x256) S2000x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S200000x256.size a
  hwx3_7 : ∀ i : grid3.Coords, EltTy.bits .f32 = 32 ∨ (Rect.block (s := S200000x256) S2000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x1.size a ≤ S256x1.size a
  hwx4_5 : ∀ i : grid4.Coords, EltTy.bits .bf16 = 32 ∨ (Rect.block (s := S256x1) S256x1.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x3.size a ≤ S256x3.size a
  hwx4_7 : ∀ i : grid4.Coords, EltTy.bits .bf16 = 32 ∨ (Rect.block (s := S256x3) S256x3.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x3.size a ≤ S1x3.size a
  hwx4_8 : ∀ i : grid4.Coords, EltTy.bits .f32 = 32 ∨ (Rect.block (s := S1x3) S1x3.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x1.size a ≤ S100000x1.size a
  hwx4_9 : ∀ i : grid4.Coords, EltTy.bits .f32 = 32 ∨ (Rect.block (s := S100000x1) S2000x1.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x3.size a ≤ S100000x3.size a
  hwx4_10 : ∀ i : grid4.Coords, EltTy.bits .f32 = 32 ∨ (Rect.block (s := S100000x3) S2000x3.size (cc4_transform_10 i) (hinb4_10 i)).WholeWords (EltTy.packing .f32)

variable [Facts₀]

def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S200000x256_S400000x1_S400000x256_1_0_n_n_0_1_1256 : GatherDims S200000x256 S400000x1 S400000x256 where
  offsetDims := [1]
  collapsedSliceDims := [0]
  operandBatchingDims := []
  startIndicesBatchingDims := []
  startIndexMap := [0]
  indexVectorDim := 1
  sliceSizes := ![1, 256]
  wf := gather_S200000x256_S400000x1_S400000x256_1_0_n_n_0_1_1256_wf
def scatter_S200000x256_S400000x1_S400000x256_1_0_0_1 : ScatterDims S200000x256 S400000x1 S400000x256 where
  updateWindowDims := [1]
  insertedWindowDims := [0]
  scatterDimsToOperandDims := [0]
  indexVectorDim := 1
  wf := scatter_S200000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S200000x256_S100000x1_S100000x256_1_0_n_n_0_1_1256 : GatherDims S200000x256 S100000x1 S100000x256 where
  offsetDims := [1]
  collapsedSliceDims := [0]
  operandBatchingDims := []
  startIndicesBatchingDims := []
  startIndexMap := [0]
  indexVectorDim := 1
  sliceSizes := ![1, 256]
  wf := gather_S200000x256_S100000x1_S100000x256_1_0_n_n_0_1_1256_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def dot_S2000x256_S256x3_S2000x3_1_0_0_1_n_n : DotDims S2000x256 S256x3 S2000x3 where
  lhsContracting := [1]
  rhsContracting := [0]
  lhsNonContracting := [0]
  rhsNonContracting := [1]
  lhsBatch := []
  rhsBatch := []
  wf := dot_S2000x256_S256x3_S2000x3_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_1) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31_0) S2000x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v31_1) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v41) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31_1) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31_0) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45_0) S2000x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v45_1) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v55) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45_1) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45_0) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59_0) S2000x256.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v59_1) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v78) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S256x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v94) S256x3.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v96) S1x3.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v97_0) S2000x1.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v97_1) S2000x3.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S200000x128 : Shape := ⟨2, ![200000, 128]⟩
abbrev S2x400000 : Shape := ⟨2, ![2, 400000]⟩
abbrev S100000x2 : Shape := ⟨2, ![100000, 2]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S1 : Shape := ⟨1, ![1]⟩
abbrev S256x3 : Shape := ⟨2, ![256, 3]⟩
abbrev S3 : Shape := ⟨1, ![3]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S200000x256 : Shape := ⟨2, ![200000, 256]⟩
abbrev S1x256 : Shape := ⟨2, ![1, 256]⟩
abbrev S400000x256 : Shape := ⟨2, ![400000, 256]⟩
abbrev S100000x1 : Shape := ⟨2, ![100000, 1]⟩
abbrev S100000 : Shape := ⟨1, ![100000]⟩
abbrev S100000x256 : Shape := ⟨2, ![100000, 256]⟩
abbrev S100000x512 : Shape := ⟨2, ![100000, 512]⟩
abbrev S1x1 : Shape := ⟨2, ![1, 1]⟩
abbrev S100000x3 : Shape := ⟨2, ![100000, 3]⟩
abbrev S1x3 : Shape := ⟨2, ![1, 3]⟩

abbrev nBuf : Space → Nat
  | .hbm => 198
  | .vmem => 0
  | .smem => 0
  | _ => 0

abbrev hbmTy0_0 (i : Nat) : BufTy := match i % 128 with
  | 0 => ⟨S200000x128, .f32⟩
  | 1 => ⟨S2x400000, .i32⟩
  | 2 => ⟨S100000x2, .i32⟩
  | 3 => ⟨S128x256, .f32⟩
  | 4 => ⟨S256, .f32⟩
  | 5 => ⟨S128x256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S512x256, .f32⟩
  | 16 => ⟨S256, .f32⟩
  | 17 => ⟨S256x1, .f32⟩
  | 18 => ⟨S1, .f32⟩
  | 19 => ⟨S512x256, .f32⟩
  | 20 => ⟨S256, .f32⟩
  | 21 => ⟨S256x3, .f32⟩
  | 22 => ⟨S3, .f32⟩
  | 23 => ⟨S1x400000, .i32⟩
  | 24 => ⟨S400000, .i32⟩
  | 25 => ⟨S1x400000, .i32⟩
  | 26 => ⟨S400000, .i32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x128, .f32⟩
  | 36 => ⟨S_, .f32⟩
  | 37 => ⟨S200000x128, .f32⟩
  | 38 => ⟨S400000x1, .i32⟩
  | 39 => ⟨S200000x128, .f32⟩
  | 40 => ⟨S200000x256, .f32⟩
  | 41 => ⟨S1x256, .f32⟩
  | 42 => ⟨S200000x256, .f32⟩
  | 43 => ⟨S200000x256, .f32⟩
  | 44 => ⟨S200000x256, .f32⟩
  | 45 => ⟨S200000x256, .f32⟩
  | 46 => ⟨S_, .f32⟩
  | 47 => ⟨S200000x256, .f32⟩
  | 48 => ⟨S200000x256, .i1⟩
  | 49 => ⟨S_, .f32⟩
  | 50 => ⟨S200000x256, .f32⟩
  | 51 => ⟨S200000x256, .f32⟩
  | 52 => ⟨S200000x256, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x256, .f32⟩
  | 62 => ⟨S_, .f32⟩
  | 63 => ⟨S200000x256, .f32⟩
  | 64 => ⟨S400000x1, .i32⟩
  | 65 => ⟨S200000x256, .f32⟩
  | 66 => ⟨S200000x256, .f32⟩
  | 67 => ⟨S1x256, .f32⟩
  | 68 => ⟨S200000x256, .f32⟩
  | 69 => ⟨S200000x256, .f32⟩
  | 70 => ⟨S200000x256, .f32⟩
  | 71 => ⟨S200000x256, .f32⟩
  | 72 => ⟨S_, .f32⟩
  | 73 => ⟨S200000x256, .f32⟩
  | 74 => ⟨S200000x256, .i1⟩
  | 75 => ⟨S_, .f32⟩
  | 76 => ⟨S200000x256, .f32⟩
  | 77 => ⟨S200000x256, .f32⟩
  | 78 => ⟨S200000x256, .f32⟩
  | 79 => ⟨S200000x256, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000x256, .f32⟩
  | 89 => ⟨S_, .f32⟩
  | 90 => ⟨S200000x256, .f32⟩
  | 91 => ⟨S400000x1, .i32⟩
  | 92 => ⟨S200000x256, .f32⟩
  | 93 => ⟨S200000x256, .f32⟩
  | 94 => ⟨S1x256, .f32⟩
  | 95 => ⟨S200000x256, .f32⟩
  | 96 => ⟨S200000x256, .f32⟩
  | 97 => ⟨S200000x256, .f32⟩
  | 98 => ⟨S200000x256, .f32⟩
  | 99 => ⟨S_, .f32⟩
  | 100 => ⟨S200000x256, .f32⟩
  | 101 => ⟨S200000x256, .i1⟩
  | 102 => ⟨S_, .f32⟩
  | 103 => ⟨S200000x256, .f32⟩
  | 104 => ⟨S200000x256, .f32⟩
  | 105 => ⟨S200000x256, .f32⟩
  | 106 => ⟨S200000x256, .f32⟩
  | 107 => ⟨S_, .i32⟩
  | 108 => ⟨S400000, .i32⟩
  | 109 => ⟨S400000, .i1⟩
  | 110 => ⟨S_, .i32⟩
  | 111 => ⟨S400000, .i32⟩
  | 112 => ⟨S400000, .i32⟩
  | 113 => ⟨S400000, .i32⟩
  | 114 => ⟨S400000x1, .i32⟩
  | 115 => ⟨S400000x256, .f32⟩
  | 116 => ⟨S_, .f32⟩
  | 117 => ⟨S200000x256, .f32⟩
  | 118 => ⟨S400000x1, .i32⟩
  | 119 => ⟨S200000x256, .f32⟩
  | 120 => ⟨S200000x256, .f32⟩
  | 121 => ⟨S1x256, .f32⟩
  | 122 => ⟨S200000x256, .f32⟩
  | 123 => ⟨S200000x256, .f32⟩
  | 124 => ⟨S200000x256, .f32⟩
  | 125 => ⟨S200000x256, .f32⟩
  | 126 => ⟨S_, .f32⟩
  | 127 => ⟨S200000x256, .f32⟩
  | _ => ⟨S200000x128, .f32⟩

abbrev hbmTy0_1 (i : Nat) : BufTy := match i % 128 with
  | 0 => ⟨S200000x256, .i1⟩
  | 1 => ⟨S_, .f32⟩
  | 2 => ⟨S200000x256, .f32⟩
  | 3 => ⟨S200000x256, .f32⟩
  | 4 => ⟨S200000x256, .f32⟩
  | 5 => ⟨S200000x256, .f32⟩
  | 6 => ⟨S100000x1, .i32⟩
  | 7 => ⟨S100000, .i32⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S100000x256, .f32⟩
  | 17 => ⟨S100000x1, .i32⟩
  | 18 => ⟨S100000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x256, .f32⟩
  | 28 => ⟨S100000x512, .f32⟩
  | 29 => ⟨S100000x512, .f32⟩
  | 30 => ⟨S100000x256, .f32⟩
  | 31 => ⟨S1x256, .f32⟩
  | 32 => ⟨S100000x256, .f32⟩
  | 33 => ⟨S100000x256, .f32⟩
  | 34 => ⟨S100000x256, .f32⟩
  | 35 => ⟨S1x256, .f32⟩
  | 36 => ⟨S100000x256, .f32⟩
  | 37 => ⟨S100000x256, .f32⟩
  | 38 => ⟨S100000x256, .f32⟩
  | 39 => ⟨S_, .f32⟩
  | 40 => ⟨S100000x256, .f32⟩
  | 41 => ⟨S100000x256, .i1⟩
  | 42 => ⟨S_, .f32⟩
  | 43 => ⟨S100000x256, .f32⟩
  | 44 => ⟨S100000x256, .f32⟩
  | 45 => ⟨S100000x256, .f32⟩
  | 46 => ⟨S100000x1, .f32⟩
  | 47 => ⟨S1x1, .f32⟩
  | 48 => ⟨S100000x1, .f32⟩
  | 49 => ⟨S100000x1, .f32⟩
  | 50 => ⟨S100000x256, .f32⟩
  | 51 => ⟨S1x256, .f32⟩
  | 52 => ⟨S100000x256, .f32⟩
  | 53 => ⟨S100000x256, .f32⟩
  | 54 => ⟨S100000x256, .f32⟩
  | 55 => ⟨S1x256, .f32⟩
  | 56 => ⟨S100000x256, .f32⟩
  | 57 => ⟨S100000x256, .f32⟩
  | 58 => ⟨S100000x256, .f32⟩
  | 59 => ⟨S_, .f32⟩
  | 60 => ⟨S100000x256, .f32⟩
  | 61 => ⟨S100000x256, .i1⟩
  | 62 => ⟨S_, .f32⟩
  | 63 => ⟨S100000x256, .f32⟩
  | 64 => ⟨S100000x256, .f32⟩
  | 65 => ⟨S100000x256, .f32⟩
  | 66 => ⟨S100000x3, .f32⟩
  | 67 => ⟨S1x3, .f32⟩
  | 68 => ⟨S100000x3, .f32⟩
  | 69 => ⟨S100000x3, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_cst_2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_3 : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_8 : Ref sig .tc := ⟨.hbm, 80, rfl⟩
abbrev main_v47 : Ref sig .tc := ⟨.hbm, 81, rfl⟩
abbrev main_v48 : Ref sig .tc := ⟨.hbm, 82, rfl⟩
abbrev main_c_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_10 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_v64 : Ref sig .tc := ⟨.hbm, 101, rfl⟩
abbrev main_cst_12 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_13 : Ref sig .tc := ⟨.hbm, 107, rfl⟩
abbrev main_v69 : Ref sig .tc := ⟨.hbm, 108, rfl⟩
abbrev main_v70 : Ref sig .tc := ⟨.hbm, 109, rfl⟩
abbrev main_c_14 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_15 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_16 : Ref sig .tc := ⟨.hbm, 126, rfl⟩
abbrev main_v85 : Ref sig .tc := ⟨.hbm, 127, rfl⟩
abbrev main_v86 : Ref sig .tc := ⟨.hbm, 128, rfl⟩
abbrev main_cst_17 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_18 : Ref sig .tc := ⟨.hbm, 136, rfl⟩
abbrev main_v93 : Ref sig .tc := ⟨.hbm, 137, rfl⟩
abbrev main_v94 : Ref sig .tc := ⟨.hbm, 138, rfl⟩
abbrev main_c_19 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_c_20 : Ref sig .tc := ⟨.hbm, 147, rfl⟩
abbrev main_v102 : Ref sig .tc := ⟨.hbm, 148, rfl⟩
abbrev main_v103 : Ref sig .tc := ⟨.hbm, 149, rfl⟩
abbrev main_c_21 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_22 : Ref sig .tc := ⟨.hbm, 167, rfl⟩
abbrev main_v120 : Ref sig .tc := ⟨.hbm, 168, rfl⟩
abbrev main_v121 : Ref sig .tc := ⟨.hbm, 169, rfl⟩
abbrev main_cst_23 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_24 : Ref sig .tc := ⟨.hbm, 187, rfl⟩
abbrev main_v138 : Ref sig .tc := ⟨.hbm, 188, rfl⟩
abbrev main_v139 : Ref sig .tc := ⟨.hbm, 189, rfl⟩
abbrev main_cst_25 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S200000x128 : S_.BroadcastsInDim S200000x128 (![] : Fin 0 → Fin S200000x128.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  concatenates_S100000x256_S100000x256_S100000x512_d1 : Shape.Concatenates [S100000x256, S100000x256] S100000x512 1
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S200000x128_S128x256_S200000x256_1_0_0_1_n_n_wf : DotDims.WF S200000x128 S128x256 S200000x256 [1] [0] [0] [1] [] []
  gather_S200000x256_S400000x1_S400000x256_1_0_n_n_0_1_1256_wf : GatherDims.WF S200000x256 S400000x1 S400000x256 [1] [0] [] [0] [] 1 ![1, 256]
  scatter_S200000x256_S400000x1_S400000x256_1_0_0_1_wf : ScatterDims.WF S200000x256 S400000x1 S400000x256 [1] [0] [0] 1
  dot_S200000x256_S256x256_S200000x256_1_0_0_1_n_n_wf : DotDims.WF S200000x256 S256x256 S200000x256 [1] [0] [0] [1] [] []
  gather_S200000x256_S100000x1_S100000x256_1_0_n_n_0_1_1256_wf : GatherDims.WF S200000x256 S100000x1 S100000x256 [1] [0] [] [0] [] 1 ![1, 256]
  dot_S100000x512_S512x256_S100000x256_1_0_0_1_n_n_wf : DotDims.WF S100000x512 S512x256 S100000x256 [1] [0] [0] [1] [] []
  dot_S100000x256_S256x1_S100000x1_1_0_0_1_n_n_wf : DotDims.WF S100000x256 S256x1 S100000x1 [1] [0] [0] [1] [] []
  dot_S100000x256_S256x3_S100000x3_1_0_0_1_n_n_wf : DotDims.WF S100000x256 S256x3 S100000x3 [1] [0] [0] [1] [] []

variable [Facts₀]

def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def gather_S200000x256_S400000x1_S400000x256_1_0_n_n_0_1_1256 : GatherDims S200000x256 S400000x1 S400000x256 where
  offsetDims := [1]
  collapsedSliceDims := [0]
  operandBatchingDims := []
  startIndicesBatchingDims := []
  startIndexMap := [0]
  indexVectorDim := 1
  sliceSizes := ![1, 256]
  wf := gather_S200000x256_S400000x1_S400000x256_1_0_n_n_0_1_1256_wf
def scatter_S200000x256_S400000x1_S400000x256_1_0_0_1 : ScatterDims S200000x256 S400000x1 S400000x256 where
  updateWindowDims := [1]
  insertedWindowDims := [0]
  scatterDimsToOperandDims := [0]
  indexVectorDim := 1
  wf := scatter_S200000x256_S400000x1_S400000x256_1_0_0_1_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def gather_S200000x256_S100000x1_S100000x256_1_0_n_n_0_1_1256 : GatherDims S200000x256 S100000x1 S100000x256 where
  offsetDims := [1]
  collapsedSliceDims := [0]
  operandBatchingDims := []
  startIndicesBatchingDims := []
  startIndexMap := [0]
  indexVectorDim := 1
  sliceSizes := ![1, 256]
  wf := gather_S200000x256_S100000x1_S100000x256_1_0_n_n_0_1_1256_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def dot_S100000x256_S256x3_S100000x3_1_0_0_1_n_n : DotDims S100000x256 S256x3 S100000x3 where
  lhsContracting := [1]
  rhsContracting := [0]
  lhsNonContracting := [0]
  rhsNonContracting := [1]
  lhsBatch := []
  rhsBatch := []
  wf := dot_S100000x256_S256x3_S100000x3_1_0_0_1_n_n_wf

class Facts : Prop extends Facts₀ where

variable [Facts]
-- ==== Proof.KRun.lean ====
/-
  The idealized kernel's run with its two results named.

  The program is five kernel regions among stretches of host operations.  Its run is the generated frame's: the same
  segments, the same proof data, the same thread state between segments — every unscoped buffer at the contents the
  fold through the program gives that boundary.  The frame reads only the argument arrays off the last boundary's
  contents; here the two result arrays are read off them as well, so that the run ends with each result buffer at
  the last boundary's contents of that buffer, the arguments as launched.
-/
import proofs.«148686_j90211493085314_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the
    contents the last boundary of the fold gives them and every argument array as launched. -/
theorem run_named : θ_run defs (onTc (τ := τ) (main (F := F))) ⟨m, fun _ => 0, ρ⟩ (fun r => ∀ c : Dev nD,
      r.2.mem ((c.tc : Thread nD τ).loc main_v97_1) = W10 m ρ c (Proc.devRef .tc main_v97_1)
      ∧ r.2.mem ((c.tc : Thread nD τ).loc main_v97_0) = W10 m ρ c (Proc.devRef .tc main_v97_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v97_1 (by decide)), h c _ (mem_uc main_v97_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c)⟩)

end Cert.KernelIdeal.Run

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.LibReals.lean ====
/-
  Arrays of extended reals every entry of which is a real number.  Finite sums, sums, differences, products and the
  positive part of real numbers are real, so the matrix product, the added row, the column sums, the column-wise scale
  and shift and the positive part of real arrays are real arrays; an array read at computed positions (a gather, a
  broadcast, a change of shape) is real when its operand is, and an array into which real updates are accumulated is
  real when it was.  Nonnegative reals are kept by accumulation, and the reciprocal square root of a positive real is
  a positive real.
-/
import proofs.«148686_j90211493085314_1_alg».proof.Proof.LibMatOps
import Idealize.ShloMosaic.PureOps.Ideal
import Idealize.ShloMosaic.PureOps.Ideal.Laws
import Idealize.ShloMosaic.Lib.ValueIdx
import Mathlib.Tactic

noncomputable section

open scoped BigOperators

namespace Cert.Spec

open Idealize.ShloMosaic Idealize.ShloMosaic.ValueIdx

/-- Every entry is a real number. -/
def IsReal {ι : Type*} (f : ι → EReal) : Prop := ∀ i, ∃ r : ℝ, f i = (r : EReal)

/-- Every entry is a nonnegative real number. -/
def IsNonneg {ι : Type*} (f : ι → EReal) : Prop := ∀ i, ∃ r : ℝ, 0 ≤ r ∧ f i = (r : EReal)

theorem IsNonneg.isReal {ι : Type*} {f : ι → EReal} (h : IsNonneg f) : IsReal f :=
  fun i => let ⟨r, _, hr⟩ := h i; ⟨r, hr⟩

/-! ## Single values -/

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

/-- A finite sum of nonnegative reals is a nonnegative real. -/
theorem nonneg_sum {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by simp⟩
  | insert a s ha ih =>
    obtain ⟨r, hr0, hr⟩ := h a (Finset.mem_insert_self a s)
    obtain ⟨q, hq0, hq⟩ := ih fun i hi => h i (Finset.mem_insert_of_mem hi)
    exact ⟨r + q, add_nonneg hr0 hq0, by rw [Finset.sum_insert ha, hr, hq, EReal.coe_add]⟩

theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

theorem real_max_zero {a : EReal} (ha : ∃ r : ℝ, a = (r : EReal)) : ∃ r : ℝ, max a 0 = (r : EReal) := by
  obtain ⟨r, rfl⟩ := ha
  rcases le_total r 0 with h | h
  · exact ⟨0, by rw [max_eq_right (EReal.coe_nonpos.mpr h), EReal.coe_zero]⟩
  · exact ⟨r, max_eq_left (EReal.coe_nonneg.mpr h)⟩

/-- Division of a real by a nonzero real is real. -/
theorem real_div {a : EReal} (ha : ∃ r : ℝ, a = (r : EReal)) {y : ℝ} (hy : y ≠ 0) :
    ∃ r : ℝ, Ideal.div a (y : EReal) = (r : EReal) := by
  obtain ⟨r, rfl⟩ := ha
  exact ⟨r * (1 / y), by rw [Ideal.div_coe hy, EReal.coe_mul]⟩

/-- Division of a real by a nonzero real is the real quotient. -/
theorem div_coe_real (x : ℝ) {y : ℝ} (h : y ≠ 0) : Ideal.div (x : EReal) (y : EReal) = ((x / y : ℝ) : EReal) := by
  rw [Ideal.div_coe h, ← EReal.coe_mul]; congr 1; field_simp

/-- The reciprocal square root of a positive real is a positive real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem pos_rsqrt {a : EReal} (ha : ∃ r : ℝ, 0 < r ∧ a = (r : EReal)) :
    ∃ q : ℝ, 0 < q ∧ Ideal.rsqrt a = (q : EReal) := by
  obtain ⟨r, hr, rfl⟩ := ha
  exact ⟨(Real.sqrt r)⁻¹, inv_pos.mpr (Real.sqrt_pos.mpr hr), rsqrt_pos hr⟩

/-! ## The float words the programs spell, as the reals their bit patterns denote -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

/-- 100000.0, the number of rows. -/
theorem ofBits_count : Ideal.ofBits .f32 0x47C35000#32 = ((100000 : ℝ) : EReal) := by
  simp [Ideal.ofBits, Ideal.ieee, -EReal.coe_mul]; norm_num

/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-! ## Arrays, entry by entry -/

section Pointwise
variable {ι : Type*} {f g : ι → EReal}

theorem IsReal.const {ι : Type*} (r : ℝ) : IsReal (fun _ : ι => (r : EReal)) := fun _ => ⟨r, rfl⟩

theorem IsReal.add (hf : IsReal f) (hg : IsReal g) : IsReal (fun i => f i + g i) := fun i => real_add (hf i) (hg i)

theorem IsReal.sub (hf : IsReal f) (hg : IsReal g) : IsReal (fun i => f i - g i) := fun i => real_sub (hf i) (hg i)

theorem IsReal.mul (hf : IsReal f) (hg : IsReal g) : IsReal (fun i => f i * g i) := fun i => real_mul (hf i) (hg i)

theorem IsReal.max_zero (hf : IsReal f) : IsReal (fun i => max (f i) 0) := fun i => real_max_zero (hf i)

theorem IsReal.div_real (hf : IsReal f) {y : ℝ} (hy : y ≠ 0) : IsReal (fun i => Ideal.div (f i) (y : EReal)) :=
  fun i => real_div (hf i) hy

/-- An array read at computed positions is real when the array is. -/
theorem IsReal.comp {κ : Type*} (hf : IsReal f) (e : κ → ι) : IsReal (fun j => f (e j)) := fun j => hf (e j)

end Pointwise

/-! ## The vocabulary's operations -/

section SpecOps
variable {n k d : ℕ}

theorem IsReal.mm {X : Mat n k} {W : Mat k d} (hX : IsReal X) (hW : IsReal W) : IsReal (mm X W) :=
  fun _ => real_sum _ _ fun _ _ => real_mul (hX _) (hW _)

theorem IsReal.addRow {Y : Mat n d} {B : Mat 1 d} (hY : IsReal Y) (hB : IsReal B) : IsReal (addRow Y B) :=
  fun _ => real_add (hY _) (hB _)

theorem IsReal.colSum {X : Mat n d} (hX : IsReal X) : IsReal (colSum X) :=
  fun _ => real_sum _ _ fun _ _ => hX _

theorem IsReal.colSumSq {X : Mat n d} (hX : IsReal X) : IsReal (colSumSq X) :=
  fun _ => real_sum _ _ fun _ _ => real_mul (hX _) (hX _)

theorem IsReal.affine {X : Mat n d} {S T : Mat 1 d} (hX : IsReal X) (hS : IsReal S) (hT : IsReal T) :
    IsReal (affine X S T) :=
  fun _ => real_add (real_mul (hX _) (hS _)) (hT _)

theorem IsReal.relu {Y : Mat n d} (hY : IsReal Y) : IsReal (relu Y) := fun _ => real_max_zero (hY _)

end SpecOps

/-! ## The host's operations -/

section HostOps
variable {s si t u : Shape} {w : ℕ} {φ : FTy}

/-- A gather reads its operand at a computed index. -/
theorem IsReal.gather (D : GatherDims s si t) {x : s.Idx → EReal} (hx : IsReal x) (idx : IVec si w) :
    IsReal (Host.gather D x idx) := fun _ => hx _

/-- Accumulating real updates into a real array leaves it real. -/
theorem IsReal.scatterAdd (D : ScatterDims s si u) {x : FVec Ideal s φ} {upd : FVec Ideal u φ} (hx : IsReal x)
    (hupd : IsReal upd) (idx : IVec si w) : IsReal (Host.scatterAdd D x idx upd) := by
  intro i
  show ∃ r : ℝ, x i + ∑ j ∈ Finset.univ.filter (fun j => D.resultIdx? j idx = some i), upd j = (r : EReal)
  exact real_add (hx i) (real_sum _ _ fun j _ => hupd j)

/-- Accumulating nonnegative real updates into a nonnegative real array leaves it a nonnegative real array. -/
theorem IsNonneg.scatterAdd (D : ScatterDims s si u) {x : FVec Ideal s φ} {upd : FVec Ideal u φ} (hx : IsNonneg x)
    (hupd : IsNonneg upd) (idx : IVec si w) : IsNonneg (Host.scatterAdd D x idx upd) := by
  intro i
  show ∃ r : ℝ, 0 ≤ r ∧
    x i + ∑ j ∈ Finset.univ.filter (fun j => D.resultIdx? j idx = some i), upd j = (r : EReal)
  obtain ⟨r, hr0, hr⟩ := hx i
  obtain ⟨q, hq0, hq⟩ := nonneg_sum (Finset.univ.filter (fun j => D.resultIdx? j idx = some i)) upd fun j _ => hupd j
  exact ⟨r + q, add_nonneg hr0 hq0, by rw [hr, hq, EReal.coe_add]⟩

/-- One more than a nonnegative real has a positive real reciprocal square root: the degree scale. -/
theorem IsNonneg.rsqrt_add_one {ι : Type*} {f : ι → EReal} (hf : IsNonneg f) :
    ∀ i, ∃ q : ℝ, 0 < q ∧ Ideal.rsqrt (f i + ((1 : ℝ) : EReal)) = (q : EReal) := by
  intro i
  obtain ⟨r, hr0, hr⟩ := hf i
  exact pos_rsqrt ⟨r + 1, by linarith, by rw [hr, EReal.coe_add]⟩

theorem IsReal.broadcastInDim (t : Shape) (dims : Fin s.rank → Fin t.rank) (h : s.BroadcastsInDim t dims)
    {x : s.Idx → EReal} (hx : IsReal x) : IsReal (broadcastInDim t dims h x) := fun _ => hx _

theorem IsReal.broadcastTo (t : Shape) {x : s.Idx → EReal} (hx : IsReal x) (h : s.Broadcasts t) :
    IsReal (broadcastTo t x h) := fun _ => hx _

theorem IsReal.shapeCast (t : Shape) {x : s.Idx → EReal} (hx : IsReal x) (h : s.ShapeCasts t) :
    IsReal (shapeCast t x h) := fun _ => hx _

theorem IsReal.extractStridedSlice (t : Shape) (off : Fin s.rank → ℕ) {x : s.Idx → EReal} (hx : IsReal x)
    (h : s.Slices off t) : IsReal (extractStridedSlice t off x h) := fun _ => hx _

end HostOps

end Cert.Spec

end
-- ==== Proof.Spec.lean ====
/-
  The network that both programs compute, written once over the extended reals.

  A graph-convolution layer takes a node array Z and its neighbour sums A (the rows of Z gathered at each edge's
  source and added into the edge's destination row) to  leaky (A · W_rel + Z · W_root + b),  the bias row b added to
  every row; from the second layer on the previous layer's activation is added (the residual).  After four layers
  the two endpoint rows Za, Zb of every edge to predict are read off, and each of two heads is a two-layer
  perceptron on them, symmetric in the endpoints: the first layer is applied to the row (Za | Zb) and to the row
  (Zb | Za) and the two results are added.

  The two programs differ in two places only.  Inside a layer one adds the bias after both products and the other
  between them (`convK`, `convR`: equal by reordering a sum, for all extended reals).  In a head one multiplies the
  SUM of the two endpoint rows by the SUM of the two halves of the first weight and adds twice the bias
  (`headK`), the other forms the two joined rows, multiplies each by the whole weight, adds the bias to each and adds
  the results (`headR`): equal by distributing the products, which is valid where every entry is a real number.

  The neighbour sums and the endpoint rows are kept as the host computes them (a gather by a column of row numbers,
  a scatter-add by a column of row numbers): both programs compute them by the same operations, and nothing about
  them is used beyond that they take arrays of real numbers to arrays of real numbers.
-/
import proofs.«148686_j90211493085314_1_alg».proof.Proof.LibMatOps
import proofs.«148686_j90211493085314_1_alg».proof.Proof.LibReals
import proofs.«148686_j90211493085314_1_alg».proof.Proof.RefRead

noncomputable section

open scoped BigOperators

namespace Cert.Net

open Cert.Spec Idealize.ShloMosaic Idealize.ShloMosaic.ValueIdx
open Cert.ReferenceIdeal Cert.ReferenceIdeal.Read

variable {n k d h : ℕ}

/-! ## Entrywise pieces -/

/-- The leaky rectifier: y where y ≥ 0, c · y elsewhere. -/
def leaky (c y : EReal) : EReal := if 0 ≤ y then y else c * y

/-- The leaky rectifier applied to every entry. -/
def act (c : EReal) (X : Mat n d) : Mat n d := fun i => leaky c (X i)

/-- The sum of two arrays, entry by entry. -/
def addM (X Y : Mat n d) : Mat n d := fun i => X i + Y i

/-- A length-d array as the one row of a [1, d] array. -/
def rowOf (b : (⟨1, ![d]⟩ : Shape).Idx → EReal) : Mat 1 d := fun i => b (ix1 (i 1))

/-- Every entry of a row multiplied by t. -/
def scaleRow (t : EReal) (B : Mat 1 d) : Mat 1 d := fun i => t * B i

/-- The slope of the rectifier's negative side: the f32 word nearest 0.01, the same word in both programs. -/
def slope : EReal := Ideal.ofBits .f32 0x3C23D70A#32

/-- The f32 word of 2.0. -/
def two : EReal := Ideal.ofBits .f32 0x40000000#32

theorem act_apply (c : EReal) (X : Mat n d) (i) : act c X i = leaky c (X i) := rfl
theorem addM_apply (X Y : Mat n d) (i) : addM X Y i = X i + Y i := rfl

/-! ## One layer, in the two orders of its sum -/

/-- A layer with the bias added last: leaky ((A · Wr + Z · Wro) + b). -/
def convK (c : EReal) (A Z : Mat n k) (Wr : Mat k d) (B : Mat 1 d) (Wro : Mat k d) : Mat n d :=
  act c (addRow (addM (mm A Wr) (mm Z Wro)) B)

/-- A layer with the bias added between the products: leaky ((A · Wr + b) + Z · Wro). -/
def convR (c : EReal) (A Z : Mat n k) (Wr : Mat k d) (B : Mat 1 d) (Wro : Mat k d) : Mat n d :=
  act c (addM (addRow (mm A Wr) B) (mm Z Wro))

/-- The two orders agree on all extended reals: addition is commutative and associative there. -/
theorem convR_eq_convK (c : EReal) (A Z : Mat n k) (Wr : Mat k d) (B : Mat 1 d) (Wro : Mat k d) :
    convR c A Z Wr B Wro = convK c A Z Wr B Wro := by
  funext i
  unfold convR convK act addM addRow
  rw [add_right_comm]

/-! ## A head, in the two programs' forms -/

/-- A two-layer head on rows S: (leaky (S · Ws + B2)) · W1 + B1. -/
def headK (c : EReal) (S : Mat n h) (Ws : Mat h h) (B2 : Mat 1 h) (W1 : Mat h d) (B1 : Mat 1 d) : Mat n d :=
  addRow (mm (act c (addRow (mm S Ws) B2)) W1) B1

/-- Rows 0 … 255 of a [512, 256] array. -/
def topHalf (W : Mat 512 256) : Mat 256 256 :=
  fun i => W (ix2 (⟨((i 0 : Fin 256)).val, by have h0 : ((i 0 : Fin 256)).val < 256 := (i 0).isLt; omega⟩ : Fin 512) (i 1 : Fin 256))

/-- Rows 256 … 511 of a [512, 256] array. -/
def botHalf (W : Mat 512 256) : Mat 256 256 :=
  fun i => W (ix2 (⟨256 + ((i 0 : Fin 256)).val, by have h0 : ((i 0 : Fin 256)).val < 256 := (i 0).isLt; omega⟩ : Fin 512) (i 1 : Fin 256))

/-- Two [n, 256] arrays side by side: columns 0 … 255 from X, columns 256 … 511 from Y. -/
def catCols (X Y : Mat n 256) : Mat n 512 :=
  fun i => if hlt : ((i 1 : Fin 512)).val < 256 then X (ix2 (i 0 : Fin n) ⟨((i 1 : Fin 512)).val, hlt⟩)
    else Y (ix2 (i 0 : Fin n) ⟨((i 1 : Fin 512)).val - 256, by have h1 : ((i 1 : Fin 512)).val < 512 := (i 1).isLt; omega⟩)

/-- The symmetric head as the reference writes it: the first layer on (Za | Zb) and on (Zb | Za), each with its bias,
    added; the rectifier; the second layer. -/
def headR (c : EReal) (Za Zb : Mat n 256) (W : Mat 512 256) (B : Mat 1 256) (W1 : Mat 256 d) (B1 : Mat 1 d) :
    Mat n d :=
  addRow (mm (act c (addM (addRow (mm (catCols Za Zb) W) B) (addRow (mm (catCols Zb Za) W) B))) W1) B1

/-! ## The host's irregular parts, as both programs compute them -/

/-- The neighbour sums of a [200000, 128] node array: rows gathered at the edges' sources, added at their
    destinations. -/
def agg128 (x : (⟨S200000x128, .f32⟩ : BufTy).Contents (Elt Ideal)) (ei : (⟨S2x400000, .i32⟩ : BufTy).Contents (Elt Ideal)) :
    Mat 200000 128 :=
  val_main_v13 (F := Ideal) x ei

/-- The neighbour sums of a [200000, 256] node array. -/
def agg256 (z : Mat 200000 256) (ei : (⟨S2x400000, .i32⟩ : BufTy).Contents (Elt Ideal)) : Mat 200000 256 :=
  Host.scatterAdd (F := Ideal) (φ := .f32) scatter_S200000x256_S400000x1_S400000x256_1_0_0_1 (val_main_v32 (F := Ideal))
    (val_main_v33 (F := Ideal) ei)
    (Host.gather (α := Ideal .f32) gather_S200000x256_S400000x1_S400000x256_1_0_n_n_0_1_1256 z (val_main_v30 (F := Ideal) ei))

/-- The rows of a node array at the first endpoints of the edges to predict. -/
def pickA (z : Mat 200000 256) (ep : (⟨S100000x2, .i32⟩ : BufTy).Contents (Elt Ideal)) : Mat 100000 256 :=
  Host.gather (α := Ideal .f32) gather_S200000x256_S100000x1_S100000x256_1_0_n_n_0_1_1256 z (val_main_v98 (F := Ideal) ep)

/-- The rows of a node array at the second endpoints of the edges to predict. -/
def pickB (z : Mat 200000 256) (ep : (⟨S100000x2, .i32⟩ : BufTy).Contents (Elt Ideal)) : Mat 100000 256 :=
  Host.gather (α := Ideal .f32) gather_S200000x256_S100000x1_S100000x256_1_0_n_n_0_1_1256 z (val_main_v107 (F := Ideal) ep)

/-! ## The four layers -/

section Layers

variable (x : Mat 200000 128) (ei : (⟨S2x400000, .i32⟩ : BufTy).Contents (Elt Ideal))
  (w0 : Mat 128 256) (b0 : (⟨1, ![256]⟩ : Shape).Idx → EReal) (r0 : Mat 128 256)
  (w1 : Mat 256 256) (b1 : (⟨1, ![256]⟩ : Shape).Idx → EReal) (r1 : Mat 256 256)
  (w2 : Mat 256 256) (b2 : (⟨1, ![256]⟩ : Shape).Idx → EReal) (r2 : Mat 256 256)
  (w3 : Mat 256 256) (b3 : (⟨1, ![256]⟩ : Shape).Idx → EReal) (r3 : Mat 256 256)

/-- The first layer's activation (also the second layer's input). -/
def P0 : Mat 200000 256 := convK slope (agg128 x ei) x w0 (rowOf b0) r0
/-- The second layer's activation. -/
def P1 : Mat 200000 256 := convK slope (agg256 (P0 x ei w0 b0 r0) ei) (P0 x ei w0 b0 r0) w1 (rowOf b1) r1
/-- The third layer's input: the second activation plus the first. -/
def Z2 : Mat 200000 256 := addM (P1 x ei w0 b0 r0 w1 b1 r1) (P0 x ei w0 b0 r0)
/-- The third layer's activation. -/
def P2 : Mat 200000 256 :=
  convK slope (agg256 (Z2 x ei w0 b0 r0 w1 b1 r1) ei) (Z2 x ei w0 b0 r0 w1 b1 r1) w2 (rowOf b2) r2
/-- The fourth layer's input. -/
def Z3 : Mat 200000 256 := addM (P2 x ei w0 b0 r0 w1 b1 r1 w2 b2 r2) (P1 x ei w0 b0 r0 w1 b1 r1)
/-- The fourth layer's activation. -/
def P3 : Mat 200000 256 :=
  convK slope (agg256 (Z3 x ei w0 b0 r0 w1 b1 r1 w2 b2 r2) ei) (Z3 x ei w0 b0 r0 w1 b1 r1 w2 b2 r2) w3 (rowOf b3) r3
/-- The node embeddings the heads read. -/
def Z4 : Mat 200000 256 := addM (P3 x ei w0 b0 r0 w1 b1 r1 w2 b2 r2 w3 b3 r3) (P2 x ei w0 b0 r0 w1 b1 r1 w2 b2 r2)

end Layers

end Cert.Net

end
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«148686_j90211493085314_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibActivations.lean ====
/-
  The two activations, in the two spellings the programs use, at one extended real.

  leaky y is y on the non-negative side and c · y on the negative side. One program tests y > 0, the other
  y ≥ 0; they differ only at y = 0, where c · 0 = 0 = y, so the two tests give one function, for every
  constant c and every extended real y.

  elu y is y where y > 0 and e^y − 1 elsewhere. One program writes exp y − 1 with the float word of 1; the
  other first replaces y by 0 on the positive side, takes e^· − 1 of that, and multiplies by the word of 1;
  off the positive side the replacement is y itself and 1 · z = z, so again one function.
  The float words 0x00000000 and 0x3F800000 are the reals 0 and 1.
-/
import Idealize.ShloMosaic.PureOps.Ideal
import Idealize.ShloMosaic.PureOps.Ideal.Laws
import Idealize.ShloMosaic.Lib.ValueIdx

noncomputable section

namespace Cert.LibActivations

open Idealize.ShloMosaic Idealize.ShloMosaic.ValueIdx

/-- The f32 word of 1.0 is the real 1. -/
theorem one_word : Ideal.ofBits .f32 0x3F800000#32 = 1 := by
  simp [Ideal.ofBits, Ideal.ieee, -EReal.coe_mul]; norm_num

/-- The f32 word of 0.0 is the real 0. -/
theorem zero_word : Ideal.ofBits .f32 0x00000000#32 = 0 := Ideal.ofBits_zero_f32

/-- The strict comparison with zero as a bit. -/
theorem cmp_ogt_zero (y : EReal) : Ideal.cmp .ogt y 0 = BitVec.ofBool (decide (0 < y)) := rfl

/-- The weak comparison with zero as a bit. -/
theorem cmp_oge_zero (y : EReal) : Ideal.cmp .oge y 0 = BitVec.ofBool (decide (0 ≤ y)) := rfl

/-- A select on a decided proposition's bit is the conditional. -/
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- leaky with the strict test is leaky with the weak test: they differ only at 0, where c · 0 = 0. -/
theorem leaky_forms (y c : EReal) :
    Scalar.select (Ideal.cmp .ogt y (Ideal.ofBits .f32 0x00000000#32)) y (c * y)
      = Scalar.select (Ideal.cmp .oge y (Ideal.ofBits .f32 0x00000000#32)) y (c * y) := by
  rw [zero_word, cmp_ogt_zero, cmp_oge_zero, select_ofBool, select_ofBool]
  by_cases h : 0 < y
  · rw [if_pos h, if_pos h.le]
  · rw [if_neg h]
    by_cases h0 : 0 ≤ y
    · have e : y = 0 := le_antisymm (not_lt.mp h) h0
      rw [if_pos h0, e, mul_zero]
    · rw [if_neg h0]

/-- elu written exp y − 1 is elu written 1 · (e^{y off the positive side} − 1). -/
theorem elu_forms (y : EReal) :
    Scalar.select (Ideal.cmp .ogt y (Ideal.ofBits .f32 0x00000000#32)) y (Ideal.exp y - Ideal.ofBits .f32 0x3F800000#32)
      = Scalar.select (Ideal.cmp .ogt y (Ideal.ofBits .f32 0x00000000#32)) y
          (Ideal.ofBits .f32 0x3F800000#32
            * (Ideal.exp (Scalar.select (Ideal.cmp .ogt y (Ideal.ofBits .f32 0x00000000#32)) (Ideal.ofBits .f32 0x00000000#32) y) - 1)) := by
  rw [zero_word, one_word, cmp_ogt_zero, select_ofBool, select_ofBool, select_ofBool]
  by_cases h : 0 < y
  · rw [if_pos h, if_pos h]
  · rw [if_neg h, if_neg h, if_neg h, one_mul]

end Cert.LibActivations

end
-- ==== Proof.LibConvTile.lean ====
/-
  One row tile of a two-product layer with a bias row and a leaky rectifier, at one entry, for any sizes.

  The tile computes, for a tile a of neighbour sums and a tile z of node rows (n rows of k entries each), two
  k × d weights wr and wro and one bias row b,  f ((a · wr + z · wro) + b)  entry by entry, where f y is y for
  y ≥ 0 and s · y otherwise, s the real number a given f32 word stands for.  Each product is a matrix-unit product
  into the zero accumulator under plain dimension numbers (rows × inner times inner × columns); the bias row is
  broadcast over the rows; the test y ≥ 0 is the weak comparison with the word of zero and the choice a select.
  Over the exact extended reals the entry (p, j) is
    f ((∑ q, a (p, q) · wr (q, j) + ∑ q, z (p, q) · wro (q, j)) + b (0, j)).
-/
import Idealize.ShloMosaic.Lib.ValueIdx
import Idealize.ShloMosaic.Lib.ValueLayout
import Idealize.ShloMosaic.Lib.Pipeline.Value
import Idealize.ShloMosaic.PureOps.Ideal.Laws
import proofs.«148686_j90211493085314_1_alg».proof.Proof.LibPlainDot
import proofs.«148686_j90211493085314_1_alg».proof.Proof.LibActivations

noncomputable section

open scoped BigOperators

namespace Cert.LibConvTile

open Idealize.ShloMosaic Idealize.ShloMosaic.ValueIdx

variable {n k d : ℕ}

/-- The offsets (0, 0) of a whole-block access, as the constant function. -/
theorem zero_offsets : (![0, 0] : Fin 2 → Nat) = fun _ => 0 := funext fun a => by fin_cases a <;> rfl

/-- The rectifier as a kernel writes it: the weak comparison with the word of zero, and on the negative side the
    real of the word w times y. -/
theorem select_oge_zero (w : BitVec 32) (y : EReal) :
    Scalar.select (FloatOps.cmpf (F := Ideal) (φ := .f32) .oge y (Ideal.ofBits .f32 0x00000000#32)) y (Ideal.ofBits .f32 w * y)
      = if 0 ≤ y then y else Ideal.ofBits .f32 w * y := by
  show Scalar.select (Ideal.cmp .oge y (Ideal.ofBits .f32 0x00000000#32)) y (Ideal.ofBits .f32 w * y) = _
  rw [Cert.LibActivations.zero_word, Cert.LibActivations.cmp_oge_zero, Cert.LibActivations.select_ofBool]

/-- The tile at entry (p, j): the rectifier of the two inner products' sum plus the bias row's entry j. -/
theorem convTile_apply {φa φw : FTy} (D : DotDims ⟨2, ![n, k]⟩ ⟨2, ![k, d]⟩ ⟨2, ![n, d]⟩) (hD : D = DotDims.plain n k d)
    (prec : Option ContractPrecision)
    (a z : FVec Ideal ⟨2, ![n, k]⟩ φa) (wr wro : FVec Ideal ⟨2, ![k, d]⟩ φw) (b : FVec Ideal ⟨2, ![1, d]⟩ .f32)
    (hb : (⟨2, ![1, d]⟩ : Shape).Broadcasts ⟨2, ![n, d]⟩) (w : BitVec 32) (p : Fin n) (j : Fin d) :
    select
        (cmpf .oge
          (addf (addf (FloatOps.matmul D prec a wr (constant (F := Ideal) ⟨2, ![n, d]⟩ .f32 0x00000000#32))
              (FloatOps.matmul D prec z wro (constant (F := Ideal) ⟨2, ![n, d]⟩ .f32 0x00000000#32)))
            (broadcastTo ⟨2, ![n, d]⟩ b hb))
          (broadcast ⟨2, ![n, d]⟩ (Scalar.ofBits (F := Ideal) .f32 0x00000000#32)))
        (addf (addf (FloatOps.matmul D prec a wr (constant (F := Ideal) ⟨2, ![n, d]⟩ .f32 0x00000000#32))
            (FloatOps.matmul D prec z wro (constant (F := Ideal) ⟨2, ![n, d]⟩ .f32 0x00000000#32)))
          (broadcastTo ⟨2, ![n, d]⟩ b hb))
        (mulf (broadcast ⟨2, ![n, d]⟩ (Scalar.ofBits (F := Ideal) .f32 w))
          (addf (addf (FloatOps.matmul D prec a wr (constant (F := Ideal) ⟨2, ![n, d]⟩ .f32 0x00000000#32))
              (FloatOps.matmul D prec z wro (constant (F := Ideal) ⟨2, ![n, d]⟩ .f32 0x00000000#32)))
            (broadcastTo ⟨2, ![n, d]⟩ b hb)))
        (ix2 p j)
      = if 0 ≤ (∑ q : Fin k, a (ix2 p q) * wr (ix2 q j) + ∑ q : Fin k, z (ix2 p q) * wro (ix2 q j)) + b (ix2 (0 : Fin 1) j)
        then (∑ q : Fin k, a (ix2 p q) * wr (ix2 q j) + ∑ q : Fin k, z (ix2 p q) * wro (ix2 q j)) + b (ix2 (0 : Fin 1) j)
        else Ideal.ofBits .f32 w
          * ((∑ q : Fin k, a (ix2 p q) * wr (ix2 q j) + ∑ q : Fin k, z (ix2 p q) * wro (ix2 q j)) + b (ix2 (0 : Fin 1) j)) := by
  rw [select_apply, cmpf_apply, mulf_apply, addf_apply, addf_apply, broadcast_apply, broadcast_apply,
    Cert.LibPlainDot.matmul_zero_apply D hD, Cert.LibPlainDot.matmul_zero_apply D hD, broadcastTo_1b_ab_apply]
  exact select_oge_zero w _

end Cert.LibConvTile

end
-- ==== Proof.Conv0.lean ====
/-
  Layer 1 of the network as the tiled kernel computes it: each of the region's two output arrays, after the grid's
  100 points, as ONE function of the arrays the region is entered with.

  Point t of the grid reads rows 2000·t … 2000·t + 1999 of the neighbour sums and of the node array, the two weights and the bias row whole, and stores, entry by entry, the leaky rectifier of
  (sums · W_rel + nodes · W_root) + bias into both outputs.
  Entry (p, j) of that block is entry (2000·t + p, j) of the layer applied to the whole arrays, since row 2000·t + p of
  a product depends on row 2000·t + p of its left factor only; the 100 blocks of 2000 rows cover the 200000 rows (row r is
  in block r / 2000), so each output array ends holding the layer of the whole arrays.
-/
import proofs.«148686_j90211493085314_1_alg».proof.Proof.Spec
import proofs.«148686_j90211493085314_1_alg».proof.Proof.LibConvTile
import proofs.«148686_j90211493085314_1_alg».proof.Proof.Gen.KernelIdeal.Frame
import Idealize.ShloMosaic.Lib.Pipeline.Value

set_option maxRecDepth 16384

noncomputable section

open scoped BigOperators

namespace Cert.KernelIdeal.ConvValue

open Cert.KernelIdeal Cert.KernelIdeal.Gen Idealize.ShloMosaic Idealize.ShloMosaic.TcCoe Idealize.SL.Sem Idealize.ShloMosaic.ValueIdx
open Idealize.ShloMosaic.Pipeline (Dat)

/-! ## The stored tile at an entry -/

/-- The tile stored as the activation, at entry (p, j), over any loaded blocks. -/
theorem tile0_apply (x0 x1 : Vec Ideal S2000x128 .f32) (xr xo : Vec Ideal S128x256 .bf16) (xb : Vec Ideal S1x256 .f32) (p : Fin 2000) (j : Fin 256) :
    k0_pay1 (F := Ideal) x0 x1 xr xo xb (ix2 p j)
      = Cert.Net.leaky Cert.Net.slope
          ((∑ q : Fin 128, x0 (ix2 p q) * xr (ix2 q j) + ∑ q : Fin 128, x1 (ix2 p q) * xo (ix2 q j)) + xb (ix2 (0 : Fin 1) j)) := by
  unfold k0_pay1
  simp only [shapeCast_self]
  exact Cert.LibConvTile.convTile_apply dot_S2000x128_S128x256_S2000x256_1_0_0_1_n_n rfl none _ _ _ _ _ _ _ p j

/-- The tile at a block entry y is the layer of the whole arrays at the array entry i, when i is y moved down by the
    block's first row r·2000, the row blocks are those rows of the arrays and the other blocks are the arrays whole. -/
theorem tile0_eq_layer (x0 x1 : Vec Ideal S2000x128 .f32) (xr xo : Vec Ideal S128x256 .bf16) (xb : Vec Ideal S1x256 .f32) (A Z : Cert.Spec.Mat 200000 128) (Wr Wro : Cert.Spec.Mat 128 256) (B : Cert.Spec.Mat 1 256)
    (r : ℕ) (y : S2000x256.Idx) (i : S200000x256.Idx)
    (hi0 : (i 0).val = 2000 * r + (y 0).val) (hi1 : (i 1).val = (y 1).val)
    (h0 : ∀ (u : S2000x128.Idx) (k : S200000x128.Idx), (k 0).val = 2000 * r + (u 0).val → (k 1).val = (u 1).val → x0 u = A k)
    (h1 : ∀ (u : S2000x128.Idx) (k : S200000x128.Idx), (k 0).val = 2000 * r + (u 0).val → (k 1).val = (u 1).val → x1 u = Z k)
    (hr : xr = Wr) (ho : xo = Wro) (hb : xb = B) :
    k0_pay1 (F := Ideal) x0 x1 xr xo xb y = Cert.Net.convK Cert.Net.slope A Z Wr B Wro i := by
  subst hr ho hb
  obtain ⟨p, j, rfl⟩ : ∃ (p : Fin 2000) (j : Fin 256), y = ix2 p j := ⟨y 0, y 1, eq_ix2 y⟩
  obtain ⟨p', j', rfl⟩ : ∃ (p' : Fin 200000) (j' : Fin 256), i = ix2 p' j' := ⟨i 0, i 1, eq_ix2 i⟩
  obtain rfl : j' = j := Fin.ext hi1
  have e0 : ∀ q : Fin 128, x0 (ix2 p q) = A (ix2 p' q) := fun q => h0 _ _ hi0 rfl
  have e1 : ∀ q : Fin 128, x1 (ix2 p q) = Z (ix2 p' q) := fun q => h1 _ _ hi0 rfl
  rw [tile0_apply]
  simp only [e0, e1]
  rfl

/-! ## The blocks the points read -/

/-- The printed index maps over the grid: a row window's block index at point t is (t, 0), a weight's or the bias
    row's (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Window 0's block at point t is rows 2000·t … 2000·t + 1999 of its array. -/
theorem rows0_0 (V : (c : Dev nD) → (b : Ref sig .tc) → Buf (Elt Ideal) ((c : Thread nD τ).loc b)) (c : Dev nD) (t : Fin cfg0.N) (u : S2000x128.Idx) (k : S200000x128.Idx)
    (hk0 : (k 0).val = 2000 * t.val + (u 0).val) (hk1 : (k 1).val = (u 1).val) :
    (iblk0 (F := Ideal) V c 0 t : Vec Ideal S2000x128 .f32) u = (V c main_v13 : S200000x128.Idx → EReal) k := by
  obtain ⟨e0_0, e0_1, e1_0, e1_1, e2_0, e2_1, e3_0, e3_1, e4_0, e4_1, e5_0, e5_1, e6_0, e6_1⟩ := blockIndex0 t
  unfold iblk0
  rw [View.read_apply]
  show V c main_v13 _ = V c main_v13 _
  congr 1
  funext a
  apply Fin.ext
  match a with
  | ⟨0, _⟩ => show win0_0.index t (0 : Fin 2) * 2000 + 1 * (u 0).val = (k 0).val; rw [e0_0, hk0]; omega
  | ⟨1, _⟩ => show win0_0.index t (1 : Fin 2) * 128 + 1 * (u 1).val = (k 1).val; rw [e0_1, hk1]; omega

/-- Window 1's block at point t is rows 2000·t … 2000·t + 1999 of its array. -/
theorem rows0_1 (V : (c : Dev nD) → (b : Ref sig .tc) → Buf (Elt Ideal) ((c : Thread nD τ).loc b)) (c : Dev nD) (t : Fin cfg0.N) (u : S2000x128.Idx) (k : S200000x128.Idx)
    (hk0 : (k 0).val = 2000 * t.val + (u 0).val) (hk1 : (k 1).val = (u 1).val) :
    (iblk0 (F := Ideal) V c 1 t : Vec Ideal S2000x128 .f32) u = (V c main_arg0 : S200000x128.Idx → EReal) k := by
  obtain ⟨e0_0, e0_1, e1_0, e1_1, e2_0, e2_1, e3_0, e3_1, e4_0, e4_1, e5_0, e5_1, e6_0, e6_1⟩ := blockIndex0 t
  unfold iblk0
  rw [View.read_apply]
  show V c main_arg0 _ = V c main_arg0 _
  congr 1
  funext a
  apply Fin.ext
  match a with
  | ⟨0, _⟩ => show win0_1.index t (0 : Fin 2) * 2000 + 1 * (u 0).val = (k 0).val; rw [e1_0, hk0]; omega
  | ⟨1, _⟩ => show win0_1.index t (1 : Fin 2) * 128 + 1 * (u 1).val = (k 1).val; rw [e1_1, hk1]; omega

/-- Window 2's block at every point is its whole array. -/
theorem whole0_2 (V : (c : Dev nD) → (b : Ref sig .tc) → Buf (Elt Ideal) ((c : Thread nD τ).loc b)) (c : Dev nD) (t : Fin cfg0.N) :
    (iblk0 (F := Ideal) V c 2 t : Vec Ideal S128x256 .bf16) = (V c main_v14 : S128x256.Idx → EReal) := by
  obtain ⟨e0_0, e0_1, e1_0, e1_1, e2_0, e2_1, e3_0, e3_1, e4_0, e4_1, e5_0, e5_1, e6_0, e6_1⟩ := blockIndex0 t
  funext u
  unfold iblk0
  rw [View.read_apply]
  show V c main_v14 _ = V c main_v14 _
  congr 1
  funext a
  apply Fin.ext
  match a with
  | ⟨0, _⟩ => show win0_2.index t (0 : Fin 2) * 128 + 1 * (u 0).val = (u 0).val; rw [e2_0]; omega
  | ⟨1, _⟩ => show win0_2.index t (1 : Fin 2) * 256 + 1 * (u 1).val = (u 1).val; rw [e2_1]; omega

/-- Window 3's block at every point is its whole array. -/
theorem whole0_3 (V : (c : Dev nD) → (b : Ref sig .tc) → Buf (Elt Ideal) ((c : Thread nD τ).loc b)) (c : Dev nD) (t : Fin cfg0.N) :
    (iblk0 (F := Ideal) V c 3 t : Vec Ideal S1x256 .f32) = (V c main_v16 : S1x256.Idx → EReal) := by
  obtain ⟨e0_0, e0_1, e1_0, e1_1, e2_0, e2_1, e3_0, e3_1, e4_0, e4_1, e5_0, e5_1, e6_0, e6_1⟩ := blockIndex0 t
  funext u
  unfold iblk0
  rw [View.read_apply]
  show V c main_v16 _ = V c main_v16 _
  congr 1
  funext a
  apply Fin.ext
  match a with
  | ⟨0, _⟩ => show win0_3.index t (0 : Fin 2) * 1 + 1 * (u 0).val = (u 0).val; rw [e3_0]; omega
  | ⟨1, _⟩ => show win0_3.index t (1 : Fin 2) * 256 + 1 * (u 1).val = (u 1).val; rw [e3_1]; omega

/-- Window 4's block at every point is its whole array. -/
theorem whole0_4 (V : (c : Dev nD) → (b : Ref sig .tc) → Buf (Elt Ideal) ((c : Thread nD τ).loc b)) (c : Dev nD) (t : Fin cfg0.N) :
    (iblk0 (F := Ideal) V c 4 t : Vec Ideal S128x256 .bf16) = (V c main_v15 : S128x256.Idx → EReal) := by
  obtain ⟨e0_0, e0_1, e1_0, e1_1, e2_0, e2_1, e3_0, e3_1, e4_0, e4_1, e5_0, e5_1, e6_0, e6_1⟩ := blockIndex0 t
  funext u
  unfold iblk0
  rw [View.read_apply]
  show V c main_v15 _ = V c main_v15 _
  congr 1
  funext a
  apply Fin.ext
  match a with
  | ⟨0, _⟩ => show win0_4.index t (0 : Fin 2) * 128 + 1 * (u 0).val = (u 0).val; rw [e4_0]; omega
  | ⟨1, _⟩ => show win0_4.index t (1 : Fin 2) * 256 + 1 * (u 1).val = (u 1).val; rw [e4_1]; omega

/-! ## Output window 5 -/

/-- What point t writes back to window 5's array is block t of the layer of the whole arrays. -/
theorem written0_5 (V : (c : Dev nD) → (b : Ref sig .tc) → Buf (Elt Ideal) ((c : Thread nD τ).loc b)) (c : Dev nD) (t : Fin cfg0.N) :
    (dat0 (F := Ideal) V c).flushed 5 t
      = ((cfg0.win 5).blk t).view.read (Elt Ideal) (Cert.Net.convK Cert.Net.slope (V c main_v13) (V c main_arg0) (V c main_v14) (V c main_v16) (V c main_v15) : S200000x256.Idx → EReal) := by
  show (cfg0.win 5).cut (grid0.coords t) ((dat0 (F := Ideal) V c).after 5 t) = _
  rw [after0_5]
  unfold out0_5
  rw [View.canon_unit_zero Cert.LibConvTile.zero_offsets]
  simp only [View.ld_unit_zero (S := S2000x128) Cert.LibConvTile.zero_offsets, View.ld_unit_zero (S := S128x256) Cert.LibConvTile.zero_offsets, View.ld_unit_zero (S := S1x256) Cert.LibConvTile.zero_offsets]
  obtain ⟨e0_0, e0_1, e1_0, e1_1, e2_0, e2_1, e3_0, e3_1, e4_0, e4_1, e5_0, e5_1, e6_0, e6_1⟩ := blockIndex0 t
  funext y
  show k0_pay1 (F := Ideal) (iblk0 V c 0 t) (iblk0 V c 1 t) (iblk0 V c 2 t) (iblk0 V c 4 t) (iblk0 V c 3 t) y = (Cert.Net.convK Cert.Net.slope (V c main_v13) (V c main_arg0) (V c main_v14) (V c main_v16) (V c main_v15) : S200000x256.Idx → EReal) (((cfg0.win 5).blk t).view.emb y)
  refine tile0_eq_layer _ _ _ _ _ (V c main_v13) (V c main_arg0) (V c main_v14) (V c main_v15) (V c main_v16) t.val y _ ?_ ?_ (fun u k h0 h1 => rows0_0 V c t u k h0 h1) (fun u k h0 h1 => rows0_1 V c t u k h0 h1) (whole0_2 V c t) (whole0_4 V c t) (whole0_3 V c t)
  · show win0_5.index t (0 : Fin 2) * 2000 + 1 * (y 0).val = 2000 * t.val + (y 0).val
    rw [e5_0]; omega
  · show win0_5.index t (1 : Fin 2) * 256 + 1 * (y 1).val = (y 1).val
    rw [e5_1]; omega

/-- An index of window 5's array is in point t's block iff each coordinate is in the block's range on its axis. -/
theorem inBlock0_5 (t : Fin cfg0.N) (i : S200000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v17_0).slice (win0_5.rect t)).set ↔ _
  rw [View.set_slice_whole, Rect.mem_set_unit]
  exact Iff.rfl

/-- Every index of window 5's array is in some point's block: row r is in the block of point r / 2000. -/
theorem covered0_5 (i : S200000x256.Idx) :
    ∃ t : Fin cfg0.N, (cfg0.win 5).flush t = true ∧ i ∈ ((cfg0.win 5).blk t).view.set := by
  have hi0 : (i 0).val < 200000 := (i 0).isLt
  have hi1 : (i 1).val < 256 := (i 1).isLt
  have hN : cfg0.N = 100 := N_0
  obtain ⟨t, ht⟩ : ∃ t : Fin cfg0.N, t.val = (i 0).val / 2000 := ⟨⟨(i 0).val / 2000, by rw [hN]; omega⟩, rfl⟩
  obtain ⟨e0_0, e0_1, e1_0, e1_1, e2_0, e2_1, e3_0, e3_1, e4_0, e4_1, e5_0, e5_1, e6_0, e6_1⟩ := blockIndex0 t
  refine ⟨t, flush0_5 t, ?_⟩
  rw [inBlock0_5]
  intro a
  match a with
  | ⟨0, _⟩ => show win0_5.index t (0 : Fin 2) * 2000 ≤ (i 0).val ∧ (i 0).val < win0_5.index t (0 : Fin 2) * 2000 + 2000; rw [e5_0]; omega
  | ⟨1, _⟩ => show win0_5.index t (1 : Fin 2) * 256 ≤ (i 1).val ∧ (i 1).val < win0_5.index t (1 : Fin 2) * 256 + 256; rw [e5_1]; omega

/-- Window 5's array after the grid's last point: the layer of the arrays the region is entered with. -/
theorem region0_act (V : (c : Dev nD) → (b : Ref sig .tc) → Buf (Elt Ideal) ((c : Thread nD τ).loc b)) (c : Dev nD) :
    (dat0 (F := Ideal) V c).arrAt 5 cfg0.N = Cert.Net.convK Cert.Net.slope (V c main_v13) (V c main_arg0) (V c main_v14) (V c main_v16) (V c main_v15) :=
  (dat0 (F := Ideal) V c).arrAt_eq_of_cover 5 (Cert.Net.convK Cert.Net.slope (V c main_v13) (V c main_arg0) (V c main_v14) (V c main_v16) (V c main_v15) : S200000x256.Idx → EReal)
    (fun t _ => written0_5 V c t) covered0_5

/-! ## Output window 6 -/

/-- What point t writes back to window 6's array is block t of the layer of the whole arrays. -/
theorem written0_6 (V : (c : Dev nD) → (b : Ref sig .tc) → Buf (Elt Ideal) ((c : Thread nD τ).loc b)) (c : Dev nD) (t : Fin cfg0.N) :
    (dat0 (F := Ideal) V c).flushed 6 t
      = ((cfg0.win 6).blk t).view.read (Elt Ideal) (Cert.Net.convK Cert.Net.slope (V c main_v13) (V c main_arg0) (V c main_v14) (V c main_v16) (V c main_v15) : S200000x256.Idx → EReal) := by
  show (cfg0.win 6).cut (grid0.coords t) ((dat0 (F := Ideal) V c).after 6 t) = _
  rw [after0_6]
  unfold out0_6
  rw [View.canon_unit_zero Cert.LibConvTile.zero_offsets]
  simp only [View.ld_unit_zero (S := S2000x128) Cert.LibConvTile.zero_offsets, View.ld_unit_zero (S := S128x256) Cert.LibConvTile.zero_offsets, View.ld_unit_zero (S := S1x256) Cert.LibConvTile.zero_offsets]
  obtain ⟨e0_0, e0_1, e1_0, e1_1, e2_0, e2_1, e3_0, e3_1, e4_0, e4_1, e5_0, e5_1, e6_0, e6_1⟩ := blockIndex0 t
  funext y
  show k0_pay1 (F := Ideal) (iblk0 V c 0 t) (iblk0 V c 1 t) (iblk0 V c 2 t) (iblk0 V c 4 t) (iblk0 V c 3 t) y = (Cert.Net.convK Cert.Net.slope (V c main_v13) (V c main_arg0) (V c main_v14) (V c main_v16) (V c main_v15) : S200000x256.Idx → EReal) (((cfg0.win 6).blk t).view.emb y)
  refine tile0_eq_layer _ _ _ _ _ (V c main_v13) (V c main_arg0) (V c main_v14) (V c main_v15) (V c main_v16) t.val y _ ?_ ?_ (fun u k h0 h1 => rows0_0 V c t u k h0 h1) (fun u k h0 h1 => rows0_1 V c t u k h0 h1) (whole0_2 V c t) (whole0_4 V c t) (whole0_3 V c t)
  · show win0_6.index t (0 : Fin 2) * 2000 + 1 * (y 0).val = 2000 * t.val + (y 0).val
    rw [e6_0]; omega
  · show win0_6.index t (1 : Fin 2) * 256 + 1 * (y 1).val = (y 1).val
    rw [e6_1]; omega

/-- An index of window 6's array is in point t's block iff each coordinate is in the block's range on its axis. -/
theorem inBlock0_6 (t : Fin cfg0.N) (i : S200000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v17_1).slice (win0_6.rect t)).set ↔ _
  rw [View.set_slice_whole, Rect.mem_set_unit]
  exact Iff.rfl

/-- Every index of window 6's array is in some point's block: row r is in the block of point r / 2000. -/
theorem covered0_6 (i : S200000x256.Idx) :
    ∃ t : Fin cfg0.N, (cfg0.win 6).flush t = true ∧ i ∈ ((cfg0.win 6).blk t).view.set := by
  have hi0 : (i 0).val < 200000 := (i 0).isLt
  have hi1 : (i 1).val < 256 := (i 1).isLt
  have hN : cfg0.N = 100 := N_0
  obtain ⟨t, ht⟩ : ∃ t : Fin cfg0.N, t.val = (i 0).val / 2000 := ⟨⟨(i 0).val / 2000, by rw [hN]; omega⟩, rfl⟩
  obtain ⟨e0_0, e0_1, e1_0, e1_1, e2_0, e2_1, e3_0, e3_1, e4_0, e4_1, e5_0, e5_1, e6_0, e6_1⟩ := blockIndex0 t
  refine ⟨t, flush0_6 t, ?_⟩
  rw [inBlock0_6]
  intro a
  match a with
  | ⟨0, _⟩ => show win0_6.index t (0 : Fin 2) * 2000 ≤ (i 0).val ∧ (i 0).val < win0_6.index t (0 : Fin 2) * 2000 + 2000; rw [e6_0]; omega
  | ⟨1, _⟩ => show win0_6.index t (1 : Fin 2) * 256 ≤ (i 1).val ∧ (i 1).val < win0_6.index t (1 : Fin 2) * 256 + 256; rw [e6_1]; omega

/-- Window 6's array after the grid's last point: the layer of the arrays the region is entered with. -/
theorem region0_next (V : (c : Dev nD) → (b : Ref sig .tc) → Buf (Elt Ideal) ((c : Thread nD τ).loc b)) (c : Dev nD) :
    (dat0 (F := Ideal) V c).arrAt 6 cfg0.N = Cert.Net.convK Cert.Net.slope (V c main_v13) (V c main_arg0) (V c main_v14) (V c main_v16) (V c main_v15) :=
  (dat0 (F := Ideal) V c).arrAt_eq_of_cover 6 (Cert.Net.convK Cert.Net.slope (V c main_v13) (V c main_arg0) (V c main_v14) (V c main_v16) (V c main_v15) : S200000x256.Idx → EReal)
    (fun t _ => written0_6 V c t) covered0_6

end Cert.KernelIdeal.ConvValue

end
-- ==== Proof.Conv1.lean ====
/-
  Layer 2 of the network as the tiled kernel computes it: each of the region's two output arrays, after the grid's
  100 points, as ONE function of the arrays the region is entered with.

  Point t of the grid reads rows 2000·t … 2000·t + 1999 of the neighbour sums, of the node array and of the previous activation, the two weights and the bias row whole, and stores, entry by entry, the leaky rectifier of
  (sums · W_rel + nodes · W_root) + bias (first output) and that plus the previous activation's entry (second output).
  Entry (p, j) of that block is entry (2000·t + p, j) of the layer applied to the whole arrays, since row 2000·t + p of
  a product depends on row 2000·t + p of its left factor only; the 100 blocks of 2000 rows cover the 200000 rows (row r is
  in block r / 2000), so each output array ends holding the layer of the whole arrays.
-/
import proofs.«148686_j90211493085314_1_alg».proof.Proof.Spec
import proofs.«148686_j90211493085314_1_alg».proof.Proof.LibConvTile
import proofs.«148686_j90211493085314_1_alg».proof.Proof.Gen.KernelIdeal.Frame
import Idealize.ShloMosaic.Lib.Pipeline.Value

set_option maxRecDepth 16384

noncomputable section

open scoped BigOperators

namespace Cert.KernelIdeal.ConvValue

open Cert.KernelIdeal Cert.KernelIdeal.Gen Idealize.ShloMosaic Idealize.ShloMosaic.TcCoe Idealize.SL.Sem Idealize.ShloMosaic.ValueIdx
open Idealize.ShloMosaic.Pipeline (Dat)

/-! ## The stored tile at an entry -/

/-- The tile stored as the activation, at entry (p, j), over any loaded blocks. -/
theorem tile1_apply (x0 x1 : Vec Ideal S2000x256 .f32) (xr xo : Vec Ideal S256x256 .bf16) (xb : Vec Ideal S1x256 .f32) (p : Fin 2000) (j : Fin 256) :
    k1_pay1 (F := Ideal) x0 x1 xr xo xb (ix2 p j)
      = Cert.Net.leaky Cert.Net.slope
          ((∑ q : Fin 256, x0 (ix2 p q) * xr (ix2 q j) + ∑ q : Fin 256, x1 (ix2 p q) * xo (ix2 q j)) + xb (ix2 (0 : Fin 1) j)) := by
  unfold k1_pay1
  simp only [shapeCast_self]
  exact Cert.LibConvTile.convTile_apply dot_S2000x256_S256x256_S2000x256_1_0_0_1_n_n rfl none _ _ _ _ _ _ _ p j

/-- The tile at a block entry y is the layer of the whole arrays at the array entry i, when i is y moved down by the
    block's first row r·2000, the row blocks are those rows of the arrays and the other blocks are the arrays whole. -/
theorem tile1_eq_layer (x0 x1 : Vec Ideal S2000x256 .f32) (xr xo : Vec Ideal S256x256 .bf16) (xb : Vec Ideal S1x256 .f32) (A Z : Cert.Spec.Mat 200000 256) (Wr Wro : Cert.Spec.Mat 256 256) (B : Cert.Spec.Mat 1 256)
    (r : ℕ) (y : S2000x256.Idx) (i : S200000x256.Idx)
    (hi0 : (i 0).val = 2000 * r + (y 0).val) (hi1 : (i 1).val = (y 1).val)
    (h0 : ∀ (u : S2000x256.Idx) (k : S200000x256.Idx), (k 0).val = 2000 * r + (u 0).val → (k 1).val = (u 1).val → x0 u = A k)
    (h1 : ∀ (u : S2000x256.Idx) (k : S200000x256.Idx), (k 0).val = 2000 * r + (u 0).val → (k 1).val = (u 1).val → x1 u = Z k)
    (hr : xr = Wr) (ho : xo = Wro) (hb : xb = B) :
    k1_pay1 (F := Ideal) x0 x1 xr xo xb y = Cert.Net.convK Cert.Net.slope A Z Wr B Wro i := by
  subst hr ho hb
  obtain ⟨p, j, rfl⟩ : ∃ (p : Fin 2000) (j : Fin 256), y = ix2 p j := ⟨y 0, y 1, eq_ix2 y⟩
  obtain ⟨p', j', rfl⟩ : ∃ (p' : Fin 200000) (j' : Fin 256), i = ix2 p' j' := ⟨i 0, i 1, eq_ix2 i⟩
  obtain rfl : j' = j := Fin.ext hi1
  have e0 : ∀ q : Fin 256, x0 (ix2 p q) = A (ix2 p' q) := fun q => h0 _ _ hi0 rfl
  have e1 : ∀ q : Fin 256, x1 (ix2 p q) = Z (ix2 p' q) := fun q => h1 _ _ hi0 rfl
  rw [tile1_apply]
  simp only [e0, e1]
  rfl

/-- The second output's tile: the activation's plus the previous activation's block, entry by entry. -/
theorem next1_eq_layer (x0 x1 : Vec Ideal S2000x256 .f32) (xr xo : Vec Ideal S256x256 .bf16) (xb : Vec Ideal S1x256 .f32) (x2 : Vec Ideal S2000x256 .f32) (A Z : Cert.Spec.Mat 200000 256) (Wr Wro : Cert.Spec.Mat 256 256) (B : Cert.Spec.Mat 1 256) (Pv : Cert.Spec.Mat 200000 256)
    (r : ℕ) (y : S2000x256.Idx) (i : S200000x256.Idx)
    (hi0 : (i 0).val = 2000 * r + (y 0).val) (hi1 : (i 1).val = (y 1).val)
    (h0 : ∀ (u : S2000x256.Idx) (k : S200000x256.Idx), (k 0).val = 2000 * r + (u 0).val → (k 1).val = (u 1).val → x0 u = A k)
    (h1 : ∀ (u : S2000x256.Idx) (k : S200000x256.Idx), (k 0).val = 2000 * r + (u 0).val → (k 1).val = (u 1).val → x1 u = Z k)
    (h2 : ∀ (u : S2000x256.Idx) (k : S200000x256.Idx), (k 0).val = 2000 * r + (u 0).val → (k 1).val = (u 1).val → x2 u = Pv k)
    (hr : xr = Wr) (ho : xo = Wro) (hb : xb = B) :
    k1_pay2 (F := Ideal) x0 x1 xr xo xb x2 y = Cert.Net.addM (Cert.Net.convK Cert.Net.slope A Z Wr B Wro) Pv i := by
  unfold k1_pay2
  simp only [shapeCast_self]
  rw [addf_apply, tile1_eq_layer x0 x1 xr xo xb A Z Wr Wro B r y i hi0 hi1 h0 h1 hr ho hb, h2 y i hi0 hi1]
  rfl

/-! ## The blocks the points read -/

/-- The printed index maps over the grid: a row window's block index at point t is (t, 0), a weight's or the bias
    row's (0, 0). -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Window 0's block at point t is rows 2000·t … 2000·t + 1999 of its array. -/
theorem rows1_0 (V : (c : Dev nD) → (b : Ref sig .tc) → Buf (Elt Ideal) ((c : Thread nD τ).loc b)) (c : Dev nD) (t : Fin cfg1.N) (u : S2000x256.Idx) (k : S200000x256.Idx)
    (hk0 : (k 0).val = 2000 * t.val + (u 0).val) (hk1 : (k 1).val = (u 1).val) :
    (iblk1 (F := Ideal) V c 0 t : Vec Ideal S2000x256 .f32) u = (V c main_v27 : S200000x256.Idx → EReal) k := by
  obtain ⟨e0_0, e0_1, e1_0, e1_1, e2_0, e2_1, e3_0, e3_1, e4_0, e4_1, e5_0, e5_1, e6_0, e6_1, e7_0, e7_1⟩ := blockIndex1 t
  unfold iblk1
  rw [View.read_apply]
  show V c main_v27 _ = V c main_v27 _
  congr 1
  funext a
  apply Fin.ext
  match a with
  | ⟨0, _⟩ => show win1_0.index t (0 : Fin 2) * 2000 + 1 * (u 0).val = (k 0).val; rw [e0_0, hk0]; omega
  | ⟨1, _⟩ => show win1_0.index t (1 : Fin 2) * 256 + 1 * (u 1).val = (k 1).val; rw [e0_1, hk1]; omega

/-- Window 1's block at point t is rows 2000·t … 2000·t + 1999 of its array. -/
theorem rows1_1 (V : (c : Dev nD) → (b : Ref sig .tc) → Buf (Elt Ideal) ((c : Thread nD τ).loc b)) (c : Dev nD) (t : Fin cfg1.N) (u : S2000x256.Idx) (k : S200000x256.Idx)
    (hk0 : (k 0).val = 2000 * t.val + (u 0).val) (hk1 : (k 1).val = (u 1).val) :
    (iblk1 (F := Ideal) V c 1 t : Vec Ideal S2000x256 .f32) u = (V c main_v17_1 : S200000x256.Idx → EReal) k := by
  obtain ⟨e0_0, e0_1, e1_0, e1_1, e2_0, e2_1, e3_0, e3_1, e4_0, e4_1, e5_0, e5_1, e6_0, e6_1, e7_0, e7_1⟩ := blockIndex1 t
  unfold iblk1
  rw [View.read_apply]
  show V c main_v17_1 _ = V c main_v17_1 _
  congr 1
  funext a
  apply Fin.ext
  match a with
  | ⟨0, _⟩ => show win1_1.index t (0 : Fin 2) * 2000 + 1 * (u 0).val = (k 0).val; rw [e1_0, hk0]; omega
  | ⟨1, _⟩ => show win1_1.index t (1 : Fin 2) * 256 + 1 * (u 1).val = (k 1).val; rw [e1_1, hk1]; omega

/-- Window 2's block at point t is rows 2000·t … 2000·t + 1999 of its array. -/
theorem rows1_2 (V : (c : Dev nD) → (b : Ref sig .tc) → Buf (Elt Ideal) ((c : Thread nD τ).loc b)) (c : Dev nD) (t : Fin cfg1.N) (u : S2000x256.Idx) (k : S200000x256.Idx)
    (hk0 : (k 0).val = 2000 * t.val + (u 0).val) (hk1 : (k 1).val = (u 1).val) :
    (iblk1 (F := Ideal) V c 2 t : Vec Ideal S2000x256 .f32) u = (V c main_v17_0 : S200000x256.Idx → EReal) k := by
  obtain ⟨e0_0, e0_1, e1_0, e1_1, e2_0, e2_1, e3_0, e3_1, e4_0, e4_1, e5_0, e5_1, e6_0, e6_1, e7_0, e7_1⟩ := blockIndex1 t
  unfold iblk1
  rw [View.read_apply]
  show V c main_v17_0 _ = V c main_v17_0 _
  congr 1
  funext a
  apply Fin.ext
  match a with
  | ⟨0, _⟩ => show win1_2.index t (0 : Fin 2) * 2000 + 1 * (u 0).val = (k 0).val; rw [e2_0, hk0]; omega
  | ⟨1, _⟩ => show win1_2.index t (1 : Fin 2) * 256 + 1 * (u 1).val = (k 1).val; rw [e2_1, hk1]; omega

/-- Window 3's block at every point is its whole array. -/
theorem whole1_3 (V : (c : Dev nD) → (b : Ref sig .tc) → Buf (Elt Ideal) ((c : Thread nD τ).loc b)) (c : Dev nD) (t : Fin cfg1.N) :
    (iblk1 (F := Ideal) V c 3 t : Vec Ideal S256x256 .bf16) = (V c main_v28 : S256x256.Idx → EReal) := by
  obtain ⟨e0_0, e0_1, e1_0, e1_1, e2_0, e2_1, e3_0, e3_1, e4_0, e4_1, e5_0, e5_1, e6_0, e6_1, e7_0, e7_1⟩ := blockIndex1 t
  funext u
  unfold iblk1
  rw [View.read_apply]
  show V c main_v28 _ = V c main_v28 _
  congr 1
  funext a
  apply Fin.ext
  match a with
  | ⟨0, _⟩ => show win1_3.index t (0 : Fin 2) * 256 + 1 * (u 0).val = (u 0).val; rw [e3_0]; omega
  | ⟨1, _⟩ => show win1_3.index t (1 : Fin 2) * 256 + 1 * (u 1).val = (u 1).val; rw [e3_1]; omega

/-- Window 4's block at every point is its whole array. -/
theorem whole1_4 (V : (c : Dev nD) → (b : Ref sig .tc) → Buf (Elt Ideal) ((c : Thread nD τ).loc b)) (c : Dev nD) (t : Fin cfg1.N) :
    (iblk1 (F := Ideal) V c 4 t : Vec Ideal S1x256 .f32) = (V c main_v30 : S1x256.Idx → EReal) := by
  obtain ⟨e0_0, e0_1, e1_0, e1_1, e2_0, e2_1, e3_0, e3_1, e4_0, e4_1, e5_0, e5_1, e6_0, e6_1, e7_0, e7_1⟩ := blockIndex1 t
  funext u
  unfold iblk1
  rw [View.read_apply]
  show V c main_v30 _ = V c main_v30 _
  congr 1
  funext a
  apply Fin.ext
  match a with
  | ⟨0, _⟩ => show win1_4.index t (0 : Fin 2) * 1 + 1 * (u 0).val = (u 0).val; rw [e4_0]; omega
  | ⟨1, _⟩ => show win1_4.index t (1 : Fin 2) * 256 + 1 * (u 1).val = (u 1).val; rw [e4_1]; omega

/-- Window 5's block at every point is its whole array. -/
theorem whole1_5 (V : (c : Dev nD) → (b : Ref sig .tc) → Buf (Elt Ideal) ((c : Thread nD τ).loc b)) (c : Dev nD) (t : Fin cfg1.N) :
    (iblk1 (F := Ideal) V c 5 t : Vec Ideal S256x256 .bf16) = (V c main_v29 : S256x256.Idx → EReal) := by
  obtain ⟨e0_0, e0_1, e1_0, e1_1, e2_0, e2_1, e3_0, e3_1, e4_0, e4_1, e5_0, e5_1, e6_0, e6_1, e7_0, e7_1⟩ := blockIndex1 t
  funext u
  unfold iblk1
  rw [View.read_apply]
  show V c main_v29 _ = V c main_v29 _
  congr 1
  funext a
  apply Fin.ext
  match a with
  | ⟨0, _⟩ => show win1_5.index t (0 : Fin 2) * 256 + 1 * (u 0).val = (u 0).val; rw [e5_0]; omega
  | ⟨1, _⟩ => show win1_5.index t (1 : Fin 2) * 256 + 1 * (u 1).val = (u 1).val; rw [e5_1]; omega

/-! ## Output window 6 -/

/-- What point t writes back to window 6's array is block t of the layer of the whole arrays. -/
theorem written1_6 (V : (c : Dev nD) → (b : Ref sig .tc) → Buf (Elt Ideal) ((c : Thread nD τ).loc b)) (c : Dev nD) (t : Fin cfg1.N) :
    (dat1 (F := Ideal) V c).flushed 6 t
      = ((cfg1.win 6).blk t).view.read (Elt Ideal) (Cert.Net.convK Cert.Net.slope (V c main_v27) (V c main_v17_1) (V c main_v28) (V c main_v30) (V c main_v29) : S200000x256.Idx → EReal) := by
  show (cfg1.win 6).cut (grid1.coords t) ((dat1 (F := Ideal) V c).after 6 t) = _
  rw [after1_6]
  unfold out1_6
  rw [View.canon_unit_zero Cert.LibConvTile.zero_offsets]
  simp only [View.ld_unit_zero (S := S2000x256) Cert.LibConvTile.zero_offsets, View.ld_unit_zero (S := S256x256) Cert.LibConvTile.zero_offsets, View.ld_unit_zero (S := S1x256) Cert.LibConvTile.zero_offsets]
  obtain ⟨e0_0, e0_1, e1_0, e1_1, e2_0, e2_1, e3_0, e3_1, e4_0, e4_1, e5_0, e5_1, e6_0, e6_1, e7_0, e7_1⟩ := blockIndex1 t
  funext y
  show k1_pay1 (F := Ideal) (iblk1 V c 0 t) (iblk1 V c 1 t) (iblk1 V c 3 t) (iblk1 V c 5 t) (iblk1 V c 4 t) y = (Cert.Net.convK Cert.Net.slope (V c main_v27) (V c main_v17_1) (V c main_v28) (V c main_v30) (V c main_v29) : S200000x256.Idx → EReal) (((cfg1.win 6).blk t).view.emb y)
  refine tile1_eq_layer _ _ _ _ _ (V c main_v27) (V c main_v17_1) (V c main_v28) (V c main_v29) (V c main_v30) t.val y _ ?_ ?_ (fun u k h0 h1 => rows1_0 V c t u k h0 h1) (fun u k h0 h1 => rows1_1 V c t u k h0 h1) (whole1_3 V c t) (whole1_5 V c t) (whole1_4 V c t)
  · show win1_6.index t (0 : Fin 2) * 2000 + 1 * (y 0).val = 2000 * t.val + (y 0).val
    rw [e6_0]; omega
  · show win1_6.index t (1 : Fin 2) * 256 + 1 * (y 1).val = (y 1).val
    rw [e6_1]; omega

/-- An index of window 6's array is in point t's block iff each coordinate is in the block's range on its axis. -/
theorem inBlock1_6 (t : Fin cfg1.N) (i : S200000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v31_0).slice (win1_6.rect t)).set ↔ _
  rw [View.set_slice_whole, Rect.mem_set_unit]
  exact Iff.rfl

/-- Every index of window 6's array is in some point's block: row r is in the block of point r / 2000. -/
theorem covered1_6 (i : S200000x256.Idx) :
    ∃ t : Fin cfg1.N, (cfg1.win 6).flush t = true ∧ i ∈ ((cfg1.win 6).blk t).view.set := by
  have hi0 : (i 0).val < 200000 := (i 0).isLt
  have hi1 : (i 1).val < 256 := (i 1).isLt
  have hN : cfg1.N = 100 := N_1
  obtain ⟨t, ht⟩ : ∃ t : Fin cfg1.N, t.val = (i 0).val / 2000 := ⟨⟨(i 0).val / 2000, by rw [hN]; omega⟩, rfl⟩
  obtain ⟨e0_0, e0_1, e1_0, e1_1, e2_0, e2_1, e3_0, e3_1, e4_0, e4_1, e5_0, e5_1, e6_0, e6_1, e7_0, e7_1⟩ := blockIndex1 t
  refine ⟨t, flush1_6 t, ?_⟩
  rw [inBlock1_6]
  intro a
  match a with
  | ⟨0, _⟩ => show win1_6.index t (0 : Fin 2) * 2000 ≤ (i 0).val ∧ (i 0).val < win1_6.index t (0 : Fin 2) * 2000 + 2000; rw [e6_0]; omega
  | ⟨1, _⟩ => show win1_6.index t (1 : Fin 2) * 256 ≤ (i 1).val ∧ (i 1).val < win1_6.index t (1 : Fin 2) * 256 + 256; rw [e6_1]; omega

/-- Window 6's array after the grid's last point: the layer of the arrays the region is entered with. -/
theorem region1_act (V : (c : Dev nD) → (b : Ref sig .tc) → Buf (Elt Ideal) ((c : Thread nD τ).loc b)) (c : Dev nD) :
    (dat1 (F := Ideal) V c).arrAt 6 cfg1.N = Cert.Net.convK Cert.Net.slope (V c main_v27) (V c main_v17_1) (V c main_v28) (V c main_v30) (V c main_v29) :=
  (dat1 (F := Ideal) V c).arrAt_eq_of_cover 6 (Cert.Net.convK Cert.Net.slope (V c main_v27) (V c main_v17_1) (V c main_v28) (V c main_v30) (V c main_v29) : S200000x256.Idx → EReal)
    (fun t _ => written1_6 V c t) covered1_6

/-! ## Output window 7 -/

/-- What point t writes back to window 7's array is block t of the layer plus the previous activation of the whole arrays. -/
theorem written1_7 (V : (c : Dev nD) → (b : Ref sig .tc) → Buf (Elt Ideal) ((c : Thread nD τ).loc b)) (c : Dev nD) (t : Fin cfg1.N) :
    (dat1 (F := Ideal) V c).flushed 7 t
      = ((cfg1.win 7).blk t).view.read (Elt Ideal) (Cert.Net.addM (Cert.Net.convK Cert.Net.slope (V c main_v27) (V c main_v17_1) (V c main_v28) (V c main_v30) (V c main_v29)) (V c main_v17_0) : S200000x256.Idx → EReal) := by
  show (cfg1.win 7).cut (grid1.coords t) ((dat1 (F := Ideal) V c).after 7 t) = _
  rw [after1_7]
  unfold out1_7
  rw [View.canon_unit_zero Cert.LibConvTile.zero_offsets]
  simp only [View.ld_unit_zero (S := S2000x256) Cert.LibConvTile.zero_offsets, View.ld_unit_zero (S := S256x256) Cert.LibConvTile.zero_offsets, View.ld_unit_zero (S := S1x256) Cert.LibConvTile.zero_offsets]
  obtain ⟨e0_0, e0_1, e1_0, e1_1, e2_0, e2_1, e3_0, e3_1, e4_0, e4_1, e5_0, e5_1, e6_0, e6_1, e7_0, e7_1⟩ := blockIndex1 t
  funext y
  show k1_pay2 (F := Ideal) (iblk1 V c 0 t) (iblk1 V c 1 t) (iblk1 V c 3 t) (iblk1 V c 5 t) (iblk1 V c 4 t) (iblk1 V c 2 t) y = (Cert.Net.addM (Cert.Net.convK Cert.Net.slope (V c main_v27) (V c main_v17_1) (V c main_v28) (V c main_v30) (V c main_v29)) (V c main_v17_0) : S200000x256.Idx → EReal) (((cfg1.win 7).blk t).view.emb y)
  refine next1_eq_layer _ _ _ _ _ _ (V c main_v27) (V c main_v17_1) (V c main_v28) (V c main_v29) (V c main_v30) (V c main_v17_0) t.val y _ ?_ ?_ (fun u k h0 h1 => rows1_0 V c t u k h0 h1) (fun u k h0 h1 => rows1_1 V c t u k h0 h1) (fun u k h0 h1 => rows1_2 V c t u k h0 h1) (whole1_3 V c t) (whole1_5 V c t) (whole1_4 V c t)
  · show win1_7.index t (0 : Fin 2) * 2000 + 1 * (y 0).val = 2000 * t.val + (y 0).val
    rw [e7_0]; omega
  · show win1_7.index t (1 : Fin 2) * 256 + 1 * (y 1).val = (y 1).val
    rw [e7_1]; omega

/-- An index of window 7's array is in point t's block iff each coordinate is in the block's range on its axis. -/
theorem inBlock1_7 (t : Fin cfg1.N) (i : S200000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v31_1).slice (win1_7.rect t)).set ↔ _
  rw [View.set_slice_whole, Rect.mem_set_unit]
  exact Iff.rfl

/-- Every index of window 7's array is in some point's block: row r is in the block of point r / 2000. -/
theorem covered1_7 (i : S200000x256.Idx) :
    ∃ t : Fin cfg1.N, (cfg1.win 7).flush t = true ∧ i ∈ ((cfg1.win 7).blk t).view.set := by
  have hi0 : (i 0).val < 200000 := (i 0).isLt
  have hi1 : (i 1).val < 256 := (i 1).isLt
  have hN : cfg1.N = 100 := N_1
  obtain ⟨t, ht⟩ : ∃ t : Fin cfg1.N, t.val = (i 0).val / 2000 := ⟨⟨(i 0).val / 2000, by rw [hN]; omega⟩, rfl⟩
  obtain ⟨e0_0, e0_1, e1_0, e1_1, e2_0, e2_1, e3_0, e3_1, e4_0, e4_1, e5_0, e5_1, e6_0, e6_1, e7_0, e7_1⟩ := blockIndex1 t
  refine ⟨t, flush1_7 t, ?_⟩
  rw [inBlock1_7]
  intro a
  match a with
  | ⟨0, _⟩ => show win1_7.index t (0 : Fin 2) * 2000 ≤ (i 0).val ∧ (i 0).val < win1_7.index t (0 : Fin 2) * 2000 + 2000; rw [e7_0]; omega
  | ⟨1, _⟩ => show win1_7.index t (1 : Fin 2) * 256 ≤ (i 1).val ∧ (i 1).val < win1_7.index t (1 : Fin 2) * 256 + 256; rw [e7_1]; omega

/-- Window 7's array after the grid's last point: the layer plus the previous activation of the arrays the region is entered with. -/
theorem region1_next (V : (c : Dev nD) → (b : Ref sig .tc) → Buf (Elt Ideal) ((c : Thread nD τ).loc b)) (c : Dev nD) :
    (dat1 (F := Ideal) V c).arrAt 7 cfg1.N = Cert.Net.addM (Cert.Net.convK Cert.Net.slope (V c main_v27) (V c main_v17_1) (V c main_v28) (V c main_v30) (V c main_v29)) (V c main_v17_0) :=
  (dat1 (F := Ideal) V c).arrAt_eq_of_cover 7 (Cert.Net.addM (Cert.Net.convK Cert.Net.slope (V c main_v27) (V c main_v17_1) (V c main_v28) (V c main_v30) (V c main_v29)) (V c main_v17_0) : S200000x256.Idx → EReal)
    (fun t _ => written1_7 V c t) covered1_7

end Cert.KernelIdeal.ConvValue

end
-- ==== Proof.Conv2.lean ====
/-
  Layer 3 of the network as the tiled kernel computes it: each of the region's two output arrays, after the grid's
  100 points, as ONE function of the arrays the region is entered with.

  Point t of the grid reads rows 2000·t … 2000·t + 1999 of the neighbour sums, of the node array and of the previous activation, the two weights and the bias row whole, and stores, entry by entry, the leaky rectifier of
  (sums · W_rel + nodes · W_root) + bias (first output) and that plus the previous activation's entry (second output).
  Entry (p, j) of that block is entry (2000·t + p, j) of the layer applied to the whole arrays, since row 2000·t + p of
  a product depends on row 2000·t + p of its left factor only; the 100 blocks of 2000 rows cover the 200000 rows (row r is
  in block r / 2000), so each output array ends holding the layer of the whole arrays.
-/
import proofs.«148686_j90211493085314_1_alg».proof.Proof.Spec
import proofs.«148686_j90211493085314_1_alg».proof.Proof.LibConvTile
import proofs.«148686_j90211493085314_1_alg».proof.Proof.Gen.KernelIdeal.Frame
import Idealize.ShloMosaic.Lib.Pipeline.Value

set_option maxRecDepth 16384

noncomputable section

open scoped BigOperators

namespace Cert.KernelIdeal.ConvValue

open Cert.KernelIdeal Cert.KernelIdeal.Gen Idealize.ShloMosaic Idealize.ShloMosaic.TcCoe Idealize.SL.Sem Idealize.ShloMosaic.ValueIdx
open Idealize.ShloMosaic.Pipeline (Dat)

/-! ## The stored tile at an entry -/

/-- The tile stored as the activation, at entry (p, j), over any loaded blocks. -/
theorem tile2_apply (x0 x1 : Vec Ideal S2000x256 .f32) (xr xo : Vec Ideal S256x256 .bf16) (xb : Vec Ideal S1x256 .f32) (p : Fin 2000) (j : Fin 256) :
    k2_pay1 (F := Ideal) x0 x1 xr xo xb (ix2 p j)
      = Cert.Net.leaky Cert.Net.slope
          ((∑ q : Fin 256, x0 (ix2 p q) * xr (ix2 q j) + ∑ q : Fin 256, x1 (ix2 p q) * xo (ix2 q j)) + xb (ix2 (0 : Fin 1) j)) := by
  unfold k2_pay1
  simp only [shapeCast_self]
  exact Cert.LibConvTile.convTile_apply dot_S2000x256_S256x256_S2000x256_1_0_0_1_n_n rfl none _ _ _ _ _ _ _ p j

/-- The tile at a block entry y is the layer of the whole arrays at the array entry i, when i is y moved down by the
    block's first row r·2000, the row blocks are those rows of the arrays and the other blocks are the arrays whole. -/
theorem tile2_eq_layer (x0 x1 : Vec Ideal S2000x256 .f32) (xr xo : Vec Ideal S256x256 .bf16) (xb : Vec Ideal S1x256 .f32) (A Z : Cert.Spec.Mat 200000 256) (Wr Wro : Cert.Spec.Mat 256 256) (B : Cert.Spec.Mat 1 256)
    (r : ℕ) (y : S2000x256.Idx) (i : S200000x256.Idx)
    (hi0 : (i 0).val = 2000 * r + (y 0).val) (hi1 : (i 1).val = (y 1).val)
    (h0 : ∀ (u : S2000x256.Idx) (k : S200000x256.Idx), (k 0).val = 2000 * r + (u 0).val → (k 1).val = (u 1).val → x0 u = A k)
    (h1 : ∀ (u : S2000x256.Idx) (k : S200000x256.Idx), (k 0).val = 2000 * r + (u 0).val → (k 1).val = (u 1).val → x1 u = Z k)
    (hr : xr = Wr) (ho : xo = Wro) (hb : xb = B) :
    k2_pay1 (F := Ideal) x0 x1 xr xo xb y = Cert.Net.convK Cert.Net.slope A Z Wr B Wro i := by
  subst hr ho hb
  obtain ⟨p, j, rfl⟩ : ∃ (p : Fin 2000) (j : Fin 256), y = ix2 p j := ⟨y 0, y 1, eq_ix2 y⟩
  obtain ⟨p', j', rfl⟩ : ∃ (p' : Fin 200000) (j' : Fin 256), i = ix2 p' j' := ⟨i 0, i 1, eq_ix2 i⟩
  obtain rfl : j' = j := Fin.ext hi1
  have e0 : ∀ q : Fin 256, x0 (ix2 p q) = A (ix2 p' q) := fun q => h0 _ _ hi0 rfl
  have e1 : ∀ q : Fin 256, x1 (ix2 p q) = Z (ix2 p' q) := fun q => h1 _ _ hi0 rfl
  rw [tile2_apply]
  simp only [e0, e1]
  rfl

/-- The second output's tile: the activation's plus the previous activation's block, entry by entry. -/
theorem next2_eq_layer (x0 x1 : Vec Ideal S2000x256 .f32) (xr xo : Vec Ideal S256x256 .bf16) (xb : Vec Ideal S1x256 .f32) (x2 : Vec Ideal S2000x256 .f32) (A Z : Cert.Spec.Mat 200000 256) (Wr Wro : Cert.Spec.Mat 256 256) (B : Cert.Spec.Mat 1 256) (Pv : Cert.Spec.Mat 200000 256)
    (r : ℕ) (y : S2000x256.Idx) (i : S200000x256.Idx)
    (hi0 : (i 0).val = 2000 * r + (y 0).val) (hi1 : (i 1).val = (y 1).val)
    (h0 : ∀ (u : S2000x256.Idx) (k : S200000x256.Idx), (k 0).val = 2000 * r + (u 0).val → (k 1).val = (u 1).val → x0 u = A k)
    (h1 : ∀ (u : S2000x256.Idx) (k : S200000x256.Idx), (k 0).val = 2000 * r + (u 0).val → (k 1).val = (u 1).val → x1 u = Z k)
    (h2 : ∀ (u : S2000x256.Idx) (k : S200000x256.Idx), (k 0).val = 2000 * r + (u 0).val → (k 1).val = (u 1).val → x2 u = Pv k)
    (hr : xr = Wr) (ho : xo = Wro) (hb : xb = B) :
    k2_pay2 (F := Ideal) x0 x1 xr xo xb x2 y = Cert.Net.addM (Cert.Net.convK Cert.Net.slope A Z Wr B Wro) Pv i := by
  unfold k2_pay2
  simp only [shapeCast_self]
  rw [addf_apply, tile2_eq_layer x0 x1 xr xo xb A Z Wr Wro B r y i hi0 hi1 h0 h1 hr ho hb, h2 y i hi0 hi1]
  rfl

/-! ## The blocks the points read -/

/-- The printed index maps over the grid: a row window's block index at point t is (t, 0), a weight's or the bias
    row's (0, 0). -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Window 0's block at point t is rows 2000·t … 2000·t + 1999 of its array. -/
theorem rows2_0 (V : (c : Dev nD) → (b : Ref sig .tc) → Buf (Elt Ideal) ((c : Thread nD τ).loc b)) (c : Dev nD) (t : Fin cfg2.N) (u : S2000x256.Idx) (k : S200000x256.Idx)
    (hk0 : (k 0).val = 2000 * t.val + (u 0).val) (hk1 : (k 1).val = (u 1).val) :
    (iblk2 (F := Ideal) V c 0 t : Vec Ideal S2000x256 .f32) u = (V c main_v41 : S200000x256.Idx → EReal) k := by
  obtain ⟨e0_0, e0_1, e1_0, e1_1, e2_0, e2_1, e3_0, e3_1, e4_0, e4_1, e5_0, e5_1, e6_0, e6_1, e7_0, e7_1⟩ := blockIndex2 t
  unfold iblk2
  rw [View.read_apply]
  show V c main_v41 _ = V c main_v41 _
  congr 1
  funext a
  apply Fin.ext
  match a with
  | ⟨0, _⟩ => show win2_0.index t (0 : Fin 2) * 2000 + 1 * (u 0).val = (k 0).val; rw [e0_0, hk0]; omega
  | ⟨1, _⟩ => show win2_0.index t (1 : Fin 2) * 256 + 1 * (u 1).val = (k 1).val; rw [e0_1, hk1]; omega

/-- Window 1's block at point t is rows 2000·t … 2000·t + 1999 of its array. -/
theorem rows2_1 (V : (c : Dev nD) → (b : Ref sig .tc) → Buf (Elt Ideal) ((c : Thread nD τ).loc b)) (c : Dev nD) (t : Fin cfg2.N) (u : S2000x256.Idx) (k : S200000x256.Idx)
    (hk0 : (k 0).val = 2000 * t.val + (u 0).val) (hk1 : (k 1).val = (u 1).val) :
    (iblk2 (F := Ideal) V c 1 t : Vec Ideal S2000x256 .f32) u = (V c main_v31_1 : S200000x256.Idx → EReal) k := by
  obtain ⟨e0_0, e0_1, e1_0, e1_1, e2_0, e2_1, e3_0, e3_1, e4_0, e4_1, e5_0, e5_1, e6_0, e6_1, e7_0, e7_1⟩ := blockIndex2 t
  unfold iblk2
  rw [View.read_apply]
  show V c main_v31_1 _ = V c main_v31_1 _
  congr 1
  funext a
  apply Fin.ext
  match a with
  | ⟨0, _⟩ => show win2_1.index t (0 : Fin 2) * 2000 + 1 * (u 0).val = (k 0).val; rw [e1_0, hk0]; omega
  | ⟨1, _⟩ => show win2_1.index t (1 : Fin 2) * 256 + 1 * (u 1).val = (k 1).val; rw [e1_1, hk1]; omega

/-- Window 2's block at point t is rows 2000·t … 2000·t + 1999 of its array. -/
theorem rows2_2 (V : (c : Dev nD) → (b : Ref sig .tc) → Buf (Elt Ideal) ((c : Thread nD τ).loc b)) (c : Dev nD) (t : Fin cfg2.N) (u : S2000x256.Idx) (k : S200000x256.Idx)
    (hk0 : (k 0).val = 2000 * t.val + (u 0).val) (hk1 : (k 1).val = (u 1).val) :
    (iblk2 (F := Ideal) V c 2 t : Vec Ideal S2000x256 .f32) u = (V c main_v31_0 : S200000x256.Idx → EReal) k := by
  obtain ⟨e0_0, e0_1, e1_0, e1_1, e2_0, e2_1, e3_0, e3_1, e4_0, e4_1, e5_0, e5_1, e6_0, e6_1, e7_0, e7_1⟩ := blockIndex2 t
  unfold iblk2
  rw [View.read_apply]
  show V c main_v31_0 _ = V c main_v31_0 _
  congr 1
  funext a
  apply Fin.ext
  match a with
  | ⟨0, _⟩ => show win2_2.index t (0 : Fin 2) * 2000 + 1 * (u 0).val = (k 0).val; rw [e2_0, hk0]; omega
  | ⟨1, _⟩ => show win2_2.index t (1 : Fin 2) * 256 + 1 * (u 1).val = (k 1).val; rw [e2_1, hk1]; omega

/-- Window 3's block at every point is its whole array. -/
theorem whole2_3 (V : (c : Dev nD) → (b : Ref sig .tc) → Buf (Elt Ideal) ((c : Thread nD τ).loc b)) (c : Dev nD) (t : Fin cfg2.N) :
    (iblk2 (F := Ideal) V c 3 t : Vec Ideal S256x256 .bf16) = (V c main_v42 : S256x256.Idx → EReal) := by
  obtain ⟨e0_0, e0_1, e1_0, e1_1, e2_0, e2_1, e3_0, e3_1, e4_0, e4_1, e5_0, e5_1, e6_0, e6_1, e7_0, e7_1⟩ := blockIndex2 t
  funext u
  unfold iblk2
  rw [View.read_apply]
  show V c main_v42 _ = V c main_v42 _
  congr 1
  funext a
  apply Fin.ext
  match a with
  | ⟨0, _⟩ => show win2_3.index t (0 : Fin 2) * 256 + 1 * (u 0).val = (u 0).val; rw [e3_0]; omega
  | ⟨1, _⟩ => show win2_3.index t (1 : Fin 2) * 256 + 1 * (u 1).val = (u 1).val; rw [e3_1]; omega

/-- Window 4's block at every point is its whole array. -/
theorem whole2_4 (V : (c : Dev nD) → (b : Ref sig .tc) → Buf (Elt Ideal) ((c : Thread nD τ).loc b)) (c : Dev nD) (t : Fin cfg2.N) :
    (iblk2 (F := Ideal) V c 4 t : Vec Ideal S1x256 .f32) = (V c main_v44 : S1x256.Idx → EReal) := by
  obtain ⟨e0_0, e0_1, e1_0, e1_1, e2_0, e2_1, e3_0, e3_1, e4_0, e4_1, e5_0, e5_1, e6_0, e6_1, e7_0, e7_1⟩ := blockIndex2 t
  funext u
  unfold iblk2
  rw [View.read_apply]
  show V c main_v44 _ = V c main_v44 _
  congr 1
  funext a
  apply Fin.ext
  match a with
  | ⟨0, _⟩ => show win2_4.index t (0 : Fin 2) * 1 + 1 * (u 0).val = (u 0).val; rw [e4_0]; omega
  | ⟨1, _⟩ => show win2_4.index t (1 : Fin 2) * 256 + 1 * (u 1).val = (u 1).val; rw [e4_1]; omega

/-- Window 5's block at every point is its whole array. -/
theorem whole2_5 (V : (c : Dev nD) → (b : Ref sig .tc) → Buf (Elt Ideal) ((c : Thread nD τ).loc b)) (c : Dev nD) (t : Fin cfg2.N) :
    (iblk2 (F := Ideal) V c 5 t : Vec Ideal S256x256 .bf16) = (V c main_v43 : S256x256.Idx → EReal) := by
  obtain ⟨e0_0, e0_1, e1_0, e1_1, e2_0, e2_1, e3_0, e3_1, e4_0, e4_1, e5_0, e5_1, e6_0, e6_1, e7_0, e7_1⟩ := blockIndex2 t
  funext u
  unfold iblk2
  rw [View.read_apply]
  show V c main_v43 _ = V c main_v43 _
  congr 1
  funext a
  apply Fin.ext
  match a with
  | ⟨0, _⟩ => show win2_5.index t (0 : Fin 2) * 256 + 1 * (u 0).val = (u 0).val; rw [e5_0]; omega
  | ⟨1, _⟩ => show win2_5.index t (1 : Fin 2) * 256 + 1 * (u 1).val = (u 1).val; rw [e5_1]; omega

/-! ## Output window 6 -/

/-- What point t writes back to window 6's array is block t of the layer of the whole arrays. -/
theorem written2_6 (V : (c : Dev nD) → (b : Ref sig .tc) → Buf (Elt Ideal) ((c : Thread nD τ).loc b)) (c : Dev nD) (t : Fin cfg2.N) :
    (dat2 (F := Ideal) V c).flushed 6 t
      = ((cfg2.win 6).blk t).view.read (Elt Ideal) (Cert.Net.convK Cert.Net.slope (V c main_v41) (V c main_v31_1) (V c main_v42) (V c main_v44) (V c main_v43) : S200000x256.Idx → EReal) := by
  show (cfg2.win 6).cut (grid2.coords t) ((dat2 (F := Ideal) V c).after 6 t) = _
  rw [after2_6]
  unfold out2_6
  rw [View.canon_unit_zero Cert.LibConvTile.zero_offsets]
  simp only [View.ld_unit_zero (S := S2000x256) Cert.LibConvTile.zero_offsets, View.ld_unit_zero (S := S256x256) Cert.LibConvTile.zero_offsets, View.ld_unit_zero (S := S1x256) Cert.LibConvTile.zero_offsets]
  obtain ⟨e0_0, e0_1, e1_0, e1_1, e2_0, e2_1, e3_0, e3_1, e4_0, e4_1, e5_0, e5_1, e6_0, e6_1, e7_0, e7_1⟩ := blockIndex2 t
  funext y
  show k2_pay1 (F := Ideal) (iblk2 V c 0 t) (iblk2 V c 1 t) (iblk2 V c 3 t) (iblk2 V c 5 t) (iblk2 V c 4 t) y = (Cert.Net.convK Cert.Net.slope (V c main_v41) (V c main_v31_1) (V c main_v42) (V c main_v44) (V c main_v43) : S200000x256.Idx → EReal) (((cfg2.win 6).blk t).view.emb y)
  refine tile2_eq_layer _ _ _ _ _ (V c main_v41) (V c main_v31_1) (V c main_v42) (V c main_v43) (V c main_v44) t.val y _ ?_ ?_ (fun u k h0 h1 => rows2_0 V c t u k h0 h1) (fun u k h0 h1 => rows2_1 V c t u k h0 h1) (whole2_3 V c t) (whole2_5 V c t) (whole2_4 V c t)
  · show win2_6.index t (0 : Fin 2) * 2000 + 1 * (y 0).val = 2000 * t.val + (y 0).val
    rw [e6_0]; omega
  · show win2_6.index t (1 : Fin 2) * 256 + 1 * (y 1).val = (y 1).val
    rw [e6_1]; omega

/-- An index of window 6's array is in point t's block iff each coordinate is in the block's range on its axis. -/
theorem inBlock2_6 (t : Fin cfg2.N) (i : S200000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v45_0).slice (win2_6.rect t)).set ↔ _
  rw [View.set_slice_whole, Rect.mem_set_unit]
  exact Iff.rfl

/-- Every index of window 6's array is in some point's block: row r is in the block of point r / 2000. -/
theorem covered2_6 (i : S200000x256.Idx) :
    ∃ t : Fin cfg2.N, (cfg2.win 6).flush t = true ∧ i ∈ ((cfg2.win 6).blk t).view.set := by
  have hi0 : (i 0).val < 200000 := (i 0).isLt
  have hi1 : (i 1).val < 256 := (i 1).isLt
  have hN : cfg2.N = 100 := N_2
  obtain ⟨t, ht⟩ : ∃ t : Fin cfg2.N, t.val = (i 0).val / 2000 := ⟨⟨(i 0).val / 2000, by rw [hN]; omega⟩, rfl⟩
  obtain ⟨e0_0, e0_1, e1_0, e1_1, e2_0, e2_1, e3_0, e3_1, e4_0, e4_1, e5_0, e5_1, e6_0, e6_1, e7_0, e7_1⟩ := blockIndex2 t
  refine ⟨t, flush2_6 t, ?_⟩
  rw [inBlock2_6]
  intro a
  match a with
  | ⟨0, _⟩ => show win2_6.index t (0 : Fin 2) * 2000 ≤ (i 0).val ∧ (i 0).val < win2_6.index t (0 : Fin 2) * 2000 + 2000; rw [e6_0]; omega
  | ⟨1, _⟩ => show win2_6.index t (1 : Fin 2) * 256 ≤ (i 1).val ∧ (i 1).val < win2_6.index t (1 : Fin 2) * 256 + 256; rw [e6_1]; omega

/-- Window 6's array after the grid's last point: the layer of the arrays the region is entered with. -/
theorem region2_act (V : (c : Dev nD) → (b : Ref sig .tc) → Buf (Elt Ideal) ((c : Thread nD τ).loc b)) (c : Dev nD) :
    (dat2 (F := Ideal) V c).arrAt 6 cfg2.N = Cert.Net.convK Cert.Net.slope (V c main_v41) (V c main_v31_1) (V c main_v42) (V c main_v44) (V c main_v43) :=
  (dat2 (F := Ideal) V c).arrAt_eq_of_cover 6 (Cert.Net.convK Cert.Net.slope (V c main_v41) (V c main_v31_1) (V c main_v42) (V c main_v44) (V c main_v43) : S200000x256.Idx → EReal)
    (fun t _ => written2_6 V c t) covered2_6

/-! ## Output window 7 -/

/-- What point t writes back to window 7's array is block t of the layer plus the previous activation of the whole arrays. -/
theorem written2_7 (V : (c : Dev nD) → (b : Ref sig .tc) → Buf (Elt Ideal) ((c : Thread nD τ).loc b)) (c : Dev nD) (t : Fin cfg2.N) :
    (dat2 (F := Ideal) V c).flushed 7 t
      = ((cfg2.win 7).blk t).view.read (Elt Ideal) (Cert.Net.addM (Cert.Net.convK Cert.Net.slope (V c main_v41) (V c main_v31_1) (V c main_v42) (V c main_v44) (V c main_v43)) (V c main_v31_0) : S200000x256.Idx → EReal) := by
  show (cfg2.win 7).cut (grid2.coords t) ((dat2 (F := Ideal) V c).after 7 t) = _
  rw [after2_7]
  unfold out2_7
  rw [View.canon_unit_zero Cert.LibConvTile.zero_offsets]
  simp only [View.ld_unit_zero (S := S2000x256) Cert.LibConvTile.zero_offsets, View.ld_unit_zero (S := S256x256) Cert.LibConvTile.zero_offsets, View.ld_unit_zero (S := S1x256) Cert.LibConvTile.zero_offsets]
  obtain ⟨e0_0, e0_1, e1_0, e1_1, e2_0, e2_1, e3_0, e3_1, e4_0, e4_1, e5_0, e5_1, e6_0, e6_1, e7_0, e7_1⟩ := blockIndex2 t
  funext y
  show k2_pay2 (F := Ideal) (iblk2 V c 0 t) (iblk2 V c 1 t) (iblk2 V c 3 t) (iblk2 V c 5 t) (iblk2 V c 4 t) (iblk2 V c 2 t) y = (Cert.Net.addM (Cert.Net.convK Cert.Net.slope (V c main_v41) (V c main_v31_1) (V c main_v42) (V c main_v44) (V c main_v43)) (V c main_v31_0) : S200000x256.Idx → EReal) (((cfg2.win 7).blk t).view.emb y)
  refine next2_eq_layer _ _ _ _ _ _ (V c main_v41) (V c main_v31_1) (V c main_v42) (V c main_v43) (V c main_v44) (V c main_v31_0) t.val y _ ?_ ?_ (fun u k h0 h1 => rows2_0 V c t u k h0 h1) (fun u k h0 h1 => rows2_1 V c t u k h0 h1) (fun u k h0 h1 => rows2_2 V c t u k h0 h1) (whole2_3 V c t) (whole2_5 V c t) (whole2_4 V c t)
  · show win2_7.index t (0 : Fin 2) * 2000 + 1 * (y 0).val = 2000 * t.val + (y 0).val
    rw [e7_0]; omega
  · show win2_7.index t (1 : Fin 2) * 256 + 1 * (y 1).val = (y 1).val
    rw [e7_1]; omega

/-- An index of window 7's array is in point t's block iff each coordinate is in the block's range on its axis. -/
theorem inBlock2_7 (t : Fin cfg2.N) (i : S200000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v45_1).slice (win2_7.rect t)).set ↔ _
  rw [View.set_slice_whole, Rect.mem_set_unit]
  exact Iff.rfl

/-- Every index of window 7's array is in some point's block: row r is in the block of point r / 2000. -/
theorem covered2_7 (i : S200000x256.Idx) :
    ∃ t : Fin cfg2.N, (cfg2.win 7).flush t = true ∧ i ∈ ((cfg2.win 7).blk t).view.set := by
  have hi0 : (i 0).val < 200000 := (i 0).isLt
  have hi1 : (i 1).val < 256 := (i 1).isLt
  have hN : cfg2.N = 100 := N_2
  obtain ⟨t, ht⟩ : ∃ t : Fin cfg2.N, t.val = (i 0).val / 2000 := ⟨⟨(i 0).val / 2000, by rw [hN]; omega⟩, rfl⟩
  obtain ⟨e0_0, e0_1, e1_0, e1_1, e2_0, e2_1, e3_0, e3_1, e4_0, e4_1, e5_0, e5_1, e6_0, e6_1, e7_0, e7_1⟩ := blockIndex2 t
  refine ⟨t, flush2_7 t, ?_⟩
  rw [inBlock2_7]
  intro a
  match a with
  | ⟨0, _⟩ => show win2_7.index t (0 : Fin 2) * 2000 ≤ (i 0).val ∧ (i 0).val < win2_7.index t (0 : Fin 2) * 2000 + 2000; rw [e7_0]; omega
  | ⟨1, _⟩ => show win2_7.index t (1 : Fin 2) * 256 ≤ (i 1).val ∧ (i 1).val < win2_7.index t (1 : Fin 2) * 256 + 256; rw [e7_1]; omega

/-- Window 7's array after the grid's last point: the layer plus the previous activation of the arrays the region is entered with. -/
theorem region2_next (V : (c : Dev nD) → (b : Ref sig .tc) → Buf (Elt Ideal) ((c : Thread nD τ).loc b)) (c : Dev nD) :
    (dat2 (F := Ideal) V c).arrAt 7 cfg2.N = Cert.Net.addM (Cert.Net.convK Cert.Net.slope (V c main_v41) (V c main_v31_1) (V c main_v42) (V c main_v44) (V c main_v43)) (V c main_v31_0) :=
  (dat2 (F := Ideal) V c).arrAt_eq_of_cover 7 (Cert.Net.addM (Cert.Net.convK Cert.Net.slope (V c main_v41) (V c main_v31_1) (V c main_v42) (V c main_v44) (V c main_v43)) (V c main_v31_0) : S200000x256.Idx → EReal)
    (fun t _ => written2_7 V c t) covered2_7

end Cert.KernelIdeal.ConvValue

end
-- ==== Proof.Conv3.lean ====
/-
  Layer 4 of the network as the tiled kernel computes it: each of the region's two output arrays, after the grid's
  100 points, as ONE function of the arrays the region is entered with.

  Point t of the grid reads rows 2000·t … 2000·t + 1999 of the neighbour sums, of the node array and of the previous activation, the two weights and the bias row whole, and stores, entry by entry, the leaky rectifier of
  (sums · W_rel + nodes · W_root) + bias (first output) and that plus the previous activation's entry (second output).
  Entry (p, j) of that block is entry (2000·t + p, j) of the layer applied to the whole arrays, since row 2000·t + p of
  a product depends on row 2000·t + p of its left factor only; the 100 blocks of 2000 rows cover the 200000 rows (row r is
  in block r / 2000), so each output array ends holding the layer of the whole arrays.
-/
import proofs.«148686_j90211493085314_1_alg».proof.Proof.Spec
import proofs.«148686_j90211493085314_1_alg».proof.Proof.LibConvTile
import proofs.«148686_j90211493085314_1_alg».proof.Proof.Gen.KernelIdeal.Frame
import Idealize.ShloMosaic.Lib.Pipeline.Value

set_option maxRecDepth 16384

noncomputable section

open scoped BigOperators

namespace Cert.KernelIdeal.ConvValue

open Cert.KernelIdeal Cert.KernelIdeal.Gen Idealize.ShloMosaic Idealize.ShloMosaic.TcCoe Idealize.SL.Sem Idealize.ShloMosaic.ValueIdx
open Idealize.ShloMosaic.Pipeline (Dat)

/-! ## The stored tile at an entry -/

/-- The tile stored as the activation, at entry (p, j), over any loaded blocks. -/
theorem tile3_apply (x0 x1 : Vec Ideal S2000x256 .f32) (xr xo : Vec Ideal S256x256 .bf16) (xb : Vec Ideal S1x256 .f32) (p : Fin 2000) (j : Fin 256) :
    k3_pay1 (F := Ideal) x0 x1 xr xo xb (ix2 p j)
      = Cert.Net.leaky Cert.Net.slope
          ((∑ q : Fin 256, x0 (ix2 p q) * xr (ix2 q j) + ∑ q : Fin 256, x1 (ix2 p q) * xo (ix2 q j)) + xb (ix2 (0 : Fin 1) j)) := by
  unfold k3_pay1
  simp only [shapeCast_self]
  exact Cert.LibConvTile.convTile_apply dot_S2000x256_S256x256_S2000x256_1_0_0_1_n_n rfl none _ _ _ _ _ _ _ p j

/-- The tile at a block entry y is the layer of the whole arrays at the array entry i, when i is y moved down by the
    block's first row r·2000, the row blocks are those rows of the arrays and the other blocks are the arrays whole. -/
theorem tile3_eq_layer (x0 x1 : Vec Ideal S2000x256 .f32) (xr xo : Vec Ideal S256x256 .bf16) (xb : Vec Ideal S1x256 .f32) (A Z : Cert.Spec.Mat 200000 256) (Wr Wro : Cert.Spec.Mat 256 256) (B : Cert.Spec.Mat 1 256)
    (r : ℕ) (y : S2000x256.Idx) (i : S200000x256.Idx)
    (hi0 : (i 0).val = 2000 * r + (y 0).val) (hi1 : (i 1).val = (y 1).val)
    (h0 : ∀ (u : S2000x256.Idx) (k : S200000x256.Idx), (k 0).val = 2000 * r + (u 0).val → (k 1).val = (u 1).val → x0 u = A k)
    (h1 : ∀ (u : S2000x256.Idx) (k : S200000x256.Idx), (k 0).val = 2000 * r + (u 0).val → (k 1).val = (u 1).val → x1 u = Z k)
    (hr : xr = Wr) (ho : xo = Wro) (hb : xb = B) :
    k3_pay1 (F := Ideal) x0 x1 xr xo xb y = Cert.Net.convK Cert.Net.slope A Z Wr B Wro i := by
  subst hr ho hb
  obtain ⟨p, j, rfl⟩ : ∃ (p : Fin 2000) (j : Fin 256), y = ix2 p j := ⟨y 0, y 1, eq_ix2 y⟩
  obtain ⟨p', j', rfl⟩ : ∃ (p' : Fin 200000) (j' : Fin 256), i = ix2 p' j' := ⟨i 0, i 1, eq_ix2 i⟩
  obtain rfl : j' = j := Fin.ext hi1
  have e0 : ∀ q : Fin 256, x0 (ix2 p q) = A (ix2 p' q) := fun q => h0 _ _ hi0 rfl
  have e1 : ∀ q : Fin 256, x1 (ix2 p q) = Z (ix2 p' q) := fun q => h1 _ _ hi0 rfl
  rw [tile3_apply]
  simp only [e0, e1]
  rfl

/-- The second output's tile: the activation's plus the previous activation's block, entry by entry. -/
theorem next3_eq_layer (x0 x1 : Vec Ideal S2000x256 .f32) (xr xo : Vec Ideal S256x256 .bf16) (xb : Vec Ideal S1x256 .f32) (x2 : Vec Ideal S2000x256 .f32) (A Z : Cert.Spec.Mat 200000 256) (Wr Wro : Cert.Spec.Mat 256 256) (B : Cert.Spec.Mat 1 256) (Pv : Cert.Spec.Mat 200000 256)
    (r : ℕ) (y : S2000x256.Idx) (i : S200000x256.Idx)
    (hi0 : (i 0).val = 2000 * r + (y 0).val) (hi1 : (i 1).val = (y 1).val)
    (h0 : ∀ (u : S2000x256.Idx) (k : S200000x256.Idx), (k 0).val = 2000 * r + (u 0).val → (k 1).val = (u 1).val → x0 u = A k)
    (h1 : ∀ (u : S2000x256.Idx) (k : S200000x256.Idx), (k 0).val = 2000 * r + (u 0).val → (k 1).val = (u 1).val → x1 u = Z k)
    (h2 : ∀ (u : S2000x256.Idx) (k : S200000x256.Idx), (k 0).val = 2000 * r + (u 0).val → (k 1).val = (u 1).val → x2 u = Pv k)
    (hr : xr = Wr) (ho : xo = Wro) (hb : xb = B) :
    k3_pay2 (F := Ideal) x0 x1 xr xo xb x2 y = Cert.Net.addM (Cert.Net.convK Cert.Net.slope A Z Wr B Wro) Pv i := by
  unfold k3_pay2
  simp only [shapeCast_self]
  rw [addf_apply, tile3_eq_layer x0 x1 xr xo xb A Z Wr Wro B r y i hi0 hi1 h0 h1 hr ho hb, h2 y i hi0 hi1]
  rfl

/-! ## The blocks the points read -/

/-- The printed index maps over the grid: a row window's block index at point t is (t, 0), a weight's or the bias
    row's (0, 0). -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-- Window 0's block at point t is rows 2000·t … 2000·t + 1999 of its array. -/
theorem rows3_0 (V : (c : Dev nD) → (b : Ref sig .tc) → Buf (Elt Ideal) ((c : Thread nD τ).loc b)) (c : Dev nD) (t : Fin cfg3.N) (u : S2000x256.Idx) (k : S200000x256.Idx)
    (hk0 : (k 0).val = 2000 * t.val + (u 0).val) (hk1 : (k 1).val = (u 1).val) :
    (iblk3 (F := Ideal) V c 0 t : Vec Ideal S2000x256 .f32) u = (V c main_v55 : S200000x256.Idx → EReal) k := by
  obtain ⟨e0_0, e0_1, e1_0, e1_1, e2_0, e2_1, e3_0, e3_1, e4_0, e4_1, e5_0, e5_1, e6_0, e6_1, e7_0, e7_1⟩ := blockIndex3 t
  unfold iblk3
  rw [View.read_apply]
  show V c main_v55 _ = V c main_v55 _
  congr 1
  funext a
  apply Fin.ext
  match a with
  | ⟨0, _⟩ => show win3_0.index t (0 : Fin 2) * 2000 + 1 * (u 0).val = (k 0).val; rw [e0_0, hk0]; omega
  | ⟨1, _⟩ => show win3_0.index t (1 : Fin 2) * 256 + 1 * (u 1).val = (k 1).val; rw [e0_1, hk1]; omega

/-- Window 1's block at point t is rows 2000·t … 2000·t + 1999 of its array. -/
theorem rows3_1 (V : (c : Dev nD) → (b : Ref sig .tc) → Buf (Elt Ideal) ((c : Thread nD τ).loc b)) (c : Dev nD) (t : Fin cfg3.N) (u : S2000x256.Idx) (k : S200000x256.Idx)
    (hk0 : (k 0).val = 2000 * t.val + (u 0).val) (hk1 : (k 1).val = (u 1).val) :
    (iblk3 (F := Ideal) V c 1 t : Vec Ideal S2000x256 .f32) u = (V c main_v45_1 : S200000x256.Idx → EReal) k := by
  obtain ⟨e0_0, e0_1, e1_0, e1_1, e2_0, e2_1, e3_0, e3_1, e4_0, e4_1, e5_0, e5_1, e6_0, e6_1, e7_0, e7_1⟩ := blockIndex3 t
  unfold iblk3
  rw [View.read_apply]
  show V c main_v45_1 _ = V c main_v45_1 _
  congr 1
  funext a
  apply Fin.ext
  match a with
  | ⟨0, _⟩ => show win3_1.index t (0 : Fin 2) * 2000 + 1 * (u 0).val = (k 0).val; rw [e1_0, hk0]; omega
  | ⟨1, _⟩ => show win3_1.index t (1 : Fin 2) * 256 + 1 * (u 1).val = (k 1).val; rw [e1_1, hk1]; omega

/-- Window 2's block at point t is rows 2000·t … 2000·t + 1999 of its array. -/
theorem rows3_2 (V : (c : Dev nD) → (b : Ref sig .tc) → Buf (Elt Ideal) ((c : Thread nD τ).loc b)) (c : Dev nD) (t : Fin cfg3.N) (u : S2000x256.Idx) (k : S200000x256.Idx)
    (hk0 : (k 0).val = 2000 * t.val + (u 0).val) (hk1 : (k 1).val = (u 1).val) :
    (iblk3 (F := Ideal) V c 2 t : Vec Ideal S2000x256 .f32) u = (V c main_v45_0 : S200000x256.Idx → EReal) k := by
  obtain ⟨e0_0, e0_1, e1_0, e1_1, e2_0, e2_1, e3_0, e3_1, e4_0, e4_1, e5_0, e5_1, e6_0, e6_1, e7_0, e7_1⟩ := blockIndex3 t
  unfold iblk3
  rw [View.read_apply]
  show V c main_v45_0 _ = V c main_v45_0 _
  congr 1
  funext a
  apply Fin.ext
  match a with
  | ⟨0, _⟩ => show win3_2.index t (0 : Fin 2) * 2000 + 1 * (u 0).val = (k 0).val; rw [e2_0, hk0]; omega
  | ⟨1, _⟩ => show win3_2.index t (1 : Fin 2) * 256 + 1 * (u 1).val = (k 1).val; rw [e2_1, hk1]; omega

/-- Window 3's block at every point is its whole array. -/
theorem whole3_3 (V : (c : Dev nD) → (b : Ref sig .tc) → Buf (Elt Ideal) ((c : Thread nD τ).loc b)) (c : Dev nD) (t : Fin cfg3.N) :
    (iblk3 (F := Ideal) V c 3 t : Vec Ideal S256x256 .bf16) = (V c main_v56 : S256x256.Idx → EReal) := by
  obtain ⟨e0_0, e0_1, e1_0, e1_1, e2_0, e2_1, e3_0, e3_1, e4_0, e4_1, e5_0, e5_1, e6_0, e6_1, e7_0, e7_1⟩ := blockIndex3 t
  funext u
  unfold iblk3
  rw [View.read_apply]
  show V c main_v56 _ = V c main_v56 _
  congr 1
  funext a
  apply Fin.ext
  match a with
  | ⟨0, _⟩ => show win3_3.index t (0 : Fin 2) * 256 + 1 * (u 0).val = (u 0).val; rw [e3_0]; omega
  | ⟨1, _⟩ => show win3_3.index t (1 : Fin 2) * 256 + 1 * (u 1).val = (u 1).val; rw [e3_1]; omega

/-- Window 4's block at every point is its whole array. -/
theorem whole3_4 (V : (c : Dev nD) → (b : Ref sig .tc) → Buf (Elt Ideal) ((c : Thread nD τ).loc b)) (c : Dev nD) (t : Fin cfg3.N) :
    (iblk3 (F := Ideal) V c 4 t : Vec Ideal S1x256 .f32) = (V c main_v58 : S1x256.Idx → EReal) := by
  obtain ⟨e0_0, e0_1, e1_0, e1_1, e2_0, e2_1, e3_0, e3_1, e4_0, e4_1, e5_0, e5_1, e6_0, e6_1, e7_0, e7_1⟩ := blockIndex3 t
  funext u
  unfold iblk3
  rw [View.read_apply]
  show V c main_v58 _ = V c main_v58 _
  congr 1
  funext a
  apply Fin.ext
  match a with
  | ⟨0, _⟩ => show win3_4.index t (0 : Fin 2) * 1 + 1 * (u 0).val = (u 0).val; rw [e4_0]; omega
  | ⟨1, _⟩ => show win3_4.index t (1 : Fin 2) * 256 + 1 * (u 1).val = (u 1).val; rw [e4_1]; omega

/-- Window 5's block at every point is its whole array. -/
theorem whole3_5 (V : (c : Dev nD) → (b : Ref sig .tc) → Buf (Elt Ideal) ((c : Thread nD τ).loc b)) (c : Dev nD) (t : Fin cfg3.N) :
    (iblk3 (F := Ideal) V c 5 t : Vec Ideal S256x256 .bf16) = (V c main_v57 : S256x256.Idx → EReal) := by
  obtain ⟨e0_0, e0_1, e1_0, e1_1, e2_0, e2_1, e3_0, e3_1, e4_0, e4_1, e5_0, e5_1, e6_0, e6_1, e7_0, e7_1⟩ := blockIndex3 t
  funext u
  unfold iblk3
  rw [View.read_apply]
  show V c main_v57 _ = V c main_v57 _
  congr 1
  funext a
  apply Fin.ext
  match a with
  | ⟨0, _⟩ => show win3_5.index t (0 : Fin 2) * 256 + 1 * (u 0).val = (u 0).val; rw [e5_0]; omega
  | ⟨1, _⟩ => show win3_5.index t (1 : Fin 2) * 256 + 1 * (u 1).val = (u 1).val; rw [e5_1]; omega

/-! ## Output window 6 -/

/-- What point t writes back to window 6's array is block t of the layer of the whole arrays. -/
theorem written3_6 (V : (c : Dev nD) → (b : Ref sig .tc) → Buf (Elt Ideal) ((c : Thread nD τ).loc b)) (c : Dev nD) (t : Fin cfg3.N) :
    (dat3 (F := Ideal) V c).flushed 6 t
      = ((cfg3.win 6).blk t).view.read (Elt Ideal) (Cert.Net.convK Cert.Net.slope (V c main_v55) (V c main_v45_1) (V c main_v56) (V c main_v58) (V c main_v57) : S200000x256.Idx → EReal) := by
  show (cfg3.win 6).cut (grid3.coords t) ((dat3 (F := Ideal) V c).after 6 t) = _
  rw [after3_6]
  unfold out3_6
  rw [View.canon_unit_zero Cert.LibConvTile.zero_offsets]
  simp only [View.ld_unit_zero (S := S2000x256) Cert.LibConvTile.zero_offsets, View.ld_unit_zero (S := S256x256) Cert.LibConvTile.zero_offsets, View.ld_unit_zero (S := S1x256) Cert.LibConvTile.zero_offsets]
  obtain ⟨e0_0, e0_1, e1_0, e1_1, e2_0, e2_1, e3_0, e3_1, e4_0, e4_1, e5_0, e5_1, e6_0, e6_1, e7_0, e7_1⟩ := blockIndex3 t
  funext y
  show k3_pay1 (F := Ideal) (iblk3 V c 0 t) (iblk3 V c 1 t) (iblk3 V c 3 t) (iblk3 V c 5 t) (iblk3 V c 4 t) y = (Cert.Net.convK Cert.Net.slope (V c main_v55) (V c main_v45_1) (V c main_v56) (V c main_v58) (V c main_v57) : S200000x256.Idx → EReal) (((cfg3.win 6).blk t).view.emb y)
  refine tile3_eq_layer _ _ _ _ _ (V c main_v55) (V c main_v45_1) (V c main_v56) (V c main_v57) (V c main_v58) t.val y _ ?_ ?_ (fun u k h0 h1 => rows3_0 V c t u k h0 h1) (fun u k h0 h1 => rows3_1 V c t u k h0 h1) (whole3_3 V c t) (whole3_5 V c t) (whole3_4 V c t)
  · show win3_6.index t (0 : Fin 2) * 2000 + 1 * (y 0).val = 2000 * t.val + (y 0).val
    rw [e6_0]; omega
  · show win3_6.index t (1 : Fin 2) * 256 + 1 * (y 1).val = (y 1).val
    rw [e6_1]; omega

/-- An index of window 6's array is in point t's block iff each coordinate is in the block's range on its axis. -/
theorem inBlock3_6 (t : Fin cfg3.N) (i : S200000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v59_0).slice (win3_6.rect t)).set ↔ _
  rw [View.set_slice_whole, Rect.mem_set_unit]
  exact Iff.rfl

/-- Every index of window 6's array is in some point's block: row r is in the block of point r / 2000. -/
theorem covered3_6 (i : S200000x256.Idx) :
    ∃ t : Fin cfg3.N, (cfg3.win 6).flush t = true ∧ i ∈ ((cfg3.win 6).blk t).view.set := by
  have hi0 : (i 0).val < 200000 := (i 0).isLt
  have hi1 : (i 1).val < 256 := (i 1).isLt
  have hN : cfg3.N = 100 := N_3
  obtain ⟨t, ht⟩ : ∃ t : Fin cfg3.N, t.val = (i 0).val / 2000 := ⟨⟨(i 0).val / 2000, by rw [hN]; omega⟩, rfl⟩
  obtain ⟨e0_0, e0_1, e1_0, e1_1, e2_0, e2_1, e3_0, e3_1, e4_0, e4_1, e5_0, e5_1, e6_0, e6_1, e7_0, e7_1⟩ := blockIndex3 t
  refine ⟨t, flush3_6 t, ?_⟩
  rw [inBlock3_6]
  intro a
  match a with
  | ⟨0, _⟩ => show win3_6.index t (0 : Fin 2) * 2000 ≤ (i 0).val ∧ (i 0).val < win3_6.index t (0 : Fin 2) * 2000 + 2000; rw [e6_0]; omega
  | ⟨1, _⟩ => show win3_6.index t (1 : Fin 2) * 256 ≤ (i 1).val ∧ (i 1).val < win3_6.index t (1 : Fin 2) * 256 + 256; rw [e6_1]; omega

/-- Window 6's array after the grid's last point: the layer of the arrays the region is entered with. -/
theorem region3_act (V : (c : Dev nD) → (b : Ref sig .tc) → Buf (Elt Ideal) ((c : Thread nD τ).loc b)) (c : Dev nD) :
    (dat3 (F := Ideal) V c).arrAt 6 cfg3.N = Cert.Net.convK Cert.Net.slope (V c main_v55) (V c main_v45_1) (V c main_v56) (V c main_v58) (V c main_v57) :=
  (dat3 (F := Ideal) V c).arrAt_eq_of_cover 6 (Cert.Net.convK Cert.Net.slope (V c main_v55) (V c main_v45_1) (V c main_v56) (V c main_v58) (V c main_v57) : S200000x256.Idx → EReal)
    (fun t _ => written3_6 V c t) covered3_6

/-! ## Output window 7 -/

/-- What point t writes back to window 7's array is block t of the layer plus the previous activation of the whole arrays. -/
theorem written3_7 (V : (c : Dev nD) → (b : Ref sig .tc) → Buf (Elt Ideal) ((c : Thread nD τ).loc b)) (c : Dev nD) (t : Fin cfg3.N) :
    (dat3 (F := Ideal) V c).flushed 7 t
      = ((cfg3.win 7).blk t).view.read (Elt Ideal) (Cert.Net.addM (Cert.Net.convK Cert.Net.slope (V c main_v55) (V c main_v45_1) (V c main_v56) (V c main_v58) (V c main_v57)) (V c main_v45_0) : S200000x256.Idx → EReal) := by
  show (cfg3.win 7).cut (grid3.coords t) ((dat3 (F := Ideal) V c).after 7 t) = _
  rw [after3_7]
  unfold out3_7
  rw [View.canon_unit_zero Cert.LibConvTile.zero_offsets]
  simp only [View.ld_unit_zero (S := S2000x256) Cert.LibConvTile.zero_offsets, View.ld_unit_zero (S := S256x256) Cert.LibConvTile.zero_offsets, View.ld_unit_zero (S := S1x256) Cert.LibConvTile.zero_offsets]
  obtain ⟨e0_0, e0_1, e1_0, e1_1, e2_0, e2_1, e3_0, e3_1, e4_0, e4_1, e5_0, e5_1, e6_0, e6_1, e7_0, e7_1⟩ := blockIndex3 t
  funext y
  show k3_pay2 (F := Ideal) (iblk3 V c 0 t) (iblk3 V c 1 t) (iblk3 V c 3 t) (iblk3 V c 5 t) (iblk3 V c 4 t) (iblk3 V c 2 t) y = (Cert.Net.addM (Cert.Net.convK Cert.Net.slope (V c main_v55) (V c main_v45_1) (V c main_v56) (V c main_v58) (V c main_v57)) (V c main_v45_0) : S200000x256.Idx → EReal) (((cfg3.win 7).blk t).view.emb y)
  refine next3_eq_layer _ _ _ _ _ _ (V c main_v55) (V c main_v45_1) (V c main_v56) (V c main_v57) (V c main_v58) (V c main_v45_0) t.val y _ ?_ ?_ (fun u k h0 h1 => rows3_0 V c t u k h0 h1) (fun u k h0 h1 => rows3_1 V c t u k h0 h1) (fun u k h0 h1 => rows3_2 V c t u k h0 h1) (whole3_3 V c t) (whole3_5 V c t) (whole3_4 V c t)
  · show win3_7.index t (0 : Fin 2) * 2000 + 1 * (y 0).val = 2000 * t.val + (y 0).val
    rw [e7_0]; omega
  · show win3_7.index t (1 : Fin 2) * 256 + 1 * (y 1).val = (y 1).val
    rw [e7_1]; omega

/-- An index of window 7's array is in point t's block iff each coordinate is in the block's range on its axis. -/
theorem inBlock3_7 (t : Fin cfg3.N) (i : S200000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v59_1).slice (win3_7.rect t)).set ↔ _
  rw [View.set_slice_whole, Rect.mem_set_unit]
  exact Iff.rfl

/-- Every index of window 7's array is in some point's block: row r is in the block of point r / 2000. -/
theorem covered3_7 (i : S200000x256.Idx) :
    ∃ t : Fin cfg3.N, (cfg3.win 7).flush t = true ∧ i ∈ ((cfg3.win 7).blk t).view.set := by
  have hi0 : (i 0).val < 200000 := (i 0).isLt
  have hi1 : (i 1).val < 256 := (i 1).isLt
  have hN : cfg3.N = 100 := N_3
  obtain ⟨t, ht⟩ : ∃ t : Fin cfg3.N, t.val = (i 0).val / 2000 := ⟨⟨(i 0).val / 2000, by rw [hN]; omega⟩, rfl⟩
  obtain ⟨e0_0, e0_1, e1_0, e1_1, e2_0, e2_1, e3_0, e3_1, e4_0, e4_1, e5_0, e5_1, e6_0, e6_1, e7_0, e7_1⟩ := blockIndex3 t
  refine ⟨t, flush3_7 t, ?_⟩
  rw [inBlock3_7]
  intro a
  match a with
  | ⟨0, _⟩ => show win3_7.index t (0 : Fin 2) * 2000 ≤ (i 0).val ∧ (i 0).val < win3_7.index t (0 : Fin 2) * 2000 + 2000; rw [e7_0]; omega
  | ⟨1, _⟩ => show win3_7.index t (1 : Fin 2) * 256 ≤ (i 1).val ∧ (i 1).val < win3_7.index t (1 : Fin 2) * 256 + 256; rw [e7_1]; omega

/-- Window 7's array after the grid's last point: the layer plus the previous activation of the arrays the region is entered with. -/
theorem region3_next (V : (c : Dev nD) → (b : Ref sig .tc) → Buf (Elt Ideal) ((c : Thread nD τ).loc b)) (c : Dev nD) :
    (dat3 (F := Ideal) V c).arrAt 7 cfg3.N = Cert.Net.addM (Cert.Net.convK Cert.Net.slope (V c main_v55) (V c main_v45_1) (V c main_v56) (V c main_v58) (V c main_v57)) (V c main_v45_0) :=
  (dat3 (F := Ideal) V c).arrAt_eq_of_cover 7 (Cert.Net.addM (Cert.Net.convK Cert.Net.slope (V c main_v55) (V c main_v45_1) (V c main_v56) (V c main_v58) (V c main_v57)) (V c main_v45_0) : S200000x256.Idx → EReal)
    (fun t _ => written3_7 V c t) covered3_7

end Cert.KernelIdeal.ConvValue

end
-- ==== Proof.Head4Value.lean ====
/-
  Region 4 of the kernel: the two link-prediction heads, as whole-array functions of the arrays the region is
  entered with.

  A head takes a block x of rows (2000 × 256), a first weight w (256 × 256) with its bias row b, and a second
  weight w1 (256 × d) with its bias row b1, to  leaky (x · w + b) · w1 + b1.  Over the extended reals a change of
  float format is the identity and a matrix-unit product into the zero accumulator is the plain sum of products,
  so the body's value at row p and column c is

      ∑ q, leaky slope (∑ r, x (p, r) · w (r, q) + b (0, q)) · w1 (q, c)  +  b1 (0, c).

  The first layer is stated once (`hidden_apply`); the two heads (d = 1 and d = 3) are its two uses
  (`loc_block_apply`, `type_block_apply`).

  The region walks 50 points; point t reads rows 2000·t … 2000·t + 1999 of the row array S and the whole of every
  weight and bias, and writes the same rows of each of its two outputs.  The block's row p is row 2000·t + p of S,
  so what point t writes back is the block of  headK slope S Ws B2 W1 B1  at rows 2000·t … ; row r is covered by
  point r / 2000, so each output array ends holding that function (`region4_loc`, `region4_type`).
-/
import proofs.«148686_j90211493085314_1_alg».proof.Proof.Spec
import proofs.«148686_j90211493085314_1_alg».proof.Proof.LibPlainDot
import proofs.«148686_j90211493085314_1_alg».proof.Proof.LibActivations
import proofs.«148686_j90211493085314_1_alg».proof.Proof.Gen.KernelIdeal.Frame
import Idealize.ShloMosaic.Lib.Pipeline.Value

noncomputable section

open scoped BigOperators

namespace Cert.KernelIdeal.HeadValue

open Cert.KernelIdeal Cert.KernelIdeal.Gen Idealize.ShloMosaic Idealize.ShloMosaic.TcCoe Idealize.SL.Sem
open Idealize.ShloMosaic.Pipeline (Dat)
open Idealize.ShloMosaic.ValueIdx
open Cert.Spec Cert.Net

/-! ## A bias row broadcast down the block's rows -/

/-- A [1, 256] row broadcast to [2000, 256] reads, at (p, j), the row's entry j. -/
theorem bias256_apply (b : FVec Ideal S1x256 .f32) (p : Fin 2000) (j : Fin 256) :
    broadcastTo S2000x256 b broadcasts_S1x256_S2000x256 (ix2 p j) = b (ix2 (0 : Fin 1) j) := by
  refine broadcastTo_apply b broadcasts_S1x256_S2000x256 (ix2 p j) (ix2 (0 : Fin 1) j) fun a => ?_
  match a with
  | ⟨0, _⟩ => rfl
  | ⟨1, _⟩ => rfl

/-- A [1, 1] row broadcast to [2000, 1] reads, at (p, c), the row's entry c. -/
theorem bias1_apply (b : FVec Ideal S1x1 .f32) (p : Fin 2000) (c : Fin 1) :
    broadcastTo S2000x1 b broadcasts_S1x1_S2000x1 (ix2 p c) = b (ix2 (0 : Fin 1) c) := by
  refine broadcastTo_apply b broadcasts_S1x1_S2000x1 (ix2 p c) (ix2 (0 : Fin 1) c) fun a => ?_
  match a with
  | ⟨0, _⟩ => rfl
  | ⟨1, _⟩ =>
    have hc : c.val = 0 := by omega
    show c.val = if (1 : Nat) = 1 then 0 else c.val
    rw [if_pos rfl, hc]

/-- A [1, 3] row broadcast to [2000, 3] reads, at (p, c), the row's entry c. -/
theorem bias3_apply (b : FVec Ideal S1x3 .f32) (p : Fin 2000) (c : Fin 3) :
    broadcastTo S2000x3 b broadcasts_S1x3_S2000x3 (ix2 p c) = b (ix2 (0 : Fin 1) c) := by
  refine broadcastTo_apply b broadcasts_S1x3_S2000x3 (ix2 p c) (ix2 (0 : Fin 1) c) fun a => ?_
  match a with
  | ⟨0, _⟩ => rfl
  | ⟨1, _⟩ => rfl

/-! ## The first layer -/

/-- The rectifier as the body spells it — a select on the comparison with the word of zero between y and the
    slope's word times y — is `leaky slope y`. -/
theorem select_leaky (y : EReal) :
    Scalar.select (Ideal.cmp .oge y (Ideal.ofBits .f32 0x00000000#32)) y (Ideal.ofBits .f32 0x3C23D70A#32 * y)
      = leaky slope y := by
  rw [Cert.LibActivations.zero_word, Cert.LibActivations.cmp_oge_zero, Cert.LibActivations.select_ofBool]
  rfl

/-- The hidden layer of a head at row p and column j: leaky (∑ r, x (p, r) · w (r, j) + b (0, j)). -/
theorem hidden_apply (x : Vec Ideal S2000x256 .f32) (w : Vec Ideal S256x256 .bf16) (b : Vec Ideal S1x256 .f32)
    (p : Fin 2000) (j : Fin 256) :
    k4_pay4 x w b (ix2 p j)
      = leaky slope ((∑ r : Fin 256, x (ix2 p r) * w (ix2 r j)) + b (ix2 (0 : Fin 1) j)) := by
  unfold k4_pay4 k4_pay3
  simp only [shapeCast_self, matmul]
  rw [truncf_apply, select_apply, cmpf_apply, mulf_apply, addf_apply, broadcast_apply, broadcast_apply,
    bias256_apply,
    Cert.LibPlainDot.matmul_zero_apply (n := 2000) (k := 256) (d := 256) dot_S2000x256_S256x256_S2000x256_1_0_0_1_n_n rfl]
  simp only [truncf_apply]
  exact select_leaky _

/-! ## The two heads -/

/-- The one-column head's body is its second product over the hidden layer (the same operations in the same order). -/
theorem pay5_eq (x : Vec Ideal S2000x256 .f32) (w : Vec Ideal S256x256 .bf16) (b : Vec Ideal S1x256 .f32)
    (w1 : Vec Ideal S256x1 .bf16) :
    k4_pay5 x w b w1
      = matmul (φ₂ := .bf16) dot_S2000x256_S256x1_S2000x1_1_0_0_1_n_n none (k4_pay4 x w b)
          (shapeCast S256x1 w1 shapeCasts_S256x1_S256x1) (constant S2000x1 .f32 0x00000000#32) := rfl

/-- The one-column head at row p and column c. -/
theorem loc_block_apply (x : Vec Ideal S2000x256 .f32) (w : Vec Ideal S256x256 .bf16) (b : Vec Ideal S1x256 .f32)
    (w1 : Vec Ideal S256x1 .bf16) (b1 : Vec Ideal S1x1 .f32) (p : Fin 2000) (c : Fin 1) :
    k4_pay1 (k4_pay5 x w b w1) (k4_pay6 b1) (ix2 p c)
      = (∑ q : Fin 256, leaky slope ((∑ r : Fin 256, x (ix2 p r) * w (ix2 r q)) + b (ix2 (0 : Fin 1) q)) * w1 (ix2 q c))
        + b1 (ix2 (0 : Fin 1) c) := by
  rw [pay5_eq]
  unfold k4_pay1 k4_pay6
  simp only [shapeCast_self, matmul]
  rw [addf_apply, bias1_apply,
    Cert.LibPlainDot.matmul_zero_apply (n := 2000) (k := 256) (d := 1) dot_S2000x256_S256x1_S2000x1_1_0_0_1_n_n rfl]
  refine congrArg (· + b1 (ix2 (0 : Fin 1) c)) (Finset.sum_congr rfl fun q _ => ?_)
  rw [hidden_apply]

/-- The three-column head at row p and column c, over a hidden layer h given entry by entry. -/
theorem type_block_apply (x : Vec Ideal S2000x256 .f32) (w : Vec Ideal S256x256 .bf16) (b : Vec Ideal S1x256 .f32)
    (w1 : Vec Ideal S256x3 .bf16) (b1 : Vec Ideal S1x3 .f32) (p : Fin 2000) (c : Fin 3) :
    k4_pay2 (k4_pay4 x w b) w1 b1 (ix2 p c)
      = (∑ q : Fin 256, leaky slope ((∑ r : Fin 256, x (ix2 p r) * w (ix2 r q)) + b (ix2 (0 : Fin 1) q)) * w1 (ix2 q c))
        + b1 (ix2 (0 : Fin 1) c) := by
  unfold k4_pay2
  simp only [shapeCast_self, matmul]
  rw [addf_apply, bias3_apply,
    Cert.LibPlainDot.matmul_zero_apply (n := 2000) (k := 256) (d := 3) dot_S2000x256_S256x3_S2000x3_1_0_0_1_n_n rfl]
  refine congrArg (· + b1 (ix2 (0 : Fin 1) c)) (Finset.sum_congr rfl fun q _ => ?_)
  rw [hidden_apply]

/-! ## A block's head is the whole array's head at the block's rows -/

/-- The one-column head: if the block x is rows r0, r0 + 1, … of S and the weight and bias blocks are the whole
    arrays, the body's entry at j is the whole-array head's entry at the index i with row r0 + (row of j) and the
    same column. -/
theorem loc_block_eq_headK (r0 : ℕ) (x : Vec Ideal S2000x256 .f32) (w' : Vec Ideal S256x256 .bf16)
    (b' : Vec Ideal S1x256 .f32) (w1' : Vec Ideal S256x1 .bf16) (b1' : Vec Ideal S1x1 .f32)
    (S : Mat 100000 256) (w : Mat 256 256) (b : Mat 1 256) (w1 : Mat 256 1) (b1 : Mat 1 1)
    (hx : ∀ (p : Fin 2000) (r : Fin 256) (i : Fin 100000), i.val = r0 + p.val → x (ix2 p r) = S (ix2 i r))
    (hw : w' = w) (hb : b' = b) (hw1 : w1' = w1) (hb1 : b1' = b1)
    (j : S2000x1.Idx) (i : S100000x1.Idx) (hi0 : (i 0).val = r0 + (j 0).val) (hi1 : (i 1).val = (j 1).val) :
    k4_pay1 (k4_pay5 x w' b' w1') (k4_pay6 b1') j = headK slope S w b w1 b1 i := by
  subst hw hb hw1 hb1
  obtain ⟨p, c, rfl⟩ : ∃ (p : Fin 2000) (c : Fin 1), j = ix2 p c := ⟨j 0, j 1, eq_ix2 j⟩
  obtain ⟨i0, c', rfl⟩ : ∃ (i0 : Fin 100000) (c' : Fin 1), i = ix2 i0 c' := ⟨i 0, i 1, eq_ix2 i⟩
  have hc : c' = c := Fin.ext hi1
  subst hc
  have hi : i0.val = r0 + p.val := hi0
  rw [loc_block_apply]
  unfold headK
  rw [addRow_apply, mm_apply]
  refine congrArg (· + b1' (ix2 (0 : Fin 1) c')) (Finset.sum_congr rfl fun q _ => ?_)
  rw [act_apply, addRow_apply, mm_apply]
  refine congrArg (fun y => leaky slope (y + b' (ix2 (0 : Fin 1) q)) * w1' (ix2 q c')) (Finset.sum_congr rfl fun r _ => ?_)
  rw [hx p r i0 hi]

/-- The three-column head, in the same way. -/
theorem type_block_eq_headK (r0 : ℕ) (x : Vec Ideal S2000x256 .f32) (w' : Vec Ideal S256x256 .bf16)
    (b' : Vec Ideal S1x256 .f32) (w1' : Vec Ideal S256x3 .bf16) (b1' : Vec Ideal S1x3 .f32)
    (S : Mat 100000 256) (w : Mat 256 256) (b : Mat 1 256) (w1 : Mat 256 3) (b1 : Mat 1 3)
    (hx : ∀ (p : Fin 2000) (r : Fin 256) (i : Fin 100000), i.val = r0 + p.val → x (ix2 p r) = S (ix2 i r))
    (hw : w' = w) (hb : b' = b) (hw1 : w1' = w1) (hb1 : b1' = b1)
    (j : S2000x3.Idx) (i : S100000x3.Idx) (hi0 : (i 0).val = r0 + (j 0).val) (hi1 : (i 1).val = (j 1).val) :
    k4_pay2 (k4_pay4 x w' b') w1' b1' j = headK slope S w b w1 b1 i := by
  subst hw hb hw1 hb1
  obtain ⟨p, c, rfl⟩ : ∃ (p : Fin 2000) (c : Fin 3), j = ix2 p c := ⟨j 0, j 1, eq_ix2 j⟩
  obtain ⟨i0, c', rfl⟩ : ∃ (i0 : Fin 100000) (c' : Fin 3), i = ix2 i0 c' := ⟨i 0, i 1, eq_ix2 i⟩
  have hc : c' = c := Fin.ext hi1
  subst hc
  have hi : i0.val = r0 + p.val := hi0
  rw [type_block_apply]
  unfold headK
  rw [addRow_apply, mm_apply]
  refine congrArg (· + b1' (ix2 (0 : Fin 1) c')) (Finset.sum_congr rfl fun q _ => ?_)
  rw [act_apply, addRow_apply, mm_apply]
  refine congrArg (fun y => leaky slope (y + b' (ix2 (0 : Fin 1) q)) * w1' (ix2 q c')) (Finset.sum_congr rfl fun r _ => ?_)
  rw [hx p r i0 hi]

/-! ## Where each window's block sits in its array -/

theorem zero_offsets : (![0, 0] : Fin 2 → Nat) = fun _ => 0 := funext fun a => by fin_cases a <;> rfl

/-- The printed index maps over the 50 points: the row array and the two outputs move with the point along the rows,
    every weight and bias stays at block (0, 0). -/
theorem block_indices : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0)
    ∧ (win4_10.index t (0 : Fin 2) = t.val ∧ win4_10.index t (1 : Fin 2) = 0) :=
  (by decide +kernel : ∀ t : Fin grid4.N, _)

section Blocks

variable (V : (c : Dev nD) → (b : Ref sig .tc) → Buf (Elt Ideal) ((c : Thread nD τ).loc b))

/-- The row array's block at point t is rows 2000·t … 2000·t + 1999 of it. -/
theorem rows_block_apply (c : Dev nD) (t : Fin cfg4.N) (p : Fin 2000) (r : Fin 256) (i : Fin 100000)
    (hi : i.val = 2000 * t.val + p.val) :
    (iblk4 V c 0 t : Vec Ideal S2000x256 .f32) (ix2 p r) = (V c main_v78 : Mat 100000 256) (ix2 i r) := by
  obtain ⟨⟨e0, e1⟩, -⟩ := block_indices t
  show V c main_v78 (((cfg4.win 0).blk t).view.emb (ix2 p r)) = V c main_v78 (ix2 i r)
  refine congrArg (V c main_v78) (funext fun a => Fin.ext ?_)
  match a with
  | ⟨0, _⟩ => show win4_0.index t (0 : Fin 2) * 2000 + 1 * p.val = i.val; rw [e0, hi]; omega
  | ⟨1, _⟩ => show win4_0.index t (1 : Fin 2) * 256 + 1 * r.val = r.val; rw [e1]; omega

/-- The first head's first weight is read whole at every point. -/
theorem weight_block_1 (c : Dev nD) (t : Fin cfg4.N) :
    (iblk4 V c 1 t : Vec Ideal S256x256 .bf16) = (V c main_v82 : Mat 256 256) := by
  obtain ⟨-, ⟨e0, e1⟩, -⟩ := block_indices t
  funext y
  show V c main_v82 (((cfg4.win 1).blk t).view.emb y) = V c main_v82 y
  refine congrArg (V c main_v82) (funext fun a => Fin.ext ?_)
  match a with
  | ⟨0, _⟩ => show win4_1.index t (0 : Fin 2) * 256 + 1 * (y 0).val = (y 0).val; rw [e0]; omega
  | ⟨1, _⟩ => show win4_1.index t (1 : Fin 2) * 256 + 1 * (y 1).val = (y 1).val; rw [e1]; omega

/-- The first head's first bias row is read whole at every point. -/
theorem bias_block_2 (c : Dev nD) (t : Fin cfg4.N) :
    (iblk4 V c 2 t : Vec Ideal S1x256 .f32) = (V c main_v85 : Mat 1 256) := by
  obtain ⟨-, -, ⟨e0, e1⟩, -⟩ := block_indices t
  funext y
  show V c main_v85 (((cfg4.win 2).blk t).view.emb y) = V c main_v85 y
  refine congrArg (V c main_v85) (funext fun a => Fin.ext ?_)
  match a with
  | ⟨0, _⟩ => show win4_2.index t (0 : Fin 2) * 1 + 1 * (y 0).val = (y 0).val; rw [e0]; omega
  | ⟨1, _⟩ => show win4_2.index t (1 : Fin 2) * 256 + 1 * (y 1).val = (y 1).val; rw [e1]; omega

/-- The second head's first weight is read whole at every point. -/
theorem weight_block_3 (c : Dev nD) (t : Fin cfg4.N) :
    (iblk4 V c 3 t : Vec Ideal S256x256 .bf16) = (V c main_v89 : Mat 256 256) := by
  obtain ⟨-, -, -, ⟨e0, e1⟩, -⟩ := block_indices t
  funext y
  show V c main_v89 (((cfg4.win 3).blk t).view.emb y) = V c main_v89 y
  refine congrArg (V c main_v89) (funext fun a => Fin.ext ?_)
  match a with
  | ⟨0, _⟩ => show win4_3.index t (0 : Fin 2) * 256 + 1 * (y 0).val = (y 0).val; rw [e0]; omega
  | ⟨1, _⟩ => show win4_3.index t (1 : Fin 2) * 256 + 1 * (y 1).val = (y 1).val; rw [e1]; omega

/-- The second head's first bias row is read whole at every point. -/
theorem bias_block_4 (c : Dev nD) (t : Fin cfg4.N) :
    (iblk4 V c 4 t : Vec Ideal S1x256 .f32) = (V c main_v92 : Mat 1 256) := by
  obtain ⟨-, -, -, -, ⟨e0, e1⟩, -⟩ := block_indices t
  funext y
  show V c main_v92 (((cfg4.win 4).blk t).view.emb y) = V c main_v92 y
  refine congrArg (V c main_v92) (funext fun a => Fin.ext ?_)
  match a with
  | ⟨0, _⟩ => show win4_4.index t (0 : Fin 2) * 1 + 1 * (y 0).val = (y 0).val; rw [e0]; omega
  | ⟨1, _⟩ => show win4_4.index t (1 : Fin 2) * 256 + 1 * (y 1).val = (y 1).val; rw [e1]; omega

/-- The first head's second weight is read whole at every point. -/
theorem weight_block_5 (c : Dev nD) (t : Fin cfg4.N) :
    (iblk4 V c 5 t : Vec Ideal S256x1 .bf16) = (V c main_v93 : Mat 256 1) := by
  obtain ⟨-, -, -, -, -, ⟨e0, e1⟩, -⟩ := block_indices t
  funext y
  show V c main_v93 (((cfg4.win 5).blk t).view.emb y) = V c main_v93 y
  refine congrArg (V c main_v93) (funext fun a => Fin.ext ?_)
  match a with
  | ⟨0, _⟩ => show win4_5.index t (0 : Fin 2) * 256 + 1 * (y 0).val = (y 0).val; rw [e0]; omega
  | ⟨1, _⟩ => show win4_5.index t (1 : Fin 2) * 1 + 1 * (y 1).val = (y 1).val; rw [e1]; omega

/-- The first head's second bias is read whole at every point. -/
theorem bias_block_6 (c : Dev nD) (t : Fin cfg4.N) :
    (iblk4 V c 6 t : Vec Ideal S1x1 .f32) = (V c main_v95 : Mat 1 1) := by
  obtain ⟨-, -, -, -, -, -, ⟨e0, e1⟩, -⟩ := block_indices t
  funext y
  show V c main_v95 (((cfg4.win 6).blk t).view.emb y) = V c main_v95 y
  refine congrArg (V c main_v95) (funext fun a => Fin.ext ?_)
  match a with
  | ⟨0, _⟩ => show win4_6.index t (0 : Fin 2) * 1 + 1 * (y 0).val = (y 0).val; rw [e0]; omega
  | ⟨1, _⟩ => show win4_6.index t (1 : Fin 2) * 1 + 1 * (y 1).val = (y 1).val; rw [e1]; omega

/-- The second head's second weight is read whole at every point. -/
theorem weight_block_7 (c : Dev nD) (t : Fin cfg4.N) :
    (iblk4 V c 7 t : Vec Ideal S256x3 .bf16) = (V c main_v94 : Mat 256 3) := by
  obtain ⟨-, -, -, -, -, -, -, ⟨e0, e1⟩, -⟩ := block_indices t
  funext y
  show V c main_v94 (((cfg4.win 7).blk t).view.emb y) = V c main_v94 y
  refine congrArg (V c main_v94) (funext fun a => Fin.ext ?_)
  match a with
  | ⟨0, _⟩ => show win4_7.index t (0 : Fin 2) * 256 + 1 * (y 0).val = (y 0).val; rw [e0]; omega
  | ⟨1, _⟩ => show win4_7.index t (1 : Fin 2) * 3 + 1 * (y 1).val = (y 1).val; rw [e1]; omega

/-- The second head's second bias row is read whole at every point. -/
theorem bias_block_8 (c : Dev nD) (t : Fin cfg4.N) :
    (iblk4 V c 8 t : Vec Ideal S1x3 .f32) = (V c main_v96 : Mat 1 3) := by
  obtain ⟨-, -, -, -, -, -, -, -, ⟨e0, e1⟩, -⟩ := block_indices t
  funext y
  show V c main_v96 (((cfg4.win 8).blk t).view.emb y) = V c main_v96 y
  refine congrArg (V c main_v96) (funext fun a => Fin.ext ?_)
  match a with
  | ⟨0, _⟩ => show win4_8.index t (0 : Fin 2) * 1 + 1 * (y 0).val = (y 0).val; rw [e0]; omega
  | ⟨1, _⟩ => show win4_8.index t (1 : Fin 2) * 3 + 1 * (y 1).val = (y 1).val; rw [e1]; omega

/-! ## What each point writes back -/

/-- Point t writes back, to the first output, the block at t of the one-column head of the whole arrays. -/
theorem loc_flushed_eq (c : Dev nD) (t : Fin cfg4.N) :
    (dat4 (F := Ideal) V c).flushed 9 t
      = ((cfg4.win 9).blk t).view.read (Elt Ideal)
          (headK slope (V c main_v78) (V c main_v82) (V c main_v85) (V c main_v93) (V c main_v95)) := by
  show (cfg4.win 9).cut (grid4.coords t) ((dat4 (F := Ideal) V c).after 9 t) = _
  rw [after4_9]
  unfold out4_9
  rw [View.canon_unit_zero zero_offsets]
  simp only [View.ld_unit_zero (S := S2000x256) zero_offsets, View.ld_unit_zero (S := S256x256) zero_offsets,
    View.ld_unit_zero (S := S1x256) zero_offsets, View.ld_unit_zero (S := S256x1) zero_offsets,
    View.ld_unit_zero (S := S1x1) zero_offsets]
  obtain ⟨-, -, -, -, -, -, -, -, -, ⟨e0, e1⟩, -⟩ := block_indices t
  funext j
  refine loc_block_eq_headK (2000 * t.val) (iblk4 V c 0 t) (iblk4 V c 1 t) (iblk4 V c 2 t) (iblk4 V c 5 t) (iblk4 V c 6 t)
    (V c main_v78) (V c main_v82) (V c main_v85) (V c main_v93) (V c main_v95)
    (fun p r i hi => rows_block_apply V c t p r i hi) (weight_block_1 V c t) (bias_block_2 V c t) (weight_block_5 V c t)
    (bias_block_6 V c t) j (((cfg4.win 9).blk t).view.emb j) ?_ ?_
  · show win4_9.index t (0 : Fin 2) * 2000 + 1 * (j 0).val = 2000 * t.val + (j 0).val
    rw [e0]; omega
  · show win4_9.index t (1 : Fin 2) * 1 + 1 * (j 1).val = (j 1).val
    rw [e1]; omega

/-- Point t writes back, to the second output, the block at t of the three-column head of the whole arrays. -/
theorem type_flushed_eq (c : Dev nD) (t : Fin cfg4.N) :
    (dat4 (F := Ideal) V c).flushed 10 t
      = ((cfg4.win 10).blk t).view.read (Elt Ideal)
          (headK slope (V c main_v78) (V c main_v89) (V c main_v92) (V c main_v94) (V c main_v96)) := by
  show (cfg4.win 10).cut (grid4.coords t) ((dat4 (F := Ideal) V c).after 10 t) = _
  rw [after4_10]
  unfold out4_10
  rw [View.canon_unit_zero zero_offsets]
  simp only [View.ld_unit_zero (S := S2000x256) zero_offsets, View.ld_unit_zero (S := S256x256) zero_offsets,
    View.ld_unit_zero (S := S1x256) zero_offsets, View.ld_unit_zero (S := S256x3) zero_offsets,
    View.ld_unit_zero (S := S1x3) zero_offsets]
  obtain ⟨-, -, -, -, -, -, -, -, -, -, ⟨e0, e1⟩⟩ := block_indices t
  funext j
  refine type_block_eq_headK (2000 * t.val) (iblk4 V c 0 t) (iblk4 V c 3 t) (iblk4 V c 4 t) (iblk4 V c 7 t) (iblk4 V c 8 t)
    (V c main_v78) (V c main_v89) (V c main_v92) (V c main_v94) (V c main_v96)
    (fun p r i hi => rows_block_apply V c t p r i hi) (weight_block_3 V c t) (bias_block_4 V c t) (weight_block_7 V c t)
    (bias_block_8 V c t) j (((cfg4.win 10).blk t).view.emb j) ?_ ?_
  · show win4_10.index t (0 : Fin 2) * 2000 + 1 * (j 0).val = 2000 * t.val + (j 0).val
    rw [e0]; omega
  · show win4_10.index t (1 : Fin 2) * 3 + 1 * (j 1).val = (j 1).val
    rw [e1]; omega

/-! ## The cover: row r is written by point r / 2000 -/

theorem loc_cover (i : S100000x1.Idx) :
    ∃ t : Fin cfg4.N, (cfg4.win 9).flush t = true ∧ i ∈ ((cfg4.win 9).blk t).view.set := by
  have hi0 : (i 0).val < 100000 := (i 0).isLt
  have hi1 : (i 1).val < 1 := (i 1).isLt
  obtain ⟨t, ht⟩ : ∃ t : Fin cfg4.N, t.val = (i 0).val / 2000 :=
    ⟨⟨(i 0).val / 2000, by show (i 0).val / 2000 < grid4.N; rw [N_4]; omega⟩, rfl⟩
  obtain ⟨-, -, -, -, -, -, -, -, -, ⟨e0, e1⟩, -⟩ := block_indices t
  refine ⟨t, flush4_9 t, ?_⟩
  show i ∈ ((View.whole main_v97_0).slice (win4_9.rect t)).set
  rw [View.set_slice_whole, Rect.mem_set_unit]
  intro a
  match a with
  | ⟨0, _⟩ =>
    show win4_9.index t (0 : Fin 2) * 2000 ≤ (i 0).val ∧ (i 0).val < win4_9.index t (0 : Fin 2) * 2000 + 2000
    rw [e0, ht]; omega
  | ⟨1, _⟩ =>
    show win4_9.index t (1 : Fin 2) * 1 ≤ (i 1).val ∧ (i 1).val < win4_9.index t (1 : Fin 2) * 1 + 1
    rw [e1]; omega

theorem type_cover (i : S100000x3.Idx) :
    ∃ t : Fin cfg4.N, (cfg4.win 10).flush t = true ∧ i ∈ ((cfg4.win 10).blk t).view.set := by
  have hi0 : (i 0).val < 100000 := (i 0).isLt
  have hi1 : (i 1).val < 3 := (i 1).isLt
  obtain ⟨t, ht⟩ : ∃ t : Fin cfg4.N, t.val = (i 0).val / 2000 :=
    ⟨⟨(i 0).val / 2000, by show (i 0).val / 2000 < grid4.N; rw [N_4]; omega⟩, rfl⟩
  obtain ⟨-, -, -, -, -, -, -, -, -, -, ⟨e0, e1⟩⟩ := block_indices t
  refine ⟨t, flush4_10 t, ?_⟩
  show i ∈ ((View.whole main_v97_1).slice (win4_10.rect t)).set
  rw [View.set_slice_whole, Rect.mem_set_unit]
  intro a
  match a with
  | ⟨0, _⟩ =>
    show win4_10.index t (0 : Fin 2) * 2000 ≤ (i 0).val ∧ (i 0).val < win4_10.index t (0 : Fin 2) * 2000 + 2000
    rw [e0, ht]; omega
  | ⟨1, _⟩ =>
    show win4_10.index t (1 : Fin 2) * 3 ≤ (i 1).val ∧ (i 1).val < win4_10.index t (1 : Fin 2) * 3 + 3
    rw [e1]; omega

/-! ## The two output arrays after the region -/

/-- The first output array ends holding the one-column head of the arrays the region is entered with. -/
theorem region4_loc (c : Dev nD) :
    (Gen.dat4 (F := Ideal) V c).arrAt 9 cfg4.N
      = Cert.Net.headK Cert.Net.slope (V c main_v78) (V c main_v82) (V c main_v85) (V c main_v93) (V c main_v95) :=
  (dat4 (F := Ideal) V c).arrAt_eq_of_cover 9
    (headK slope (V c main_v78) (V c main_v82) (V c main_v85) (V c main_v93) (V c main_v95))
    (fun t _ => loc_flushed_eq V c t) loc_cover

/-- The second output array ends holding the three-column head of the arrays the region is entered with. -/
theorem region4_type (c : Dev nD) :
    (Gen.dat4 (F := Ideal) V c).arrAt 10 cfg4.N
      = Cert.Net.headK Cert.Net.slope (V c main_v78) (V c main_v89) (V c main_v92) (V c main_v94) (V c main_v96) :=
  (dat4 (F := Ideal) V c).arrAt_eq_of_cover 10
    (headK slope (V c main_v78) (V c main_v89) (V c main_v92) (V c main_v94) (V c main_v96))
    (fun t _ => type_flushed_eq V c t) type_cover

end Blocks

end Cert.KernelIdeal.HeadValue

end
-- ==== Proof.Chain.lean ====
/-
  The idealized kernel's two results as functions of the arguments.

  The program is five kernel regions among stretches of host operations, and the contents of its buffers at every
  boundary are a fold through it: a stretch applies its host operations to the contents it is entered with; a region
  replaces its output arrays by what its grid leaves and keeps every other buffer. Reading that fold from the launch:

  * the first stretch forms the neighbour sums of the input features (rows gathered at the edges' sources, added at
    their destinations), narrows the first layer's two weights (a change of float format: the identity on the
    extended reals) and reshapes its bias into a row; the first region then leaves the first layer's activation in
    both of its output arrays;
  * each later stretch forms the neighbour sums of the previous region's output with the SAME two columns of edge
    endpoints, computed once by the first stretch and carried untouched through every boundary since, and prepares
    that layer's weights and bias; the region leaves the layer's activation and its sum with the previous activation;
  * the last stretch reads the rows of the fourth layer's output at the two endpoints of every edge to predict and
    adds them, adds the two halves of each head's first weight, doubles its bias, narrows the second weights and
    reshapes the second biases; the last region leaves the two heads' outputs.

  Every array a stretch or a region reads is followed back to the launch: an argument is written by nothing, the
  endpoint columns by the first stretch only, a layer's outputs by its region only. The results are the specification's
  head (`headK`) on the specification's node embeddings `Z4` of the arguments.
-/
import proofs.«148686_j90211493085314_1_alg».proof.Proof.Gen.KernelIdeal.Frame
import proofs.«148686_j90211493085314_1_alg».proof.Proof.Spec
import proofs.«148686_j90211493085314_1_alg».proof.Proof.LibHostKeeps
import proofs.«148686_j90211493085314_1_alg».proof.Proof.Conv0
import proofs.«148686_j90211493085314_1_alg».proof.Proof.Conv1
import proofs.«148686_j90211493085314_1_alg».proof.Proof.Conv2
import proofs.«148686_j90211493085314_1_alg».proof.Proof.Conv3
import proofs.«148686_j90211493085314_1_alg».proof.Proof.Head4Value
import Idealize.ShloMosaic.Lib.ValueLayout
import Idealize.ShloMosaic.Lib.Pipeline.Value

set_option maxRecDepth 16384

noncomputable section

namespace Cert.KernelIdeal.Chain

open Cert.KernelIdeal Cert.KernelIdeal.Gen Cert.Net Cert.Spec
open Idealize.ShloMosaic Idealize.ShloMosaic.TcCoe Idealize.SL.Sem Idealize.ShloMosaic.StableHlo Idealize.ShloMosaic.ValueIdx
open Cert.LibHostKeeps

/-! ## Small readings of host operations at an index -/

/-- A length-d array reshaped to one row is that row. -/
theorem reshape_row {d : ℕ} (b : (⟨1, ![d]⟩ : Shape).Idx → EReal) (h : (⟨1, ![d]⟩ : Shape).ShapeCasts ⟨2, ![1, d]⟩) :
    shapeCast ⟨2, ![1, d]⟩ b h = rowOf b := by
  funext i
  obtain ⟨z, j, rfl⟩ : ∃ (z : Fin 1) (j : Fin d), i = ix2 z j := ⟨i 0, i 1, eq_ix2 i⟩
  exact shapeCast_a_1a_apply b h z j

/-- The slice of rows 0 … 255 of a [512, 256] array plus its slice of rows 256 … 511 is the sum of its two halves. -/
theorem halves_sum (W : Mat 512 256) (h0 : (⟨2, ![512, 256]⟩ : Shape).Slices ![0, 0] ⟨2, ![256, 256]⟩)
    (h1 : (⟨2, ![512, 256]⟩ : Shape).Slices ![256, 0] ⟨2, ![256, 256]⟩) :
    truncf (F := Ideal) (φ := .f32) .bf16 (addf (extractStridedSlice ⟨2, ![256, 256]⟩ ![0, 0] W h0) (extractStridedSlice ⟨2, ![256, 256]⟩ ![256, 0] W h1)) bitsLt_bf16_f32
      = addM (topHalf W) (botHalf W) := by
  funext j
  show extractStridedSlice ⟨2, ![256, 256]⟩ ![0, 0] W h0 j + extractStridedSlice ⟨2, ![256, 256]⟩ ![256, 0] W h1 j = topHalf W j + botHalf W j
  unfold topHalf botHalf
  refine congrArg₂ (· + ·) (extractStridedSlice_apply ![0, 0] W h0 j _ (fun a => ?_)) (extractStridedSlice_apply ![256, 0] W h1 j _ (fun a => ?_))
  · match a with
    | ⟨0, _⟩ => show (j 0).val = 0 + (j 0).val; omega
    | ⟨1, _⟩ => show (j 1).val = 0 + (j 1).val; omega
  · match a with
    | ⟨0, _⟩ => show 256 + (j 0).val = 256 + (j 0).val; rfl
    | ⟨1, _⟩ => show (j 1).val = 0 + (j 1).val; omega

variable (m : (ℓ : Loc nD τ sig) → Buf (Elt Ideal) ℓ) (ρ : Dev nD → PrngReg) (c : Dev nD)

/-! ## The first stretch: the neighbour sums of the input, the narrowed weights, the bias as a row -/

set_option maxHeartbeats 1000000 in
theorem s0_agg : W1 (F := Ideal) m ρ c (Proc.devRef .tc main_v13) = agg128 (m ((c.tc : Thread nD τ).loc main_arg0)) (m ((c.tc : Thread nD τ).loc main_arg1)) := by
  show StableHlo.after hostOps0 (W0 m ρ c) (Proc.devRef .tc main_v13) = _
  after_results_simp
  rfl

set_option maxHeartbeats 400000 in
theorem s0_x : W1 (F := Ideal) m ρ c (Proc.devRef .tc main_arg0) = (m ((c.tc : Thread nD τ).loc main_arg0)) := by
  show StableHlo.after hostOps0 (W0 m ρ c) (Proc.devRef .tc main_arg0) = _
  host_keeps hostOps0

set_option maxHeartbeats 400000 in
theorem s0_wr : W1 (F := Ideal) m ρ c (Proc.devRef .tc main_v14) = (m ((c.tc : Thread nD τ).loc main_arg3)) := by
  show StableHlo.after hostOps0 (W0 m ρ c) (Proc.devRef .tc main_v14) = _
  after_results_simp
  rfl

set_option maxHeartbeats 400000 in
theorem s0_wro : W1 (F := Ideal) m ρ c (Proc.devRef .tc main_v15) = (m ((c.tc : Thread nD τ).loc main_arg5)) := by
  show StableHlo.after hostOps0 (W0 m ρ c) (Proc.devRef .tc main_v15) = _
  after_results_simp
  rfl

set_option maxHeartbeats 400000 in
theorem s0_b : W1 (F := Ideal) m ρ c (Proc.devRef .tc main_v16) = rowOf (m ((c.tc : Thread nD τ).loc main_arg4)) := by
  show StableHlo.after hostOps0 (W0 m ρ c) (Proc.devRef .tc main_v16) = _
  after_results_simp
  exact reshape_row _ _

set_option maxHeartbeats 400000 in
theorem s0_src : W1 (F := Ideal) m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results_simp
  rfl

set_option maxHeartbeats 400000 in
theorem s0_dst : W1 (F := Ideal) m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp
  rfl

/-! ## The first layer -/

set_option maxHeartbeats 400000 in
theorem r0_act : W2 (F := Ideal) m ρ c (Proc.devRef .tc main_v17_0) = (P0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  refine (W2_arr m ρ c 5).trans ?_
  rw [Cert.KernelIdeal.ConvValue.region0_act]
  show convK slope (W1 (F := Ideal) m ρ c (Proc.devRef .tc main_v13)) (W1 (F := Ideal) m ρ c (Proc.devRef .tc main_arg0)) (W1 (F := Ideal) m ρ c (Proc.devRef .tc main_v14)) (W1 (F := Ideal) m ρ c (Proc.devRef .tc main_v16)) (W1 (F := Ideal) m ρ c (Proc.devRef .tc main_v15)) = _
  rw [s0_agg, s0_x, s0_wr, s0_b, s0_wro]
  rfl

set_option maxHeartbeats 400000 in
theorem r0_next : W2 (F := Ideal) m ρ c (Proc.devRef .tc main_v17_1) = (P0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  refine (W2_arr m ρ c 6).trans ?_
  rw [Cert.KernelIdeal.ConvValue.region0_next]
  show convK slope (W1 (F := Ideal) m ρ c (Proc.devRef .tc main_v13)) (W1 (F := Ideal) m ρ c (Proc.devRef .tc main_arg0)) (W1 (F := Ideal) m ρ c (Proc.devRef .tc main_v14)) (W1 (F := Ideal) m ρ c (Proc.devRef .tc main_v16)) (W1 (F := Ideal) m ρ c (Proc.devRef .tc main_v15)) = _
  rw [s0_agg, s0_x, s0_wr, s0_b, s0_wro]
  rfl

/-! ## Stretch 1 and layer 2 -/

set_option maxHeartbeats 400000 in
theorem b2_src : W2 (F := Ideal) m ρ c (Proc.devRef .tc main_v1) = Cert.ReferenceIdeal.Read.val_main_v1 (F := Ideal) (m ((c.tc : Thread nD τ).loc main_arg1)) := by
  rw [W2_of_ne m ρ c main_v1 (by decide)]
  exact s0_src m ρ c

set_option maxHeartbeats 400000 in
theorem b2_dst : W2 (F := Ideal) m ρ c (Proc.devRef .tc main_v3) = Cert.ReferenceIdeal.Read.val_main_v3 (F := Ideal) (m ((c.tc : Thread nD τ).loc main_arg1)) := by
  rw [W2_of_ne m ρ c main_v3 (by decide)]
  exact s0_dst m ρ c

set_option maxHeartbeats 400000 in
theorem b2_a6 : W2 (F := Ideal) m ρ c (Proc.devRef .tc main_arg6) = (m ((c.tc : Thread nD τ).loc main_arg6)) := by
  rw [W2_of_ne m ρ c main_arg6 (by decide)]
  rw [show W1 (F := Ideal) m ρ c (Proc.devRef .tc main_arg6) = W0 (F := Ideal) m ρ c (Proc.devRef .tc main_arg6) from by host_keeps hostOps0]

set_option maxHeartbeats 400000 in
theorem b2_a7 : W2 (F := Ideal) m ρ c (Proc.devRef .tc main_arg7) = (m ((c.tc : Thread nD τ).loc main_arg7)) := by
  rw [W2_of_ne m ρ c main_arg7 (by decide)]
  rw [show W1 (F := Ideal) m ρ c (Proc.devRef .tc main_arg7) = W0 (F := Ideal) m ρ c (Proc.devRef .tc main_arg7) from by host_keeps hostOps0]

set_option maxHeartbeats 400000 in
theorem b2_a8 : W2 (F := Ideal) m ρ c (Proc.devRef .tc main_arg8) = (m ((c.tc : Thread nD τ).loc main_arg8)) := by
  rw [W2_of_ne m ρ c main_arg8 (by decide)]
  rw [show W1 (F := Ideal) m ρ c (Proc.devRef .tc main_arg8) = W0 (F := Ideal) m ρ c (Proc.devRef .tc main_arg8) from by host_keeps hostOps0]

set_option maxHeartbeats 1000000 in
theorem s1_agg : W3 (F := Ideal) m ρ c (Proc.devRef .tc main_v27) = agg256 (P0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) := by
  show StableHlo.after hostOps1 (W2 m ρ c) (Proc.devRef .tc main_v27) = _
  after_results_simp
  rw [b2_src, b2_dst, r0_next]
  rfl

set_option maxHeartbeats 400000 in
theorem s1_z : W3 (F := Ideal) m ρ c (Proc.devRef .tc main_v17_1) = (P0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  rw [show W3 (F := Ideal) m ρ c (Proc.devRef .tc main_v17_1) = W2 (F := Ideal) m ρ c (Proc.devRef .tc main_v17_1) from by host_keeps hostOps1]
  exact r0_next m ρ c

set_option maxHeartbeats 400000 in
theorem s1_pp : W3 (F := Ideal) m ρ c (Proc.devRef .tc main_v17_0) = (P0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  rw [show W3 (F := Ideal) m ρ c (Proc.devRef .tc main_v17_0) = W2 (F := Ideal) m ρ c (Proc.devRef .tc main_v17_0) from by host_keeps hostOps1]
  exact r0_act m ρ c

set_option maxHeartbeats 400000 in
theorem s1_wr : W3 (F := Ideal) m ρ c (Proc.devRef .tc main_v28) = (m ((c.tc : Thread nD τ).loc main_arg6)) := by
  show StableHlo.after hostOps1 (W2 m ρ c) (Proc.devRef .tc main_v28) = _
  after_results_simp
  rw [b2_a6]
  rfl

set_option maxHeartbeats 400000 in
theorem s1_wro : W3 (F := Ideal) m ρ c (Proc.devRef .tc main_v29) = (m ((c.tc : Thread nD τ).loc main_arg8)) := by
  show StableHlo.after hostOps1 (W2 m ρ c) (Proc.devRef .tc main_v29) = _
  after_results_simp
  rw [b2_a8]
  rfl

set_option maxHeartbeats 400000 in
theorem s1_b : W3 (F := Ideal) m ρ c (Proc.devRef .tc main_v30) = rowOf (m ((c.tc : Thread nD τ).loc main_arg7)) := by
  show StableHlo.after hostOps1 (W2 m ρ c) (Proc.devRef .tc main_v30) = _
  after_results_simp
  rw [b2_a7]
  exact reshape_row _ _

set_option maxHeartbeats 400000 in
theorem r1_act : W4 (F := Ideal) m ρ c (Proc.devRef .tc main_v31_0) = (P1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (W4_arr m ρ c 6).trans ?_
  rw [Cert.KernelIdeal.ConvValue.region1_act]
  show convK slope (W3 (F := Ideal) m ρ c (Proc.devRef .tc main_v27)) (W3 (F := Ideal) m ρ c (Proc.devRef .tc main_v17_1)) (W3 (F := Ideal) m ρ c (Proc.devRef .tc main_v28)) (W3 (F := Ideal) m ρ c (Proc.devRef .tc main_v30)) (W3 (F := Ideal) m ρ c (Proc.devRef .tc main_v29)) = _
  rw [s1_agg, s1_z, s1_wr, s1_b, s1_wro]
  rfl

set_option maxHeartbeats 400000 in
theorem r1_next : W4 (F := Ideal) m ρ c (Proc.devRef .tc main_v31_1) = (Z2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (W4_arr m ρ c 7).trans ?_
  rw [Cert.KernelIdeal.ConvValue.region1_next]
  show addM (convK slope (W3 (F := Ideal) m ρ c (Proc.devRef .tc main_v27)) (W3 (F := Ideal) m ρ c (Proc.devRef .tc main_v17_1)) (W3 (F := Ideal) m ρ c (Proc.devRef .tc main_v28)) (W3 (F := Ideal) m ρ c (Proc.devRef .tc main_v30)) (W3 (F := Ideal) m ρ c (Proc.devRef .tc main_v29))) (W3 (F := Ideal) m ρ c (Proc.devRef .tc main_v17_0)) = _
  rw [s1_agg, s1_z, s1_wr, s1_b, s1_wro, s1_pp]
  rfl

/-! ## Stretch 2 and layer 3 -/

set_option maxHeartbeats 400000 in
theorem b4_src : W4 (F := Ideal) m ρ c (Proc.devRef .tc main_v1) = Cert.ReferenceIdeal.Read.val_main_v1 (F := Ideal) (m ((c.tc : Thread nD τ).loc main_arg1)) := by
  rw [W4_of_ne m ρ c main_v1 (by decide)]
  rw [show W3 (F := Ideal) m ρ c (Proc.devRef .tc main_v1) = W2 (F := Ideal) m ρ c (Proc.devRef .tc main_v1) from by host_keeps hostOps1]
  rw [W2_of_ne m ρ c main_v1 (by decide)]
  exact s0_src m ρ c

set_option maxHeartbeats 400000 in
theorem b4_dst : W4 (F := Ideal) m ρ c (Proc.devRef .tc main_v3) = Cert.ReferenceIdeal.Read.val_main_v3 (F := Ideal) (m ((c.tc : Thread nD τ).loc main_arg1)) := by
  rw [W4_of_ne m ρ c main_v3 (by decide)]
  rw [show W3 (F := Ideal) m ρ c (Proc.devRef .tc main_v3) = W2 (F := Ideal) m ρ c (Proc.devRef .tc main_v3) from by host_keeps hostOps1]
  rw [W2_of_ne m ρ c main_v3 (by decide)]
  exact s0_dst m ρ c

set_option maxHeartbeats 400000 in
theorem b4_a9 : W4 (F := Ideal) m ρ c (Proc.devRef .tc main_arg9) = (m ((c.tc : Thread nD τ).loc main_arg9)) := by
  rw [W4_of_ne m ρ c main_arg9 (by decide)]
  rw [show W3 (F := Ideal) m ρ c (Proc.devRef .tc main_arg9) = W2 (F := Ideal) m ρ c (Proc.devRef .tc main_arg9) from by host_keeps hostOps1]
  rw [W2_of_ne m ρ c main_arg9 (by decide)]
  rw [show W1 (F := Ideal) m ρ c (Proc.devRef .tc main_arg9) = W0 (F := Ideal) m ρ c (Proc.devRef .tc main_arg9) from by host_keeps hostOps0]

set_option maxHeartbeats 400000 in
theorem b4_a10 : W4 (F := Ideal) m ρ c (Proc.devRef .tc main_arg10) = (m ((c.tc : Thread nD τ).loc main_arg10)) := by
  rw [W4_of_ne m ρ c main_arg10 (by decide)]
  rw [show W3 (F := Ideal) m ρ c (Proc.devRef .tc main_arg10) = W2 (F := Ideal) m ρ c (Proc.devRef .tc main_arg10) from by host_keeps hostOps1]
  rw [W2_of_ne m ρ c main_arg10 (by decide)]
  rw [show W1 (F := Ideal) m ρ c (Proc.devRef .tc main_arg10) = W0 (F := Ideal) m ρ c (Proc.devRef .tc main_arg10) from by host_keeps hostOps0]

set_option maxHeartbeats 400000 in
theorem b4_a11 : W4 (F := Ideal) m ρ c (Proc.devRef .tc main_arg11) = (m ((c.tc : Thread nD τ).loc main_arg11)) := by
  rw [W4_of_ne m ρ c main_arg11 (by decide)]
  rw [show W3 (F := Ideal) m ρ c (Proc.devRef .tc main_arg11) = W2 (F := Ideal) m ρ c (Proc.devRef .tc main_arg11) from by host_keeps hostOps1]
  rw [W2_of_ne m ρ c main_arg11 (by decide)]
  rw [show W1 (F := Ideal) m ρ c (Proc.devRef .tc main_arg11) = W0 (F := Ideal) m ρ c (Proc.devRef .tc main_arg11) from by host_keeps hostOps0]

set_option maxHeartbeats 1000000 in
theorem s2_agg : W5 (F := Ideal) m ρ c (Proc.devRef .tc main_v41) = agg256 (Z2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) := by
  show StableHlo.after hostOps2 (W4 m ρ c) (Proc.devRef .tc main_v41) = _
  after_results_simp
  rw [b4_src, b4_dst, r1_next]
  rfl

set_option maxHeartbeats 400000 in
theorem s2_z : W5 (F := Ideal) m ρ c (Proc.devRef .tc main_v31_1) = (Z2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  rw [show W5 (F := Ideal) m ρ c (Proc.devRef .tc main_v31_1) = W4 (F := Ideal) m ρ c (Proc.devRef .tc main_v31_1) from by host_keeps hostOps2]
  exact r1_next m ρ c

set_option maxHeartbeats 400000 in
theorem s2_pp : W5 (F := Ideal) m ρ c (Proc.devRef .tc main_v31_0) = (P1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  rw [show W5 (F := Ideal) m ρ c (Proc.devRef .tc main_v31_0) = W4 (F := Ideal) m ρ c (Proc.devRef .tc main_v31_0) from by host_keeps hostOps2]
  exact r1_act m ρ c

set_option maxHeartbeats 400000 in
theorem s2_wr : W5 (F := Ideal) m ρ c (Proc.devRef .tc main_v42) = (m ((c.tc : Thread nD τ).loc main_arg9)) := by
  show StableHlo.after hostOps2 (W4 m ρ c) (Proc.devRef .tc main_v42) = _
  after_results_simp
  rw [b4_a9]
  rfl

set_option maxHeartbeats 400000 in
theorem s2_wro : W5 (F := Ideal) m ρ c (Proc.devRef .tc main_v43) = (m ((c.tc : Thread nD τ).loc main_arg11)) := by
  show StableHlo.after hostOps2 (W4 m ρ c) (Proc.devRef .tc main_v43) = _
  after_results_simp
  rw [b4_a11]
  rfl

set_option maxHeartbeats 400000 in
theorem s2_b : W5 (F := Ideal) m ρ c (Proc.devRef .tc main_v44) = rowOf (m ((c.tc : Thread nD τ).loc main_arg10)) := by
  show StableHlo.after hostOps2 (W4 m ρ c) (Proc.devRef .tc main_v44) = _
  after_results_simp
  rw [b4_a10]
  exact reshape_row _ _

set_option maxHeartbeats 400000 in
theorem r2_act : W6 (F := Ideal) m ρ c (Proc.devRef .tc main_v45_0) = (P2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  refine (W6_arr m ρ c 6).trans ?_
  rw [Cert.KernelIdeal.ConvValue.region2_act]
  show convK slope (W5 (F := Ideal) m ρ c (Proc.devRef .tc main_v41)) (W5 (F := Ideal) m ρ c (Proc.devRef .tc main_v31_1)) (W5 (F := Ideal) m ρ c (Proc.devRef .tc main_v42)) (W5 (F := Ideal) m ρ c (Proc.devRef .tc main_v44)) (W5 (F := Ideal) m ρ c (Proc.devRef .tc main_v43)) = _
  rw [s2_agg, s2_z, s2_wr, s2_b, s2_wro]
  rfl

set_option maxHeartbeats 400000 in
theorem r2_next : W6 (F := Ideal) m ρ c (Proc.devRef .tc main_v45_1) = (Z3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  refine (W6_arr m ρ c 7).trans ?_
  rw [Cert.KernelIdeal.ConvValue.region2_next]
  show addM (convK slope (W5 (F := Ideal) m ρ c (Proc.devRef .tc main_v41)) (W5 (F := Ideal) m ρ c (Proc.devRef .tc main_v31_1)) (W5 (F := Ideal) m ρ c (Proc.devRef .tc main_v42)) (W5 (F := Ideal) m ρ c (Proc.devRef .tc main_v44)) (W5 (F := Ideal) m ρ c (Proc.devRef .tc main_v43))) (W5 (F := Ideal) m ρ c (Proc.devRef .tc main_v31_0)) = _
  rw [s2_agg, s2_z, s2_wr, s2_b, s2_wro, s2_pp]
  rfl

/-! ## Stretch 3 and layer 4 -/

set_option maxHeartbeats 400000 in
theorem b6_src : W6 (F := Ideal) m ρ c (Proc.devRef .tc main_v1) = Cert.ReferenceIdeal.Read.val_main_v1 (F := Ideal) (m ((c.tc : Thread nD τ).loc main_arg1)) := by
  rw [W6_of_ne m ρ c main_v1 (by decide)]
  rw [show W5 (F := Ideal) m ρ c (Proc.devRef .tc main_v1) = W4 (F := Ideal) m ρ c (Proc.devRef .tc main_v1) from by host_keeps hostOps2]
  rw [W4_of_ne m ρ c main_v1 (by decide)]
  rw [show W3 (F := Ideal) m ρ c (Proc.devRef .tc main_v1) = W2 (F := Ideal) m ρ c (Proc.devRef .tc main_v1) from by host_keeps hostOps1]
  rw [W2_of_ne m ρ c main_v1 (by decide)]
  exact s0_src m ρ c

set_option maxHeartbeats 400000 in
theorem b6_dst : W6 (F := Ideal) m ρ c (Proc.devRef .tc main_v3) = Cert.ReferenceIdeal.Read.val_main_v3 (F := Ideal) (m ((c.tc : Thread nD τ).loc main_arg1)) := by
  rw [W6_of_ne m ρ c main_v3 (by decide)]
  rw [show W5 (F := Ideal) m ρ c (Proc.devRef .tc main_v3) = W4 (F := Ideal) m ρ c (Proc.devRef .tc main_v3) from by host_keeps hostOps2]
  rw [W4_of_ne m ρ c main_v3 (by decide)]
  rw [show W3 (F := Ideal) m ρ c (Proc.devRef .tc main_v3) = W2 (F := Ideal) m ρ c (Proc.devRef .tc main_v3) from by host_keeps hostOps1]
  rw [W2_of_ne m ρ c main_v3 (by decide)]
  exact s0_dst m ρ c

set_option maxHeartbeats 400000 in
theorem b6_a12 : W6 (F := Ideal) m ρ c (Proc.devRef .tc main_arg12) = (m ((c.tc : Thread nD τ).loc main_arg12)) := by
  rw [W6_of_ne m ρ c main_arg12 (by decide)]
  rw [show W5 (F := Ideal) m ρ c (Proc.devRef .tc main_arg12) = W4 (F := Ideal) m ρ c (Proc.devRef .tc main_arg12) from by host_keeps hostOps2]
  rw [W4_of_ne m ρ c main_arg12 (by decide)]
  rw [show W3 (F := Ideal) m ρ c (Proc.devRef .tc main_arg12) = W2 (F := Ideal) m ρ c (Proc.devRef .tc main_arg12) from by host_keeps hostOps1]
  rw [W2_of_ne m ρ c main_arg12 (by decide)]
  rw [show W1 (F := Ideal) m ρ c (Proc.devRef .tc main_arg12) = W0 (F := Ideal) m ρ c (Proc.devRef .tc main_arg12) from by host_keeps hostOps0]

set_option maxHeartbeats 400000 in
theorem b6_a13 : W6 (F := Ideal) m ρ c (Proc.devRef .tc main_arg13) = (m ((c.tc : Thread nD τ).loc main_arg13)) := by
  rw [W6_of_ne m ρ c main_arg13 (by decide)]
  rw [show W5 (F := Ideal) m ρ c (Proc.devRef .tc main_arg13) = W4 (F := Ideal) m ρ c (Proc.devRef .tc main_arg13) from by host_keeps hostOps2]
  rw [W4_of_ne m ρ c main_arg13 (by decide)]
  rw [show W3 (F := Ideal) m ρ c (Proc.devRef .tc main_arg13) = W2 (F := Ideal) m ρ c (Proc.devRef .tc main_arg13) from by host_keeps hostOps1]
  rw [W2_of_ne m ρ c main_arg13 (by decide)]
  rw [show W1 (F := Ideal) m ρ c (Proc.devRef .tc main_arg13) = W0 (F := Ideal) m ρ c (Proc.devRef .tc main_arg13) from by host_keeps hostOps0]

set_option maxHeartbeats 400000 in
theorem b6_a14 : W6 (F := Ideal) m ρ c (Proc.devRef .tc main_arg14) = (m ((c.tc : Thread nD τ).loc main_arg14)) := by
  rw [W6_of_ne m ρ c main_arg14 (by decide)]
  rw [show W5 (F := Ideal) m ρ c (Proc.devRef .tc main_arg14) = W4 (F := Ideal) m ρ c (Proc.devRef .tc main_arg14) from by host_keeps hostOps2]
  rw [W4_of_ne m ρ c main_arg14 (by decide)]
  rw [show W3 (F := Ideal) m ρ c (Proc.devRef .tc main_arg14) = W2 (F := Ideal) m ρ c (Proc.devRef .tc main_arg14) from by host_keeps hostOps1]
  rw [W2_of_ne m ρ c main_arg14 (by decide)]
  rw [show W1 (F := Ideal) m ρ c (Proc.devRef .tc main_arg14) = W0 (F := Ideal) m ρ c (Proc.devRef .tc main_arg14) from by host_keeps hostOps0]

set_option maxHeartbeats 1000000 in
theorem s3_agg : W7 (F := Ideal) m ρ c (Proc.devRef .tc main_v55) = agg256 (Z3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg1)) := by
  show StableHlo.after hostOps3 (W6 m ρ c) (Proc.devRef .tc main_v55) = _
  after_results_simp
  rw [b6_src, b6_dst, r2_next]
  rfl

set_option maxHeartbeats 400000 in
theorem s3_z : W7 (F := Ideal) m ρ c (Proc.devRef .tc main_v45_1) = (Z3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  rw [show W7 (F := Ideal) m ρ c (Proc.devRef .tc main_v45_1) = W6 (F := Ideal) m ρ c (Proc.devRef .tc main_v45_1) from by host_keeps hostOps3]
  exact r2_next m ρ c

set_option maxHeartbeats 400000 in
theorem s3_pp : W7 (F := Ideal) m ρ c (Proc.devRef .tc main_v45_0) = (P2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  rw [show W7 (F := Ideal) m ρ c (Proc.devRef .tc main_v45_0) = W6 (F := Ideal) m ρ c (Proc.devRef .tc main_v45_0) from by host_keeps hostOps3]
  exact r2_act m ρ c

set_option maxHeartbeats 400000 in
theorem s3_wr : W7 (F := Ideal) m ρ c (Proc.devRef .tc main_v56) = (m ((c.tc : Thread nD τ).loc main_arg12)) := by
  show StableHlo.after hostOps3 (W6 m ρ c) (Proc.devRef .tc main_v56) = _
  after_results_simp
  rw [b6_a12]
  rfl

set_option maxHeartbeats 400000 in
theorem s3_wro : W7 (F := Ideal) m ρ c (Proc.devRef .tc main_v57) = (m ((c.tc : Thread nD τ).loc main_arg14)) := by
  show StableHlo.after hostOps3 (W6 m ρ c) (Proc.devRef .tc main_v57) = _
  after_results_simp
  rw [b6_a14]
  rfl

set_option maxHeartbeats 400000 in
theorem s3_b : W7 (F := Ideal) m ρ c (Proc.devRef .tc main_v58) = rowOf (m ((c.tc : Thread nD τ).loc main_arg13)) := by
  show StableHlo.after hostOps3 (W6 m ρ c) (Proc.devRef .tc main_v58) = _
  after_results_simp
  rw [b6_a13]
  exact reshape_row _ _

set_option maxHeartbeats 400000 in
theorem r3_act : W8 (F := Ideal) m ρ c (Proc.devRef .tc main_v59_0) = (P3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) := by
  refine (W8_arr m ρ c 6).trans ?_
  rw [Cert.KernelIdeal.ConvValue.region3_act]
  show convK slope (W7 (F := Ideal) m ρ c (Proc.devRef .tc main_v55)) (W7 (F := Ideal) m ρ c (Proc.devRef .tc main_v45_1)) (W7 (F := Ideal) m ρ c (Proc.devRef .tc main_v56)) (W7 (F := Ideal) m ρ c (Proc.devRef .tc main_v58)) (W7 (F := Ideal) m ρ c (Proc.devRef .tc main_v57)) = _
  rw [s3_agg, s3_z, s3_wr, s3_b, s3_wro]
  rfl

set_option maxHeartbeats 400000 in
theorem r3_next : W8 (F := Ideal) m ρ c (Proc.devRef .tc main_v59_1) = (Z4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) := by
  refine (W8_arr m ρ c 7).trans ?_
  rw [Cert.KernelIdeal.ConvValue.region3_next]
  show addM (convK slope (W7 (F := Ideal) m ρ c (Proc.devRef .tc main_v55)) (W7 (F := Ideal) m ρ c (Proc.devRef .tc main_v45_1)) (W7 (F := Ideal) m ρ c (Proc.devRef .tc main_v56)) (W7 (F := Ideal) m ρ c (Proc.devRef .tc main_v58)) (W7 (F := Ideal) m ρ c (Proc.devRef .tc main_v57))) (W7 (F := Ideal) m ρ c (Proc.devRef .tc main_v45_0)) = _
  rw [s3_agg, s3_z, s3_wr, s3_b, s3_wro, s3_pp]
  rfl

/-! ## The last stretch and the heads -/

set_option maxHeartbeats 400000 in
theorem b8_z : W8 (F := Ideal) m ρ c (Proc.devRef .tc main_v59_1) = (Z4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) := by
  exact r3_next m ρ c

set_option maxHeartbeats 400000 in
theorem b8_a2 : W8 (F := Ideal) m ρ c (Proc.devRef .tc main_arg2) = (m ((c.tc : Thread nD τ).loc main_arg2)) := by
  rw [W8_of_ne m ρ c main_arg2 (by decide)]
  rw [show W7 (F := Ideal) m ρ c (Proc.devRef .tc main_arg2) = W6 (F := Ideal) m ρ c (Proc.devRef .tc main_arg2) from by host_keeps hostOps3]
  rw [W6_of_ne m ρ c main_arg2 (by decide)]
  rw [show W5 (F := Ideal) m ρ c (Proc.devRef .tc main_arg2) = W4 (F := Ideal) m ρ c (Proc.devRef .tc main_arg2) from by host_keeps hostOps2]
  rw [W4_of_ne m ρ c main_arg2 (by decide)]
  rw [show W3 (F := Ideal) m ρ c (Proc.devRef .tc main_arg2) = W2 (F := Ideal) m ρ c (Proc.devRef .tc main_arg2) from by host_keeps hostOps1]
  rw [W2_of_ne m ρ c main_arg2 (by decide)]
  rw [show W1 (F := Ideal) m ρ c (Proc.devRef .tc main_arg2) = W0 (F := Ideal) m ρ c (Proc.devRef .tc main_arg2) from by host_keeps hostOps0]

set_option maxHeartbeats 400000 in
theorem b8_a15 : W8 (F := Ideal) m ρ c (Proc.devRef .tc main_arg15) = (m ((c.tc : Thread nD τ).loc main_arg15)) := by
  rw [W8_of_ne m ρ c main_arg15 (by decide)]
  rw [show W7 (F := Ideal) m ρ c (Proc.devRef .tc main_arg15) = W6 (F := Ideal) m ρ c (Proc.devRef .tc main_arg15) from by host_keeps hostOps3]
  rw [W6_of_ne m ρ c main_arg15 (by decide)]
  rw [show W5 (F := Ideal) m ρ c (Proc.devRef .tc main_arg15) = W4 (F := Ideal) m ρ c (Proc.devRef .tc main_arg15) from by host_keeps hostOps2]
  rw [W4_of_ne m ρ c main_arg15 (by decide)]
  rw [show W3 (F := Ideal) m ρ c (Proc.devRef .tc main_arg15) = W2 (F := Ideal) m ρ c (Proc.devRef .tc main_arg15) from by host_keeps hostOps1]
  rw [W2_of_ne m ρ c main_arg15 (by decide)]
  rw [show W1 (F := Ideal) m ρ c (Proc.devRef .tc main_arg15) = W0 (F := Ideal) m ρ c (Proc.devRef .tc main_arg15) from by host_keeps hostOps0]

set_option maxHeartbeats 400000 in
theorem b8_a16 : W8 (F := Ideal) m ρ c (Proc.devRef .tc main_arg16) = (m ((c.tc : Thread nD τ).loc main_arg16)) := by
  rw [W8_of_ne m ρ c main_arg16 (by decide)]
  rw [show W7 (F := Ideal) m ρ c (Proc.devRef .tc main_arg16) = W6 (F := Ideal) m ρ c (Proc.devRef .tc main_arg16) from by host_keeps hostOps3]
  rw [W6_of_ne m ρ c main_arg16 (by decide)]
  rw [show W5 (F := Ideal) m ρ c (Proc.devRef .tc main_arg16) = W4 (F := Ideal) m ρ c (Proc.devRef .tc main_arg16) from by host_keeps hostOps2]
  rw [W4_of_ne m ρ c main_arg16 (by decide)]
  rw [show W3 (F := Ideal) m ρ c (Proc.devRef .tc main_arg16) = W2 (F := Ideal) m ρ c (Proc.devRef .tc main_arg16) from by host_keeps hostOps1]
  rw [W2_of_ne m ρ c main_arg16 (by decide)]
  rw [show W1 (F := Ideal) m ρ c (Proc.devRef .tc main_arg16) = W0 (F := Ideal) m ρ c (Proc.devRef .tc main_arg16) from by host_keeps hostOps0]

set_option maxHeartbeats 400000 in
theorem b8_a17 : W8 (F := Ideal) m ρ c (Proc.devRef .tc main_arg17) = (m ((c.tc : Thread nD τ).loc main_arg17)) := by
  rw [W8_of_ne m ρ c main_arg17 (by decide)]
  rw [show W7 (F := Ideal) m ρ c (Proc.devRef .tc main_arg17) = W6 (F := Ideal) m ρ c (Proc.devRef .tc main_arg17) from by host_keeps hostOps3]
  rw [W6_of_ne m ρ c main_arg17 (by decide)]
  rw [show W5 (F := Ideal) m ρ c (Proc.devRef .tc main_arg17) = W4 (F := Ideal) m ρ c (Proc.devRef .tc main_arg17) from by host_keeps hostOps2]
  rw [W4_of_ne m ρ c main_arg17 (by decide)]
  rw [show W3 (F := Ideal) m ρ c (Proc.devRef .tc main_arg17) = W2 (F := Ideal) m ρ c (Proc.devRef .tc main_arg17) from by host_keeps hostOps1]
  rw [W2_of_ne m ρ c main_arg17 (by decide)]
  rw [show W1 (F := Ideal) m ρ c (Proc.devRef .tc main_arg17) = W0 (F := Ideal) m ρ c (Proc.devRef .tc main_arg17) from by host_keeps hostOps0]

set_option maxHeartbeats 400000 in
theorem b8_a18 : W8 (F := Ideal) m ρ c (Proc.devRef .tc main_arg18) = (m ((c.tc : Thread nD τ).loc main_arg18)) := by
  rw [W8_of_ne m ρ c main_arg18 (by decide)]
  rw [show W7 (F := Ideal) m ρ c (Proc.devRef .tc main_arg18) = W6 (F := Ideal) m ρ c (Proc.devRef .tc main_arg18) from by host_keeps hostOps3]
  rw [W6_of_ne m ρ c main_arg18 (by decide)]
  rw [show W5 (F := Ideal) m ρ c (Proc.devRef .tc main_arg18) = W4 (F := Ideal) m ρ c (Proc.devRef .tc main_arg18) from by host_keeps hostOps2]
  rw [W4_of_ne m ρ c main_arg18 (by decide)]
  rw [show W3 (F := Ideal) m ρ c (Proc.devRef .tc main_arg18) = W2 (F := Ideal) m ρ c (Proc.devRef .tc main_arg18) from by host_keeps hostOps1]
  rw [W2_of_ne m ρ c main_arg18 (by decide)]
  rw [show W1 (F := Ideal) m ρ c (Proc.devRef .tc main_arg18) = W0 (F := Ideal) m ρ c (Proc.devRef .tc main_arg18) from by host_keeps hostOps0]

set_option maxHeartbeats 400000 in
theorem b8_a19 : W8 (F := Ideal) m ρ c (Proc.devRef .tc main_arg19) = (m ((c.tc : Thread nD τ).loc main_arg19)) := by
  rw [W8_of_ne m ρ c main_arg19 (by decide)]
  rw [show W7 (F := Ideal) m ρ c (Proc.devRef .tc main_arg19) = W6 (F := Ideal) m ρ c (Proc.devRef .tc main_arg19) from by host_keeps hostOps3]
  rw [W6_of_ne m ρ c main_arg19 (by decide)]
  rw [show W5 (F := Ideal) m ρ c (Proc.devRef .tc main_arg19) = W4 (F := Ideal) m ρ c (Proc.devRef .tc main_arg19) from by host_keeps hostOps2]
  rw [W4_of_ne m ρ c main_arg19 (by decide)]
  rw [show W3 (F := Ideal) m ρ c (Proc.devRef .tc main_arg19) = W2 (F := Ideal) m ρ c (Proc.devRef .tc main_arg19) from by host_keeps hostOps1]
  rw [W2_of_ne m ρ c main_arg19 (by decide)]
  rw [show W1 (F := Ideal) m ρ c (Proc.devRef .tc main_arg19) = W0 (F := Ideal) m ρ c (Proc.devRef .tc main_arg19) from by host_keeps hostOps0]

set_option maxHeartbeats 400000 in
theorem b8_a20 : W8 (F := Ideal) m ρ c (Proc.devRef .tc main_arg20) = (m ((c.tc : Thread nD τ).loc main_arg20)) := by
  rw [W8_of_ne m ρ c main_arg20 (by decide)]
  rw [show W7 (F := Ideal) m ρ c (Proc.devRef .tc main_arg20) = W6 (F := Ideal) m ρ c (Proc.devRef .tc main_arg20) from by host_keeps hostOps3]
  rw [W6_of_ne m ρ c main_arg20 (by decide)]
  rw [show W5 (F := Ideal) m ρ c (Proc.devRef .tc main_arg20) = W4 (F := Ideal) m ρ c (Proc.devRef .tc main_arg20) from by host_keeps hostOps2]
  rw [W4_of_ne m ρ c main_arg20 (by decide)]
  rw [show W3 (F := Ideal) m ρ c (Proc.devRef .tc main_arg20) = W2 (F := Ideal) m ρ c (Proc.devRef .tc main_arg20) from by host_keeps hostOps1]
  rw [W2_of_ne m ρ c main_arg20 (by decide)]
  rw [show W1 (F := Ideal) m ρ c (Proc.devRef .tc main_arg20) = W0 (F := Ideal) m ρ c (Proc.devRef .tc main_arg20) from by host_keeps hostOps0]

set_option maxHeartbeats 400000 in
theorem b8_a21 : W8 (F := Ideal) m ρ c (Proc.devRef .tc main_arg21) = (m ((c.tc : Thread nD τ).loc main_arg21)) := by
  rw [W8_of_ne m ρ c main_arg21 (by decide)]
  rw [show W7 (F := Ideal) m ρ c (Proc.devRef .tc main_arg21) = W6 (F := Ideal) m ρ c (Proc.devRef .tc main_arg21) from by host_keeps hostOps3]
  rw [W6_of_ne m ρ c main_arg21 (by decide)]
  rw [show W5 (F := Ideal) m ρ c (Proc.devRef .tc main_arg21) = W4 (F := Ideal) m ρ c (Proc.devRef .tc main_arg21) from by host_keeps hostOps2]
  rw [W4_of_ne m ρ c main_arg21 (by decide)]
  rw [show W3 (F := Ideal) m ρ c (Proc.devRef .tc main_arg21) = W2 (F := Ideal) m ρ c (Proc.devRef .tc main_arg21) from by host_keeps hostOps1]
  rw [W2_of_ne m ρ c main_arg21 (by decide)]
  rw [show W1 (F := Ideal) m ρ c (Proc.devRef .tc main_arg21) = W0 (F := Ideal) m ρ c (Proc.devRef .tc main_arg21) from by host_keeps hostOps0]

set_option maxHeartbeats 400000 in
theorem b8_a22 : W8 (F := Ideal) m ρ c (Proc.devRef .tc main_arg22) = (m ((c.tc : Thread nD τ).loc main_arg22)) := by
  rw [W8_of_ne m ρ c main_arg22 (by decide)]
  rw [show W7 (F := Ideal) m ρ c (Proc.devRef .tc main_arg22) = W6 (F := Ideal) m ρ c (Proc.devRef .tc main_arg22) from by host_keeps hostOps3]
  rw [W6_of_ne m ρ c main_arg22 (by decide)]
  rw [show W5 (F := Ideal) m ρ c (Proc.devRef .tc main_arg22) = W4 (F := Ideal) m ρ c (Proc.devRef .tc main_arg22) from by host_keeps hostOps2]
  rw [W4_of_ne m ρ c main_arg22 (by decide)]
  rw [show W3 (F := Ideal) m ρ c (Proc.devRef .tc main_arg22) = W2 (F := Ideal) m ρ c (Proc.devRef .tc main_arg22) from by host_keeps hostOps1]
  rw [W2_of_ne m ρ c main_arg22 (by decide)]
  rw [show W1 (F := Ideal) m ρ c (Proc.devRef .tc main_arg22) = W0 (F := Ideal) m ρ c (Proc.devRef .tc main_arg22) from by host_keeps hostOps0]

set_option maxHeartbeats 1000000 in
theorem s4_s : W9 (F := Ideal) m ρ c (Proc.devRef .tc main_v78) = addM (pickA (Z4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg2))) (pickB (Z4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg2))) := by
  show StableHlo.after hostOps4 (W8 m ρ c) (Proc.devRef .tc main_v78) = _
  after_results_simp
  rw [b8_z, b8_a2]
  rfl

set_option maxHeartbeats 400000 in
theorem s4_wsb : W9 (F := Ideal) m ρ c (Proc.devRef .tc main_v82) = addM (topHalf (m ((c.tc : Thread nD τ).loc main_arg15))) (botHalf (m ((c.tc : Thread nD τ).loc main_arg15))) := by
  show StableHlo.after hostOps4 (W8 m ρ c) (Proc.devRef .tc main_v82) = _
  after_results_simp
  rw [b8_a15]
  exact halves_sum _ _ _

set_option maxHeartbeats 400000 in
theorem s4_wso : W9 (F := Ideal) m ρ c (Proc.devRef .tc main_v89) = addM (topHalf (m ((c.tc : Thread nD τ).loc main_arg19))) (botHalf (m ((c.tc : Thread nD τ).loc main_arg19))) := by
  show StableHlo.after hostOps4 (W8 m ρ c) (Proc.devRef .tc main_v89) = _
  after_results_simp
  rw [b8_a19]
  exact halves_sum _ _ _

set_option maxHeartbeats 400000 in
theorem s4_bb : W9 (F := Ideal) m ρ c (Proc.devRef .tc main_v85) = scaleRow two (rowOf (m ((c.tc : Thread nD τ).loc main_arg16))) := by
  show StableHlo.after hostOps4 (W8 m ρ c) (Proc.devRef .tc main_v85) = _
  after_results_simp
  rw [b8_a16]
  exact (reshape_row _ _).trans rfl

set_option maxHeartbeats 400000 in
theorem s4_bo : W9 (F := Ideal) m ρ c (Proc.devRef .tc main_v92) = scaleRow two (rowOf (m ((c.tc : Thread nD τ).loc main_arg20))) := by
  show StableHlo.after hostOps4 (W8 m ρ c) (Proc.devRef .tc main_v92) = _
  after_results_simp
  rw [b8_a20]
  exact (reshape_row _ _).trans rfl

set_option maxHeartbeats 400000 in
theorem s4_wb1 : W9 (F := Ideal) m ρ c (Proc.devRef .tc main_v93) = (m ((c.tc : Thread nD τ).loc main_arg17)) := by
  show StableHlo.after hostOps4 (W8 m ρ c) (Proc.devRef .tc main_v93) = _
  after_results_simp
  rw [b8_a17]
  rfl

set_option maxHeartbeats 400000 in
theorem s4_wo1 : W9 (F := Ideal) m ρ c (Proc.devRef .tc main_v94) = (m ((c.tc : Thread nD τ).loc main_arg21)) := by
  show StableHlo.after hostOps4 (W8 m ρ c) (Proc.devRef .tc main_v94) = _
  after_results_simp
  rw [b8_a21]
  rfl

set_option maxHeartbeats 400000 in
theorem s4_bb1 : W9 (F := Ideal) m ρ c (Proc.devRef .tc main_v95) = rowOf (m ((c.tc : Thread nD τ).loc main_arg18)) := by
  show StableHlo.after hostOps4 (W8 m ρ c) (Proc.devRef .tc main_v95) = _
  after_results_simp
  rw [b8_a18]
  exact reshape_row _ _

set_option maxHeartbeats 400000 in
theorem s4_bo1 : W9 (F := Ideal) m ρ c (Proc.devRef .tc main_v96) = rowOf (m ((c.tc : Thread nD τ).loc main_arg22)) := by
  show StableHlo.after hostOps4 (W8 m ρ c) (Proc.devRef .tc main_v96) = _
  after_results_simp
  rw [b8_a22]
  exact reshape_row _ _

set_option maxHeartbeats 400000 in
/-- The kernel's location result: the head on the summed endpoint rows, with the summed halves of the first weight and twice its bias. -/
theorem result_loc : W10 (F := Ideal) m ρ c (Proc.devRef .tc main_v97_0) = headK slope (addM (pickA (Z4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg2))) (pickB (Z4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg2)))) (addM (topHalf (m ((c.tc : Thread nD τ).loc main_arg15))) (botHalf (m ((c.tc : Thread nD τ).loc main_arg15)))) (scaleRow two (rowOf (m ((c.tc : Thread nD τ).loc main_arg16)))) (m ((c.tc : Thread nD τ).loc main_arg17)) (rowOf (m ((c.tc : Thread nD τ).loc main_arg18))) := by
  refine (W10_arr m ρ c 9).trans ?_
  rw [Cert.KernelIdeal.HeadValue.region4_loc]
  show headK slope (W9 (F := Ideal) m ρ c (Proc.devRef .tc main_v78)) (W9 (F := Ideal) m ρ c (Proc.devRef .tc main_v82)) (W9 (F := Ideal) m ρ c (Proc.devRef .tc main_v85)) (W9 (F := Ideal) m ρ c (Proc.devRef .tc main_v93)) (W9 (F := Ideal) m ρ c (Proc.devRef .tc main_v95)) = _
  rw [s4_s, s4_wsb, s4_bb, s4_wb1, s4_bb1]

set_option maxHeartbeats 400000 in
/-- The kernel's type result. -/
theorem result_type : W10 (F := Ideal) m ρ c (Proc.devRef .tc main_v97_1) = headK slope (addM (pickA (Z4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg2))) (pickB (Z4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg2)))) (addM (topHalf (m ((c.tc : Thread nD τ).loc main_arg19))) (botHalf (m ((c.tc : Thread nD τ).loc main_arg19)))) (scaleRow two (rowOf (m ((c.tc : Thread nD τ).loc main_arg20)))) (m ((c.tc : Thread nD τ).loc main_arg21)) (rowOf (m ((c.tc : Thread nD τ).loc main_arg22))) := by
  refine (W10_arr m ρ c 10).trans ?_
  rw [Cert.KernelIdeal.HeadValue.region4_type]
  show headK slope (W9 (F := Ideal) m ρ c (Proc.devRef .tc main_v78)) (W9 (F := Ideal) m ρ c (Proc.devRef .tc main_v89)) (W9 (F := Ideal) m ρ c (Proc.devRef .tc main_v92)) (W9 (F := Ideal) m ρ c (Proc.devRef .tc main_v94)) (W9 (F := Ideal) m ρ c (Proc.devRef .tc main_v96)) = _
  rw [s4_s, s4_wso, s4_bo, s4_wo1, s4_bo1]

end Cert.KernelIdeal.Chain

end
-- ==== Proof.RefRun.lean ====
/-
  The reference program's run, read in stretches.

  The reference is one straight line of 175 host operations. Its layers share their values — a layer's output feeds the
  next layer's gather, its second product and its residual sum — so a result written out as ONE term of the arguments
  repeats every layer three times over. Here the line is cut after each layer, after the two gathers of the endpoint
  rows, and around each of the two operations that join those rows side by side (`ops_split`): the contents after a
  stretch are read only at the few buffers a later stretch needs (a layer's activation, its residual sum, the two
  columns of edge endpoints, the endpoint rows and their joined arrays, the arguments not yet used), each as the
  stage function of the arguments that the operation-by-operation reading of the program names (`val_main_vN`), and
  the next stretch is run from ANY contents holding those values. The run then ends with the two results at their
  stage functions of the arguments, and the arguments as launched.
-/
import proofs.«148686_j90211493085314_1_alg».proof.Proof.RefRead
import proofs.«148686_j90211493085314_1_alg».proof.Proof.LibHostKeeps
import Idealize.ShloMosaic.Lib.StableHlo.Run

set_option maxRecDepth 8192

noncomputable section

namespace Cert.ReferenceIdeal.RefRun

open Cert.ReferenceIdeal Cert.ReferenceIdeal.Gen Cert.ReferenceIdeal.Value
open Idealize.ShloMosaic Idealize.ShloMosaic.TcCoe Idealize.SL.Sem Idealize.ShloMosaic.StableHlo
open Cert.LibHostKeeps

variable {F : FTy → Type} [FloatOps F]

/-- Stretch 0 of the reference's operations. -/
abbrev seg0 : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 200000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S200000x128_S400000x1_S400000x128_1_0_n_n_0_1_1128 x i) : (⟨S200000x128, .f32⟩ : BufTy).Contents (Elt F) → (⟨S400000x1, .i32⟩ : BufTy).Contents (Elt F) → (⟨S400000x128, .f32⟩ : BufTy).Contents (Elt F)),
    nullary main_cst (constant S_ .f32 0x00000000#32),
    unary main_cst main_v11 (broadcastInDim S200000x128 ![] bcast_S_S200000x128 : (⟨S_, .f32⟩ : BufTy).Contents (Elt F) → (⟨S200000x128, .f32⟩ : BufTy).Contents (Elt F)),
    unary main_v3 main_v12 (broadcastInDim S400000x1 ![0] bcast_S400000_S400000x1_0 : (⟨S400000, .i32⟩ : BufTy).Contents (Elt F) → (⟨S400000x1, .i32⟩ : BufTy).Contents (Elt F)),
    ternary main_v11 main_v12 main_v10 main_v13 ((fun x i u => Host.scatterAdd scatter_S200000x128_S400000x1_S400000x128_1_0_0_1 x i u) : (⟨S200000x128, .f32⟩ : BufTy).Contents (Elt F) → (⟨S400000x1, .i32⟩ : BufTy).Contents (Elt F) → (⟨S400000x128, .f32⟩ : BufTy).Contents (Elt F) → (⟨S200000x128, .f32⟩ : BufTy).Contents (Elt F)),
    binary main_v13 main_arg3 main_v14 ((fun l r => Host.dotGeneral dot_S200000x128_S128x256_S200000x256_1_0_0_1_n_n none l r) : (⟨S200000x128, .f32⟩ : BufTy).Contents (Elt F) → (⟨S128x256, .f32⟩ : BufTy).Contents (Elt F) → (⟨S200000x256, .f32⟩ : BufTy).Contents (Elt F)),
    unary main_arg4 main_v15 (broadcastInDim S1x256 ![1] bcast_S256_S1x256_1 : (⟨S256, .f32⟩ : BufTy).Contents (Elt F) → (⟨S1x256, .f32⟩ : BufTy).Contents (Elt F)),
    unary main_v15 main_v16 (broadcastInDim S200000x256 ![0, 1] bcast_S1x256_S200000x256_0_1 : (⟨S1x256, .f32⟩ : BufTy).Contents (Elt F) → (⟨S200000x256, .f32⟩ : BufTy).Contents (Elt F)),
    binary main_v14 main_v16 main_v17 (addf : (⟨S200000x256, .f32⟩ : BufTy).Contents (Elt F) → (⟨S200000x256, .f32⟩ : BufTy).Contents (Elt F) → (⟨S200000x256, .f32⟩ : BufTy).Contents (Elt F)),
    binary main_arg0 main_arg5 main_v18 ((fun l r => Host.dotGeneral dot_S200000x128_S128x256_S200000x256_1_0_0_1_n_n none l r) : (⟨S200000x128, .f32⟩ : BufTy).Contents (Elt F) → (⟨S128x256, .f32⟩ : BufTy).Contents (Elt F) → (⟨S200000x256, .f32⟩ : BufTy).Contents (Elt F)),
    binary main_v17 main_v18 main_v19 (addf : (⟨S200000x256, .f32⟩ : BufTy).Contents (Elt F) → (⟨S200000x256, .f32⟩ : BufTy).Contents (Elt F) → (⟨S200000x256, .f32⟩ : BufTy).Contents (Elt F)),
    nullary main_cst_1 (constant S_ .f32 0x00000000#32),
    unary main_cst_1 main_v20 (broadcastInDim S200000x256 ![] bcast_S_S200000x256 : (⟨S_, .f32⟩ : BufTy).Contents (Elt F) → (⟨S200000x256, .f32⟩ : BufTy).Contents (Elt F)),
    binary main_v19 main_v20 main_v21 (cmpf .oge : (⟨S200000x256, .f32⟩ : BufTy).Contents (Elt F) → (⟨S200000x256, .f32⟩ : BufTy).Contents (Elt F) → (⟨S200000x256, .i1⟩ : BufTy).Contents (Elt F)),
    nullary main_cst_2 (constant S_ .f32 0x3C23D70A#32),
    unary main_cst_2 main_v22 (broadcastInDim S200000x256 ![] bcast_S_S200000x256 : (⟨S_, .f32⟩ : BufTy).Contents (Elt F) → (⟨S200000x256, .f32⟩ : BufTy).Contents (Elt F)),
    binary main_v22 main_v19 main_v23 (mulf : (⟨S200000x256, .f32⟩ : BufTy).Contents (Elt F) → (⟨S200000x256, .f32⟩ : BufTy).Contents (Elt F) → (⟨S200000x256, .f32⟩ : BufTy).Contents (Elt F)),
    TRef.ternary (TRef.of (T := ⟨S200000x256, .i1⟩) main_v21) (TRef.of (T := ⟨S200000x256, .f32⟩) main_v19) (TRef.of (T := ⟨S200000x256, .f32⟩) main_v23) (TRef.of (T := ⟨S200000x256, .f32⟩) main_v24) select ]

/-- Stretch 1 of the reference's operations. -/
abbrev seg1 : List (HloOp τ sig (Elt F)) :=
  [ nullary main_c_3 (constantI S_ 32 0#32),
    unary main_c_3 main_v25 (broadcastInDim S400000 ![] bcast_S_S400000 : (⟨S_, .i32⟩ : BufTy).Contents (Elt F) → (⟨S400000, .i32⟩ : BufTy).Contents (Elt F)),
    binary main_v1 main_v25 main_v26 (cmpi .slt : (⟨S400000, .i32⟩ : BufTy).Contents (Elt F) → (⟨S400000, .i32⟩ : BufTy).Contents (Elt F) → (⟨S400000, .i1⟩ : BufTy).Contents (Elt F)),
    nullary main_c_4 (constantI S_ 32 200000#32),
    unary main_c_4 main_v27 (broadcastInDim S400000 ![] bcast_S_S400000 : (⟨S_, .i32⟩ : BufTy).Contents (Elt F) → (⟨S400000, .i32⟩ : BufTy).Contents (Elt F)),
    binary main_v1 main_v27 main_v28 (addi : (⟨S400000, .i32⟩ : BufTy).Contents (Elt F) → (⟨S400000, .i32⟩ : BufTy).Contents (Elt F) → (⟨S400000, .i32⟩ : BufTy).Contents (Elt F)),
    ternary main_v26 main_v28 main_v1 main_v29 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v29 main_v30 (broadcastInDim S400000x1 ![0] bcast_S400000_S400000x1_0 : (⟨S400000, .i32⟩ : BufTy).Contents (Elt F) → (⟨S400000x1, .i32⟩ : BufTy).Contents (Elt F)),
    binary main_v24 main_v30 main_v31 ((fun x i => Host.gather gather_S200000x256_S400000x1_S400000x256_1_0_n_n_0_1_1256 x i) : (⟨S200000x256, .f32⟩ : BufTy).Contents (Elt F) → (⟨S400000x1, .i32⟩ : BufTy).Contents (Elt F) → (⟨S400000x256, .f32⟩ : BufTy).Contents (Elt F)),
    nullary main_cst_5 (constant S_ .f32 0x00000000#32),
    unary main_cst_5 main_v32 (broadcastInDim S200000x256 ![] bcast_S_S200000x256 : (⟨S_, .f32⟩ : BufTy).Contents (Elt F) → (⟨S200000x256, .f32⟩ : BufTy).Contents (Elt F)),
    unary main_v3 main_v33 (broadcastInDim S400000x1 ![0] bcast_S400000_S400000x1_0 : (⟨S400000, .i32⟩ : BufTy).Contents (Elt F) → (⟨S400000x1, .i32⟩ : BufTy).Contents (Elt F)),
    ternary main_v32 main_v33 main_v31 main_v34 ((fun x i u => Host.scatterAdd scatter_S200000x256_S400000x1_S400000x256_1_0_0_1 x i u) : (⟨S200000x256, .f32⟩ : BufTy).Contents (Elt F) → (⟨S400000x1, .i32⟩ : BufTy).Contents (Elt F) → (⟨S400000x256, .f32⟩ : BufTy).Contents (Elt F) → (⟨S200000x256, .f32⟩ : BufTy).Contents (Elt F)),
    binary main_v34 main_arg6 main_v35 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    unary main_arg7 main_v36 (broadcastInDim S1x256 ![1] bcast_S256_S1x256_1 : (⟨S256, .f32⟩ : BufTy).Contents (Elt F) → (⟨S1x256, .f32⟩ : BufTy).Contents (Elt F)),
    unary main_v36 main_v37 (broadcastInDim S200000x256 ![0, 1] bcast_S1x256_S200000x256_0_1 : (⟨S1x256, .f32⟩ : BufTy).Contents (Elt F) → (⟨S200000x256, .f32⟩ : BufTy).Contents (Elt F)),
    binary main_v35 main_v37 main_v38 (addf : (⟨S200000x256, .f32⟩ : BufTy).Contents (Elt F) → (⟨S200000x256, .f32⟩ : BufTy).Contents (Elt F) → (⟨S200000x256, .f32⟩ : BufTy).Contents (Elt F)),
    binary main_v24 main_arg8 main_v39 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    binary main_v38 main_v39 main_v40 (addf : (⟨S200000x256, .f32⟩ : BufTy).Contents (Elt F) → (⟨S200000x256, .f32⟩ : BufTy).Contents (Elt F) → (⟨S200000x256, .f32⟩ : BufTy).Contents (Elt F)),
    nullary main_cst_6 (constant S_ .f32 0x00000000#32),
    unary main_cst_6 main_v41 (broadcastInDim S200000x256 ![] bcast_S_S200000x256 : (⟨S_, .f32⟩ : BufTy).Contents (Elt F) → (⟨S200000x256, .f32⟩ : BufTy).Contents (Elt F)),
    binary main_v40 main_v41 main_v42 (cmpf .oge : (⟨S200000x256, .f32⟩ : BufTy).Contents (Elt F) → (⟨S200000x256, .f32⟩ : BufTy).Contents (Elt F) → (⟨S200000x256, .i1⟩ : BufTy).Contents (Elt F)),
    nullary main_cst_7 (constant S_ .f32 0x3C23D70A#32),
    unary main_cst_7 main_v43 (broadcastInDim S200000x256 ![] bcast_S_S200000x256 : (⟨S_, .f32⟩ : BufTy).Contents (Elt F) → (⟨S200000x256, .f32⟩ : BufTy).Contents (Elt F)),
    binary main_v43 main_v40 main_v44 (mulf : (⟨S200000x256, .f32⟩ : BufTy).Contents (Elt F) → (⟨S200000x256, .f32⟩ : BufTy).Contents (Elt F) → (⟨S200000x256, .f32⟩ : BufTy).Contents (Elt F)),
    TRef.ternary (TRef.of (T := ⟨S200000x256, .i1⟩) main_v42) (TRef.of (T := ⟨S200000x256, .f32⟩) main_v40) (TRef.of (T := ⟨S200000x256, .f32⟩) main_v44) (TRef.of (T := ⟨S200000x256, .f32⟩) main_v45) select,
    binary main_v45 main_v24 main_v46 (addf : (⟨S200000x256, .f32⟩ : BufTy).Contents (Elt F) → (⟨S200000x256, .f32⟩ : BufTy).Contents (Elt F) → (⟨S200000x256, .f32⟩ : BufTy).Contents (Elt F)) ]

/-- Stretch 2 of the reference's operations. -/
abbrev seg2 : List (HloOp τ sig (Elt F)) :=
  [ nullary main_c_8 (constantI S_ 32 0#32),
    unary main_c_8 main_v47 (broadcastInDim S400000 ![] bcast_S_S400000 : (⟨S_, .i32⟩ : BufTy).Contents (Elt F) → (⟨S400000, .i32⟩ : BufTy).Contents (Elt F)),
    binary main_v1 main_v47 main_v48 (cmpi .slt : (⟨S400000, .i32⟩ : BufTy).Contents (Elt F) → (⟨S400000, .i32⟩ : BufTy).Contents (Elt F) → (⟨S400000, .i1⟩ : BufTy).Contents (Elt F)),
    nullary main_c_9 (constantI S_ 32 200000#32),
    unary main_c_9 main_v49 (broadcastInDim S400000 ![] bcast_S_S400000 : (⟨S_, .i32⟩ : BufTy).Contents (Elt F) → (⟨S400000, .i32⟩ : BufTy).Contents (Elt F)),
    binary main_v1 main_v49 main_v50 (addi : (⟨S400000, .i32⟩ : BufTy).Contents (Elt F) → (⟨S400000, .i32⟩ : BufTy).Contents (Elt F) → (⟨S400000, .i32⟩ : BufTy).Contents (Elt F)),
    ternary main_v48 main_v50 main_v1 main_v51 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v51 main_v52 (broadcastInDim S400000x1 ![0] bcast_S400000_S400000x1_0 : (⟨S400000, .i32⟩ : BufTy).Contents (Elt F) → (⟨S400000x1, .i32⟩ : BufTy).Contents (Elt F)),
    binary main_v46 main_v52 main_v53 ((fun x i => Host.gather gather_S200000x256_S400000x1_S400000x256_1_0_n_n_0_1_1256 x i) : (⟨S200000x256, .f32⟩ : BufTy).Contents (Elt F) → (⟨S400000x1, .i32⟩ : BufTy).Contents (Elt F) → (⟨S400000x256, .f32⟩ : BufTy).Contents (Elt F)),
    nullary main_cst_10 (constant S_ .f32 0x00000000#32),
    unary main_cst_10 main_v54 (broadcastInDim S200000x256 ![] bcast_S_S200000x256 : (⟨S_, .f32⟩ : BufTy).Contents (Elt F) → (⟨S200000x256, .f32⟩ : BufTy).Contents (Elt F)),
    unary main_v3 main_v55 (broadcastInDim S400000x1 ![0] bcast_S400000_S400000x1_0 : (⟨S400000, .i32⟩ : BufTy).Contents (Elt F) → (⟨S400000x1, .i32⟩ : BufTy).Contents (Elt F)),
    ternary main_v54 main_v55 main_v53 main_v56 ((fun x i u => Host.scatterAdd scatter_S200000x256_S400000x1_S400000x256_1_0_0_1 x i u) : (⟨S200000x256, .f32⟩ : BufTy).Contents (Elt F) → (⟨S400000x1, .i32⟩ : BufTy).Contents (Elt F) → (⟨S400000x256, .f32⟩ : BufTy).Contents (Elt F) → (⟨S200000x256, .f32⟩ : BufTy).Contents (Elt F)),
    binary main_v56 main_arg9 main_v57 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    unary main_arg10 main_v58 (broadcastInDim S1x256 ![1] bcast_S256_S1x256_1 : (⟨S256, .f32⟩ : BufTy).Contents (Elt F) → (⟨S1x256, .f32⟩ : BufTy).Contents (Elt F)),
    unary main_v58 main_v59 (broadcastInDim S200000x256 ![0, 1] bcast_S1x256_S200000x256_0_1 : (⟨S1x256, .f32⟩ : BufTy).Contents (Elt F) → (⟨S200000x256, .f32⟩ : BufTy).Contents (Elt F)),
    binary main_v57 main_v59 main_v60 (addf : (⟨S200000x256, .f32⟩ : BufTy).Contents (Elt F) → (⟨S200000x256, .f32⟩ : BufTy).Contents (Elt F) → (⟨S200000x256, .f32⟩ : BufTy).Contents (Elt F)),
    binary main_v46 main_arg11 main_v61 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    binary main_v60 main_v61 main_v62 (addf : (⟨S200000x256, .f32⟩ : BufTy).Contents (Elt F) → (⟨S200000x256, .f32⟩ : BufTy).Contents (Elt F) → (⟨S200000x256, .f32⟩ : BufTy).Contents (Elt F)),
    nullary main_cst_11 (constant S_ .f32 0x00000000#32),
    unary main_cst_11 main_v63 (broadcastInDim S200000x256 ![] bcast_S_S200000x256 : (⟨S_, .f32⟩ : BufTy).Contents (Elt F) → (⟨S200000x256, .f32⟩ : BufTy).Contents (Elt F)),
    binary main_v62 main_v63 main_v64 (cmpf .oge : (⟨S200000x256, .f32⟩ : BufTy).Contents (Elt F) → (⟨S200000x256, .f32⟩ : BufTy).Contents (Elt F) → (⟨S200000x256, .i1⟩ : BufTy).Contents (Elt F)),
    nullary main_cst_12 (constant S_ .f32 0x3C23D70A#32),
    unary main_cst_12 main_v65 (broadcastInDim S200000x256 ![] bcast_S_S200000x256 : (⟨S_, .f32⟩ : BufTy).Contents (Elt F) → (⟨S200000x256, .f32⟩ : BufTy).Contents (Elt F)),
    binary main_v65 main_v62 main_v66 (mulf : (⟨S200000x256, .f32⟩ : BufTy).Contents (Elt F) → (⟨S200000x256, .f32⟩ : BufTy).Contents (Elt F) → (⟨S200000x256, .f32⟩ : BufTy).Contents (Elt F)),
    TRef.ternary (TRef.of (T := ⟨S200000x256, .i1⟩) main_v64) (TRef.of (T := ⟨S200000x256, .f32⟩) main_v62) (TRef.of (T := ⟨S200000x256, .f32⟩) main_v66) (TRef.of (T := ⟨S200000x256, .f32⟩) main_v67) select,
    binary main_v67 main_v45 main_v68 (addf : (⟨S200000x256, .f32⟩ : BufTy).Contents (Elt F) → (⟨S200000x256, .f32⟩ : BufTy).Contents (Elt F) → (⟨S200000x256, .f32⟩ : BufTy).Contents (Elt F)) ]

/-- Stretch 3 of the reference's operations. -/
abbrev seg3 : List (HloOp τ sig (Elt F)) :=
  [ nullary main_c_13 (constantI S_ 32 0#32),
    unary main_c_13 main_v69 (broadcastInDim S400000 ![] bcast_S_S400000 : (⟨S_, .i32⟩ : BufTy).Contents (Elt F) → (⟨S400000, .i32⟩ : BufTy).Contents (Elt F)),
    binary main_v1 main_v69 main_v70 (cmpi .slt : (⟨S400000, .i32⟩ : BufTy).Contents (Elt F) → (⟨S400000, .i32⟩ : BufTy).Contents (Elt F) → (⟨S400000, .i1⟩ : BufTy).Contents (Elt F)),
    nullary main_c_14 (constantI S_ 32 200000#32),
    unary main_c_14 main_v71 (broadcastInDim S400000 ![] bcast_S_S400000 : (⟨S_, .i32⟩ : BufTy).Contents (Elt F) → (⟨S400000, .i32⟩ : BufTy).Contents (Elt F)),
    binary main_v1 main_v71 main_v72 (addi : (⟨S400000, .i32⟩ : BufTy).Contents (Elt F) → (⟨S400000, .i32⟩ : BufTy).Contents (Elt F) → (⟨S400000, .i32⟩ : BufTy).Contents (Elt F)),
    ternary main_v70 main_v72 main_v1 main_v73 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v73 main_v74 (broadcastInDim S400000x1 ![0] bcast_S400000_S400000x1_0 : (⟨S400000, .i32⟩ : BufTy).Contents (Elt F) → (⟨S400000x1, .i32⟩ : BufTy).Contents (Elt F)),
    binary main_v68 main_v74 main_v75 ((fun x i => Host.gather gather_S200000x256_S400000x1_S400000x256_1_0_n_n_0_1_1256 x i) : (⟨S200000x256, .f32⟩ : BufTy).Contents (Elt F) → (⟨S400000x1, .i32⟩ : BufTy).Contents (Elt F) → (⟨S400000x256, .f32⟩ : BufTy).Contents (Elt F)),
    nullary main_cst_15 (constant S_ .f32 0x00000000#32),
    unary main_cst_15 main_v76 (broadcastInDim S200000x256 ![] bcast_S_S200000x256 : (⟨S_, .f32⟩ : BufTy).Contents (Elt F) → (⟨S200000x256, .f32⟩ : BufTy).Contents (Elt F)),
    unary main_v3 main_v77 (broadcastInDim S400000x1 ![0] bcast_S400000_S400000x1_0 : (⟨S400000, .i32⟩ : BufTy).Contents (Elt F) → (⟨S400000x1, .i32⟩ : BufTy).Contents (Elt F)),
    ternary main_v76 main_v77 main_v75 main_v78 ((fun x i u => Host.scatterAdd scatter_S200000x256_S400000x1_S400000x256_1_0_0_1 x i u) : (⟨S200000x256, .f32⟩ : BufTy).Contents (Elt F) → (⟨S400000x1, .i32⟩ : BufTy).Contents (Elt F) → (⟨S400000x256, .f32⟩ : BufTy).Contents (Elt F) → (⟨S200000x256, .f32⟩ : BufTy).Contents (Elt F)),
    binary main_v78 main_arg12 main_v79 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    unary main_arg13 main_v80 (broadcastInDim S1x256 ![1] bcast_S256_S1x256_1 : (⟨S256, .f32⟩ : BufTy).Contents (Elt F) → (⟨S1x256, .f32⟩ : BufTy).Contents (Elt F)),
    unary main_v80 main_v81 (broadcastInDim S200000x256 ![0, 1] bcast_S1x256_S200000x256_0_1 : (⟨S1x256, .f32⟩ : BufTy).Contents (Elt F) → (⟨S200000x256, .f32⟩ : BufTy).Contents (Elt F)),
    binary main_v79 main_v81 main_v82 (addf : (⟨S200000x256, .f32⟩ : BufTy).Contents (Elt F) → (⟨S200000x256, .f32⟩ : BufTy).Contents (Elt F) → (⟨S200000x256, .f32⟩ : BufTy).Contents (Elt F)),
    binary main_v68 main_arg14 main_v83 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    binary main_v82 main_v83 main_v84 (addf : (⟨S200000x256, .f32⟩ : BufTy).Contents (Elt F) → (⟨S200000x256, .f32⟩ : BufTy).Contents (Elt F) → (⟨S200000x256, .f32⟩ : BufTy).Contents (Elt F)),
    nullary main_cst_16 (constant S_ .f32 0x00000000#32),
    unary main_cst_16 main_v85 (broadcastInDim S200000x256 ![] bcast_S_S200000x256 : (⟨S_, .f32⟩ : BufTy).Contents (Elt F) → (⟨S200000x256, .f32⟩ : BufTy).Contents (Elt F)),
    binary main_v84 main_v85 main_v86 (cmpf .oge : (⟨S200000x256, .f32⟩ : BufTy).Contents (Elt F) → (⟨S200000x256, .f32⟩ : BufTy).Contents (Elt F) → (⟨S200000x256, .i1⟩ : BufTy).Contents (Elt F)),
    nullary main_cst_17 (constant S_ .f32 0x3C23D70A#32),
    unary main_cst_17 main_v87 (broadcastInDim S200000x256 ![] bcast_S_S200000x256 : (⟨S_, .f32⟩ : BufTy).Contents (Elt F) → (⟨S200000x256, .f32⟩ : BufTy).Contents (Elt F)),
    binary main_v87 main_v84 main_v88 (mulf : (⟨S200000x256, .f32⟩ : BufTy).Contents (Elt F) → (⟨S200000x256, .f32⟩ : BufTy).Contents (Elt F) → (⟨S200000x256, .f32⟩ : BufTy).Contents (Elt F)),
    TRef.ternary (TRef.of (T := ⟨S200000x256, .i1⟩) main_v86) (TRef.of (T := ⟨S200000x256, .f32⟩) main_v84) (TRef.of (T := ⟨S200000x256, .f32⟩) main_v88) (TRef.of (T := ⟨S200000x256, .f32⟩) main_v89) select,
    binary main_v89 main_v67 main_v90 (addf : (⟨S200000x256, .f32⟩ : BufTy).Contents (Elt F) → (⟨S200000x256, .f32⟩ : BufTy).Contents (Elt F) → (⟨S200000x256, .f32⟩ : BufTy).Contents (Elt F)) ]

/-- Stretch 4 of the reference's operations. -/
abbrev seg4 : List (HloOp τ sig (Elt F)) :=
  [ unary main_arg2 main_v91 ((extractStridedSlice S100000x1 ![0, 0] · slices_S100000x2_S100000x1_0_0) : (⟨S100000x2, .i32⟩ : BufTy).Contents (Elt F) → (⟨S100000x1, .i32⟩ : BufTy).Contents (Elt F)),
    reshape main_v91 main_v92 rfl shapeCasts_S100000x1_S100000,
    nullary main_c_18 (constantI S_ 32 0#32),
    unary main_c_18 main_v93 (broadcastInDim S100000 ![] bcast_S_S100000 : (⟨S_, .i32⟩ : BufTy).Contents (Elt F) → (⟨S100000, .i32⟩ : BufTy).Contents (Elt F)),
    binary main_v92 main_v93 main_v94 (cmpi .slt : (⟨S100000, .i32⟩ : BufTy).Contents (Elt F) → (⟨S100000, .i32⟩ : BufTy).Contents (Elt F) → (⟨S100000, .i1⟩ : BufTy).Contents (Elt F)),
    nullary main_c_19 (constantI S_ 32 200000#32),
    unary main_c_19 main_v95 (broadcastInDim S100000 ![] bcast_S_S100000 : (⟨S_, .i32⟩ : BufTy).Contents (Elt F) → (⟨S100000, .i32⟩ : BufTy).Contents (Elt F)),
    binary main_v92 main_v95 main_v96 (addi : (⟨S100000, .i32⟩ : BufTy).Contents (Elt F) → (⟨S100000, .i32⟩ : BufTy).Contents (Elt F) → (⟨S100000, .i32⟩ : BufTy).Contents (Elt F)),
    ternary main_v94 main_v96 main_v92 main_v97 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v97 main_v98 (broadcastInDim S100000x1 ![0] bcast_S100000_S100000x1_0 : (⟨S100000, .i32⟩ : BufTy).Contents (Elt F) → (⟨S100000x1, .i32⟩ : BufTy).Contents (Elt F)),
    binary main_v90 main_v98 main_v99 ((fun x i => Host.gather gather_S200000x256_S100000x1_S100000x256_1_0_n_n_0_1_1256 x i) : (⟨S200000x256, .f32⟩ : BufTy).Contents (Elt F) → (⟨S100000x1, .i32⟩ : BufTy).Contents (Elt F) → (⟨S100000x256, .f32⟩ : BufTy).Contents (Elt F)),
    unary main_arg2 main_v100 ((extractStridedSlice S100000x1 ![0, 1] · slices_S100000x2_S100000x1_0_1) : (⟨S100000x2, .i32⟩ : BufTy).Contents (Elt F) → (⟨S100000x1, .i32⟩ : BufTy).Contents (Elt F)),
    reshape main_v100 main_v101 rfl shapeCasts_S100000x1_S100000,
    nullary main_c_20 (constantI S_ 32 0#32),
    unary main_c_20 main_v102 (broadcastInDim S100000 ![] bcast_S_S100000 : (⟨S_, .i32⟩ : BufTy).Contents (Elt F) → (⟨S100000, .i32⟩ : BufTy).Contents (Elt F)),
    binary main_v101 main_v102 main_v103 (cmpi .slt : (⟨S100000, .i32⟩ : BufTy).Contents (Elt F) → (⟨S100000, .i32⟩ : BufTy).Contents (Elt F) → (⟨S100000, .i1⟩ : BufTy).Contents (Elt F)),
    nullary main_c_21 (constantI S_ 32 200000#32),
    unary main_c_21 main_v104 (broadcastInDim S100000 ![] bcast_S_S100000 : (⟨S_, .i32⟩ : BufTy).Contents (Elt F) → (⟨S100000, .i32⟩ : BufTy).Contents (Elt F)),
    binary main_v101 main_v104 main_v105 (addi : (⟨S100000, .i32⟩ : BufTy).Contents (Elt F) → (⟨S100000, .i32⟩ : BufTy).Contents (Elt F) → (⟨S100000, .i32⟩ : BufTy).Contents (Elt F)),
    ternary main_v103 main_v105 main_v101 main_v106 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v106 main_v107 (broadcastInDim S100000x1 ![0] bcast_S100000_S100000x1_0 : (⟨S100000, .i32⟩ : BufTy).Contents (Elt F) → (⟨S100000x1, .i32⟩ : BufTy).Contents (Elt F)),
    binary main_v90 main_v107 main_v108 ((fun x i => Host.gather gather_S200000x256_S100000x1_S100000x256_1_0_n_n_0_1_1256 x i) : (⟨S200000x256, .f32⟩ : BufTy).Contents (Elt F) → (⟨S100000x1, .i32⟩ : BufTy).Contents (Elt F) → (⟨S100000x256, .f32⟩ : BufTy).Contents (Elt F)) ]

/-- Stretch 5 of the reference's operations. -/
abbrev seg5 : List (HloOp τ sig (Elt F)) :=
  [ binary main_v99 main_v108 main_v109 ((fun a b => concatenate S100000x512 1 [⟨S100000x256, a⟩, ⟨S100000x256, b⟩] concatenates_S100000x256_S100000x256_S100000x512_d1) : (⟨S100000x256, .f32⟩ : BufTy).Contents (Elt F) → (⟨S100000x256, .f32⟩ : BufTy).Contents (Elt F) → (⟨S100000x512, .f32⟩ : BufTy).Contents (Elt F)) ]

/-- Stretch 6 of the reference's operations. -/
abbrev seg6 : List (HloOp τ sig (Elt F)) :=
  [ binary main_v108 main_v99 main_v110 ((fun a b => concatenate S100000x512 1 [⟨S100000x256, a⟩, ⟨S100000x256, b⟩] concatenates_S100000x256_S100000x256_S100000x512_d1) : (⟨S100000x256, .f32⟩ : BufTy).Contents (Elt F) → (⟨S100000x256, .f32⟩ : BufTy).Contents (Elt F) → (⟨S100000x512, .f32⟩ : BufTy).Contents (Elt F)) ]

/-- Stretch 7 of the reference's operations. -/
abbrev seg7 : List (HloOp τ sig (Elt F)) :=
  [ binary main_v109 main_arg15 main_v111 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg16 main_v112 (broadcastInDim S1x256 ![1] bcast_S256_S1x256_1 : (⟨S256, .f32⟩ : BufTy).Contents (Elt F) → (⟨S1x256, .f32⟩ : BufTy).Contents (Elt F)),
    unary main_v112 main_v113 (broadcastInDim S100000x256 ![0, 1] bcast_S1x256_S100000x256_0_1 : (⟨S1x256, .f32⟩ : BufTy).Contents (Elt F) → (⟨S100000x256, .f32⟩ : BufTy).Contents (Elt F)),
    binary main_v111 main_v113 main_v114 (addf : (⟨S100000x256, .f32⟩ : BufTy).Contents (Elt F) → (⟨S100000x256, .f32⟩ : BufTy).Contents (Elt F) → (⟨S100000x256, .f32⟩ : BufTy).Contents (Elt F)),
    binary main_v110 main_arg15 main_v115 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg16 main_v116 (broadcastInDim S1x256 ![1] bcast_S256_S1x256_1 : (⟨S256, .f32⟩ : BufTy).Contents (Elt F) → (⟨S1x256, .f32⟩ : BufTy).Contents (Elt F)),
    unary main_v116 main_v117 (broadcastInDim S100000x256 ![0, 1] bcast_S1x256_S100000x256_0_1 : (⟨S1x256, .f32⟩ : BufTy).Contents (Elt F) → (⟨S100000x256, .f32⟩ : BufTy).Contents (Elt F)),
    binary main_v115 main_v117 main_v118 (addf : (⟨S100000x256, .f32⟩ : BufTy).Contents (Elt F) → (⟨S100000x256, .f32⟩ : BufTy).Contents (Elt F) → (⟨S100000x256, .f32⟩ : BufTy).Contents (Elt F)),
    binary main_v114 main_v118 main_v119 (addf : (⟨S100000x256, .f32⟩ : BufTy).Contents (Elt F) → (⟨S100000x256, .f32⟩ : BufTy).Contents (Elt F) → (⟨S100000x256, .f32⟩ : BufTy).Contents (Elt F)),
    nullary main_cst_22 (constant S_ .f32 0x00000000#32),
    unary main_cst_22 main_v120 (broadcastInDim S100000x256 ![] bcast_S_S100000x256 : (⟨S_, .f32⟩ : BufTy).Contents (Elt F) → (⟨S100000x256, .f32⟩ : BufTy).Contents (Elt F)),
    binary main_v119 main_v120 main_v121 (cmpf .oge : (⟨S100000x256, .f32⟩ : BufTy).Contents (Elt F) → (⟨S100000x256, .f32⟩ : BufTy).Contents (Elt F) → (⟨S100000x256, .i1⟩ : BufTy).Contents (Elt F)),
    nullary main_cst_23 (constant S_ .f32 0x3C23D70A#32),
    unary main_cst_23 main_v122 (broadcastInDim S100000x256 ![] bcast_S_S100000x256 : (⟨S_, .f32⟩ : BufTy).Contents (Elt F) → (⟨S100000x256, .f32⟩ : BufTy).Contents (Elt F)),
    binary main_v122 main_v119 main_v123 (mulf : (⟨S100000x256, .f32⟩ : BufTy).Contents (Elt F) → (⟨S100000x256, .f32⟩ : BufTy).Contents (Elt F) → (⟨S100000x256, .f32⟩ : BufTy).Contents (Elt F)),
    TRef.ternary (TRef.of (T := ⟨S100000x256, .i1⟩) main_v121) (TRef.of (T := ⟨S100000x256, .f32⟩) main_v119) (TRef.of (T := ⟨S100000x256, .f32⟩) main_v123) (TRef.of (T := ⟨S100000x256, .f32⟩) main_v124) select,
    binary main_v124 main_arg17 main_v125 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg18 main_v126 (broadcastInDim S1x1 ![1] bcast_S1_S1x1_1 : (⟨S1, .f32⟩ : BufTy).Contents (Elt F) → (⟨S1x1, .f32⟩ : BufTy).Contents (Elt F)),
    unary main_v126 main_v127 (broadcastInDim S100000x1 ![0, 1] bcast_S1x1_S100000x1_0_1 : (⟨S1x1, .f32⟩ : BufTy).Contents (Elt F) → (⟨S100000x1, .f32⟩ : BufTy).Contents (Elt F)),
    binary main_v125 main_v127 main_v128 (addf : (⟨S100000x1, .f32⟩ : BufTy).Contents (Elt F) → (⟨S100000x1, .f32⟩ : BufTy).Contents (Elt F) → (⟨S100000x1, .f32⟩ : BufTy).Contents (Elt F)),
    binary main_v109 main_arg19 main_v129 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg20 main_v130 (broadcastInDim S1x256 ![1] bcast_S256_S1x256_1 : (⟨S256, .f32⟩ : BufTy).Contents (Elt F) → (⟨S1x256, .f32⟩ : BufTy).Contents (Elt F)),
    unary main_v130 main_v131 (broadcastInDim S100000x256 ![0, 1] bcast_S1x256_S100000x256_0_1 : (⟨S1x256, .f32⟩ : BufTy).Contents (Elt F) → (⟨S100000x256, .f32⟩ : BufTy).Contents (Elt F)),
    binary main_v129 main_v131 main_v132 (addf : (⟨S100000x256, .f32⟩ : BufTy).Contents (Elt F) → (⟨S100000x256, .f32⟩ : BufTy).Contents (Elt F) → (⟨S100000x256, .f32⟩ : BufTy).Contents (Elt F)),
    binary main_v110 main_arg19 main_v133 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg20 main_v134 (broadcastInDim S1x256 ![1] bcast_S256_S1x256_1 : (⟨S256, .f32⟩ : BufTy).Contents (Elt F) → (⟨S1x256, .f32⟩ : BufTy).Contents (Elt F)),
    unary main_v134 main_v135 (broadcastInDim S100000x256 ![0, 1] bcast_S1x256_S100000x256_0_1 : (⟨S1x256, .f32⟩ : BufTy).Contents (Elt F) → (⟨S100000x256, .f32⟩ : BufTy).Contents (Elt F)),
    binary main_v133 main_v135 main_v136 (addf : (⟨S100000x256, .f32⟩ : BufTy).Contents (Elt F) → (⟨S100000x256, .f32⟩ : BufTy).Contents (Elt F) → (⟨S100000x256, .f32⟩ : BufTy).Contents (Elt F)),
    binary main_v132 main_v136 main_v137 (addf : (⟨S100000x256, .f32⟩ : BufTy).Contents (Elt F) → (⟨S100000x256, .f32⟩ : BufTy).Contents (Elt F) → (⟨S100000x256, .f32⟩ : BufTy).Contents (Elt F)),
    nullary main_cst_24 (constant S_ .f32 0x00000000#32),
    unary main_cst_24 main_v138 (broadcastInDim S100000x256 ![] bcast_S_S100000x256 : (⟨S_, .f32⟩ : BufTy).Contents (Elt F) → (⟨S100000x256, .f32⟩ : BufTy).Contents (Elt F)),
    binary main_v137 main_v138 main_v139 (cmpf .oge : (⟨S100000x256, .f32⟩ : BufTy).Contents (Elt F) → (⟨S100000x256, .f32⟩ : BufTy).Contents (Elt F) → (⟨S100000x256, .i1⟩ : BufTy).Contents (Elt F)),
    nullary main_cst_25 (constant S_ .f32 0x3C23D70A#32),
    unary main_cst_25 main_v140 (broadcastInDim S100000x256 ![] bcast_S_S100000x256 : (⟨S_, .f32⟩ : BufTy).Contents (Elt F) → (⟨S100000x256, .f32⟩ : BufTy).Contents (Elt F)),
    binary main_v140 main_v137 main_v141 (mulf : (⟨S100000x256, .f32⟩ : BufTy).Contents (Elt F) → (⟨S100000x256, .f32⟩ : BufTy).Contents (Elt F) → (⟨S100000x256, .f32⟩ : BufTy).Contents (Elt F)),
    TRef.ternary (TRef.of (T := ⟨S100000x256, .i1⟩) main_v139) (TRef.of (T := ⟨S100000x256, .f32⟩) main_v137) (TRef.of (T := ⟨S100000x256, .f32⟩) main_v141) (TRef.of (T := ⟨S100000x256, .f32⟩) main_v142) select,
    binary main_v142 main_arg21 main_v143 ((fun l r => Host.dotGeneral dot_S100000x256_S256x3_S100000x3_1_0_0_1_n_n none l r) : (⟨S100000x256, .f32⟩ : BufTy).Contents (Elt F) → (⟨S256x3, .f32⟩ : BufTy).Contents (Elt F) → (⟨S100000x3, .f32⟩ : BufTy).Contents (Elt F)),
    unary main_arg22 main_v144 (broadcastInDim S1x3 ![1] bcast_S3_S1x3_1 : (⟨S3, .f32⟩ : BufTy).Contents (Elt F) → (⟨S1x3, .f32⟩ : BufTy).Contents (Elt F)),
    unary main_v144 main_v145 (broadcastInDim S100000x3 ![0, 1] bcast_S1x3_S100000x3_0_1 : (⟨S1x3, .f32⟩ : BufTy).Contents (Elt F) → (⟨S100000x3, .f32⟩ : BufTy).Contents (Elt F)),
    binary main_v143 main_v145 main_v146 (addf : (⟨S100000x3, .f32⟩ : BufTy).Contents (Elt F) → (⟨S100000x3, .f32⟩ : BufTy).Contents (Elt F) → (⟨S100000x3, .f32⟩ : BufTy).Contents (Elt F)) ]

/-- The program's operations are the eight stretches in order. -/
theorem ops_split : (ops : List (HloOp τ sig (Elt F))) = seg0 ++ (seg1 ++ (seg2 ++ (seg3 ++ (seg4 ++ (seg5 ++ (seg6 ++ seg7)))))) := rfl

variable (m : (ℓ : Loc nD τ sig) → Buf (Elt F) ℓ) (c : Dev nD)

/-- The contents at launch, and after each stretch. -/
abbrev U0 : Valuation τ sig (Elt F) := launchContents m c
def U1 : Valuation τ sig (Elt F) := StableHlo.after seg0 (U0 m c)
def U2 : Valuation τ sig (Elt F) := StableHlo.after seg1 (U1 m c)
def U3 : Valuation τ sig (Elt F) := StableHlo.after seg2 (U2 m c)
def U4 : Valuation τ sig (Elt F) := StableHlo.after seg3 (U3 m c)
def U5 : Valuation τ sig (Elt F) := StableHlo.after seg4 (U4 m c)
def U6 : Valuation τ sig (Elt F) := StableHlo.after seg5 (U5 m c)
def U7 : Valuation τ sig (Elt F) := StableHlo.after seg6 (U6 m c)
def U8 : Valuation τ sig (Elt F) := StableHlo.after seg7 (U7 m c)

/-- The contents after the whole line are the contents after the last stretch. -/
theorem after_ops : StableHlo.after ops (launchContents m c) = U8 (F := F) m c := by
  rw [ops_split, StableHlo.after_append, StableHlo.after_append, StableHlo.after_append, StableHlo.after_append,
    StableHlo.after_append, StableHlo.after_append, StableHlo.after_append]
  rfl

/-! ## No stretch writes an argument: each argument's contents are carried through every stretch -/

set_option maxHeartbeats 400000 in
theorem u1_a0 : U1 (F := F) m c (Proc.devRef .tc main_arg0) = (m ((c.tc : Thread nD τ).loc main_arg0)) := by
  show StableHlo.after seg0 (U0 m c) (Proc.devRef .tc main_arg0) = _
  host_keeps seg0

set_option maxHeartbeats 400000 in
theorem u2_a0 : U2 (F := F) m c (Proc.devRef .tc main_arg0) = (m ((c.tc : Thread nD τ).loc main_arg0)) := by
  rw [show U2 (F := F) m c (Proc.devRef .tc main_arg0) = U1 (F := F) m c (Proc.devRef .tc main_arg0) from by host_keeps seg1]
  exact u1_a0 m c

set_option maxHeartbeats 400000 in
theorem u3_a0 : U3 (F := F) m c (Proc.devRef .tc main_arg0) = (m ((c.tc : Thread nD τ).loc main_arg0)) := by
  rw [show U3 (F := F) m c (Proc.devRef .tc main_arg0) = U2 (F := F) m c (Proc.devRef .tc main_arg0) from by host_keeps seg2]
  exact u2_a0 m c

set_option maxHeartbeats 400000 in
theorem u4_a0 : U4 (F := F) m c (Proc.devRef .tc main_arg0) = (m ((c.tc : Thread nD τ).loc main_arg0)) := by
  rw [show U4 (F := F) m c (Proc.devRef .tc main_arg0) = U3 (F := F) m c (Proc.devRef .tc main_arg0) from by host_keeps seg3]
  exact u3_a0 m c

set_option maxHeartbeats 400000 in
theorem u5_a0 : U5 (F := F) m c (Proc.devRef .tc main_arg0) = (m ((c.tc : Thread nD τ).loc main_arg0)) := by
  rw [show U5 (F := F) m c (Proc.devRef .tc main_arg0) = U4 (F := F) m c (Proc.devRef .tc main_arg0) from by host_keeps seg4]
  exact u4_a0 m c

set_option maxHeartbeats 400000 in
theorem u6_a0 : U6 (F := F) m c (Proc.devRef .tc main_arg0) = (m ((c.tc : Thread nD τ).loc main_arg0)) := by
  rw [show U6 (F := F) m c (Proc.devRef .tc main_arg0) = U5 (F := F) m c (Proc.devRef .tc main_arg0) from by host_keeps seg5]
  exact u5_a0 m c

set_option maxHeartbeats 400000 in
theorem u7_a0 : U7 (F := F) m c (Proc.devRef .tc main_arg0) = (m ((c.tc : Thread nD τ).loc main_arg0)) := by
  rw [show U7 (F := F) m c (Proc.devRef .tc main_arg0) = U6 (F := F) m c (Proc.devRef .tc main_arg0) from by host_keeps seg6]
  exact u6_a0 m c

set_option maxHeartbeats 400000 in
theorem u8_a0 : U8 (F := F) m c (Proc.devRef .tc main_arg0) = (m ((c.tc : Thread nD τ).loc main_arg0)) := by
  rw [show U8 (F := F) m c (Proc.devRef .tc main_arg0) = U7 (F := F) m c (Proc.devRef .tc main_arg0) from by host_keeps seg7]
  exact u7_a0 m c

set_option maxHeartbeats 400000 in
theorem u1_a1 : U1 (F := F) m c (Proc.devRef .tc main_arg1) = (m ((c.tc : Thread nD τ).loc main_arg1)) := by
  show StableHlo.after seg0 (U0 m c) (Proc.devRef .tc main_arg1) = _
  host_keeps seg0

set_option maxHeartbeats 400000 in
theorem u2_a1 : U2 (F := F) m c (Proc.devRef .tc main_arg1) = (m ((c.tc : Thread nD τ).loc main_arg1)) := by
  rw [show U2 (F := F) m c (Proc.devRef .tc main_arg1) = U1 (F := F) m c (Proc.devRef .tc main_arg1) from by host_keeps seg1]
  exact u1_a1 m c

set_option maxHeartbeats 400000 in
theorem u3_a1 : U3 (F := F) m c (Proc.devRef .tc main_arg1) = (m ((c.tc : Thread nD τ).loc main_arg1)) := by
  rw [show U3 (F := F) m c (Proc.devRef .tc main_arg1) = U2 (F := F) m c (Proc.devRef .tc main_arg1) from by host_keeps seg2]
  exact u2_a1 m c

set_option maxHeartbeats 400000 in
theorem u4_a1 : U4 (F := F) m c (Proc.devRef .tc main_arg1) = (m ((c.tc : Thread nD τ).loc main_arg1)) := by
  rw [show U4 (F := F) m c (Proc.devRef .tc main_arg1) = U3 (F := F) m c (Proc.devRef .tc main_arg1) from by host_keeps seg3]
  exact u3_a1 m c

set_option maxHeartbeats 400000 in
theorem u5_a1 : U5 (F := F) m c (Proc.devRef .tc main_arg1) = (m ((c.tc : Thread nD τ).loc main_arg1)) := by
  rw [show U5 (F := F) m c (Proc.devRef .tc main_arg1) = U4 (F := F) m c (Proc.devRef .tc main_arg1) from by host_keeps seg4]
  exact u4_a1 m c

set_option maxHeartbeats 400000 in
theorem u6_a1 : U6 (F := F) m c (Proc.devRef .tc main_arg1) = (m ((c.tc : Thread nD τ).loc main_arg1)) := by
  rw [show U6 (F := F) m c (Proc.devRef .tc main_arg1) = U5 (F := F) m c (Proc.devRef .tc main_arg1) from by host_keeps seg5]
  exact u5_a1 m c

set_option maxHeartbeats 400000 in
theorem u7_a1 : U7 (F := F) m c (Proc.devRef .tc main_arg1) = (m ((c.tc : Thread nD τ).loc main_arg1)) := by
  rw [show U7 (F := F) m c (Proc.devRef .tc main_arg1) = U6 (F := F) m c (Proc.devRef .tc main_arg1) from by host_keeps seg6]
  exact u6_a1 m c

set_option maxHeartbeats 400000 in
theorem u8_a1 : U8 (F := F) m c (Proc.devRef .tc main_arg1) = (m ((c.tc : Thread nD τ).loc main_arg1)) := by
  rw [show U8 (F := F) m c (Proc.devRef .tc main_arg1) = U7 (F := F) m c (Proc.devRef .tc main_arg1) from by host_keeps seg7]
  exact u7_a1 m c

set_option maxHeartbeats 400000 in
theorem u1_a2 : U1 (F := F) m c (Proc.devRef .tc main_arg2) = (m ((c.tc : Thread nD τ).loc main_arg2)) := by
  show StableHlo.after seg0 (U0 m c) (Proc.devRef .tc main_arg2) = _
  host_keeps seg0

set_option maxHeartbeats 400000 in
theorem u2_a2 : U2 (F := F) m c (Proc.devRef .tc main_arg2) = (m ((c.tc : Thread nD τ).loc main_arg2)) := by
  rw [show U2 (F := F) m c (Proc.devRef .tc main_arg2) = U1 (F := F) m c (Proc.devRef .tc main_arg2) from by host_keeps seg1]
  exact u1_a2 m c

set_option maxHeartbeats 400000 in
theorem u3_a2 : U3 (F := F) m c (Proc.devRef .tc main_arg2) = (m ((c.tc : Thread nD τ).loc main_arg2)) := by
  rw [show U3 (F := F) m c (Proc.devRef .tc main_arg2) = U2 (F := F) m c (Proc.devRef .tc main_arg2) from by host_keeps seg2]
  exact u2_a2 m c

set_option maxHeartbeats 400000 in
theorem u4_a2 : U4 (F := F) m c (Proc.devRef .tc main_arg2) = (m ((c.tc : Thread nD τ).loc main_arg2)) := by
  rw [show U4 (F := F) m c (Proc.devRef .tc main_arg2) = U3 (F := F) m c (Proc.devRef .tc main_arg2) from by host_keeps seg3]
  exact u3_a2 m c

set_option maxHeartbeats 400000 in
theorem u5_a2 : U5 (F := F) m c (Proc.devRef .tc main_arg2) = (m ((c.tc : Thread nD τ).loc main_arg2)) := by
  rw [show U5 (F := F) m c (Proc.devRef .tc main_arg2) = U4 (F := F) m c (Proc.devRef .tc main_arg2) from by host_keeps seg4]
  exact u4_a2 m c

set_option maxHeartbeats 400000 in
theorem u6_a2 : U6 (F := F) m c (Proc.devRef .tc main_arg2) = (m ((c.tc : Thread nD τ).loc main_arg2)) := by
  rw [show U6 (F := F) m c (Proc.devRef .tc main_arg2) = U5 (F := F) m c (Proc.devRef .tc main_arg2) from by host_keeps seg5]
  exact u5_a2 m c

set_option maxHeartbeats 400000 in
theorem u7_a2 : U7 (F := F) m c (Proc.devRef .tc main_arg2) = (m ((c.tc : Thread nD τ).loc main_arg2)) := by
  rw [show U7 (F := F) m c (Proc.devRef .tc main_arg2) = U6 (F := F) m c (Proc.devRef .tc main_arg2) from by host_keeps seg6]
  exact u6_a2 m c

set_option maxHeartbeats 400000 in
theorem u8_a2 : U8 (F := F) m c (Proc.devRef .tc main_arg2) = (m ((c.tc : Thread nD τ).loc main_arg2)) := by
  rw [show U8 (F := F) m c (Proc.devRef .tc main_arg2) = U7 (F := F) m c (Proc.devRef .tc main_arg2) from by host_keeps seg7]
  exact u7_a2 m c

set_option maxHeartbeats 400000 in
theorem u1_a3 : U1 (F := F) m c (Proc.devRef .tc main_arg3) = (m ((c.tc : Thread nD τ).loc main_arg3)) := by
  show StableHlo.after seg0 (U0 m c) (Proc.devRef .tc main_arg3) = _
  host_keeps seg0

set_option maxHeartbeats 400000 in
theorem u2_a3 : U2 (F := F) m c (Proc.devRef .tc main_arg3) = (m ((c.tc : Thread nD τ).loc main_arg3)) := by
  rw [show U2 (F := F) m c (Proc.devRef .tc main_arg3) = U1 (F := F) m c (Proc.devRef .tc main_arg3) from by host_keeps seg1]
  exact u1_a3 m c

set_option maxHeartbeats 400000 in
theorem u3_a3 : U3 (F := F) m c (Proc.devRef .tc main_arg3) = (m ((c.tc : Thread nD τ).loc main_arg3)) := by
  rw [show U3 (F := F) m c (Proc.devRef .tc main_arg3) = U2 (F := F) m c (Proc.devRef .tc main_arg3) from by host_keeps seg2]
  exact u2_a3 m c

set_option maxHeartbeats 400000 in
theorem u4_a3 : U4 (F := F) m c (Proc.devRef .tc main_arg3) = (m ((c.tc : Thread nD τ).loc main_arg3)) := by
  rw [show U4 (F := F) m c (Proc.devRef .tc main_arg3) = U3 (F := F) m c (Proc.devRef .tc main_arg3) from by host_keeps seg3]
  exact u3_a3 m c

set_option maxHeartbeats 400000 in
theorem u5_a3 : U5 (F := F) m c (Proc.devRef .tc main_arg3) = (m ((c.tc : Thread nD τ).loc main_arg3)) := by
  rw [show U5 (F := F) m c (Proc.devRef .tc main_arg3) = U4 (F := F) m c (Proc.devRef .tc main_arg3) from by host_keeps seg4]
  exact u4_a3 m c

set_option maxHeartbeats 400000 in
theorem u6_a3 : U6 (F := F) m c (Proc.devRef .tc main_arg3) = (m ((c.tc : Thread nD τ).loc main_arg3)) := by
  rw [show U6 (F := F) m c (Proc.devRef .tc main_arg3) = U5 (F := F) m c (Proc.devRef .tc main_arg3) from by host_keeps seg5]
  exact u5_a3 m c

set_option maxHeartbeats 400000 in
theorem u7_a3 : U7 (F := F) m c (Proc.devRef .tc main_arg3) = (m ((c.tc : Thread nD τ).loc main_arg3)) := by
  rw [show U7 (F := F) m c (Proc.devRef .tc main_arg3) = U6 (F := F) m c (Proc.devRef .tc main_arg3) from by host_keeps seg6]
  exact u6_a3 m c

set_option maxHeartbeats 400000 in
theorem u8_a3 : U8 (F := F) m c (Proc.devRef .tc main_arg3) = (m ((c.tc : Thread nD τ).loc main_arg3)) := by
  rw [show U8 (F := F) m c (Proc.devRef .tc main_arg3) = U7 (F := F) m c (Proc.devRef .tc main_arg3) from by host_keeps seg7]
  exact u7_a3 m c

set_option maxHeartbeats 400000 in
theorem u1_a4 : U1 (F := F) m c (Proc.devRef .tc main_arg4) = (m ((c.tc : Thread nD τ).loc main_arg4)) := by
  show StableHlo.after seg0 (U0 m c) (Proc.devRef .tc main_arg4) = _
  host_keeps seg0

set_option maxHeartbeats 400000 in
theorem u2_a4 : U2 (F := F) m c (Proc.devRef .tc main_arg4) = (m ((c.tc : Thread nD τ).loc main_arg4)) := by
  rw [show U2 (F := F) m c (Proc.devRef .tc main_arg4) = U1 (F := F) m c (Proc.devRef .tc main_arg4) from by host_keeps seg1]
  exact u1_a4 m c

set_option maxHeartbeats 400000 in
theorem u3_a4 : U3 (F := F) m c (Proc.devRef .tc main_arg4) = (m ((c.tc : Thread nD τ).loc main_arg4)) := by
  rw [show U3 (F := F) m c (Proc.devRef .tc main_arg4) = U2 (F := F) m c (Proc.devRef .tc main_arg4) from by host_keeps seg2]
  exact u2_a4 m c

set_option maxHeartbeats 400000 in
theorem u4_a4 : U4 (F := F) m c (Proc.devRef .tc main_arg4) = (m ((c.tc : Thread nD τ).loc main_arg4)) := by
  rw [show U4 (F := F) m c (Proc.devRef .tc main_arg4) = U3 (F := F) m c (Proc.devRef .tc main_arg4) from by host_keeps seg3]
  exact u3_a4 m c

set_option maxHeartbeats 400000 in
theorem u5_a4 : U5 (F := F) m c (Proc.devRef .tc main_arg4) = (m ((c.tc : Thread nD τ).loc main_arg4)) := by
  rw [show U5 (F := F) m c (Proc.devRef .tc main_arg4) = U4 (F := F) m c (Proc.devRef .tc main_arg4) from by host_keeps seg4]
  exact u4_a4 m c

set_option maxHeartbeats 400000 in
theorem u6_a4 : U6 (F := F) m c (Proc.devRef .tc main_arg4) = (m ((c.tc : Thread nD τ).loc main_arg4)) := by
  rw [show U6 (F := F) m c (Proc.devRef .tc main_arg4) = U5 (F := F) m c (Proc.devRef .tc main_arg4) from by host_keeps seg5]
  exact u5_a4 m c

set_option maxHeartbeats 400000 in
theorem u7_a4 : U7 (F := F) m c (Proc.devRef .tc main_arg4) = (m ((c.tc : Thread nD τ).loc main_arg4)) := by
  rw [show U7 (F := F) m c (Proc.devRef .tc main_arg4) = U6 (F := F) m c (Proc.devRef .tc main_arg4) from by host_keeps seg6]
  exact u6_a4 m c

set_option maxHeartbeats 400000 in
theorem u8_a4 : U8 (F := F) m c (Proc.devRef .tc main_arg4) = (m ((c.tc : Thread nD τ).loc main_arg4)) := by
  rw [show U8 (F := F) m c (Proc.devRef .tc main_arg4) = U7 (F := F) m c (Proc.devRef .tc main_arg4) from by host_keeps seg7]
  exact u7_a4 m c

set_option maxHeartbeats 400000 in
theorem u1_a5 : U1 (F := F) m c (Proc.devRef .tc main_arg5) = (m ((c.tc : Thread nD τ).loc main_arg5)) := by
  show StableHlo.after seg0 (U0 m c) (Proc.devRef .tc main_arg5) = _
  host_keeps seg0

set_option maxHeartbeats 400000 in
theorem u2_a5 : U2 (F := F) m c (Proc.devRef .tc main_arg5) = (m ((c.tc : Thread nD τ).loc main_arg5)) := by
  rw [show U2 (F := F) m c (Proc.devRef .tc main_arg5) = U1 (F := F) m c (Proc.devRef .tc main_arg5) from by host_keeps seg1]
  exact u1_a5 m c

set_option maxHeartbeats 400000 in
theorem u3_a5 : U3 (F := F) m c (Proc.devRef .tc main_arg5) = (m ((c.tc : Thread nD τ).loc main_arg5)) := by
  rw [show U3 (F := F) m c (Proc.devRef .tc main_arg5) = U2 (F := F) m c (Proc.devRef .tc main_arg5) from by host_keeps seg2]
  exact u2_a5 m c

set_option maxHeartbeats 400000 in
theorem u4_a5 : U4 (F := F) m c (Proc.devRef .tc main_arg5) = (m ((c.tc : Thread nD τ).loc main_arg5)) := by
  rw [show U4 (F := F) m c (Proc.devRef .tc main_arg5) = U3 (F := F) m c (Proc.devRef .tc main_arg5) from by host_keeps seg3]
  exact u3_a5 m c

set_option maxHeartbeats 400000 in
theorem u5_a5 : U5 (F := F) m c (Proc.devRef .tc main_arg5) = (m ((c.tc : Thread nD τ).loc main_arg5)) := by
  rw [show U5 (F := F) m c (Proc.devRef .tc main_arg5) = U4 (F := F) m c (Proc.devRef .tc main_arg5) from by host_keeps seg4]
  exact u4_a5 m c

set_option maxHeartbeats 400000 in
theorem u6_a5 : U6 (F := F) m c (Proc.devRef .tc main_arg5) = (m ((c.tc : Thread nD τ).loc main_arg5)) := by
  rw [show U6 (F := F) m c (Proc.devRef .tc main_arg5) = U5 (F := F) m c (Proc.devRef .tc main_arg5) from by host_keeps seg5]
  exact u5_a5 m c

set_option maxHeartbeats 400000 in
theorem u7_a5 : U7 (F := F) m c (Proc.devRef .tc main_arg5) = (m ((c.tc : Thread nD τ).loc main_arg5)) := by
  rw [show U7 (F := F) m c (Proc.devRef .tc main_arg5) = U6 (F := F) m c (Proc.devRef .tc main_arg5) from by host_keeps seg6]
  exact u6_a5 m c

set_option maxHeartbeats 400000 in
theorem u8_a5 : U8 (F := F) m c (Proc.devRef .tc main_arg5) = (m ((c.tc : Thread nD τ).loc main_arg5)) := by
  rw [show U8 (F := F) m c (Proc.devRef .tc main_arg5) = U7 (F := F) m c (Proc.devRef .tc main_arg5) from by host_keeps seg7]
  exact u7_a5 m c

set_option maxHeartbeats 400000 in
theorem u1_a6 : U1 (F := F) m c (Proc.devRef .tc main_arg6) = (m ((c.tc : Thread nD τ).loc main_arg6)) := by
  show StableHlo.after seg0 (U0 m c) (Proc.devRef .tc main_arg6) = _
  host_keeps seg0

set_option maxHeartbeats 400000 in
theorem u2_a6 : U2 (F := F) m c (Proc.devRef .tc main_arg6) = (m ((c.tc : Thread nD τ).loc main_arg6)) := by
  rw [show U2 (F := F) m c (Proc.devRef .tc main_arg6) = U1 (F := F) m c (Proc.devRef .tc main_arg6) from by host_keeps seg1]
  exact u1_a6 m c

set_option maxHeartbeats 400000 in
theorem u3_a6 : U3 (F := F) m c (Proc.devRef .tc main_arg6) = (m ((c.tc : Thread nD τ).loc main_arg6)) := by
  rw [show U3 (F := F) m c (Proc.devRef .tc main_arg6) = U2 (F := F) m c (Proc.devRef .tc main_arg6) from by host_keeps seg2]
  exact u2_a6 m c

set_option maxHeartbeats 400000 in
theorem u4_a6 : U4 (F := F) m c (Proc.devRef .tc main_arg6) = (m ((c.tc : Thread nD τ).loc main_arg6)) := by
  rw [show U4 (F := F) m c (Proc.devRef .tc main_arg6) = U3 (F := F) m c (Proc.devRef .tc main_arg6) from by host_keeps seg3]
  exact u3_a6 m c

set_option maxHeartbeats 400000 in
theorem u5_a6 : U5 (F := F) m c (Proc.devRef .tc main_arg6) = (m ((c.tc : Thread nD τ).loc main_arg6)) := by
  rw [show U5 (F := F) m c (Proc.devRef .tc main_arg6) = U4 (F := F) m c (Proc.devRef .tc main_arg6) from by host_keeps seg4]
  exact u4_a6 m c

set_option maxHeartbeats 400000 in
theorem u6_a6 : U6 (F := F) m c (Proc.devRef .tc main_arg6) = (m ((c.tc : Thread nD τ).loc main_arg6)) := by
  rw [show U6 (F := F) m c (Proc.devRef .tc main_arg6) = U5 (F := F) m c (Proc.devRef .tc main_arg6) from by host_keeps seg5]
  exact u5_a6 m c

set_option maxHeartbeats 400000 in
theorem u7_a6 : U7 (F := F) m c (Proc.devRef .tc main_arg6) = (m ((c.tc : Thread nD τ).loc main_arg6)) := by
  rw [show U7 (F := F) m c (Proc.devRef .tc main_arg6) = U6 (F := F) m c (Proc.devRef .tc main_arg6) from by host_keeps seg6]
  exact u6_a6 m c

set_option maxHeartbeats 400000 in
theorem u8_a6 : U8 (F := F) m c (Proc.devRef .tc main_arg6) = (m ((c.tc : Thread nD τ).loc main_arg6)) := by
  rw [show U8 (F := F) m c (Proc.devRef .tc main_arg6) = U7 (F := F) m c (Proc.devRef .tc main_arg6) from by host_keeps seg7]
  exact u7_a6 m c

set_option maxHeartbeats 400000 in
theorem u1_a7 : U1 (F := F) m c (Proc.devRef .tc main_arg7) = (m ((c.tc : Thread nD τ).loc main_arg7)) := by
  show StableHlo.after seg0 (U0 m c) (Proc.devRef .tc main_arg7) = _
  host_keeps seg0

set_option maxHeartbeats 400000 in
theorem u2_a7 : U2 (F := F) m c (Proc.devRef .tc main_arg7) = (m ((c.tc : Thread nD τ).loc main_arg7)) := by
  rw [show U2 (F := F) m c (Proc.devRef .tc main_arg7) = U1 (F := F) m c (Proc.devRef .tc main_arg7) from by host_keeps seg1]
  exact u1_a7 m c

set_option maxHeartbeats 400000 in
theorem u3_a7 : U3 (F := F) m c (Proc.devRef .tc main_arg7) = (m ((c.tc : Thread nD τ).loc main_arg7)) := by
  rw [show U3 (F := F) m c (Proc.devRef .tc main_arg7) = U2 (F := F) m c (Proc.devRef .tc main_arg7) from by host_keeps seg2]
  exact u2_a7 m c

set_option maxHeartbeats 400000 in
theorem u4_a7 : U4 (F := F) m c (Proc.devRef .tc main_arg7) = (m ((c.tc : Thread nD τ).loc main_arg7)) := by
  rw [show U4 (F := F) m c (Proc.devRef .tc main_arg7) = U3 (F := F) m c (Proc.devRef .tc main_arg7) from by host_keeps seg3]
  exact u3_a7 m c

set_option maxHeartbeats 400000 in
theorem u5_a7 : U5 (F := F) m c (Proc.devRef .tc main_arg7) = (m ((c.tc : Thread nD τ).loc main_arg7)) := by
  rw [show U5 (F := F) m c (Proc.devRef .tc main_arg7) = U4 (F := F) m c (Proc.devRef .tc main_arg7) from by host_keeps seg4]
  exact u4_a7 m c

set_option maxHeartbeats 400000 in
theorem u6_a7 : U6 (F := F) m c (Proc.devRef .tc main_arg7) = (m ((c.tc : Thread nD τ).loc main_arg7)) := by
  rw [show U6 (F := F) m c (Proc.devRef .tc main_arg7) = U5 (F := F) m c (Proc.devRef .tc main_arg7) from by host_keeps seg5]
  exact u5_a7 m c

set_option maxHeartbeats 400000 in
theorem u7_a7 : U7 (F := F) m c (Proc.devRef .tc main_arg7) = (m ((c.tc : Thread nD τ).loc main_arg7)) := by
  rw [show U7 (F := F) m c (Proc.devRef .tc main_arg7) = U6 (F := F) m c (Proc.devRef .tc main_arg7) from by host_keeps seg6]
  exact u6_a7 m c

set_option maxHeartbeats 400000 in
theorem u8_a7 : U8 (F := F) m c (Proc.devRef .tc main_arg7) = (m ((c.tc : Thread nD τ).loc main_arg7)) := by
  rw [show U8 (F := F) m c (Proc.devRef .tc main_arg7) = U7 (F := F) m c (Proc.devRef .tc main_arg7) from by host_keeps seg7]
  exact u7_a7 m c

set_option maxHeartbeats 400000 in
theorem u1_a8 : U1 (F := F) m c (Proc.devRef .tc main_arg8) = (m ((c.tc : Thread nD τ).loc main_arg8)) := by
  show StableHlo.after seg0 (U0 m c) (Proc.devRef .tc main_arg8) = _
  host_keeps seg0

set_option maxHeartbeats 400000 in
theorem u2_a8 : U2 (F := F) m c (Proc.devRef .tc main_arg8) = (m ((c.tc : Thread nD τ).loc main_arg8)) := by
  rw [show U2 (F := F) m c (Proc.devRef .tc main_arg8) = U1 (F := F) m c (Proc.devRef .tc main_arg8) from by host_keeps seg1]
  exact u1_a8 m c

set_option maxHeartbeats 400000 in
theorem u3_a8 : U3 (F := F) m c (Proc.devRef .tc main_arg8) = (m ((c.tc : Thread nD τ).loc main_arg8)) := by
  rw [show U3 (F := F) m c (Proc.devRef .tc main_arg8) = U2 (F := F) m c (Proc.devRef .tc main_arg8) from by host_keeps seg2]
  exact u2_a8 m c

set_option maxHeartbeats 400000 in
theorem u4_a8 : U4 (F := F) m c (Proc.devRef .tc main_arg8) = (m ((c.tc : Thread nD τ).loc main_arg8)) := by
  rw [show U4 (F := F) m c (Proc.devRef .tc main_arg8) = U3 (F := F) m c (Proc.devRef .tc main_arg8) from by host_keeps seg3]
  exact u3_a8 m c

set_option maxHeartbeats 400000 in
theorem u5_a8 : U5 (F := F) m c (Proc.devRef .tc main_arg8) = (m ((c.tc : Thread nD τ).loc main_arg8)) := by
  rw [show U5 (F := F) m c (Proc.devRef .tc main_arg8) = U4 (F := F) m c (Proc.devRef .tc main_arg8) from by host_keeps seg4]
  exact u4_a8 m c

set_option maxHeartbeats 400000 in
theorem u6_a8 : U6 (F := F) m c (Proc.devRef .tc main_arg8) = (m ((c.tc : Thread nD τ).loc main_arg8)) := by
  rw [show U6 (F := F) m c (Proc.devRef .tc main_arg8) = U5 (F := F) m c (Proc.devRef .tc main_arg8) from by host_keeps seg5]
  exact u5_a8 m c

set_option maxHeartbeats 400000 in
theorem u7_a8 : U7 (F := F) m c (Proc.devRef .tc main_arg8) = (m ((c.tc : Thread nD τ).loc main_arg8)) := by
  rw [show U7 (F := F) m c (Proc.devRef .tc main_arg8) = U6 (F := F) m c (Proc.devRef .tc main_arg8) from by host_keeps seg6]
  exact u6_a8 m c

set_option maxHeartbeats 400000 in
theorem u8_a8 : U8 (F := F) m c (Proc.devRef .tc main_arg8) = (m ((c.tc : Thread nD τ).loc main_arg8)) := by
  rw [show U8 (F := F) m c (Proc.devRef .tc main_arg8) = U7 (F := F) m c (Proc.devRef .tc main_arg8) from by host_keeps seg7]
  exact u7_a8 m c

set_option maxHeartbeats 400000 in
theorem u1_a9 : U1 (F := F) m c (Proc.devRef .tc main_arg9) = (m ((c.tc : Thread nD τ).loc main_arg9)) := by
  show StableHlo.after seg0 (U0 m c) (Proc.devRef .tc main_arg9) = _
  host_keeps seg0

set_option maxHeartbeats 400000 in
theorem u2_a9 : U2 (F := F) m c (Proc.devRef .tc main_arg9) = (m ((c.tc : Thread nD τ).loc main_arg9)) := by
  rw [show U2 (F := F) m c (Proc.devRef .tc main_arg9) = U1 (F := F) m c (Proc.devRef .tc main_arg9) from by host_keeps seg1]
  exact u1_a9 m c

set_option maxHeartbeats 400000 in
theorem u3_a9 : U3 (F := F) m c (Proc.devRef .tc main_arg9) = (m ((c.tc : Thread nD τ).loc main_arg9)) := by
  rw [show U3 (F := F) m c (Proc.devRef .tc main_arg9) = U2 (F := F) m c (Proc.devRef .tc main_arg9) from by host_keeps seg2]
  exact u2_a9 m c

set_option maxHeartbeats 400000 in
theorem u4_a9 : U4 (F := F) m c (Proc.devRef .tc main_arg9) = (m ((c.tc : Thread nD τ).loc main_arg9)) := by
  rw [show U4 (F := F) m c (Proc.devRef .tc main_arg9) = U3 (F := F) m c (Proc.devRef .tc main_arg9) from by host_keeps seg3]
  exact u3_a9 m c

set_option maxHeartbeats 400000 in
theorem u5_a9 : U5 (F := F) m c (Proc.devRef .tc main_arg9) = (m ((c.tc : Thread nD τ).loc main_arg9)) := by
  rw [show U5 (F := F) m c (Proc.devRef .tc main_arg9) = U4 (F := F) m c (Proc.devRef .tc main_arg9) from by host_keeps seg4]
  exact u4_a9 m c

set_option maxHeartbeats 400000 in
theorem u6_a9 : U6 (F := F) m c (Proc.devRef .tc main_arg9) = (m ((c.tc : Thread nD τ).loc main_arg9)) := by
  rw [show U6 (F := F) m c (Proc.devRef .tc main_arg9) = U5 (F := F) m c (Proc.devRef .tc main_arg9) from by host_keeps seg5]
  exact u5_a9 m c

set_option maxHeartbeats 400000 in
theorem u7_a9 : U7 (F := F) m c (Proc.devRef .tc main_arg9) = (m ((c.tc : Thread nD τ).loc main_arg9)) := by
  rw [show U7 (F := F) m c (Proc.devRef .tc main_arg9) = U6 (F := F) m c (Proc.devRef .tc main_arg9) from by host_keeps seg6]
  exact u6_a9 m c

set_option maxHeartbeats 400000 in
theorem u8_a9 : U8 (F := F) m c (Proc.devRef .tc main_arg9) = (m ((c.tc : Thread nD τ).loc main_arg9)) := by
  rw [show U8 (F := F) m c (Proc.devRef .tc main_arg9) = U7 (F := F) m c (Proc.devRef .tc main_arg9) from by host_keeps seg7]
  exact u7_a9 m c

set_option maxHeartbeats 400000 in
theorem u1_a10 : U1 (F := F) m c (Proc.devRef .tc main_arg10) = (m ((c.tc : Thread nD τ).loc main_arg10)) := by
  show StableHlo.after seg0 (U0 m c) (Proc.devRef .tc main_arg10) = _
  host_keeps seg0

set_option maxHeartbeats 400000 in
theorem u2_a10 : U2 (F := F) m c (Proc.devRef .tc main_arg10) = (m ((c.tc : Thread nD τ).loc main_arg10)) := by
  rw [show U2 (F := F) m c (Proc.devRef .tc main_arg10) = U1 (F := F) m c (Proc.devRef .tc main_arg10) from by host_keeps seg1]
  exact u1_a10 m c

set_option maxHeartbeats 400000 in
theorem u3_a10 : U3 (F := F) m c (Proc.devRef .tc main_arg10) = (m ((c.tc : Thread nD τ).loc main_arg10)) := by
  rw [show U3 (F := F) m c (Proc.devRef .tc main_arg10) = U2 (F := F) m c (Proc.devRef .tc main_arg10) from by host_keeps seg2]
  exact u2_a10 m c

set_option maxHeartbeats 400000 in
theorem u4_a10 : U4 (F := F) m c (Proc.devRef .tc main_arg10) = (m ((c.tc : Thread nD τ).loc main_arg10)) := by
  rw [show U4 (F := F) m c (Proc.devRef .tc main_arg10) = U3 (F := F) m c (Proc.devRef .tc main_arg10) from by host_keeps seg3]
  exact u3_a10 m c

set_option maxHeartbeats 400000 in
theorem u5_a10 : U5 (F := F) m c (Proc.devRef .tc main_arg10) = (m ((c.tc : Thread nD τ).loc main_arg10)) := by
  rw [show U5 (F := F) m c (Proc.devRef .tc main_arg10) = U4 (F := F) m c (Proc.devRef .tc main_arg10) from by host_keeps seg4]
  exact u4_a10 m c

set_option maxHeartbeats 400000 in
theorem u6_a10 : U6 (F := F) m c (Proc.devRef .tc main_arg10) = (m ((c.tc : Thread nD τ).loc main_arg10)) := by
  rw [show U6 (F := F) m c (Proc.devRef .tc main_arg10) = U5 (F := F) m c (Proc.devRef .tc main_arg10) from by host_keeps seg5]
  exact u5_a10 m c

set_option maxHeartbeats 400000 in
theorem u7_a10 : U7 (F := F) m c (Proc.devRef .tc main_arg10) = (m ((c.tc : Thread nD τ).loc main_arg10)) := by
  rw [show U7 (F := F) m c (Proc.devRef .tc main_arg10) = U6 (F := F) m c (Proc.devRef .tc main_arg10) from by host_keeps seg6]
  exact u6_a10 m c

set_option maxHeartbeats 400000 in
theorem u8_a10 : U8 (F := F) m c (Proc.devRef .tc main_arg10) = (m ((c.tc : Thread nD τ).loc main_arg10)) := by
  rw [show U8 (F := F) m c (Proc.devRef .tc main_arg10) = U7 (F := F) m c (Proc.devRef .tc main_arg10) from by host_keeps seg7]
  exact u7_a10 m c

set_option maxHeartbeats 400000 in
theorem u1_a11 : U1 (F := F) m c (Proc.devRef .tc main_arg11) = (m ((c.tc : Thread nD τ).loc main_arg11)) := by
  show StableHlo.after seg0 (U0 m c) (Proc.devRef .tc main_arg11) = _
  host_keeps seg0

set_option maxHeartbeats 400000 in
theorem u2_a11 : U2 (F := F) m c (Proc.devRef .tc main_arg11) = (m ((c.tc : Thread nD τ).loc main_arg11)) := by
  rw [show U2 (F := F) m c (Proc.devRef .tc main_arg11) = U1 (F := F) m c (Proc.devRef .tc main_arg11) from by host_keeps seg1]
  exact u1_a11 m c

set_option maxHeartbeats 400000 in
theorem u3_a11 : U3 (F := F) m c (Proc.devRef .tc main_arg11) = (m ((c.tc : Thread nD τ).loc main_arg11)) := by
  rw [show U3 (F := F) m c (Proc.devRef .tc main_arg11) = U2 (F := F) m c (Proc.devRef .tc main_arg11) from by host_keeps seg2]
  exact u2_a11 m c

set_option maxHeartbeats 400000 in
theorem u4_a11 : U4 (F := F) m c (Proc.devRef .tc main_arg11) = (m ((c.tc : Thread nD τ).loc main_arg11)) := by
  rw [show U4 (F := F) m c (Proc.devRef .tc main_arg11) = U3 (F := F) m c (Proc.devRef .tc main_arg11) from by host_keeps seg3]
  exact u3_a11 m c

set_option maxHeartbeats 400000 in
theorem u5_a11 : U5 (F := F) m c (Proc.devRef .tc main_arg11) = (m ((c.tc : Thread nD τ).loc main_arg11)) := by
  rw [show U5 (F := F) m c (Proc.devRef .tc main_arg11) = U4 (F := F) m c (Proc.devRef .tc main_arg11) from by host_keeps seg4]
  exact u4_a11 m c

set_option maxHeartbeats 400000 in
theorem u6_a11 : U6 (F := F) m c (Proc.devRef .tc main_arg11) = (m ((c.tc : Thread nD τ).loc main_arg11)) := by
  rw [show U6 (F := F) m c (Proc.devRef .tc main_arg11) = U5 (F := F) m c (Proc.devRef .tc main_arg11) from by host_keeps seg5]
  exact u5_a11 m c

set_option maxHeartbeats 400000 in
theorem u7_a11 : U7 (F := F) m c (Proc.devRef .tc main_arg11) = (m ((c.tc : Thread nD τ).loc main_arg11)) := by
  rw [show U7 (F := F) m c (Proc.devRef .tc main_arg11) = U6 (F := F) m c (Proc.devRef .tc main_arg11) from by host_keeps seg6]
  exact u6_a11 m c

set_option maxHeartbeats 400000 in
theorem u8_a11 : U8 (F := F) m c (Proc.devRef .tc main_arg11) = (m ((c.tc : Thread nD τ).loc main_arg11)) := by
  rw [show U8 (F := F) m c (Proc.devRef .tc main_arg11) = U7 (F := F) m c (Proc.devRef .tc main_arg11) from by host_keeps seg7]
  exact u7_a11 m c

set_option maxHeartbeats 400000 in
theorem u1_a12 : U1 (F := F) m c (Proc.devRef .tc main_arg12) = (m ((c.tc : Thread nD τ).loc main_arg12)) := by
  show StableHlo.after seg0 (U0 m c) (Proc.devRef .tc main_arg12) = _
  host_keeps seg0

set_option maxHeartbeats 400000 in
theorem u2_a12 : U2 (F := F) m c (Proc.devRef .tc main_arg12) = (m ((c.tc : Thread nD τ).loc main_arg12)) := by
  rw [show U2 (F := F) m c (Proc.devRef .tc main_arg12) = U1 (F := F) m c (Proc.devRef .tc main_arg12) from by host_keeps seg1]
  exact u1_a12 m c

set_option maxHeartbeats 400000 in
theorem u3_a12 : U3 (F := F) m c (Proc.devRef .tc main_arg12) = (m ((c.tc : Thread nD τ).loc main_arg12)) := by
  rw [show U3 (F := F) m c (Proc.devRef .tc main_arg12) = U2 (F := F) m c (Proc.devRef .tc main_arg12) from by host_keeps seg2]
  exact u2_a12 m c

set_option maxHeartbeats 400000 in
theorem u4_a12 : U4 (F := F) m c (Proc.devRef .tc main_arg12) = (m ((c.tc : Thread nD τ).loc main_arg12)) := by
  rw [show U4 (F := F) m c (Proc.devRef .tc main_arg12) = U3 (F := F) m c (Proc.devRef .tc main_arg12) from by host_keeps seg3]
  exact u3_a12 m c

set_option maxHeartbeats 400000 in
theorem u5_a12 : U5 (F := F) m c (Proc.devRef .tc main_arg12) = (m ((c.tc : Thread nD τ).loc main_arg12)) := by
  rw [show U5 (F := F) m c (Proc.devRef .tc main_arg12) = U4 (F := F) m c (Proc.devRef .tc main_arg12) from by host_keeps seg4]
  exact u4_a12 m c

set_option maxHeartbeats 400000 in
theorem u6_a12 : U6 (F := F) m c (Proc.devRef .tc main_arg12) = (m ((c.tc : Thread nD τ).loc main_arg12)) := by
  rw [show U6 (F := F) m c (Proc.devRef .tc main_arg12) = U5 (F := F) m c (Proc.devRef .tc main_arg12) from by host_keeps seg5]
  exact u5_a12 m c

set_option maxHeartbeats 400000 in
theorem u7_a12 : U7 (F := F) m c (Proc.devRef .tc main_arg12) = (m ((c.tc : Thread nD τ).loc main_arg12)) := by
  rw [show U7 (F := F) m c (Proc.devRef .tc main_arg12) = U6 (F := F) m c (Proc.devRef .tc main_arg12) from by host_keeps seg6]
  exact u6_a12 m c

set_option maxHeartbeats 400000 in
theorem u8_a12 : U8 (F := F) m c (Proc.devRef .tc main_arg12) = (m ((c.tc : Thread nD τ).loc main_arg12)) := by
  rw [show U8 (F := F) m c (Proc.devRef .tc main_arg12) = U7 (F := F) m c (Proc.devRef .tc main_arg12) from by host_keeps seg7]
  exact u7_a12 m c

set_option maxHeartbeats 400000 in
theorem u1_a13 : U1 (F := F) m c (Proc.devRef .tc main_arg13) = (m ((c.tc : Thread nD τ).loc main_arg13)) := by
  show StableHlo.after seg0 (U0 m c) (Proc.devRef .tc main_arg13) = _
  host_keeps seg0

set_option maxHeartbeats 400000 in
theorem u2_a13 : U2 (F := F) m c (Proc.devRef .tc main_arg13) = (m ((c.tc : Thread nD τ).loc main_arg13)) := by
  rw [show U2 (F := F) m c (Proc.devRef .tc main_arg13) = U1 (F := F) m c (Proc.devRef .tc main_arg13) from by host_keeps seg1]
  exact u1_a13 m c

set_option maxHeartbeats 400000 in
theorem u3_a13 : U3 (F := F) m c (Proc.devRef .tc main_arg13) = (m ((c.tc : Thread nD τ).loc main_arg13)) := by
  rw [show U3 (F := F) m c (Proc.devRef .tc main_arg13) = U2 (F := F) m c (Proc.devRef .tc main_arg13) from by host_keeps seg2]
  exact u2_a13 m c

set_option maxHeartbeats 400000 in
theorem u4_a13 : U4 (F := F) m c (Proc.devRef .tc main_arg13) = (m ((c.tc : Thread nD τ).loc main_arg13)) := by
  rw [show U4 (F := F) m c (Proc.devRef .tc main_arg13) = U3 (F := F) m c (Proc.devRef .tc main_arg13) from by host_keeps seg3]
  exact u3_a13 m c

set_option maxHeartbeats 400000 in
theorem u5_a13 : U5 (F := F) m c (Proc.devRef .tc main_arg13) = (m ((c.tc : Thread nD τ).loc main_arg13)) := by
  rw [show U5 (F := F) m c (Proc.devRef .tc main_arg13) = U4 (F := F) m c (Proc.devRef .tc main_arg13) from by host_keeps seg4]
  exact u4_a13 m c

set_option maxHeartbeats 400000 in
theorem u6_a13 : U6 (F := F) m c (Proc.devRef .tc main_arg13) = (m ((c.tc : Thread nD τ).loc main_arg13)) := by
  rw [show U6 (F := F) m c (Proc.devRef .tc main_arg13) = U5 (F := F) m c (Proc.devRef .tc main_arg13) from by host_keeps seg5]
  exact u5_a13 m c

set_option maxHeartbeats 400000 in
theorem u7_a13 : U7 (F := F) m c (Proc.devRef .tc main_arg13) = (m ((c.tc : Thread nD τ).loc main_arg13)) := by
  rw [show U7 (F := F) m c (Proc.devRef .tc main_arg13) = U6 (F := F) m c (Proc.devRef .tc main_arg13) from by host_keeps seg6]
  exact u6_a13 m c

set_option maxHeartbeats 400000 in
theorem u8_a13 : U8 (F := F) m c (Proc.devRef .tc main_arg13) = (m ((c.tc : Thread nD τ).loc main_arg13)) := by
  rw [show U8 (F := F) m c (Proc.devRef .tc main_arg13) = U7 (F := F) m c (Proc.devRef .tc main_arg13) from by host_keeps seg7]
  exact u7_a13 m c

set_option maxHeartbeats 400000 in
theorem u1_a14 : U1 (F := F) m c (Proc.devRef .tc main_arg14) = (m ((c.tc : Thread nD τ).loc main_arg14)) := by
  show StableHlo.after seg0 (U0 m c) (Proc.devRef .tc main_arg14) = _
  host_keeps seg0

set_option maxHeartbeats 400000 in
theorem u2_a14 : U2 (F := F) m c (Proc.devRef .tc main_arg14) = (m ((c.tc : Thread nD τ).loc main_arg14)) := by
  rw [show U2 (F := F) m c (Proc.devRef .tc main_arg14) = U1 (F := F) m c (Proc.devRef .tc main_arg14) from by host_keeps seg1]
  exact u1_a14 m c

set_option maxHeartbeats 400000 in
theorem u3_a14 : U3 (F := F) m c (Proc.devRef .tc main_arg14) = (m ((c.tc : Thread nD τ).loc main_arg14)) := by
  rw [show U3 (F := F) m c (Proc.devRef .tc main_arg14) = U2 (F := F) m c (Proc.devRef .tc main_arg14) from by host_keeps seg2]
  exact u2_a14 m c

set_option maxHeartbeats 400000 in
theorem u4_a14 : U4 (F := F) m c (Proc.devRef .tc main_arg14) = (m ((c.tc : Thread nD τ).loc main_arg14)) := by
  rw [show U4 (F := F) m c (Proc.devRef .tc main_arg14) = U3 (F := F) m c (Proc.devRef .tc main_arg14) from by host_keeps seg3]
  exact u3_a14 m c

set_option maxHeartbeats 400000 in
theorem u5_a14 : U5 (F := F) m c (Proc.devRef .tc main_arg14) = (m ((c.tc : Thread nD τ).loc main_arg14)) := by
  rw [show U5 (F := F) m c (Proc.devRef .tc main_arg14) = U4 (F := F) m c (Proc.devRef .tc main_arg14) from by host_keeps seg4]
  exact u4_a14 m c

set_option maxHeartbeats 400000 in
theorem u6_a14 : U6 (F := F) m c (Proc.devRef .tc main_arg14) = (m ((c.tc : Thread nD τ).loc main_arg14)) := by
  rw [show U6 (F := F) m c (Proc.devRef .tc main_arg14) = U5 (F := F) m c (Proc.devRef .tc main_arg14) from by host_keeps seg5]
  exact u5_a14 m c

set_option maxHeartbeats 400000 in
theorem u7_a14 : U7 (F := F) m c (Proc.devRef .tc main_arg14) = (m ((c.tc : Thread nD τ).loc main_arg14)) := by
  rw [show U7 (F := F) m c (Proc.devRef .tc main_arg14) = U6 (F := F) m c (Proc.devRef .tc main_arg14) from by host_keeps seg6]
  exact u6_a14 m c

set_option maxHeartbeats 400000 in
theorem u8_a14 : U8 (F := F) m c (Proc.devRef .tc main_arg14) = (m ((c.tc : Thread nD τ).loc main_arg14)) := by
  rw [show U8 (F := F) m c (Proc.devRef .tc main_arg14) = U7 (F := F) m c (Proc.devRef .tc main_arg14) from by host_keeps seg7]
  exact u7_a14 m c

set_option maxHeartbeats 400000 in
theorem u1_a15 : U1 (F := F) m c (Proc.devRef .tc main_arg15) = (m ((c.tc : Thread nD τ).loc main_arg15)) := by
  show StableHlo.after seg0 (U0 m c) (Proc.devRef .tc main_arg15) = _
  host_keeps seg0

set_option maxHeartbeats 400000 in
theorem u2_a15 : U2 (F := F) m c (Proc.devRef .tc main_arg15) = (m ((c.tc : Thread nD τ).loc main_arg15)) := by
  rw [show U2 (F := F) m c (Proc.devRef .tc main_arg15) = U1 (F := F) m c (Proc.devRef .tc main_arg15) from by host_keeps seg1]
  exact u1_a15 m c

set_option maxHeartbeats 400000 in
theorem u3_a15 : U3 (F := F) m c (Proc.devRef .tc main_arg15) = (m ((c.tc : Thread nD τ).loc main_arg15)) := by
  rw [show U3 (F := F) m c (Proc.devRef .tc main_arg15) = U2 (F := F) m c (Proc.devRef .tc main_arg15) from by host_keeps seg2]
  exact u2_a15 m c

set_option maxHeartbeats 400000 in
theorem u4_a15 : U4 (F := F) m c (Proc.devRef .tc main_arg15) = (m ((c.tc : Thread nD τ).loc main_arg15)) := by
  rw [show U4 (F := F) m c (Proc.devRef .tc main_arg15) = U3 (F := F) m c (Proc.devRef .tc main_arg15) from by host_keeps seg3]
  exact u3_a15 m c

set_option maxHeartbeats 400000 in
theorem u5_a15 : U5 (F := F) m c (Proc.devRef .tc main_arg15) = (m ((c.tc : Thread nD τ).loc main_arg15)) := by
  rw [show U5 (F := F) m c (Proc.devRef .tc main_arg15) = U4 (F := F) m c (Proc.devRef .tc main_arg15) from by host_keeps seg4]
  exact u4_a15 m c

set_option maxHeartbeats 400000 in
theorem u6_a15 : U6 (F := F) m c (Proc.devRef .tc main_arg15) = (m ((c.tc : Thread nD τ).loc main_arg15)) := by
  rw [show U6 (F := F) m c (Proc.devRef .tc main_arg15) = U5 (F := F) m c (Proc.devRef .tc main_arg15) from by host_keeps seg5]
  exact u5_a15 m c

set_option maxHeartbeats 400000 in
theorem u7_a15 : U7 (F := F) m c (Proc.devRef .tc main_arg15) = (m ((c.tc : Thread nD τ).loc main_arg15)) := by
  rw [show U7 (F := F) m c (Proc.devRef .tc main_arg15) = U6 (F := F) m c (Proc.devRef .tc main_arg15) from by host_keeps seg6]
  exact u6_a15 m c

set_option maxHeartbeats 400000 in
theorem u8_a15 : U8 (F := F) m c (Proc.devRef .tc main_arg15) = (m ((c.tc : Thread nD τ).loc main_arg15)) := by
  rw [show U8 (F := F) m c (Proc.devRef .tc main_arg15) = U7 (F := F) m c (Proc.devRef .tc main_arg15) from by host_keeps seg7]
  exact u7_a15 m c

set_option maxHeartbeats 400000 in
theorem u1_a16 : U1 (F := F) m c (Proc.devRef .tc main_arg16) = (m ((c.tc : Thread nD τ).loc main_arg16)) := by
  show StableHlo.after seg0 (U0 m c) (Proc.devRef .tc main_arg16) = _
  host_keeps seg0

set_option maxHeartbeats 400000 in
theorem u2_a16 : U2 (F := F) m c (Proc.devRef .tc main_arg16) = (m ((c.tc : Thread nD τ).loc main_arg16)) := by
  rw [show U2 (F := F) m c (Proc.devRef .tc main_arg16) = U1 (F := F) m c (Proc.devRef .tc main_arg16) from by host_keeps seg1]
  exact u1_a16 m c

set_option maxHeartbeats 400000 in
theorem u3_a16 : U3 (F := F) m c (Proc.devRef .tc main_arg16) = (m ((c.tc : Thread nD τ).loc main_arg16)) := by
  rw [show U3 (F := F) m c (Proc.devRef .tc main_arg16) = U2 (F := F) m c (Proc.devRef .tc main_arg16) from by host_keeps seg2]
  exact u2_a16 m c

set_option maxHeartbeats 400000 in
theorem u4_a16 : U4 (F := F) m c (Proc.devRef .tc main_arg16) = (m ((c.tc : Thread nD τ).loc main_arg16)) := by
  rw [show U4 (F := F) m c (Proc.devRef .tc main_arg16) = U3 (F := F) m c (Proc.devRef .tc main_arg16) from by host_keeps seg3]
  exact u3_a16 m c

set_option maxHeartbeats 400000 in
theorem u5_a16 : U5 (F := F) m c (Proc.devRef .tc main_arg16) = (m ((c.tc : Thread nD τ).loc main_arg16)) := by
  rw [show U5 (F := F) m c (Proc.devRef .tc main_arg16) = U4 (F := F) m c (Proc.devRef .tc main_arg16) from by host_keeps seg4]
  exact u4_a16 m c

set_option maxHeartbeats 400000 in
theorem u6_a16 : U6 (F := F) m c (Proc.devRef .tc main_arg16) = (m ((c.tc : Thread nD τ).loc main_arg16)) := by
  rw [show U6 (F := F) m c (Proc.devRef .tc main_arg16) = U5 (F := F) m c (Proc.devRef .tc main_arg16) from by host_keeps seg5]
  exact u5_a16 m c

set_option maxHeartbeats 400000 in
theorem u7_a16 : U7 (F := F) m c (Proc.devRef .tc main_arg16) = (m ((c.tc : Thread nD τ).loc main_arg16)) := by
  rw [show U7 (F := F) m c (Proc.devRef .tc main_arg16) = U6 (F := F) m c (Proc.devRef .tc main_arg16) from by host_keeps seg6]
  exact u6_a16 m c

set_option maxHeartbeats 400000 in
theorem u8_a16 : U8 (F := F) m c (Proc.devRef .tc main_arg16) = (m ((c.tc : Thread nD τ).loc main_arg16)) := by
  rw [show U8 (F := F) m c (Proc.devRef .tc main_arg16) = U7 (F := F) m c (Proc.devRef .tc main_arg16) from by host_keeps seg7]
  exact u7_a16 m c

set_option maxHeartbeats 400000 in
theorem u1_a17 : U1 (F := F) m c (Proc.devRef .tc main_arg17) = (m ((c.tc : Thread nD τ).loc main_arg17)) := by
  show StableHlo.after seg0 (U0 m c) (Proc.devRef .tc main_arg17) = _
  host_keeps seg0

set_option maxHeartbeats 400000 in
theorem u2_a17 : U2 (F := F) m c (Proc.devRef .tc main_arg17) = (m ((c.tc : Thread nD τ).loc main_arg17)) := by
  rw [show U2 (F := F) m c (Proc.devRef .tc main_arg17) = U1 (F := F) m c (Proc.devRef .tc main_arg17) from by host_keeps seg1]
  exact u1_a17 m c

set_option maxHeartbeats 400000 in
theorem u3_a17 : U3 (F := F) m c (Proc.devRef .tc main_arg17) = (m ((c.tc : Thread nD τ).loc main_arg17)) := by
  rw [show U3 (F := F) m c (Proc.devRef .tc main_arg17) = U2 (F := F) m c (Proc.devRef .tc main_arg17) from by host_keeps seg2]
  exact u2_a17 m c

set_option maxHeartbeats 400000 in
theorem u4_a17 : U4 (F := F) m c (Proc.devRef .tc main_arg17) = (m ((c.tc : Thread nD τ).loc main_arg17)) := by
  rw [show U4 (F := F) m c (Proc.devRef .tc main_arg17) = U3 (F := F) m c (Proc.devRef .tc main_arg17) from by host_keeps seg3]
  exact u3_a17 m c

set_option maxHeartbeats 400000 in
theorem u5_a17 : U5 (F := F) m c (Proc.devRef .tc main_arg17) = (m ((c.tc : Thread nD τ).loc main_arg17)) := by
  rw [show U5 (F := F) m c (Proc.devRef .tc main_arg17) = U4 (F := F) m c (Proc.devRef .tc main_arg17) from by host_keeps seg4]
  exact u4_a17 m c

set_option maxHeartbeats 400000 in
theorem u6_a17 : U6 (F := F) m c (Proc.devRef .tc main_arg17) = (m ((c.tc : Thread nD τ).loc main_arg17)) := by
  rw [show U6 (F := F) m c (Proc.devRef .tc main_arg17) = U5 (F := F) m c (Proc.devRef .tc main_arg17) from by host_keeps seg5]
  exact u5_a17 m c

set_option maxHeartbeats 400000 in
theorem u7_a17 : U7 (F := F) m c (Proc.devRef .tc main_arg17) = (m ((c.tc : Thread nD τ).loc main_arg17)) := by
  rw [show U7 (F := F) m c (Proc.devRef .tc main_arg17) = U6 (F := F) m c (Proc.devRef .tc main_arg17) from by host_keeps seg6]
  exact u6_a17 m c

set_option maxHeartbeats 400000 in
theorem u8_a17 : U8 (F := F) m c (Proc.devRef .tc main_arg17) = (m ((c.tc : Thread nD τ).loc main_arg17)) := by
  rw [show U8 (F := F) m c (Proc.devRef .tc main_arg17) = U7 (F := F) m c (Proc.devRef .tc main_arg17) from by host_keeps seg7]
  exact u7_a17 m c

set_option maxHeartbeats 400000 in
theorem u1_a18 : U1 (F := F) m c (Proc.devRef .tc main_arg18) = (m ((c.tc : Thread nD τ).loc main_arg18)) := by
  show StableHlo.after seg0 (U0 m c) (Proc.devRef .tc main_arg18) = _
  host_keeps seg0

set_option maxHeartbeats 400000 in
theorem u2_a18 : U2 (F := F) m c (Proc.devRef .tc main_arg18) = (m ((c.tc : Thread nD τ).loc main_arg18)) := by
  rw [show U2 (F := F) m c (Proc.devRef .tc main_arg18) = U1 (F := F) m c (Proc.devRef .tc main_arg18) from by host_keeps seg1]
  exact u1_a18 m c

set_option maxHeartbeats 400000 in
theorem u3_a18 : U3 (F := F) m c (Proc.devRef .tc main_arg18) = (m ((c.tc : Thread nD τ).loc main_arg18)) := by
  rw [show U3 (F := F) m c (Proc.devRef .tc main_arg18) = U2 (F := F) m c (Proc.devRef .tc main_arg18) from by host_keeps seg2]
  exact u2_a18 m c

set_option maxHeartbeats 400000 in
theorem u4_a18 : U4 (F := F) m c (Proc.devRef .tc main_arg18) = (m ((c.tc : Thread nD τ).loc main_arg18)) := by
  rw [show U4 (F := F) m c (Proc.devRef .tc main_arg18) = U3 (F := F) m c (Proc.devRef .tc main_arg18) from by host_keeps seg3]
  exact u3_a18 m c

set_option maxHeartbeats 400000 in
theorem u5_a18 : U5 (F := F) m c (Proc.devRef .tc main_arg18) = (m ((c.tc : Thread nD τ).loc main_arg18)) := by
  rw [show U5 (F := F) m c (Proc.devRef .tc main_arg18) = U4 (F := F) m c (Proc.devRef .tc main_arg18) from by host_keeps seg4]
  exact u4_a18 m c

set_option maxHeartbeats 400000 in
theorem u6_a18 : U6 (F := F) m c (Proc.devRef .tc main_arg18) = (m ((c.tc : Thread nD τ).loc main_arg18)) := by
  rw [show U6 (F := F) m c (Proc.devRef .tc main_arg18) = U5 (F := F) m c (Proc.devRef .tc main_arg18) from by host_keeps seg5]
  exact u5_a18 m c

set_option maxHeartbeats 400000 in
theorem u7_a18 : U7 (F := F) m c (Proc.devRef .tc main_arg18) = (m ((c.tc : Thread nD τ).loc main_arg18)) := by
  rw [show U7 (F := F) m c (Proc.devRef .tc main_arg18) = U6 (F := F) m c (Proc.devRef .tc main_arg18) from by host_keeps seg6]
  exact u6_a18 m c

set_option maxHeartbeats 400000 in
theorem u8_a18 : U8 (F := F) m c (Proc.devRef .tc main_arg18) = (m ((c.tc : Thread nD τ).loc main_arg18)) := by
  rw [show U8 (F := F) m c (Proc.devRef .tc main_arg18) = U7 (F := F) m c (Proc.devRef .tc main_arg18) from by host_keeps seg7]
  exact u7_a18 m c

set_option maxHeartbeats 400000 in
theorem u1_a19 : U1 (F := F) m c (Proc.devRef .tc main_arg19) = (m ((c.tc : Thread nD τ).loc main_arg19)) := by
  show StableHlo.after seg0 (U0 m c) (Proc.devRef .tc main_arg19) = _
  host_keeps seg0

set_option maxHeartbeats 400000 in
theorem u2_a19 : U2 (F := F) m c (Proc.devRef .tc main_arg19) = (m ((c.tc : Thread nD τ).loc main_arg19)) := by
  rw [show U2 (F := F) m c (Proc.devRef .tc main_arg19) = U1 (F := F) m c (Proc.devRef .tc main_arg19) from by host_keeps seg1]
  exact u1_a19 m c

set_option maxHeartbeats 400000 in
theorem u3_a19 : U3 (F := F) m c (Proc.devRef .tc main_arg19) = (m ((c.tc : Thread nD τ).loc main_arg19)) := by
  rw [show U3 (F := F) m c (Proc.devRef .tc main_arg19) = U2 (F := F) m c (Proc.devRef .tc main_arg19) from by host_keeps seg2]
  exact u2_a19 m c

set_option maxHeartbeats 400000 in
theorem u4_a19 : U4 (F := F) m c (Proc.devRef .tc main_arg19) = (m ((c.tc : Thread nD τ).loc main_arg19)) := by
  rw [show U4 (F := F) m c (Proc.devRef .tc main_arg19) = U3 (F := F) m c (Proc.devRef .tc main_arg19) from by host_keeps seg3]
  exact u3_a19 m c

set_option maxHeartbeats 400000 in
theorem u5_a19 : U5 (F := F) m c (Proc.devRef .tc main_arg19) = (m ((c.tc : Thread nD τ).loc main_arg19)) := by
  rw [show U5 (F := F) m c (Proc.devRef .tc main_arg19) = U4 (F := F) m c (Proc.devRef .tc main_arg19) from by host_keeps seg4]
  exact u4_a19 m c

set_option maxHeartbeats 400000 in
theorem u6_a19 : U6 (F := F) m c (Proc.devRef .tc main_arg19) = (m ((c.tc : Thread nD τ).loc main_arg19)) := by
  rw [show U6 (F := F) m c (Proc.devRef .tc main_arg19) = U5 (F := F) m c (Proc.devRef .tc main_arg19) from by host_keeps seg5]
  exact u5_a19 m c

set_option maxHeartbeats 400000 in
theorem u7_a19 : U7 (F := F) m c (Proc.devRef .tc main_arg19) = (m ((c.tc : Thread nD τ).loc main_arg19)) := by
  rw [show U7 (F := F) m c (Proc.devRef .tc main_arg19) = U6 (F := F) m c (Proc.devRef .tc main_arg19) from by host_keeps seg6]
  exact u6_a19 m c

set_option maxHeartbeats 400000 in
theorem u8_a19 : U8 (F := F) m c (Proc.devRef .tc main_arg19) = (m ((c.tc : Thread nD τ).loc main_arg19)) := by
  rw [show U8 (F := F) m c (Proc.devRef .tc main_arg19) = U7 (F := F) m c (Proc.devRef .tc main_arg19) from by host_keeps seg7]
  exact u7_a19 m c

set_option maxHeartbeats 400000 in
theorem u1_a20 : U1 (F := F) m c (Proc.devRef .tc main_arg20) = (m ((c.tc : Thread nD τ).loc main_arg20)) := by
  show StableHlo.after seg0 (U0 m c) (Proc.devRef .tc main_arg20) = _
  host_keeps seg0

set_option maxHeartbeats 400000 in
theorem u2_a20 : U2 (F := F) m c (Proc.devRef .tc main_arg20) = (m ((c.tc : Thread nD τ).loc main_arg20)) := by
  rw [show U2 (F := F) m c (Proc.devRef .tc main_arg20) = U1 (F := F) m c (Proc.devRef .tc main_arg20) from by host_keeps seg1]
  exact u1_a20 m c

set_option maxHeartbeats 400000 in
theorem u3_a20 : U3 (F := F) m c (Proc.devRef .tc main_arg20) = (m ((c.tc : Thread nD τ).loc main_arg20)) := by
  rw [show U3 (F := F) m c (Proc.devRef .tc main_arg20) = U2 (F := F) m c (Proc.devRef .tc main_arg20) from by host_keeps seg2]
  exact u2_a20 m c

set_option maxHeartbeats 400000 in
theorem u4_a20 : U4 (F := F) m c (Proc.devRef .tc main_arg20) = (m ((c.tc : Thread nD τ).loc main_arg20)) := by
  rw [show U4 (F := F) m c (Proc.devRef .tc main_arg20) = U3 (F := F) m c (Proc.devRef .tc main_arg20) from by host_keeps seg3]
  exact u3_a20 m c

set_option maxHeartbeats 400000 in
theorem u5_a20 : U5 (F := F) m c (Proc.devRef .tc main_arg20) = (m ((c.tc : Thread nD τ).loc main_arg20)) := by
  rw [show U5 (F := F) m c (Proc.devRef .tc main_arg20) = U4 (F := F) m c (Proc.devRef .tc main_arg20) from by host_keeps seg4]
  exact u4_a20 m c

set_option maxHeartbeats 400000 in
theorem u6_a20 : U6 (F := F) m c (Proc.devRef .tc main_arg20) = (m ((c.tc : Thread nD τ).loc main_arg20)) := by
  rw [show U6 (F := F) m c (Proc.devRef .tc main_arg20) = U5 (F := F) m c (Proc.devRef .tc main_arg20) from by host_keeps seg5]
  exact u5_a20 m c

set_option maxHeartbeats 400000 in
theorem u7_a20 : U7 (F := F) m c (Proc.devRef .tc main_arg20) = (m ((c.tc : Thread nD τ).loc main_arg20)) := by
  rw [show U7 (F := F) m c (Proc.devRef .tc main_arg20) = U6 (F := F) m c (Proc.devRef .tc main_arg20) from by host_keeps seg6]
  exact u6_a20 m c

set_option maxHeartbeats 400000 in
theorem u8_a20 : U8 (F := F) m c (Proc.devRef .tc main_arg20) = (m ((c.tc : Thread nD τ).loc main_arg20)) := by
  rw [show U8 (F := F) m c (Proc.devRef .tc main_arg20) = U7 (F := F) m c (Proc.devRef .tc main_arg20) from by host_keeps seg7]
  exact u7_a20 m c

set_option maxHeartbeats 400000 in
theorem u1_a21 : U1 (F := F) m c (Proc.devRef .tc main_arg21) = (m ((c.tc : Thread nD τ).loc main_arg21)) := by
  show StableHlo.after seg0 (U0 m c) (Proc.devRef .tc main_arg21) = _
  host_keeps seg0

set_option maxHeartbeats 400000 in
theorem u2_a21 : U2 (F := F) m c (Proc.devRef .tc main_arg21) = (m ((c.tc : Thread nD τ).loc main_arg21)) := by
  rw [show U2 (F := F) m c (Proc.devRef .tc main_arg21) = U1 (F := F) m c (Proc.devRef .tc main_arg21) from by host_keeps seg1]
  exact u1_a21 m c

set_option maxHeartbeats 400000 in
theorem u3_a21 : U3 (F := F) m c (Proc.devRef .tc main_arg21) = (m ((c.tc : Thread nD τ).loc main_arg21)) := by
  rw [show U3 (F := F) m c (Proc.devRef .tc main_arg21) = U2 (F := F) m c (Proc.devRef .tc main_arg21) from by host_keeps seg2]
  exact u2_a21 m c

set_option maxHeartbeats 400000 in
theorem u4_a21 : U4 (F := F) m c (Proc.devRef .tc main_arg21) = (m ((c.tc : Thread nD τ).loc main_arg21)) := by
  rw [show U4 (F := F) m c (Proc.devRef .tc main_arg21) = U3 (F := F) m c (Proc.devRef .tc main_arg21) from by host_keeps seg3]
  exact u3_a21 m c

set_option maxHeartbeats 400000 in
theorem u5_a21 : U5 (F := F) m c (Proc.devRef .tc main_arg21) = (m ((c.tc : Thread nD τ).loc main_arg21)) := by
  rw [show U5 (F := F) m c (Proc.devRef .tc main_arg21) = U4 (F := F) m c (Proc.devRef .tc main_arg21) from by host_keeps seg4]
  exact u4_a21 m c

set_option maxHeartbeats 400000 in
theorem u6_a21 : U6 (F := F) m c (Proc.devRef .tc main_arg21) = (m ((c.tc : Thread nD τ).loc main_arg21)) := by
  rw [show U6 (F := F) m c (Proc.devRef .tc main_arg21) = U5 (F := F) m c (Proc.devRef .tc main_arg21) from by host_keeps seg5]
  exact u5_a21 m c

set_option maxHeartbeats 400000 in
theorem u7_a21 : U7 (F := F) m c (Proc.devRef .tc main_arg21) = (m ((c.tc : Thread nD τ).loc main_arg21)) := by
  rw [show U7 (F := F) m c (Proc.devRef .tc main_arg21) = U6 (F := F) m c (Proc.devRef .tc main_arg21) from by host_keeps seg6]
  exact u6_a21 m c

set_option maxHeartbeats 400000 in
theorem u8_a21 : U8 (F := F) m c (Proc.devRef .tc main_arg21) = (m ((c.tc : Thread nD τ).loc main_arg21)) := by
  rw [show U8 (F := F) m c (Proc.devRef .tc main_arg21) = U7 (F := F) m c (Proc.devRef .tc main_arg21) from by host_keeps seg7]
  exact u7_a21 m c

set_option maxHeartbeats 400000 in
theorem u1_a22 : U1 (F := F) m c (Proc.devRef .tc main_arg22) = (m ((c.tc : Thread nD τ).loc main_arg22)) := by
  show StableHlo.after seg0 (U0 m c) (Proc.devRef .tc main_arg22) = _
  host_keeps seg0

set_option maxHeartbeats 400000 in
theorem u2_a22 : U2 (F := F) m c (Proc.devRef .tc main_arg22) = (m ((c.tc : Thread nD τ).loc main_arg22)) := by
  rw [show U2 (F := F) m c (Proc.devRef .tc main_arg22) = U1 (F := F) m c (Proc.devRef .tc main_arg22) from by host_keeps seg1]
  exact u1_a22 m c

set_option maxHeartbeats 400000 in
theorem u3_a22 : U3 (F := F) m c (Proc.devRef .tc main_arg22) = (m ((c.tc : Thread nD τ).loc main_arg22)) := by
  rw [show U3 (F := F) m c (Proc.devRef .tc main_arg22) = U2 (F := F) m c (Proc.devRef .tc main_arg22) from by host_keeps seg2]
  exact u2_a22 m c

set_option maxHeartbeats 400000 in
theorem u4_a22 : U4 (F := F) m c (Proc.devRef .tc main_arg22) = (m ((c.tc : Thread nD τ).loc main_arg22)) := by
  rw [show U4 (F := F) m c (Proc.devRef .tc main_arg22) = U3 (F := F) m c (Proc.devRef .tc main_arg22) from by host_keeps seg3]
  exact u3_a22 m c

set_option maxHeartbeats 400000 in
theorem u5_a22 : U5 (F := F) m c (Proc.devRef .tc main_arg22) = (m ((c.tc : Thread nD τ).loc main_arg22)) := by
  rw [show U5 (F := F) m c (Proc.devRef .tc main_arg22) = U4 (F := F) m c (Proc.devRef .tc main_arg22) from by host_keeps seg4]
  exact u4_a22 m c

set_option maxHeartbeats 400000 in
theorem u6_a22 : U6 (F := F) m c (Proc.devRef .tc main_arg22) = (m ((c.tc : Thread nD τ).loc main_arg22)) := by
  rw [show U6 (F := F) m c (Proc.devRef .tc main_arg22) = U5 (F := F) m c (Proc.devRef .tc main_arg22) from by host_keeps seg5]
  exact u5_a22 m c

set_option maxHeartbeats 400000 in
theorem u7_a22 : U7 (F := F) m c (Proc.devRef .tc main_arg22) = (m ((c.tc : Thread nD τ).loc main_arg22)) := by
  rw [show U7 (F := F) m c (Proc.devRef .tc main_arg22) = U6 (F := F) m c (Proc.devRef .tc main_arg22) from by host_keeps seg6]
  exact u6_a22 m c

set_option maxHeartbeats 400000 in
theorem u8_a22 : U8 (F := F) m c (Proc.devRef .tc main_arg22) = (m ((c.tc : Thread nD τ).loc main_arg22)) := by
  rw [show U8 (F := F) m c (Proc.devRef .tc main_arg22) = U7 (F := F) m c (Proc.devRef .tc main_arg22) from by host_keeps seg7]
  exact u7_a22 m c

/-! ## After the first stretch: the first layer -/

set_option maxHeartbeats 400000 in
theorem u1_act : U1 (F := F) m c (Proc.devRef .tc main_v24) = Cert.ReferenceIdeal.Read.val_main_v24 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after seg0 (U0 m c) (Proc.devRef .tc main_v24) = _
  after_results_simp
  drop_casts
  rfl

set_option maxHeartbeats 400000 in
theorem u1_src : U1 (F := F) m c (Proc.devRef .tc main_v1) = Cert.ReferenceIdeal.Read.val_main_v1 (F := F) (m ((c.tc : Thread nD τ).loc main_arg1)) := by
  show StableHlo.after seg0 (U0 m c) (Proc.devRef .tc main_v1) = _
  after_results_simp
  rfl

set_option maxHeartbeats 400000 in
theorem u1_dst : U1 (F := F) m c (Proc.devRef .tc main_v3) = Cert.ReferenceIdeal.Read.val_main_v3 (F := F) (m ((c.tc : Thread nD τ).loc main_arg1)) := by
  show StableHlo.after seg0 (U0 m c) (Proc.devRef .tc main_v3) = _
  after_results_simp
  rfl

/-! ## After the second stretch: the second layer and its residual sum -/

set_option maxHeartbeats 400000 in
theorem u2_act : U2 (F := F) m c (Proc.devRef .tc main_v45) = Cert.ReferenceIdeal.Read.val_main_v45 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after seg1 (U1 (F := F) m c) (Proc.devRef .tc main_v45) = _
  after_results_simp
  rw [u1_act, u1_src, u1_dst, u1_a6, u1_a7, u1_a8]
  drop_casts
  rfl

set_option maxHeartbeats 400000 in
theorem u2_next : U2 (F := F) m c (Proc.devRef .tc main_v46) = Cert.ReferenceIdeal.Read.val_main_v46 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after seg1 (U1 (F := F) m c) (Proc.devRef .tc main_v46) = _
  after_results_simp
  rw [u1_act, u1_src, u1_dst, u1_a6, u1_a7, u1_a8]
  drop_casts
  rfl

set_option maxHeartbeats 400000 in
theorem u2_src : U2 (F := F) m c (Proc.devRef .tc main_v1) = Cert.ReferenceIdeal.Read.val_main_v1 (F := F) (m ((c.tc : Thread nD τ).loc main_arg1)) := by
  rw [show U2 (F := F) m c (Proc.devRef .tc main_v1) = U1 (F := F) m c (Proc.devRef .tc main_v1) from by host_keeps seg1]
  exact u1_src m c

set_option maxHeartbeats 400000 in
theorem u2_dst : U2 (F := F) m c (Proc.devRef .tc main_v3) = Cert.ReferenceIdeal.Read.val_main_v3 (F := F) (m ((c.tc : Thread nD τ).loc main_arg1)) := by
  rw [show U2 (F := F) m c (Proc.devRef .tc main_v3) = U1 (F := F) m c (Proc.devRef .tc main_v3) from by host_keeps seg1]
  exact u1_dst m c

/-! ## After the third stretch -/

set_option maxHeartbeats 400000 in
theorem u3_act : U3 (F := F) m c (Proc.devRef .tc main_v67) = Cert.ReferenceIdeal.Read.val_main_v67 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after seg2 (U2 (F := F) m c) (Proc.devRef .tc main_v67) = _
  after_results_simp
  rw [u2_next, u2_src, u2_dst, u2_a9, u2_a10, u2_a11]
  drop_casts
  rfl

set_option maxHeartbeats 400000 in
theorem u3_next : U3 (F := F) m c (Proc.devRef .tc main_v68) = Cert.ReferenceIdeal.Read.val_main_v68 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after seg2 (U2 (F := F) m c) (Proc.devRef .tc main_v68) = _
  after_results_simp
  rw [u2_next, u2_act, u2_src, u2_dst, u2_a9, u2_a10, u2_a11]
  drop_casts
  rfl

set_option maxHeartbeats 400000 in
theorem u3_src : U3 (F := F) m c (Proc.devRef .tc main_v1) = Cert.ReferenceIdeal.Read.val_main_v1 (F := F) (m ((c.tc : Thread nD τ).loc main_arg1)) := by
  rw [show U3 (F := F) m c (Proc.devRef .tc main_v1) = U2 (F := F) m c (Proc.devRef .tc main_v1) from by host_keeps seg2]
  exact u2_src m c

set_option maxHeartbeats 400000 in
theorem u3_dst : U3 (F := F) m c (Proc.devRef .tc main_v3) = Cert.ReferenceIdeal.Read.val_main_v3 (F := F) (m ((c.tc : Thread nD τ).loc main_arg1)) := by
  rw [show U3 (F := F) m c (Proc.devRef .tc main_v3) = U2 (F := F) m c (Proc.devRef .tc main_v3) from by host_keeps seg2]
  exact u2_dst m c

/-! ## After the fourth stretch: the node embeddings -/

set_option maxHeartbeats 400000 in
theorem u4_next : U4 (F := F) m c (Proc.devRef .tc main_v90) = Cert.ReferenceIdeal.Read.val_main_v90 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after seg3 (U3 (F := F) m c) (Proc.devRef .tc main_v90) = _
  after_results_simp
  rw [u3_next, u3_act, u3_src, u3_dst, u3_a12, u3_a13, u3_a14]
  drop_casts
  rfl

/-! ## The endpoint rows, then the two joined arrays, one operation at a time -/

set_option maxHeartbeats 400000 in
theorem u5_za : U5 (F := F) m c (Proc.devRef .tc main_v99) = Cert.ReferenceIdeal.Read.val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after seg4 (U4 (F := F) m c) (Proc.devRef .tc main_v99) = _
  after_results_simp
  rw [u4_next, u4_a2]
  rfl

set_option maxHeartbeats 400000 in
theorem u5_zb : U5 (F := F) m c (Proc.devRef .tc main_v108) = Cert.ReferenceIdeal.Read.val_main_v108 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after seg4 (U4 (F := F) m c) (Proc.devRef .tc main_v108) = _
  after_results_simp
  rw [u4_next, u4_a2]
  rfl

set_option maxHeartbeats 400000 in
theorem u6_cat : U6 (F := F) m c (Proc.devRef .tc main_v109) = Cert.ReferenceIdeal.Read.val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after seg5 (U5 (F := F) m c) (Proc.devRef .tc main_v109) = _
  after_results_simp
  rw [u5_za, u5_zb]
  rfl

set_option maxHeartbeats 400000 in
theorem u6_za : U6 (F := F) m c (Proc.devRef .tc main_v99) = Cert.ReferenceIdeal.Read.val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [show U6 (F := F) m c (Proc.devRef .tc main_v99) = U5 (F := F) m c (Proc.devRef .tc main_v99) from by host_keeps seg5]
  exact u5_za m c

set_option maxHeartbeats 400000 in
theorem u6_zb : U6 (F := F) m c (Proc.devRef .tc main_v108) = Cert.ReferenceIdeal.Read.val_main_v108 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [show U6 (F := F) m c (Proc.devRef .tc main_v108) = U5 (F := F) m c (Proc.devRef .tc main_v108) from by host_keeps seg5]
  exact u5_zb m c

set_option maxHeartbeats 400000 in
theorem u7_cat2 : U7 (F := F) m c (Proc.devRef .tc main_v110) = Cert.ReferenceIdeal.Read.val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after seg6 (U6 (F := F) m c) (Proc.devRef .tc main_v110) = _
  after_results_simp
  rw [u6_zb, u6_za]
  rfl

set_option maxHeartbeats 400000 in
theorem u7_cat1 : U7 (F := F) m c (Proc.devRef .tc main_v109) = Cert.ReferenceIdeal.Read.val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [show U7 (F := F) m c (Proc.devRef .tc main_v109) = U6 (F := F) m c (Proc.devRef .tc main_v109) from by host_keeps seg6]
  exact u6_cat m c

/-! ## After the last stretch: the two results -/

set_option maxHeartbeats 1000000 in
theorem u8_type : U8 (F := F) m c (Proc.devRef .tc main_v146) = Cert.ReferenceIdeal.Read.val_main_v146 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) (m ((c.tc : Thread nD τ).loc main_arg20)) (m ((c.tc : Thread nD τ).loc main_arg21)) (m ((c.tc : Thread nD τ).loc main_arg22)) := by
  show StableHlo.after seg7 (U7 (F := F) m c) (Proc.devRef .tc main_v146) = _
  after_results_simp
  rw [u7_cat1, u7_cat2, u7_a19, u7_a20, u7_a21, u7_a22]
  drop_casts
  rfl

set_option maxHeartbeats 1000000 in
theorem u8_loc : U8 (F := F) m c (Proc.devRef .tc main_v128) = Cert.ReferenceIdeal.Read.val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  show StableHlo.after seg7 (U7 (F := F) m c) (Proc.devRef .tc main_v128) = _
  after_results_simp
  rw [u7_cat1, u7_cat2, u7_a15, u7_a16, u7_a17, u7_a18]
  drop_casts
  rfl

/-! ## The run -/

set_option maxHeartbeats 1000000 in
/-- Every weakly fair execution of the reference terminates with its two results at their stage functions of the
    arguments and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v146) = Cert.ReferenceIdeal.Read.val_main_v146 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v128) = Cert.ReferenceIdeal.Read.val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c =>
    ⟨(h c main_v146).trans (show StableHlo.after ops (launchContents m c) (Proc.devRef .tc main_v146) = _ from by rw [after_ops]; exact u8_type m c),
      (h c main_v128).trans (show StableHlo.after ops (launchContents m c) (Proc.devRef .tc main_v128) = _ from by rw [after_ops]; exact u8_loc m c),
      (h c main_arg0).trans (show StableHlo.after ops (launchContents m c) (Proc.devRef .tc main_arg0) = _ from by rw [after_ops]; exact u8_a0 m c),
      (h c main_arg1).trans (show StableHlo.after ops (launchContents m c) (Proc.devRef .tc main_arg1) = _ from by rw [after_ops]; exact u8_a1 m c),
      (h c main_arg2).trans (show StableHlo.after ops (launchContents m c) (Proc.devRef .tc main_arg2) = _ from by rw [after_ops]; exact u8_a2 m c),
      (h c main_arg3).trans (show StableHlo.after ops (launchContents m c) (Proc.devRef .tc main_arg3) = _ from by rw [after_ops]; exact u8_a3 m c),
      (h c main_arg4).trans (show StableHlo.after ops (launchContents m c) (Proc.devRef .tc main_arg4) = _ from by rw [after_ops]; exact u8_a4 m c),
      (h c main_arg5).trans (show StableHlo.after ops (launchContents m c) (Proc.devRef .tc main_arg5) = _ from by rw [after_ops]; exact u8_a5 m c),
      (h c main_arg6).trans (show StableHlo.after ops (launchContents m c) (Proc.devRef .tc main_arg6) = _ from by rw [after_ops]; exact u8_a6 m c),
      (h c main_arg7).trans (show StableHlo.after ops (launchContents m c) (Proc.devRef .tc main_arg7) = _ from by rw [after_ops]; exact u8_a7 m c),
      (h c main_arg8).trans (show StableHlo.after ops (launchContents m c) (Proc.devRef .tc main_arg8) = _ from by rw [after_ops]; exact u8_a8 m c),
      (h c main_arg9).trans (show StableHlo.after ops (launchContents m c) (Proc.devRef .tc main_arg9) = _ from by rw [after_ops]; exact u8_a9 m c),
      (h c main_arg10).trans (show StableHlo.after ops (launchContents m c) (Proc.devRef .tc main_arg10) = _ from by rw [after_ops]; exact u8_a10 m c),
      (h c main_arg11).trans (show StableHlo.after ops (launchContents m c) (Proc.devRef .tc main_arg11) = _ from by rw [after_ops]; exact u8_a11 m c),
      (h c main_arg12).trans (show StableHlo.after ops (launchContents m c) (Proc.devRef .tc main_arg12) = _ from by rw [after_ops]; exact u8_a12 m c),
      (h c main_arg13).trans (show StableHlo.after ops (launchContents m c) (Proc.devRef .tc main_arg13) = _ from by rw [after_ops]; exact u8_a13 m c),
      (h c main_arg14).trans (show StableHlo.after ops (launchContents m c) (Proc.devRef .tc main_arg14) = _ from by rw [after_ops]; exact u8_a14 m c),
      (h c main_arg15).trans (show StableHlo.after ops (launchContents m c) (Proc.devRef .tc main_arg15) = _ from by rw [after_ops]; exact u8_a15 m c),
      (h c main_arg16).trans (show StableHlo.after ops (launchContents m c) (Proc.devRef .tc main_arg16) = _ from by rw [after_ops]; exact u8_a16 m c),
      (h c main_arg17).trans (show StableHlo.after ops (launchContents m c) (Proc.devRef .tc main_arg17) = _ from by rw [after_ops]; exact u8_a17 m c),
      (h c main_arg18).trans (show StableHlo.after ops (launchContents m c) (Proc.devRef .tc main_arg18) = _ from by rw [after_ops]; exact u8_a18 m c),
      (h c main_arg19).trans (show StableHlo.after ops (launchContents m c) (Proc.devRef .tc main_arg19) = _ from by rw [after_ops]; exact u8_a19 m c),
      (h c main_arg20).trans (show StableHlo.after ops (launchContents m c) (Proc.devRef .tc main_arg20) = _ from by rw [after_ops]; exact u8_a20 m c),
      (h c main_arg21).trans (show StableHlo.after ops (launchContents m c) (Proc.devRef .tc main_arg21) = _ from by rw [after_ops]; exact u8_a21 m c),
      (h c main_arg22).trans (show StableHlo.after ops (launchContents m c) (Proc.devRef .tc main_arg22) = _ from by rw [after_ops]; exact u8_a22 m c)⟩)
    (run_seq scopedRefs_eq scopedSems_eq defs main (fun _ => ops) main_eq (fun _ => ops_sub) m ρ)

end Cert.ReferenceIdeal.RefRun

end
-- ==== Proof.RefLayers.lean ====
/-
  The reference program's four graph-convolution layers are the shared network's layers.

  Each layer of the reference is  leaky ((A · W_rel + b) + Z · W_root):  two plain matrix products, the bias row
  broadcast to every row and added between them, and the rectifier written as a select on the test v ≥ 0 between v and
  the slope word times v.  Read at an entry (p, j) this is the shared network's layer with the bias added between the
  products; reordering the sum gives the form the network's layers are written in.  The neighbour sums and the
  residual sums are the same operations on both sides, so each stage is matched with the one before it.
-/
import proofs.«148686_j90211493085314_1_alg».proof.Proof.Spec
import proofs.«148686_j90211493085314_1_alg».proof.Proof.LibPlainDot
import proofs.«148686_j90211493085314_1_alg».proof.Proof.LibActivations

noncomputable section

open scoped BigOperators

namespace Cert.ReferenceIdeal.RefValue

open Cert.Spec Cert.Net Idealize.ShloMosaic Idealize.ShloMosaic.ValueIdx
open Cert.ReferenceIdeal Cert.ReferenceIdeal.Gen Cert.ReferenceIdeal.Read

variable {n k d : ℕ}

/-- The rectifier as a select on the weak comparison with the zero word is the network's leaky. -/
theorem leaky_select (c v z : EReal) (hz : z = Ideal.ofBits .f32 0x00000000#32) :
    Scalar.select (Ideal.cmp .oge v z) v (c * v) = leaky c v := by
  rw [hz, Cert.LibActivations.zero_word, Cert.LibActivations.cmp_oge_zero, Cert.LibActivations.select_ofBool]
  rfl

/-- One layer as the reference spells it — the two products given entry by entry as sums, the broadcast bias, the
    broadcast zero and slope words — is the network's layer with the bias added between the products. -/
theorem layer_eq (A Z : Mat n k) (Wr Wro : Mat k d) (b : (⟨1, ![d]⟩ : Shape).Idx → EReal)
    (dA dZ bb zeros slopes : FVec Ideal ⟨2, ![n, d]⟩ .f32)
    (hA : ∀ p j, dA (ix2 p j) = ∑ q : Fin k, A (ix2 p q) * Wr (ix2 q j))
    (hZ : ∀ p j, dZ (ix2 p j) = ∑ q : Fin k, Z (ix2 p q) * Wro (ix2 q j))
    (hb : ∀ p j, bb (ix2 p j) = b (ix1 j))
    (hz : ∀ i, zeros i = Ideal.ofBits .f32 0x00000000#32)
    (hs : ∀ i, slopes i = slope) :
    select (cmpf .oge (addf (addf dA bb) dZ) zeros) (addf (addf dA bb) dZ) (mulf slopes (addf (addf dA bb) dZ))
      = convR slope A Z Wr (rowOf b) Wro := by
  funext i
  obtain ⟨p, j, rfl⟩ : ∃ p j, i = ix2 p j := ⟨i 0, i 1, eq_ix2 i⟩
  rw [select_apply, cmpf_apply, mulf_apply, addf_apply, addf_apply, hA, hZ, hb, hs]
  exact leaky_select _ _ _ (hz _)

/-- The first layer's neighbour sums are the network's. -/
theorem agg_v13 (x0 : (⟨S200000x128, .f32⟩ : BufTy).Contents (Elt Ideal)) (x1 : (⟨S2x400000, .i32⟩ : BufTy).Contents (Elt Ideal)) : val_main_v13 (F := Ideal) x0 x1 = agg128 x0 x1 := rfl

/-- The first layer. -/
theorem ref_P0 (x0 : (⟨S200000x128, .f32⟩ : BufTy).Contents (Elt Ideal)) (x1 : (⟨S2x400000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) :
    val_main_v24 (F := Ideal) x0 x1 x3 x4 x5 = Cert.Net.P0 x0 x1 x3 x4 x5 := by
  unfold Cert.Net.P0
  rw [← convR_eq_convK, ← agg_v13]
  unfold val_main_v24 val_main_v21 val_main_v23 val_main_v19 val_main_v17
  exact layer_eq (n := 200000) (d := 256) (val_main_v13 (F := Ideal) x0 x1) x0 x3 x5 x4 (val_main_v14 (F := Ideal) x0 x1 x3) (val_main_v18 (F := Ideal) x0 x5)
    (val_main_v16 (F := Ideal) x4) (val_main_v20 (F := Ideal)) (val_main_v22 (F := Ideal))
    (fun p j => by
      unfold val_main_v14; simp only [Host.dotGeneral]
      exact Cert.LibPlainDot.dotGeneral_apply _ rfl _ _ _ _ p j)
    (fun p j => by
      unfold val_main_v18; simp only [Host.dotGeneral]
      exact Cert.LibPlainDot.dotGeneral_apply _ rfl _ _ _ _ p j)
    (fun p j => by
      rw [val_main_v16_apply, val_main_v15_apply]
      exact congrArg x4 (funext fun a => by match a with | ⟨0, _⟩ => rfl))
    (fun i => by rw [val_main_v20_apply, val_main_cst_1_apply]; rfl)
    (fun i => by rw [val_main_v22_apply, val_main_cst_2_apply]; rfl)

/-- The second layer's neighbour sums are the network's, of the first activation. -/
theorem agg_v34 (x0 : (⟨S200000x128, .f32⟩ : BufTy).Contents (Elt Ideal)) (x1 : (⟨S2x400000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) :
    val_main_v34 (F := Ideal) x0 x1 x3 x4 x5 = agg256 (val_main_v24 (F := Ideal) x0 x1 x3 x4 x5) x1 := rfl

/-- The second layer. -/
theorem ref_P1 (x0 : (⟨S200000x128, .f32⟩ : BufTy).Contents (Elt Ideal)) (x1 : (⟨S2x400000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v45 (F := Ideal) x0 x1 x3 x4 x5 x6 x7 x8 = Cert.Net.P1 x0 x1 x3 x4 x5 x6 x7 x8 := by
  unfold Cert.Net.P1
  rw [← convR_eq_convK, ← ref_P0, ← agg_v34]
  unfold val_main_v45 val_main_v42 val_main_v44 val_main_v40 val_main_v38
  exact layer_eq (n := 200000) (d := 256) (val_main_v34 (F := Ideal) x0 x1 x3 x4 x5) (val_main_v24 (F := Ideal) x0 x1 x3 x4 x5) x6 x8 x7 (val_main_v35 (F := Ideal) x0 x1 x3 x4 x5 x6) (val_main_v39 (F := Ideal) x0 x1 x3 x4 x5 x8)
    (val_main_v37 (F := Ideal) x7) (val_main_v41 (F := Ideal)) (val_main_v43 (F := Ideal))
    (fun p j => by
      unfold val_main_v35; simp only [Host.dotGeneral]
      exact Cert.LibPlainDot.dotGeneral_apply _ rfl _ _ _ _ p j)
    (fun p j => by
      unfold val_main_v39; simp only [Host.dotGeneral]
      exact Cert.LibPlainDot.dotGeneral_apply _ rfl _ _ _ _ p j)
    (fun p j => by
      rw [val_main_v37_apply, val_main_v36_apply]
      exact congrArg x7 (funext fun a => by match a with | ⟨0, _⟩ => rfl))
    (fun i => by rw [val_main_v41_apply, val_main_cst_6_apply]; rfl)
    (fun i => by rw [val_main_v43_apply, val_main_cst_7_apply]; rfl)

/-- The third layer's input: the second activation plus the first. -/
theorem ref_Z2 (x0 : (⟨S200000x128, .f32⟩ : BufTy).Contents (Elt Ideal)) (x1 : (⟨S2x400000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v46 (F := Ideal) x0 x1 x3 x4 x5 x6 x7 x8 = Cert.Net.Z2 x0 x1 x3 x4 x5 x6 x7 x8 := by
  unfold Cert.Net.Z2
  rw [← ref_P1, ← ref_P0]
  rfl

/-- The third layer's neighbour sums are the network's, of the third layer's input. -/
theorem agg_v56 (x0 : (⟨S200000x128, .f32⟩ : BufTy).Contents (Elt Ideal)) (x1 : (⟨S2x400000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v56 (F := Ideal) x0 x1 x3 x4 x5 x6 x7 x8 = agg256 (val_main_v46 (F := Ideal) x0 x1 x3 x4 x5 x6 x7 x8) x1 := rfl

/-- The third layer. -/
theorem ref_P2 (x0 : (⟨S200000x128, .f32⟩ : BufTy).Contents (Elt Ideal)) (x1 : (⟨S2x400000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) :
    val_main_v67 (F := Ideal) x0 x1 x3 x4 x5 x6 x7 x8 x9 x10 x11 = Cert.Net.P2 x0 x1 x3 x4 x5 x6 x7 x8 x9 x10 x11 := by
  unfold Cert.Net.P2
  rw [← convR_eq_convK, ← ref_Z2, ← agg_v56]
  unfold val_main_v67 val_main_v64 val_main_v66 val_main_v62 val_main_v60
  exact layer_eq (n := 200000) (d := 256) (val_main_v56 (F := Ideal) x0 x1 x3 x4 x5 x6 x7 x8) (val_main_v46 (F := Ideal) x0 x1 x3 x4 x5 x6 x7 x8) x9 x11 x10 (val_main_v57 (F := Ideal) x0 x1 x3 x4 x5 x6 x7 x8 x9) (val_main_v61 (F := Ideal) x0 x1 x3 x4 x5 x6 x7 x8 x11)
    (val_main_v59 (F := Ideal) x10) (val_main_v63 (F := Ideal)) (val_main_v65 (F := Ideal))
    (fun p j => by
      unfold val_main_v57; simp only [Host.dotGeneral]
      exact Cert.LibPlainDot.dotGeneral_apply _ rfl _ _ _ _ p j)
    (fun p j => by
      unfold val_main_v61; simp only [Host.dotGeneral]
      exact Cert.LibPlainDot.dotGeneral_apply _ rfl _ _ _ _ p j)
    (fun p j => by
      rw [val_main_v59_apply, val_main_v58_apply]
      exact congrArg x10 (funext fun a => by match a with | ⟨0, _⟩ => rfl))
    (fun i => by rw [val_main_v63_apply, val_main_cst_11_apply]; rfl)
    (fun i => by rw [val_main_v65_apply, val_main_cst_12_apply]; rfl)

/-- The fourth layer's input: the third activation plus the second. -/
theorem ref_Z3 (x0 : (⟨S200000x128, .f32⟩ : BufTy).Contents (Elt Ideal)) (x1 : (⟨S2x400000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) :
    val_main_v68 (F := Ideal) x0 x1 x3 x4 x5 x6 x7 x8 x9 x10 x11 = Cert.Net.Z3 x0 x1 x3 x4 x5 x6 x7 x8 x9 x10 x11 := by
  unfold Cert.Net.Z3
  rw [← ref_P2, ← ref_P1]
  rfl

/-- The fourth layer's neighbour sums are the network's, of the fourth layer's input. -/
theorem agg_v78 (x0 : (⟨S200000x128, .f32⟩ : BufTy).Contents (Elt Ideal)) (x1 : (⟨S2x400000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) :
    val_main_v78 (F := Ideal) x0 x1 x3 x4 x5 x6 x7 x8 x9 x10 x11 = agg256 (val_main_v68 (F := Ideal) x0 x1 x3 x4 x5 x6 x7 x8 x9 x10 x11) x1 := rfl

/-- The fourth layer. -/
theorem ref_P3 (x0 : (⟨S200000x128, .f32⟩ : BufTy).Contents (Elt Ideal)) (x1 : (⟨S2x400000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) :
    val_main_v89 (F := Ideal) x0 x1 x3 x4 x5 x6 x7 x8 x9 x10 x11 x12 x13 x14 = Cert.Net.P3 x0 x1 x3 x4 x5 x6 x7 x8 x9 x10 x11 x12 x13 x14 := by
  unfold Cert.Net.P3
  rw [← convR_eq_convK, ← ref_Z3, ← agg_v78]
  unfold val_main_v89 val_main_v86 val_main_v88 val_main_v84 val_main_v82
  exact layer_eq (n := 200000) (d := 256) (val_main_v78 (F := Ideal) x0 x1 x3 x4 x5 x6 x7 x8 x9 x10 x11) (val_main_v68 (F := Ideal) x0 x1 x3 x4 x5 x6 x7 x8 x9 x10 x11) x12 x14 x13 (val_main_v79 (F := Ideal) x0 x1 x3 x4 x5 x6 x7 x8 x9 x10 x11 x12) (val_main_v83 (F := Ideal) x0 x1 x3 x4 x5 x6 x7 x8 x9 x10 x11 x14)
    (val_main_v81 (F := Ideal) x13) (val_main_v85 (F := Ideal)) (val_main_v87 (F := Ideal))
    (fun p j => by
      unfold val_main_v79; simp only [Host.dotGeneral]
      exact Cert.LibPlainDot.dotGeneral_apply _ rfl _ _ _ _ p j)
    (fun p j => by
      unfold val_main_v83; simp only [Host.dotGeneral]
      exact Cert.LibPlainDot.dotGeneral_apply _ rfl _ _ _ _ p j)
    (fun p j => by
      rw [val_main_v81_apply, val_main_v80_apply]
      exact congrArg x13 (funext fun a => by match a with | ⟨0, _⟩ => rfl))
    (fun i => by rw [val_main_v85_apply, val_main_cst_16_apply]; rfl)
    (fun i => by rw [val_main_v87_apply, val_main_cst_17_apply]; rfl)

/-- The node embeddings the heads read: the fourth activation plus the third. -/
theorem ref_Z4 (x0 : (⟨S200000x128, .f32⟩ : BufTy).Contents (Elt Ideal)) (x1 : (⟨S2x400000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) :
    val_main_v90 (F := Ideal) x0 x1 x3 x4 x5 x6 x7 x8 x9 x10 x11 x12 x13 x14 = Cert.Net.Z4 x0 x1 x3 x4 x5 x6 x7 x8 x9 x10 x11 x12 x13 x14 := by
  unfold Cert.Net.Z4
  rw [← ref_P3, ← ref_P2]
  rfl

end Cert.ReferenceIdeal.RefValue

end
-- ==== Proof.RefHeads.lean ====
/-
  The reference program's two heads are the shared network's symmetric head.

  The reference gathers the endpoint rows Za and Zb of the node embeddings, joins them along the columns in both
  orders, multiplies each joined row by the first weight and adds the bias to each, adds the two results, applies
  the rectifier, multiplies by the second weight and adds the second bias.  The joined rows read at an index are
  the network's side-by-side arrays: a column below 256 comes from the first piece, a column from 256 on from the
  second piece at that column less 256.  Everything else is read entry by entry as in the layers.
-/
import proofs.«148686_j90211493085314_1_alg».proof.Proof.RefLayers
import Idealize.ShloMosaic.Lib.Pipeline.Value

noncomputable section

open scoped BigOperators

namespace Cert.ReferenceIdeal.RefValue

open Cert.Spec Cert.Net Idealize.ShloMosaic Idealize.ShloMosaic.ValueIdx
open Cert.ReferenceIdeal Cert.ReferenceIdeal.Gen Cert.ReferenceIdeal.Read

/-- Two [n, 256] arrays joined along the columns are the network's side-by-side array: a column below 256 reads the
    first piece, a column from 256 on reads the second piece at that column less 256. -/
theorem concat_catCols {n : ℕ} (X Y : Mat n 256)
    (hc : Shape.Concatenates [(⟨2, ![n, 256]⟩ : Shape), ⟨2, ![n, 256]⟩] ⟨2, ![n, 512]⟩ 1) :
    concatenate (⟨2, ![n, 512]⟩ : Shape) 1 [⟨⟨2, ![n, 256]⟩, X⟩, ⟨⟨2, ![n, 256]⟩, Y⟩] hc = catCols X Y := by
  funext i
  obtain ⟨p, c, rfl⟩ : ∃ p c, i = ix2 p c := ⟨i 0, i 1, eq_ix2 i⟩
  by_cases hlt : c.val < 256
  · have e : catCols X Y (ix2 p c) = X (ix2 p ⟨c.val, hlt⟩) := dif_pos hlt
    rw [e]
    exact concatenate_pair_apply_left _ X Y _ (ix2 p c) rfl (ix2 p ⟨c.val, hlt⟩)
      (fun b => by match b with | ⟨0, _⟩ => rfl | ⟨1, _⟩ => rfl)
  · have e : catCols X Y (ix2 p c) = Y (ix2 p ⟨c.val - 256, by have := c.isLt; omega⟩) := dif_neg hlt
    rw [e]
    exact concatenate_pair_apply_right _ X Y _ (ix2 p c) rfl rfl
      (ix2 p ⟨c.val - 256, by have := c.isLt; omega⟩)
      (fun b hb => by match b, hb with | ⟨0, _⟩, _ => rfl | ⟨1, _⟩, hb => exact absurd rfl hb)
      (by show (c.val - 256) + 256 = c.val; omega)

/-- The first joined array: the first endpoints' rows beside the second endpoints' rows. -/
theorem ref_v109 (x0 : (⟨S200000x128, .f32⟩ : BufTy).Contents (Elt Ideal)) (x1 : (⟨S2x400000, .i32⟩ : BufTy).Contents (Elt Ideal)) (x2 : (⟨S100000x2, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) :
    val_main_v109 (F := Ideal) x0 x1 x2 x3 x4 x5 x6 x7 x8 x9 x10 x11 x12 x13 x14
      = catCols (pickA (val_main_v90 (F := Ideal) x0 x1 x3 x4 x5 x6 x7 x8 x9 x10 x11 x12 x13 x14) x2) (pickB (val_main_v90 (F := Ideal) x0 x1 x3 x4 x5 x6 x7 x8 x9 x10 x11 x12 x13 x14) x2) := by
  unfold val_main_v109
  exact concat_catCols _ _ _

/-- The second joined array: the second endpoints' rows beside the first endpoints' rows. -/
theorem ref_v110 (x0 : (⟨S200000x128, .f32⟩ : BufTy).Contents (Elt Ideal)) (x1 : (⟨S2x400000, .i32⟩ : BufTy).Contents (Elt Ideal)) (x2 : (⟨S100000x2, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) :
    val_main_v110 (F := Ideal) x0 x1 x2 x3 x4 x5 x6 x7 x8 x9 x10 x11 x12 x13 x14
      = catCols (pickB (val_main_v90 (F := Ideal) x0 x1 x3 x4 x5 x6 x7 x8 x9 x10 x11 x12 x13 x14) x2) (pickA (val_main_v90 (F := Ideal) x0 x1 x3 x4 x5 x6 x7 x8 x9 x10 x11 x12 x13 x14) x2) := by
  unfold val_main_v110
  exact concat_catCols _ _ _

/-- A head as the reference spells it — the two first-layer products of the joined arrays given entry by entry, the
    broadcast biases, the broadcast zero and slope words, the second product of the rectified sum — is the network's
    symmetric head. -/
theorem head_eq {n d : ℕ} (Za Zb : Mat n 256) (W : Mat 512 256) (b : (⟨1, ![256]⟩ : Shape).Idx → EReal)
    (W1 : Mat 256 d) (b1 : (⟨1, ![d]⟩ : Shape).Idx → EReal)
    (d1 d2 bb1 bb2 zeros slopes : FVec Ideal ⟨2, ![n, 256]⟩ .f32) (d3 bb3 : FVec Ideal ⟨2, ![n, d]⟩ .f32)
    (h1 : ∀ p j, d1 (ix2 p j) = ∑ q : Fin 512, catCols Za Zb (ix2 p q) * W (ix2 q j))
    (h2 : ∀ p j, d2 (ix2 p j) = ∑ q : Fin 512, catCols Zb Za (ix2 p q) * W (ix2 q j))
    (hb1 : ∀ p j, bb1 (ix2 p j) = b (ix1 j)) (hb2 : ∀ p j, bb2 (ix2 p j) = b (ix1 j))
    (hz : ∀ i, zeros i = Ideal.ofBits .f32 0x00000000#32) (hs : ∀ i, slopes i = slope)
    (h3 : ∀ p j, d3 (ix2 p j) = ∑ q : Fin 256,
        select (cmpf .oge (addf (addf d1 bb1) (addf d2 bb2)) zeros) (addf (addf d1 bb1) (addf d2 bb2))
          (mulf slopes (addf (addf d1 bb1) (addf d2 bb2))) (ix2 p q) * W1 (ix2 q j))
    (hb3 : ∀ p j, bb3 (ix2 p j) = b1 (ix1 j)) :
    addf d3 bb3 = headR slope Za Zb W (rowOf b) W1 (rowOf b1) := by
  have hid : select (cmpf .oge (addf (addf d1 bb1) (addf d2 bb2)) zeros) (addf (addf d1 bb1) (addf d2 bb2))
        (mulf slopes (addf (addf d1 bb1) (addf d2 bb2)))
      = act slope (addM (addRow (mm (catCols Za Zb) W) (rowOf b)) (addRow (mm (catCols Zb Za) W) (rowOf b))) := by
    funext i
    obtain ⟨p, j, rfl⟩ : ∃ p j, i = ix2 p j := ⟨i 0, i 1, eq_ix2 i⟩
    rw [select_apply, cmpf_apply, mulf_apply, addf_apply, addf_apply, addf_apply, h1, h2, hb1, hb2, hs]
    exact leaky_select _ _ _ (hz _)
  funext i
  obtain ⟨p, j, rfl⟩ : ∃ p j, i = ix2 p j := ⟨i 0, i 1, eq_ix2 i⟩
  rw [addf_apply, h3, hb3, hid]
  rfl

/-- The location head. -/
theorem ref_loc (x0 : (⟨S200000x128, .f32⟩ : BufTy).Contents (Elt Ideal)) (x1 : (⟨S2x400000, .i32⟩ : BufTy).Contents (Elt Ideal)) (x2 : (⟨S100000x2, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S512x256, .f32⟩ : BufTy).Contents (Elt Ideal)) (x16 : (⟨S256, .f32⟩ : BufTy).Contents (Elt Ideal)) (x17 : (⟨S256x1, .f32⟩ : BufTy).Contents (Elt Ideal)) (x18 : (⟨S1, .f32⟩ : BufTy).Contents (Elt Ideal)) :
    val_main_v128 (F := Ideal) x0 x1 x2 x3 x4 x5 x6 x7 x8 x9 x10 x11 x12 x13 x14 x15 x16 x17 x18
      = Cert.Net.headR Cert.Net.slope (Cert.Net.pickA (Cert.Net.Z4 x0 x1 x3 x4 x5 x6 x7 x8 x9 x10 x11 x12 x13 x14) x2)
          (Cert.Net.pickB (Cert.Net.Z4 x0 x1 x3 x4 x5 x6 x7 x8 x9 x10 x11 x12 x13 x14) x2) x15 (Cert.Net.rowOf x16) x17 (Cert.Net.rowOf x18) := by
  rw [← ref_Z4]
  unfold val_main_v128
  exact head_eq (n := 100000) (d := 1) (pickA (val_main_v90 (F := Ideal) x0 x1 x3 x4 x5 x6 x7 x8 x9 x10 x11 x12 x13 x14) x2) (pickB (val_main_v90 (F := Ideal) x0 x1 x3 x4 x5 x6 x7 x8 x9 x10 x11 x12 x13 x14) x2) x15 x16 x17 x18
    (val_main_v111 (F := Ideal) x0 x1 x2 x3 x4 x5 x6 x7 x8 x9 x10 x11 x12 x13 x14 x15) (val_main_v115 (F := Ideal) x0 x1 x2 x3 x4 x5 x6 x7 x8 x9 x10 x11 x12 x13 x14 x15) (val_main_v113 (F := Ideal) x16) (val_main_v117 (F := Ideal) x16)
    (val_main_v120 (F := Ideal)) (val_main_v122 (F := Ideal)) (val_main_v125 (F := Ideal) x0 x1 x2 x3 x4 x5 x6 x7 x8 x9 x10 x11 x12 x13 x14 x15 x16 x17) (val_main_v127 (F := Ideal) x18)
    (fun p j => by
      unfold val_main_v111; simp only [Host.dotGeneral]; rw [ref_v109]
      exact Cert.LibPlainDot.dotGeneral_apply _ rfl _ _ _ _ p j)
    (fun p j => by
      unfold val_main_v115; simp only [Host.dotGeneral]; rw [ref_v110]
      exact Cert.LibPlainDot.dotGeneral_apply _ rfl _ _ _ _ p j)
    (fun p j => by
      rw [val_main_v113_apply, val_main_v112_apply]
      exact congrArg x16 (funext fun a => by match a with | ⟨0, _⟩ => rfl))
    (fun p j => by
      rw [val_main_v117_apply, val_main_v116_apply]
      exact congrArg x16 (funext fun a => by match a with | ⟨0, _⟩ => rfl))
    (fun i => by rw [val_main_v120_apply, val_main_cst_22_apply]; rfl)
    (fun i => by rw [val_main_v122_apply, val_main_cst_23_apply]; rfl)
    (fun p j => by
      unfold val_main_v125 val_main_v124 val_main_v121 val_main_v123 val_main_v119 val_main_v114 val_main_v118
      simp only [Host.dotGeneral]
      exact Cert.LibPlainDot.dotGeneral_apply _ rfl _ _ _ _ p j)
    (fun p j => by
      rw [val_main_v127_apply, val_main_v126_apply]
      exact congrArg x18 (funext fun a => by match a with | ⟨0, _⟩ => exact Fin.ext (by have := j.isLt; show 0 = j.val; omega)))

/-- The type head. -/
theorem ref_type (x0 : (⟨S200000x128, .f32⟩ : BufTy).Contents (Elt Ideal)) (x1 : (⟨S2x400000, .i32⟩ : BufTy).Contents (Elt Ideal)) (x2 : (⟨S100000x2, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x19 : (⟨S512x256, .f32⟩ : BufTy).Contents (Elt Ideal)) (x20 : (⟨S256, .f32⟩ : BufTy).Contents (Elt Ideal)) (x21 : (⟨S256x3, .f32⟩ : BufTy).Contents (Elt Ideal)) (x22 : (⟨S3, .f32⟩ : BufTy).Contents (Elt Ideal)) :
    val_main_v146 (F := Ideal) x0 x1 x2 x3 x4 x5 x6 x7 x8 x9 x10 x11 x12 x13 x14 x19 x20 x21 x22
      = Cert.Net.headR Cert.Net.slope (Cert.Net.pickA (Cert.Net.Z4 x0 x1 x3 x4 x5 x6 x7 x8 x9 x10 x11 x12 x13 x14) x2)
          (Cert.Net.pickB (Cert.Net.Z4 x0 x1 x3 x4 x5 x6 x7 x8 x9 x10 x11 x12 x13 x14) x2) x19 (Cert.Net.rowOf x20) x21 (Cert.Net.rowOf x22) := by
  rw [← ref_Z4]
  unfold val_main_v146
  exact head_eq (n := 100000) (d := 3) (pickA (val_main_v90 (F := Ideal) x0 x1 x3 x4 x5 x6 x7 x8 x9 x10 x11 x12 x13 x14) x2) (pickB (val_main_v90 (F := Ideal) x0 x1 x3 x4 x5 x6 x7 x8 x9 x10 x11 x12 x13 x14) x2) x19 x20 x21 x22
    (val_main_v129 (F := Ideal) x0 x1 x2 x3 x4 x5 x6 x7 x8 x9 x10 x11 x12 x13 x14 x19) (val_main_v133 (F := Ideal) x0 x1 x2 x3 x4 x5 x6 x7 x8 x9 x10 x11 x12 x13 x14 x19) (val_main_v131 (F := Ideal) x20) (val_main_v135 (F := Ideal) x20)
    (val_main_v138 (F := Ideal)) (val_main_v140 (F := Ideal)) (val_main_v143 (F := Ideal) x0 x1 x2 x3 x4 x5 x6 x7 x8 x9 x10 x11 x12 x13 x14 x19 x20 x21) (val_main_v145 (F := Ideal) x22)
    (fun p j => by
      unfold val_main_v129; simp only [Host.dotGeneral]; rw [ref_v109]
      exact Cert.LibPlainDot.dotGeneral_apply _ rfl _ _ _ _ p j)
    (fun p j => by
      unfold val_main_v133; simp only [Host.dotGeneral]; rw [ref_v110]
      exact Cert.LibPlainDot.dotGeneral_apply _ rfl _ _ _ _ p j)
    (fun p j => by
      rw [val_main_v131_apply, val_main_v130_apply]
      exact congrArg x20 (funext fun a => by match a with | ⟨0, _⟩ => rfl))
    (fun p j => by
      rw [val_main_v135_apply, val_main_v134_apply]
      exact congrArg x20 (funext fun a => by match a with | ⟨0, _⟩ => rfl))
    (fun i => by rw [val_main_v138_apply, val_main_cst_24_apply]; rfl)
    (fun i => by rw [val_main_v140_apply, val_main_cst_25_apply]; rfl)
    (fun p j => by
      unfold val_main_v143 val_main_v142 val_main_v139 val_main_v141 val_main_v137 val_main_v132 val_main_v136
      simp only [Host.dotGeneral]
      exact Cert.LibPlainDot.dotGeneral_apply _ rfl _ _ _ _ p j)
    (fun p j => by
      rw [val_main_v145_apply, val_main_v144_apply]
      exact congrArg x22 (funext fun a => by match a with | ⟨0, _⟩ => rfl))

end Cert.ReferenceIdeal.RefValue

end
-- ==== Proof.HeadLaw.lean ====
/-
  The two forms of a head agree on arrays of real numbers.

  A joined row (X | Y) against a [512, 256] weight is X against the weight's top half plus Y against its bottom half:
  the sum over the 512 columns splits into its two runs of 256.  This holds for all extended reals.  For real entries
  the four products that the two joined rows (Za | Zb) and (Zb | Za) give collect, by distributivity, into the one
  product of Za + Zb with the sum of the two halves, and the bias, added once to each of the two joined rows, is twice
  the bias.  Both forms then apply the same rectifier and the same second layer.
-/
import proofs.«148686_j90211493085314_1_alg».proof.Proof.Spec

noncomputable section

open scoped BigOperators

namespace Cert.Net

open Cert.Spec Idealize.ShloMosaic Idealize.ShloMosaic.ValueIdx

variable {n d : ℕ}

/-! ## The two float words -/

/-- The word 0x40000000 is the real number 2. -/
theorem two_eq : two = ((2 : ℝ) : EReal) := by
  unfold two
  simp [Ideal.ofBits, Ideal.ieee, -EReal.coe_mul]; norm_num

/-- The rectifier's slope is a real number: its word is a finite one. -/
theorem slope_real : ∃ r : ℝ, slope = (r : EReal) := by
  unfold slope
  exact ⟨_, by simp [Ideal.ofBits, Ideal.ieee, -EReal.coe_mul]; rfl⟩

/-! ## A joined row against the whole weight -/

/-- In a joined row, a column below 256 is the left array's column. -/
theorem catCols_left (X Y : Mat n 256) (p : Fin n) (q : Fin 256) :
    catCols X Y (ix2 p (⟨q.val, by have := q.isLt; omega⟩ : Fin 512)) = X (ix2 p q) := by
  unfold catCols
  exact dif_pos q.isLt

/-- In a joined row, column 256 + q is the right array's column q. -/
theorem catCols_right (X Y : Mat n 256) (p : Fin n) (q : Fin 256) :
    catCols X Y (ix2 p (⟨256 + q.val, by have := q.isLt; omega⟩ : Fin 512)) = Y (ix2 p q) := by
  have h : ¬ (256 + q.val < 256) := by omega
  have e : (⟨256 + q.val - 256, by have := q.isLt; omega⟩ : Fin 256) = q :=
    Fin.ext (by show 256 + q.val - 256 = q.val; omega)
  unfold catCols
  refine (dif_neg h).trans ?_
  exact congrArg (fun t => Y (ix2 p t)) e

/-- (X | Y) · W = X · top W + Y · bottom W, entry by entry, for all extended reals: the sum over the 512 columns is
    the sum over the first 256 plus the sum over the last 256. -/
theorem mm_catCols (X Y : Mat n 256) (W : Mat 512 256) (i) :
    mm (catCols X Y) W i = mm X (topHalf W) i + mm Y (botHalf W) i := by
  unfold mm
  show ∑ q : Fin (256 + 256), catCols X Y (ix2 (i 0) q) * W (ix2 q (i 1)) = _
  rw [Fin.sum_univ_add]
  refine congrArg₂ (· + ·) ?_ ?_
  · refine Finset.sum_congr rfl fun q _ => ?_
    exact congrArg (· * W (ix2 (Fin.castAdd 256 q) (i 1))) (catCols_left X Y (i 0) q)
  · refine Finset.sum_congr rfl fun q _ => ?_
    exact congrArg (· * W (ix2 (Fin.natAdd 256 q) (i 1))) (catCols_right X Y (i 0) q)

/-! ## The first layer of a head, in the two forms -/

/-- For real arrays, ((Za | Zb) · W + B) + ((Zb | Za) · W + B) = (Za + Zb) · (top W + bottom W) + 2 · B, entry by
    entry: distribute the products and collect. -/
theorem firstLayer_entry (Za Zb : Mat n 256) (W : Mat 512 256) (B : Mat 1 256)
    (hZa : IsReal Za) (hZb : IsReal Zb) (hW : IsReal W) (hB : IsReal B) (i) :
    addM (addRow (mm (catCols Za Zb) W) B) (addRow (mm (catCols Zb Za) W) B) i
      = addRow (mm (addM Za Zb) (addM (topHalf W) (botHalf W))) (scaleRow two B) i := by
  have hT : IsReal (topHalf W) := fun _ => hW _
  have hBo : IsReal (botHalf W) := fun _ => hW _
  show (mm (catCols Za Zb) W i + B (ix2 (0 : Fin 1) (i 1))) + (mm (catCols Zb Za) W i + B (ix2 (0 : Fin 1) (i 1)))
      = mm (addM Za Zb) (addM (topHalf W) (botHalf W)) i + two * B (ix2 (0 : Fin 1) (i 1))
  rw [mm_catCols, mm_catCols]
  generalize topHalf W = T at hT ⊢
  generalize botHalf W = Bo at hBo ⊢
  choose za hza using hZa
  choose zb hzb using hZb
  choose t ht using hT
  choose bo hbo using hBo
  choose b hb using hB
  show ((∑ q : Fin 256, Za (ix2 (i 0) q) * T (ix2 q (i 1))) + (∑ q : Fin 256, Zb (ix2 (i 0) q) * Bo (ix2 q (i 1)))
        + B (ix2 (0 : Fin 1) (i 1)))
      + ((∑ q : Fin 256, Zb (ix2 (i 0) q) * T (ix2 q (i 1))) + (∑ q : Fin 256, Za (ix2 (i 0) q) * Bo (ix2 q (i 1)))
        + B (ix2 (0 : Fin 1) (i 1)))
      = (∑ q : Fin 256, (Za (ix2 (i 0) q) + Zb (ix2 (i 0) q)) * (T (ix2 q (i 1)) + Bo (ix2 q (i 1))))
        + two * B (ix2 (0 : Fin 1) (i 1))
  simp only [hza, hzb, ht, hbo, hb, two_eq]
  simp only [← EReal.coe_mul, ← EReal.coe_add, ← coe_sum]
  refine congrArg _ ?_
  simp only [add_mul, mul_add, Finset.sum_add_distrib]
  ring

/-- The head as the reference writes it equals the head on the summed endpoint rows, the summed halves of the first
    weight and twice the bias, when the endpoint rows, the weight and the bias are real. -/
theorem headR_eq_headK (c : EReal) (Za Zb : Mat n 256) (W : Mat 512 256) (B : Mat 1 256) (W1 : Mat 256 d)
    (B1 : Mat 1 d) (hZa : IsReal Za) (hZb : IsReal Zb) (hW : IsReal W) (hB : IsReal B) :
    headR c Za Zb W B W1 B1
      = headK c (addM Za Zb) (addM (topHalf W) (botHalf W)) (scaleRow two B) W1 B1 := by
  have inner : addM (addRow (mm (catCols Za Zb) W) B) (addRow (mm (catCols Zb Za) W) B)
      = addRow (mm (addM Za Zb) (addM (topHalf W) (botHalf W))) (scaleRow two B) :=
    funext fun i => firstLayer_entry Za Zb W B hZa hZb hW hB i
  unfold headR headK
  rw [inner]

end Cert.Net

end
-- ==== Proof.NetReals.lean ====
/-
  Every array of the network is an array of real numbers when the inputs are.

  The rectifier of a real number with a real slope is real; sums, products, the matrix product and the added row of
  real arrays are real arrays.  The neighbour sums and the endpoint rows are read and accumulated by the host at
  positions computed from integer arrays: reading a real array at any positions gives real numbers, and accumulating
  real numbers into the zero array gives real numbers, whatever the positions are.  So the four layers, with their
  residual sums, keep real arrays real.
-/
import proofs.«148686_j90211493085314_1_alg».proof.Proof.HeadLaw

noncomputable section

open scoped BigOperators

namespace Cert.Net

open Cert.Spec Idealize.ShloMosaic Idealize.ShloMosaic.ValueIdx
open Cert.ReferenceIdeal Cert.ReferenceIdeal.Read

variable {n k d h : ℕ}

/-! ## Entrywise pieces -/

/-- The rectifier of a real number, with a real slope, is a real number. -/
theorem real_leaky {c y : EReal} (hc : ∃ r : ℝ, c = (r : EReal)) (hy : ∃ r : ℝ, y = (r : EReal)) :
    ∃ r : ℝ, leaky c y = (r : EReal) := by
  unfold leaky
  split
  · exact hy
  · exact real_mul hc hy

theorem _root_.Cert.Spec.IsReal.act {c : EReal} (hc : ∃ r : ℝ, c = (r : EReal)) {X : Mat n d} (hX : IsReal X) :
    IsReal (act c X) := fun i => real_leaky hc (hX i)

theorem _root_.Cert.Spec.IsReal.addM {X Y : Mat n d} (hX : IsReal X) (hY : IsReal Y) : IsReal (addM X Y) :=
  fun i => real_add (hX i) (hY i)

theorem _root_.Cert.Spec.IsReal.rowOf {b : (⟨1, ![d]⟩ : Shape).Idx → EReal} (hb : IsReal b) : IsReal (rowOf b) :=
  fun _ => hb _

theorem _root_.Cert.Spec.IsReal.scaleRow {t : EReal} (ht : ∃ r : ℝ, t = (r : EReal)) {B : Mat 1 d} (hB : IsReal B) :
    IsReal (scaleRow t B) := fun i => real_mul ht (hB i)

theorem _root_.Cert.Spec.IsReal.topHalf {W : Mat 512 256} (hW : IsReal W) : IsReal (topHalf W) := fun _ => hW _

theorem _root_.Cert.Spec.IsReal.botHalf {W : Mat 512 256} (hW : IsReal W) : IsReal (botHalf W) := fun _ => hW _

theorem _root_.Cert.Spec.IsReal.catCols {X Y : Mat n 256} (hX : IsReal X) (hY : IsReal Y) : IsReal (catCols X Y) := by
  intro i
  unfold Cert.Net.catCols
  split
  · exact hX _
  · exact hY _

/-- The number 2 is real. -/
theorem two_real : ∃ r : ℝ, two = (r : EReal) := ⟨2, two_eq⟩

/-! ## A layer and a head -/

theorem _root_.Cert.Spec.IsReal.convK {c : EReal} (hc : ∃ r : ℝ, c = (r : EReal)) {A Z : Mat n k} {Wr : Mat k d}
    {B : Mat 1 d} {Wro : Mat k d} (hA : IsReal A) (hZ : IsReal Z) (hWr : IsReal Wr) (hB : IsReal B)
    (hWro : IsReal Wro) : IsReal (convK c A Z Wr B Wro) :=
  IsReal.act hc (IsReal.addRow (IsReal.addM (IsReal.mm hA hWr) (IsReal.mm hZ hWro)) hB)

theorem _root_.Cert.Spec.IsReal.convR {c : EReal} (hc : ∃ r : ℝ, c = (r : EReal)) {A Z : Mat n k} {Wr : Mat k d}
    {B : Mat 1 d} {Wro : Mat k d} (hA : IsReal A) (hZ : IsReal Z) (hWr : IsReal Wr) (hB : IsReal B)
    (hWro : IsReal Wro) : IsReal (convR c A Z Wr B Wro) :=
  IsReal.act hc (IsReal.addM (IsReal.addRow (IsReal.mm hA hWr) hB) (IsReal.mm hZ hWro))

theorem _root_.Cert.Spec.IsReal.headK {c : EReal} (hc : ∃ r : ℝ, c = (r : EReal)) {S : Mat n h} {Ws : Mat h h}
    {B2 : Mat 1 h} {W1 : Mat h d} {B1 : Mat 1 d} (hS : IsReal S) (hWs : IsReal Ws) (hB2 : IsReal B2)
    (hW1 : IsReal W1) (hB1 : IsReal B1) : IsReal (headK c S Ws B2 W1 B1) :=
  IsReal.addRow (IsReal.mm (IsReal.act hc (IsReal.addRow (IsReal.mm hS hWs) hB2)) hW1) hB1

/-! ## The host's irregular parts -/

/-- The zero word, as the array of no axes the programs broadcast, is real. -/
theorem zero_cst_real : IsReal (val_main_cst (F := Ideal)) :=
  fun i => ⟨0, by rw [val_main_cst_apply]; exact ofBits_zero.trans EReal.coe_zero.symm⟩

theorem zero_cst_5_real : IsReal (val_main_cst_5 (F := Ideal)) :=
  fun i => ⟨0, by rw [val_main_cst_5_apply]; exact ofBits_zero.trans EReal.coe_zero.symm⟩

/-- The neighbour sums of a real [200000, 128] array are real. -/
theorem agg128_real {x : Mat 200000 128} (hx : IsReal x) (ei : (⟨S2x400000, .i32⟩ : BufTy).Contents (Elt Ideal)) :
    IsReal (agg128 x ei) := by
  unfold agg128 val_main_v13
  refine IsReal.scatterAdd _ ?_ ?_ _
  · unfold val_main_v11
    exact IsReal.broadcastInDim _ _ _ zero_cst_real
  · unfold val_main_v10
    exact IsReal.gather _ hx _

/-- The neighbour sums of a real [200000, 256] array are real. -/
theorem agg256_real {z : Mat 200000 256} (hz : IsReal z) (ei : (⟨S2x400000, .i32⟩ : BufTy).Contents (Elt Ideal)) :
    IsReal (agg256 z ei) := by
  unfold agg256
  refine IsReal.scatterAdd _ ?_ ?_ _
  · unfold val_main_v32
    exact IsReal.broadcastInDim _ _ _ zero_cst_5_real
  · exact IsReal.gather _ hz _

/-- The rows of a real array at the first endpoints are real. -/
theorem pickA_real {z : Mat 200000 256} (hz : IsReal z) (ep : (⟨S100000x2, .i32⟩ : BufTy).Contents (Elt Ideal)) :
    IsReal (pickA z ep) := by
  unfold pickA
  exact IsReal.gather _ hz _

/-- The rows of a real array at the second endpoints are real. -/
theorem pickB_real {z : Mat 200000 256} (hz : IsReal z) (ep : (⟨S100000x2, .i32⟩ : BufTy).Contents (Elt Ideal)) :
    IsReal (pickB z ep) := by
  unfold pickB
  exact IsReal.gather _ hz _

/-! ## The four layers -/

section Layers

variable {x : Mat 200000 128} {ei : (⟨S2x400000, .i32⟩ : BufTy).Contents (Elt Ideal)}
  {w0 : Mat 128 256} {b0 : (⟨1, ![256]⟩ : Shape).Idx → EReal} {r0 : Mat 128 256}
  {w1 : Mat 256 256} {b1 : (⟨1, ![256]⟩ : Shape).Idx → EReal} {r1 : Mat 256 256}
  {w2 : Mat 256 256} {b2 : (⟨1, ![256]⟩ : Shape).Idx → EReal} {r2 : Mat 256 256}
  {w3 : Mat 256 256} {b3 : (⟨1, ![256]⟩ : Shape).Idx → EReal} {r3 : Mat 256 256}

theorem P0_real (hx : IsReal x) (hw0 : IsReal w0) (hb0 : IsReal b0) (hr0 : IsReal r0) :
    IsReal (P0 x ei w0 b0 r0) :=
  IsReal.convK slope_real (agg128_real hx ei) hx hw0 (IsReal.rowOf hb0) hr0

theorem P1_real (hx : IsReal x) (hw0 : IsReal w0) (hb0 : IsReal b0) (hr0 : IsReal r0)
    (hw1 : IsReal w1) (hb1 : IsReal b1) (hr1 : IsReal r1) :
    IsReal (P1 x ei w0 b0 r0 w1 b1 r1) :=
  have h0 : IsReal (P0 x ei w0 b0 r0) := P0_real hx hw0 hb0 hr0
  IsReal.convK slope_real (agg256_real h0 ei) h0 hw1 (IsReal.rowOf hb1) hr1

theorem Z2_real (hx : IsReal x) (hw0 : IsReal w0) (hb0 : IsReal b0) (hr0 : IsReal r0)
    (hw1 : IsReal w1) (hb1 : IsReal b1) (hr1 : IsReal r1) :
    IsReal (Z2 x ei w0 b0 r0 w1 b1 r1) :=
  IsReal.addM (P1_real hx hw0 hb0 hr0 hw1 hb1 hr1) (P0_real hx hw0 hb0 hr0)

theorem P2_real (hx : IsReal x) (hw0 : IsReal w0) (hb0 : IsReal b0) (hr0 : IsReal r0)
    (hw1 : IsReal w1) (hb1 : IsReal b1) (hr1 : IsReal r1)
    (hw2 : IsReal w2) (hb2 : IsReal b2) (hr2 : IsReal r2) :
    IsReal (P2 x ei w0 b0 r0 w1 b1 r1 w2 b2 r2) :=
  have hZ : IsReal (Z2 x ei w0 b0 r0 w1 b1 r1) := Z2_real hx hw0 hb0 hr0 hw1 hb1 hr1
  IsReal.convK slope_real (agg256_real hZ ei) hZ hw2 (IsReal.rowOf hb2) hr2

theorem Z3_real (hx : IsReal x) (hw0 : IsReal w0) (hb0 : IsReal b0) (hr0 : IsReal r0)
    (hw1 : IsReal w1) (hb1 : IsReal b1) (hr1 : IsReal r1)
    (hw2 : IsReal w2) (hb2 : IsReal b2) (hr2 : IsReal r2) :
    IsReal (Z3 x ei w0 b0 r0 w1 b1 r1 w2 b2 r2) :=
  IsReal.addM (P2_real hx hw0 hb0 hr0 hw1 hb1 hr1 hw2 hb2 hr2) (P1_real hx hw0 hb0 hr0 hw1 hb1 hr1)

theorem P3_real (hx : IsReal x) (hw0 : IsReal w0) (hb0 : IsReal b0) (hr0 : IsReal r0)
    (hw1 : IsReal w1) (hb1 : IsReal b1) (hr1 : IsReal r1)
    (hw2 : IsReal w2) (hb2 : IsReal b2) (hr2 : IsReal r2)
    (hw3 : IsReal w3) (hb3 : IsReal b3) (hr3 : IsReal r3) :
    IsReal (P3 x ei w0 b0 r0 w1 b1 r1 w2 b2 r2 w3 b3 r3) :=
  have hZ : IsReal (Z3 x ei w0 b0 r0 w1 b1 r1 w2 b2 r2) := Z3_real hx hw0 hb0 hr0 hw1 hb1 hr1 hw2 hb2 hr2
  IsReal.convK slope_real (agg256_real hZ ei) hZ hw3 (IsReal.rowOf hb3) hr3

/-- The node embeddings the heads read are real when the inputs are. -/
theorem Z4_real (hx : IsReal x) (hw0 : IsReal w0) (hb0 : IsReal b0) (hr0 : IsReal r0)
    (hw1 : IsReal w1) (hb1 : IsReal b1) (hr1 : IsReal r1)
    (hw2 : IsReal w2) (hb2 : IsReal b2) (hr2 : IsReal r2)
    (hw3 : IsReal w3) (hb3 : IsReal b3) (hr3 : IsReal r3) :
    IsReal (Z4 x ei w0 b0 r0 w1 b1 r1 w2 b2 r2 w3 b3 r3) :=
  IsReal.addM (P3_real hx hw0 hb0 hr0 hw1 hb1 hr1 hw2 hb2 hr2 hw3 hb3 hr3)
    (P2_real hx hw0 hb0 hr0 hw1 hb1 hr1 hw2 hb2 hr2)

end Layers

end Cert.Net

end
-- ==== Proof.HeadForms.lean ====
/-
  The two forms of a head agree on the network's own endpoint rows: for real inputs the node embeddings are real, so
  are their rows at the endpoints of the edges to predict, and the head law applies with the rectifier's slope.
-/
import proofs.«148686_j90211493085314_1_alg».proof.Proof.NetReals

noncomputable section

open scoped BigOperators

namespace Cert.Net

open Cert.Spec Idealize.ShloMosaic Idealize.ShloMosaic.ValueIdx
open Cert.ReferenceIdeal Cert.ReferenceIdeal.Read

variable {d : ℕ}

/-- For real inputs, a real first weight and a real first bias, the head on the joined endpoint rows equals the head
    on their sum, with the summed halves of the weight and twice the bias. -/
theorem head_forms {x : Mat 200000 128} {ei : (⟨S2x400000, .i32⟩ : BufTy).Contents (Elt Ideal)}
    {w0 : Mat 128 256} {b0 : (⟨1, ![256]⟩ : Shape).Idx → EReal} {r0 : Mat 128 256}
    {w1 : Mat 256 256} {b1 : (⟨1, ![256]⟩ : Shape).Idx → EReal} {r1 : Mat 256 256}
    {w2 : Mat 256 256} {b2 : (⟨1, ![256]⟩ : Shape).Idx → EReal} {r2 : Mat 256 256}
    {w3 : Mat 256 256} {b3 : (⟨1, ![256]⟩ : Shape).Idx → EReal} {r3 : Mat 256 256}
    (ep : (⟨S100000x2, .i32⟩ : BufTy).Contents (Elt Ideal))
    {W : Mat 512 256} {b : (⟨1, ![256]⟩ : Shape).Idx → EReal} (W1 : Mat 256 d)
    (bo : (⟨1, ![d]⟩ : Shape).Idx → EReal)
    (hx : IsReal x) (hw0 : IsReal w0) (hb0 : IsReal b0) (hr0 : IsReal r0)
    (hw1 : IsReal w1) (hb1 : IsReal b1) (hr1 : IsReal r1)
    (hw2 : IsReal w2) (hb2 : IsReal b2) (hr2 : IsReal r2)
    (hw3 : IsReal w3) (hb3 : IsReal b3) (hr3 : IsReal r3)
    (hW : IsReal W) (hB : IsReal b) :
    headR slope (pickA (Z4 x ei w0 b0 r0 w1 b1 r1 w2 b2 r2 w3 b3 r3) ep)
        (pickB (Z4 x ei w0 b0 r0 w1 b1 r1 w2 b2 r2 w3 b3 r3) ep) W (rowOf b) W1 (rowOf bo)
      = headK slope
          (addM (pickA (Z4 x ei w0 b0 r0 w1 b1 r1 w2 b2 r2 w3 b3 r3) ep)
            (pickB (Z4 x ei w0 b0 r0 w1 b1 r1 w2 b2 r2 w3 b3 r3) ep))
          (addM (topHalf W) (botHalf W)) (scaleRow two (rowOf b)) W1 (rowOf bo) :=
  have hZ : IsReal (Z4 x ei w0 b0 r0 w1 b1 r1 w2 b2 r2 w3 b3 r3) :=
    Z4_real hx hw0 hb0 hr0 hw1 hb1 hr1 hw2 hb2 hr2 hw3 hb3 hr3
  headR_eq_headK slope _ _ W (rowOf b) W1 (rowOf bo) (pickA_real hZ ep) (pickB_real hZ ep) hW (IsReal.rowOf hB)

end Cert.Net

end
-- ==== Proof.LibFiniteAll.lean ====
/-
  "Every entry is finite", decoded.

  A precondition of the form `jnp.all(jnp.abs(x) < inf)` prints as an all-reduction by `and`, into a scalar, of the bits
  of the comparison `|x i| < (the f32 word of +inf)`.  On the extended reals `|x|` is `max x (-x)`, and it is below `⊤`
  exactly when `x` is neither infinity, that is, when `x` is a real number.  So:

  * `real_of_abs_lt_inf`: an extended real whose absolute value compares below the word `0x7F800000` is a real number;
  * `all_real`: when the all-reduction (over any axes, into the scalar shape, from any initial word) of those bits for
    an array `x` of any shape is 1, every entry of `x` is a real number.

  The scalar shape here is `S0 = ⟨0, ![]⟩`, the shape a printed program calls `S_`; its one index is `ValueIdx.ix0`.
-/
import Idealize.ShloMosaic.PureOps.Ideal
import Idealize.ShloMosaic.Lib.ReduceAll
import Idealize.ShloMosaic.Lib.Pipeline.Value
import Idealize.ShloMosaic.Lib.ValueIdx

noncomputable section

namespace Cert.LibFiniteAll

open Idealize.ShloMosaic Idealize.ShloMosaic.ValueIdx

/-- The scalar shape. -/
abbrev S0 : Shape := ⟨0, ![]⟩

instance : Subsingleton S0.Idx := ⟨fun _ _ => funext fun d => d.elim0⟩

/-- An extended real whose absolute value is below the f32 word of +inf is a real number. -/
theorem real_of_abs_lt_inf (x : EReal)
    (h : FloatOps.cmpf (F := Ideal) .olt (FloatOps.hostAbsf x) (Ideal.ofBits .f32 0x7F800000#32) = 1#1) :
    ∃ r : ℝ, x = r := by
  have htop : Ideal.ofBits .f32 0x7F800000#32 = ⊤ := by simp [Ideal.ofBits, Ideal.ieee]
  rw [htop] at h
  change BitVec.ofBool (decide (max x (-x) < ⊤)) = 1#1 at h
  have hlt : max x (-x) < ⊤ := by
    by_contra hn
    rw [decide_eq_false hn] at h
    exact absurd h (by decide)
  induction x using EReal.rec with
  | bot => exact absurd hlt (by simp)
  | coe r => exact ⟨r, rfl⟩
  | top => exact absurd hlt (by simp)

/-- `jnp.all(|x| < inf)`: when the all-reduction of the comparison's bits is 1, every entry of `x` is a real. -/
theorem all_real {s : Shape} {axes : List (Fin s.rank)} (x : FVec Ideal s .f32) (dims : Fin S0.rank → Fin s.rank)
    (hb : S0.BroadcastsInDim s dims) (h : s.ReducesTo axes S0) (hu : 0 < S0.numel)
    (e : Host.reduce IntOp.andi (cmpf .olt (Host.absf x) (broadcastInDim s dims hb (constant (F := Ideal) S0 .f32 0x7F800000#32)))
      (constantI S0 1 1#1) h hu ix0 = 1#1) (i : s.Idx) : ∃ r : ℝ, x i = r := by
  have hi := Host.reduce_andi_all _ _ h hu ix0 e i
  have hbc : broadcastInDim s dims hb (constant (F := Ideal) S0 .f32 0x7F800000#32) i = Ideal.ofBits .f32 0x7F800000#32 :=
    broadcastInDim_apply dims hb _ i (fun a => a.elim0) (fun a => a.elim0)
  refine real_of_abs_lt_inf (x i) ?_
  rw [← hbc]
  exact hi

end Cert.LibFiniteAll

end
-- ==== Proof.Finite.lean ====
/-
  The precondition decoded: every float argument array is an array of real numbers.

  The precondition is printed as a function of the 23 argument arrays into one bit: the conjunction, over the 21 float
  arguments (argument 0 and arguments 3 to 22; arguments 1 and 2 are integer arrays and are not constrained), of
  "every entry has absolute value below +infinity".  The conjunction is nested to the left,
  ((b0 and b3) and b4) and ... and b22, each bit the all-reduction by `and` of the comparison's bits for one array.
  When the whole is 1, each bit is 1 (a conjunction of one-bit words is 1 exactly when both are), and a bit that is 1
  says every entry of its array is an extended real of absolute value below the top element, that is, a real number.

  * `real_of_fn`: the statement for the printed function alone, over arbitrary arguments;
  * `args_real`: its use on the argument arrays of the idealized kernel, on every device, as one conjunction;
  * `arg0_real`, `arg3_real`, ..., `arg22_real`: the 21 conjuncts, one by one.
-/
import proofs.«148686_j90211493085314_1_alg».proof.Defs
import proofs.«148686_j90211493085314_1_alg».proof.Proof.LibFiniteAll
import proofs.«148686_j90211493085314_1_alg».proof.Proof.LibReals
import Idealize.ShloMosaic.Lib.Affine

noncomputable section

namespace Cert.Proof.Finite

open Idealize.ShloMosaic Idealize.ShloMosaic.ValueIdx Idealize.SL.Sem Cert.Pre_finite_inputs Cert.Pre_finite_inputs.Facts

variable [Cert.Pre_finite_inputs.Facts]

/-- A conjunction of two scalar one-bit arrays that is 1 at the one index: both are 1 there. -/
theorem and_at_scalar (x y : IVec S_ 1) (h : andi x y ix0 = 1#1) : x ix0 = 1#1 ∧ y ix0 = 1#1 :=
  IntOp.andi_eq_one.1 h

/-- When the all-reduction of the bits of `|x i| < +infinity` is 1, `x` is an array of real numbers. -/
theorem real_of_all {s : Shape} {axes : List (Fin s.rank)} (x : FVec Ideal s .f32)
    (dims : Fin S_.rank → Fin s.rank) (hb : S_.BroadcastsInDim s dims) (h : s.ReducesTo axes S_) (hu : 0 < S_.numel)
    (e : Host.reduce IntOp.andi (cmpf .olt (Host.absf x) (broadcastInDim s dims hb (constant (F := Ideal) S_ .f32 0x7F800000#32)))
      (constantI S_ 1 1#1) h hu ix0 = 1#1) : Cert.Spec.IsReal x :=
  fun i => Cert.LibFiniteAll.all_real x dims hb h hu e i

/-- The printed precondition, when it is the bit 1, says each of the 21 float arguments is an array of real numbers. -/
theorem real_of_fn (a0 : FVec Ideal S200000x128 .f32) (a1 : IVec S2x400000 32) (a2 : IVec S100000x2 32) (a3 : FVec Ideal S128x256 .f32) (a4 : FVec Ideal S256 .f32) (a5 : FVec Ideal S128x256 .f32) (a6 : FVec Ideal S256x256 .f32) (a7 : FVec Ideal S256 .f32) (a8 : FVec Ideal S256x256 .f32) (a9 : FVec Ideal S256x256 .f32) (a10 : FVec Ideal S256 .f32) (a11 : FVec Ideal S256x256 .f32) (a12 : FVec Ideal S256x256 .f32) (a13 : FVec Ideal S256 .f32) (a14 : FVec Ideal S256x256 .f32) (a15 : FVec Ideal S512x256 .f32) (a16 : FVec Ideal S256 .f32) (a17 : FVec Ideal S256x1 .f32) (a18 : FVec Ideal S1 .f32) (a19 : FVec Ideal S512x256 .f32) (a20 : FVec Ideal S256 .f32) (a21 : FVec Ideal S256x3 .f32) (a22 : FVec Ideal S3 .f32)
    (h : fn (F := Ideal) a0 a1 a2 a3 a4 a5 a6 a7 a8 a9 a10 a11 a12 a13 a14 a15 a16 a17 a18 a19 a20 a21 a22 = fun _ => 1#1) :
    Cert.Spec.IsReal a0 ∧ Cert.Spec.IsReal a3 ∧ Cert.Spec.IsReal a4 ∧ Cert.Spec.IsReal a5 ∧ Cert.Spec.IsReal a6 ∧ Cert.Spec.IsReal a7 ∧ Cert.Spec.IsReal a8 ∧ Cert.Spec.IsReal a9 ∧ Cert.Spec.IsReal a10 ∧ Cert.Spec.IsReal a11 ∧ Cert.Spec.IsReal a12 ∧ Cert.Spec.IsReal a13 ∧ Cert.Spec.IsReal a14 ∧ Cert.Spec.IsReal a15 ∧ Cert.Spec.IsReal a16 ∧ Cert.Spec.IsReal a17 ∧ Cert.Spec.IsReal a18 ∧ Cert.Spec.IsReal a19 ∧ Cert.Spec.IsReal a20 ∧ Cert.Spec.IsReal a21 ∧ Cert.Spec.IsReal a22 := by
  have h0 := congrFun h ix0
  -- the printed function is one chain cut into parts; unfolding them gives the left-nested conjunction of 21 bits
  dsimp only [fn, fn_part1, fn_part2, fn_part3, fn_part4, fn_part5, fn_part6] at h0
  -- peel the conjunction from the outside: the last argument's bit first
  obtain ⟨h0, e22⟩ := and_at_scalar _ _ h0
  obtain ⟨h0, e21⟩ := and_at_scalar _ _ h0
  obtain ⟨h0, e20⟩ := and_at_scalar _ _ h0
  obtain ⟨h0, e19⟩ := and_at_scalar _ _ h0
  obtain ⟨h0, e18⟩ := and_at_scalar _ _ h0
  obtain ⟨h0, e17⟩ := and_at_scalar _ _ h0
  obtain ⟨h0, e16⟩ := and_at_scalar _ _ h0
  obtain ⟨h0, e15⟩ := and_at_scalar _ _ h0
  obtain ⟨h0, e14⟩ := and_at_scalar _ _ h0
  obtain ⟨h0, e13⟩ := and_at_scalar _ _ h0
  obtain ⟨h0, e12⟩ := and_at_scalar _ _ h0
  obtain ⟨h0, e11⟩ := and_at_scalar _ _ h0
  obtain ⟨h0, e10⟩ := and_at_scalar _ _ h0
  obtain ⟨h0, e9⟩ := and_at_scalar _ _ h0
  obtain ⟨h0, e8⟩ := and_at_scalar _ _ h0
  obtain ⟨h0, e7⟩ := and_at_scalar _ _ h0
  obtain ⟨h0, e6⟩ := and_at_scalar _ _ h0
  obtain ⟨h0, e5⟩ := and_at_scalar _ _ h0
  obtain ⟨h0, e4⟩ := and_at_scalar _ _ h0
  obtain ⟨e0, e3⟩ := and_at_scalar _ _ h0
  exact ⟨real_of_all a0 _ bcast_S_S200000x128 reducesTo_S200000x128_S_d0_1 h_S_ e0,
    real_of_all a3 _ bcast_S_S128x256 reducesTo_S128x256_S_d0_1 h_S_ e3,
    real_of_all a4 _ bcast_S_S256 reducesTo_S256_S_d0 h_S_ e4,
    real_of_all a5 _ bcast_S_S128x256 reducesTo_S128x256_S_d0_1 h_S_ e5,
    real_of_all a6 _ bcast_S_S256x256 reducesTo_S256x256_S_d0_1 h_S_ e6,
    real_of_all a7 _ bcast_S_S256 reducesTo_S256_S_d0 h_S_ e7,
    real_of_all a8 _ bcast_S_S256x256 reducesTo_S256x256_S_d0_1 h_S_ e8,
    real_of_all a9 _ bcast_S_S256x256 reducesTo_S256x256_S_d0_1 h_S_ e9,
    real_of_all a10 _ bcast_S_S256 reducesTo_S256_S_d0 h_S_ e10,
    real_of_all a11 _ bcast_S_S256x256 reducesTo_S256x256_S_d0_1 h_S_ e11,
    real_of_all a12 _ bcast_S_S256x256 reducesTo_S256x256_S_d0_1 h_S_ e12,
    real_of_all a13 _ bcast_S_S256 reducesTo_S256_S_d0 h_S_ e13,
    real_of_all a14 _ bcast_S_S256x256 reducesTo_S256x256_S_d0_1 h_S_ e14,
    real_of_all a15 _ bcast_S_S512x256 reducesTo_S512x256_S_d0_1 h_S_ e15,
    real_of_all a16 _ bcast_S_S256 reducesTo_S256_S_d0 h_S_ e16,
    real_of_all a17 _ bcast_S_S256x1 reducesTo_S256x1_S_d0_1 h_S_ e17,
    real_of_all a18 _ bcast_S_S1 reducesTo_S1_S_d0 h_S_ e18,
    real_of_all a19 _ bcast_S_S512x256 reducesTo_S512x256_S_d0_1 h_S_ e19,
    real_of_all a20 _ bcast_S_S256 reducesTo_S256_S_d0 h_S_ e20,
    real_of_all a21 _ bcast_S_S256x3 reducesTo_S256x3_S_d0_1 h_S_ e21,
    real_of_all a22 _ bcast_S_S3 reducesTo_S3_S_d0 h_S_ e22⟩

/-- On every device, each of the 21 float argument arrays of the idealized kernel is an array of real numbers. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg0) : FVec Ideal S200000x128 .f32)
      ∧ Cert.Spec.IsReal (m ((c.tc : Thread Cert.KernelIdeal.nD Cert.KernelIdeal.τ).loc Cert.KernelIdeal.main_arg3) : FVec Ideal S128x256 .f32)
      ∧ Cert.Spec.IsReal (m ((c.tc : Thread Cert.KernelIdeal.nD Cert.KernelIdeal.τ).loc Cert.KernelIdeal.main_arg4) : FVec Ideal S256 .f32)
      ∧ Cert.Spec.IsReal (m ((c.tc : Thread Cert.KernelIdeal.nD Cert.KernelIdeal.τ).loc Cert.KernelIdeal.main_arg5) : FVec Ideal S128x256 .f32)
      ∧ Cert.Spec.IsReal (m ((c.tc : Thread Cert.KernelIdeal.nD Cert.KernelIdeal.τ).loc Cert.KernelIdeal.main_arg6) : FVec Ideal S256x256 .f32)
      ∧ Cert.Spec.IsReal (m ((c.tc : Thread Cert.KernelIdeal.nD Cert.KernelIdeal.τ).loc Cert.KernelIdeal.main_arg7) : FVec Ideal S256 .f32)
      ∧ Cert.Spec.IsReal (m ((c.tc : Thread Cert.KernelIdeal.nD Cert.KernelIdeal.τ).loc Cert.KernelIdeal.main_arg8) : FVec Ideal S256x256 .f32)
      ∧ Cert.Spec.IsReal (m ((c.tc : Thread Cert.KernelIdeal.nD Cert.KernelIdeal.τ).loc Cert.KernelIdeal.main_arg9) : FVec Ideal S256x256 .f32)
      ∧ Cert.Spec.IsReal (m ((c.tc : Thread Cert.KernelIdeal.nD Cert.KernelIdeal.τ).loc Cert.KernelIdeal.main_arg10) : FVec Ideal S256 .f32)
      ∧ Cert.Spec.IsReal (m ((c.tc : Thread Cert.KernelIdeal.nD Cert.KernelIdeal.τ).loc Cert.KernelIdeal.main_arg11) : FVec Ideal S256x256 .f32)
      ∧ Cert.Spec.IsReal (m ((c.tc : Thread Cert.KernelIdeal.nD Cert.KernelIdeal.τ).loc Cert.KernelIdeal.main_arg12) : FVec Ideal S256x256 .f32)
      ∧ Cert.Spec.IsReal (m ((c.tc : Thread Cert.KernelIdeal.nD Cert.KernelIdeal.τ).loc Cert.KernelIdeal.main_arg13) : FVec Ideal S256 .f32)
      ∧ Cert.Spec.IsReal (m ((c.tc : Thread Cert.KernelIdeal.nD Cert.KernelIdeal.τ).loc Cert.KernelIdeal.main_arg14) : FVec Ideal S256x256 .f32)
      ∧ Cert.Spec.IsReal (m ((c.tc : Thread Cert.KernelIdeal.nD Cert.KernelIdeal.τ).loc Cert.KernelIdeal.main_arg15) : FVec Ideal S512x256 .f32)
      ∧ Cert.Spec.IsReal (m ((c.tc : Thread Cert.KernelIdeal.nD Cert.KernelIdeal.τ).loc Cert.KernelIdeal.main_arg16) : FVec Ideal S256 .f32)
      ∧ Cert.Spec.IsReal (m ((c.tc : Thread Cert.KernelIdeal.nD Cert.KernelIdeal.τ).loc Cert.KernelIdeal.main_arg17) : FVec Ideal S256x1 .f32)
      ∧ Cert.Spec.IsReal (m ((c.tc : Thread Cert.KernelIdeal.nD Cert.KernelIdeal.τ).loc Cert.KernelIdeal.main_arg18) : FVec Ideal S1 .f32)
      ∧ Cert.Spec.IsReal (m ((c.tc : Thread Cert.KernelIdeal.nD Cert.KernelIdeal.τ).loc Cert.KernelIdeal.main_arg19) : FVec Ideal S512x256 .f32)
      ∧ Cert.Spec.IsReal (m ((c.tc : Thread Cert.KernelIdeal.nD Cert.KernelIdeal.τ).loc Cert.KernelIdeal.main_arg20) : FVec Ideal S256 .f32)
      ∧ Cert.Spec.IsReal (m ((c.tc : Thread Cert.KernelIdeal.nD Cert.KernelIdeal.τ).loc Cert.KernelIdeal.main_arg21) : FVec Ideal S256x3 .f32)
      ∧ Cert.Spec.IsReal (m ((c.tc : Thread Cert.KernelIdeal.nD Cert.KernelIdeal.τ).loc Cert.KernelIdeal.main_arg22) : FVec Ideal S3 .f32) :=
  real_of_fn _ _ _ _ _ _ _ _ _ _ _ _ _ _ _ _ _ _ _ _ _ _ _ (h c)

/-- Argument 0 of the kernel is an array of real numbers. -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg0) : FVec Ideal S200000x128 .f32) :=
  (args_real m h c).1

/-- Argument 3 of the kernel is an array of real numbers. -/
theorem arg3_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg3) : FVec Ideal S128x256 .f32) :=
  (args_real m h c).2.1

/-- Argument 4 of the kernel is an array of real numbers. -/
theorem arg4_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg4) : FVec Ideal S256 .f32) :=
  (args_real m h c).2.2.1

/-- Argument 5 of the kernel is an array of real numbers. -/
theorem arg5_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg5) : FVec Ideal S128x256 .f32) :=
  (args_real m h c).2.2.2.1

/-- Argument 6 of the kernel is an array of real numbers. -/
theorem arg6_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg6) : FVec Ideal S256x256 .f32) :=
  (args_real m h c).2.2.2.2.1

/-- Argument 7 of the kernel is an array of real numbers. -/
theorem arg7_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg7) : FVec Ideal S256 .f32) :=
  (args_real m h c).2.2.2.2.2.1

/-- Argument 8 of the kernel is an array of real numbers. -/
theorem arg8_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg8) : FVec Ideal S256x256 .f32) :=
  (args_real m h c).2.2.2.2.2.2.1

/-- Argument 9 of the kernel is an array of real numbers. -/
theorem arg9_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg9) : FVec Ideal S256x256 .f32) :=
  (args_real m h c).2.2.2.2.2.2.2.1

/-- Argument 10 of the kernel is an array of real numbers. -/
theorem arg10_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg10) : FVec Ideal S256 .f32) :=
  (args_real m h c).2.2.2.2.2.2.2.2.1

/-- Argument 11 of the kernel is an array of real numbers. -/
theorem arg11_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg11) : FVec Ideal S256x256 .f32) :=
  (args_real m h c).2.2.2.2.2.2.2.2.2.1

/-- Argument 12 of the kernel is an array of real numbers. -/
theorem arg12_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg12) : FVec Ideal S256x256 .f32) :=
  (args_real m h c).2.2.2.2.2.2.2.2.2.2.1

/-- Argument 13 of the kernel is an array of real numbers. -/
theorem arg13_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg13) : FVec Ideal S256 .f32) :=
  (args_real m h c).2.2.2.2.2.2.2.2.2.2.2.1

/-- Argument 14 of the kernel is an array of real numbers. -/
theorem arg14_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg14) : FVec Ideal S256x256 .f32) :=
  (args_real m h c).2.2.2.2.2.2.2.2.2.2.2.2.1

/-- Argument 15 of the kernel is an array of real numbers. -/
theorem arg15_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg15) : FVec Ideal S512x256 .f32) :=
  (args_real m h c).2.2.2.2.2.2.2.2.2.2.2.2.2.1

/-- Argument 16 of the kernel is an array of real numbers. -/
theorem arg16_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg16) : FVec Ideal S256 .f32) :=
  (args_real m h c).2.2.2.2.2.2.2.2.2.2.2.2.2.2.1

/-- Argument 17 of the kernel is an array of real numbers. -/
theorem arg17_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg17) : FVec Ideal S256x1 .f32) :=
  (args_real m h c).2.2.2.2.2.2.2.2.2.2.2.2.2.2.2.1

/-- Argument 18 of the kernel is an array of real numbers. -/
theorem arg18_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg18) : FVec Ideal S1 .f32) :=
  (args_real m h c).2.2.2.2.2.2.2.2.2.2.2.2.2.2.2.2.1

/-- Argument 19 of the kernel is an array of real numbers. -/
theorem arg19_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg19) : FVec Ideal S512x256 .f32) :=
  (args_real m h c).2.2.2.2.2.2.2.2.2.2.2.2.2.2.2.2.2.1

/-- Argument 20 of the kernel is an array of real numbers. -/
theorem arg20_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg20) : FVec Ideal S256 .f32) :=
  (args_real m h c).2.2.2.2.2.2.2.2.2.2.2.2.2.2.2.2.2.2.1

/-- Argument 21 of the kernel is an array of real numbers. -/
theorem arg21_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg21) : FVec Ideal S256x3 .f32) :=
  (args_real m h c).2.2.2.2.2.2.2.2.2.2.2.2.2.2.2.2.2.2.2.1

/-- Argument 22 of the kernel is an array of real numbers. -/
theorem arg22_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg22) : FVec Ideal S3 .f32) :=
  (args_real m h c).2.2.2.2.2.2.2.2.2.2.2.2.2.2.2.2.2.2.2.2

end Cert.Proof.Finite

end
-- ==== Proof.Assembly.lean ====
/-
  The five claims, assembled.

  Each of the three programs runs — every fair execution terminates, nothing faulting — and leaves its argument
  arrays as launched: for the kernel as printed and for its idealization this is the generated frame; for the
  reference it is read off its run.  The idealization rewrote no operation, so there is nothing to preserve.

  At the exact instance, from memories that agree on the 23 arguments, the idealized kernel ends with its two results
  at the network's heads in the kernel's form — the summed endpoint rows against the summed halves of the first
  weight, twice the bias — and the reference ends with its two results at the network's heads in the reference's
  form — the two joined rows against the whole weight, each with the bias.  The precondition says every float
  argument is an array of real numbers; then so are the node embeddings and their endpoint rows, and on real arrays
  the two forms of a head are equal.  So the results agree, entry by entry, as extended reals.
-/
import proofs.«148686_j90211493085314_1_alg».proof.Defs
import proofs.«148686_j90211493085314_1_alg».proof.Proof.Gen.Kernel
import proofs.«148686_j90211493085314_1_alg».proof.Proof.Gen.Kernel.Frame
import proofs.«148686_j90211493085314_1_alg».proof.Proof.Gen.KernelIdeal
import proofs.«148686_j90211493085314_1_alg».proof.Proof.Gen.KernelIdeal.Frame
import proofs.«148686_j90211493085314_1_alg».proof.Proof.Gen.ReferenceIdeal
import proofs.«148686_j90211493085314_1_alg».proof.Proof.Gen.Pre_finite_inputs
import proofs.«148686_j90211493085314_1_alg».proof.Proof.KRun
import proofs.«148686_j90211493085314_1_alg».proof.Proof.Chain
import proofs.«148686_j90211493085314_1_alg».proof.Proof.RefRun
import proofs.«148686_j90211493085314_1_alg».proof.Proof.RefHeads
import proofs.«148686_j90211493085314_1_alg».proof.Proof.HeadForms
import proofs.«148686_j90211493085314_1_alg».proof.Proof.Finite

noncomputable section

namespace Cert.Proof.Claims

open Idealize.ShloMosaic Idealize.ShloMosaic.TcCoe Idealize.SL.Sem

/-- The kernel as printed runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The reference runs and leaves its arguments as launched: the last 23 conjuncts of its run. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealization rewrote no operation. -/
theorem preserves : Cert.preserves_Kernel_KernelIdeal := trivial

/-- From memories agreeing on the arguments, real by the precondition, the two programs end with equal results: the
    kernel's at the heads in the summed form, the reference's at the heads in the joined form, and the two forms agree
    on real arrays. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v97_1),
    fun c => Cert.KernelIdeal.Gen.W10 (F := Ideal) m ρ c (Proc.devRef .tc Cert.KernelIdeal.main_v97_0),
    Cert.KernelIdeal.Run.run_named (F := Ideal) m ρ, ?_⟩
  refine (θ_run Cert.ReferenceIdeal.defs _ _).mono
    (fun _ h c => ⟨(h c).1.trans ?_, (h c).2.1.trans ?_, (h c).2.2⟩)
    (Cert.ReferenceIdeal.RefRun.run (F := Ideal) m' ρ')
  · -- the head of three columns
    obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e19, e20, e21, e22]
    rw [Cert.ReferenceIdeal.RefValue.ref_type]
    refine Eq.trans ?_ (Cert.KernelIdeal.Chain.result_type m ρ c).symm
    exact Cert.Net.head_forms _ _ _ (Cert.Proof.Finite.arg0_real m hpre c) (Cert.Proof.Finite.arg3_real m hpre c) (Cert.Proof.Finite.arg4_real m hpre c) (Cert.Proof.Finite.arg5_real m hpre c) (Cert.Proof.Finite.arg6_real m hpre c) (Cert.Proof.Finite.arg7_real m hpre c) (Cert.Proof.Finite.arg8_real m hpre c) (Cert.Proof.Finite.arg9_real m hpre c) (Cert.Proof.Finite.arg10_real m hpre c) (Cert.Proof.Finite.arg11_real m hpre c) (Cert.Proof.Finite.arg12_real m hpre c) (Cert.Proof.Finite.arg13_real m hpre c) (Cert.Proof.Finite.arg14_real m hpre c)
      (Cert.Proof.Finite.arg19_real m hpre c) (Cert.Proof.Finite.arg20_real m hpre c)
  · -- the head of one column
    obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18]
    rw [Cert.ReferenceIdeal.RefValue.ref_loc]
    refine Eq.trans ?_ (Cert.KernelIdeal.Chain.result_loc m ρ c).symm
    exact Cert.Net.head_forms _ _ _ (Cert.Proof.Finite.arg0_real m hpre c) (Cert.Proof.Finite.arg3_real m hpre c) (Cert.Proof.Finite.arg4_real m hpre c) (Cert.Proof.Finite.arg5_real m hpre c) (Cert.Proof.Finite.arg6_real m hpre c) (Cert.Proof.Finite.arg7_real m hpre c) (Cert.Proof.Finite.arg8_real m hpre c) (Cert.Proof.Finite.arg9_real m hpre c) (Cert.Proof.Finite.arg10_real m hpre c) (Cert.Proof.Finite.arg11_real m hpre c) (Cert.Proof.Finite.arg12_real m hpre c) (Cert.Proof.Finite.arg13_real m hpre c) (Cert.Proof.Finite.arg14_real m hpre c)
      (Cert.Proof.Finite.arg15_real m hpre c) (Cert.Proof.Finite.arg16_real m hpre c)

end Cert.Proof.Claims

end
-- ==== Proof.lean ====
/-
  The certificate's claim, in five parts.  The kernel as printed, its idealization and the reference each run — every
  fair execution terminates, nothing faulting — and leave their argument arrays as launched.  The idealization rewrote
  no operation of the kernel.  And over the extended reals, from memories that agree on the arguments, all of them
  arrays of real numbers, the idealized kernel and the reference end with equal results: both compute the same
  four-layer network and its two symmetric heads, the kernel on the summed endpoint rows, the reference on the two
  joined rows, and the two forms of a head agree on real arrays.
-/
import proofs.«148686_j90211493085314_1_alg».proof.Defs
import proofs.«148686_j90211493085314_1_alg».proof.Proof.Gen.Kernel
import proofs.«148686_j90211493085314_1_alg».proof.Proof.Gen.Kernel.Skeleton
import proofs.«148686_j90211493085314_1_alg».proof.Proof.Gen.Kernel.Launch
import proofs.«148686_j90211493085314_1_alg».proof.Proof.Gen.Kernel.Points
import proofs.«148686_j90211493085314_1_alg».proof.Proof.Gen.Kernel.Frame
import proofs.«148686_j90211493085314_1_alg».proof.Proof.Gen.KernelIdeal
import proofs.«148686_j90211493085314_1_alg».proof.Proof.Gen.KernelIdeal.Skeleton
import proofs.«148686_j90211493085314_1_alg».proof.Proof.Gen.KernelIdeal.Launch
import proofs.«148686_j90211493085314_1_alg».proof.Proof.Gen.KernelIdeal.Points
import proofs.«148686_j90211493085314_1_alg».proof.Proof.Gen.KernelIdeal.Frame
import proofs.«148686_j90211493085314_1_alg».proof.Proof.Gen.ReferenceIdeal
import proofs.«148686_j90211493085314_1_alg».proof.Proof.Gen.Pre_finite_inputs
import Idealize.ShloMosaic.Adequacy
import Idealize.ShloMosaic.Init
import proofs.«148686_j90211493085314_1_alg».proof.Proof.Assembly

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
